-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S2x393216 : Shape := ⟨2, ![2, 393216]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x393216 : S_.BroadcastsInDim S2x393216 (![] : Fin 0 → Fin S2x393216.rank)
  reducesTo_S2x393216_S_d0_1 : S2x393216.ReducesTo [0, 1] S_

variable [Facts]

def fn_part1 {F : FTy → Type} [FloatOps F] (main_arg1 : IVec S2x393216 32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S2x393216 32 := broadcastInDim S2x393216 ![] bcast_S_S2x393216 main_c_8
  let main_v25 : IVec S2x393216 1 := cmpi .sge main_arg1 main_v24
  let main_c_9 : IVec S_ 32 := constantI S_ 32 12288#32
  let main_v26 : IVec S2x393216 32 := broadcastInDim S2x393216 ![] bcast_S_S2x393216 main_c_9
  let main_v27 : IVec S2x393216 1 := cmpi .slt main_arg1 main_v26
  let main_v28 : IVec S2x393216 1 := andi main_v25 main_v27
  let main_c_10 : IVec S_ 1 := constantI S_ 1 1#1
  let main_v29 : IVec S_ 1 := (fun x v => Host.reduce IntOp.andi x v reducesTo_S2x393216_S_d0_1 h_S_) main_v28 main_c_10
  let main_v30 : IVec S_ 1 := andi main_v23 main_v29
  main_v30

def fn {F : FTy → Type} [FloatOps F] (main_arg0 : FVec F S12288x128 .f32) (main_arg1 : IVec S2x393216 32) (main_arg2 : FVec F S128x128 .f32) (main_arg3 : FVec F S128 .f32) (main_arg4 : FVec F S128x64 .f32) (main_arg5 : FVec F S64 .f32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_v13 main_v16
-- ==== Kernel.lean ====
abbrev S12288x128 : Shape := ⟨2, ![12288, 128]⟩
abbrev S2x393216 : Shape := ⟨2, ![2, 393216]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x393216 : Shape := ⟨2, ![1, 393216]⟩
abbrev S393216 : Shape := ⟨1, ![393216]⟩
abbrev S12288 : Shape := ⟨1, ![12288]⟩
abbrev S405504 : Shape := ⟨1, ![405504]⟩
abbrev S_ : Shape := ⟨0, ![]⟩
abbrev S405504x1 : Shape := ⟨2, ![405504, 1]⟩
abbrev S12288x12288 : Shape := ⟨2, ![12288, 12288]⟩
abbrev S405504x2 : Shape := ⟨2, ![405504, 2]⟩
abbrev S1536x128 : Shape := ⟨2, ![1536, 128]⟩
abbrev S1x128 : Shape := ⟨2, ![1, 128]⟩
abbrev S1536x1536 : Shape := ⟨2, ![1536, 1536]⟩
abbrev S12288x64 : Shape := ⟨2, ![12288, 64]⟩
abbrev S1536x64 : Shape := ⟨2, ![1536, 64]⟩
abbrev S1x64 : Shape := ⟨2, ![1, 64]⟩
abbrev S2048x64 : Shape := ⟨2, ![2048, 64]⟩
abbrev S2048x2048 : Shape := ⟨2, ![2048, 2048]⟩

abbrev nBuf : Space → Nat
  | .hbm => 71
  | .vmem => 32
  | .smem => 0
  | _ => 0

abbrev bufTy : (tb : Table) → Fin (tcTables nBuf tb) → BufTy
  | .hbm, ⟨0, _⟩ => ⟨S12288x128, .f32⟩
  | .hbm, ⟨1, _⟩ => ⟨S2x393216, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x393216, .i32⟩
  | .hbm, ⟨7, _⟩ => ⟨S393216, .i32⟩
  | .hbm, ⟨8, _⟩ => ⟨S1x393216, .i32⟩
  | .hbm, ⟨9, _⟩ => ⟨S393216, .i32⟩
  | .hbm, ⟨10, _⟩ => ⟨S12288, .i32⟩
  | .hbm, ⟨11, _⟩ => ⟨S405504, .i32⟩
  | .hbm, ⟨12, _⟩ => ⟨S405504, .i32⟩
  | .hbm, ⟨13, _⟩ => ⟨S_, .f32⟩
  | .hbm, ⟨14, _⟩ => ⟨S405504, .f32⟩
  | .hbm, ⟨15, _⟩ => ⟨S_, .f32⟩
  | .hbm, ⟨16, _⟩ => ⟨S12288, .f32⟩
  | .hbm, ⟨17, _⟩ => ⟨S405504x1, .i32⟩
  | .hbm, ⟨18, _⟩ => ⟨S12288, .f32⟩
  | .hbm, ⟨19, _⟩ => ⟨S_, .f32⟩
  | .hbm, ⟨20, _⟩ => ⟨S12288, .f32⟩
  | .hbm, ⟨21, _⟩ => ⟨S12288, .f32⟩
  | .hbm, ⟨22, _⟩ => ⟨S12288, .f32⟩
  | .hbm, ⟨23, _⟩ => ⟨S_, .i32⟩
  | .hbm, ⟨24, _⟩ => ⟨S405504, .i32⟩
  | .hbm, ⟨25, _⟩ => ⟨S405504, .i1⟩
  | .hbm, ⟨26, _⟩ => ⟨S_, .i32⟩
  | .hbm, ⟨27, _⟩ => ⟨S405504, .i32⟩
  | .hbm, ⟨28, _⟩ => ⟨S405504, .i32⟩
  | .hbm, ⟨29, _⟩ => ⟨S405504, .i32⟩
  | .hbm, ⟨30, _⟩ => ⟨S405504x1, .i32⟩
  | .hbm, ⟨31, _⟩ => ⟨S405504, .f32⟩
  | .hbm, ⟨32, _⟩ => ⟨S_, .i32⟩
  | .hbm, ⟨33, _⟩ => ⟨S405504, .i32⟩
  | .hbm, ⟨34, _⟩ => ⟨S405504, .i1⟩
  | .hbm, ⟨35, _⟩ => ⟨S_, .i32⟩
  | .hbm, ⟨36, _⟩ => ⟨S405504, .i32⟩
  | .hbm, ⟨37, _⟩ => ⟨S405504, .i32⟩
  | .hbm, ⟨38, _⟩ => ⟨S405504, .i32⟩
  | .hbm, ⟨39, _⟩ => ⟨S405504x1, .i32⟩
  | .hbm, ⟨40, _⟩ => ⟨S405504, .f32⟩
  | .hbm, ⟨41, _⟩ => ⟨S405504, .f32⟩
  | .hbm, ⟨42, _⟩ => ⟨S_, .f32⟩
  | .hbm, ⟨43, _⟩ => ⟨S12288x12288, .f32⟩
  | .hbm, ⟨44, _⟩ => ⟨S_, .i32⟩
  | .hbm, ⟨45, _⟩ => ⟨S405504, .i32⟩
  | .hbm, ⟨46, _⟩ => ⟨S405504, .i1⟩
  | .hbm, ⟨47, _⟩ => ⟨S_, .i32⟩
  | .hbm, ⟨48, _⟩ => ⟨S405504, .i32⟩
  | .hbm, ⟨49, _⟩ => ⟨S405504, .i32⟩
  | .hbm, ⟨50, _⟩ => ⟨S405504, .i32⟩
  | .hbm, ⟨51, _⟩ => ⟨S_, .i32⟩
  | .hbm, ⟨52, _⟩ => ⟨S405504, .i32⟩
  | .hbm, ⟨53, _⟩ => ⟨S405504, .i1⟩
  | .hbm, ⟨54, _⟩ => ⟨S_, .i32⟩
  | .hbm, ⟨55, _⟩ => ⟨S405504, .i32⟩
  | .hbm, ⟨56, _⟩ => ⟨S405504, .i32⟩
  | .hbm, ⟨57, _⟩ => ⟨S405504, .i32⟩
  | .hbm, ⟨58, _⟩ => ⟨S405504x1, .i32⟩
  | .hbm, ⟨59, _⟩ => ⟨S405504x1, .i32⟩
  | .hbm, ⟨60, _⟩ => ⟨S405504x2, .i32⟩
  | .hbm, ⟨61, _⟩ => ⟨S12288x12288, .f32⟩
  | .hbm, ⟨62, _⟩ => ⟨S12288x12288, .bf16⟩
  | .hbm, ⟨63, _⟩ => ⟨S12288x128, .f32⟩
  | .hbm, ⟨64, _⟩ => ⟨S1x128, .f32⟩
  | .hbm, ⟨65, _⟩ => ⟨S12288x128, .f32⟩
  | .hbm, ⟨66, _⟩ => ⟨S12288x64, .f32⟩
  | .hbm, ⟨67, _⟩ => ⟨S1x64, .f32⟩
  | .hbm, ⟨68, _⟩ => ⟨S12288x64, .f32⟩
  | .hbm, ⟨69, _⟩ => ⟨S12288x64, .bf16⟩
  | .hbm, ⟨70, _⟩ => ⟨S12288x12288, .f32⟩
  | .local _ .vmem, ⟨0, _⟩ => ⟨S1536x128, .f32⟩
  | .local _ .vmem, ⟨1, _⟩ => ⟨S1536x128, .f32⟩
  | .local _ .vmem, ⟨2, _⟩ => ⟨S128x128, .f32⟩
  | .local _ .vmem, ⟨3, _⟩ => ⟨S1536x128, .f32⟩
  | .local _ .vmem, ⟨4, _⟩ => ⟨S1536x128, .f32⟩
  | .local _ .vmem, ⟨5, _⟩ => ⟨S1536x1536, .bf16⟩
  | .local _ .vmem, ⟨6, _⟩ => ⟨S1536x1536, .bf16⟩
  | .local _ .vmem, ⟨7, _⟩ => ⟨S1536x128, .f32⟩
  | .local _ .vmem, ⟨8, _⟩ => ⟨S1536x128, .f32⟩
  | .local _ .vmem, ⟨9, _⟩ => ⟨S1x128, .f32⟩
  | .local _ .vmem, ⟨10, _⟩ => ⟨S1536x128, .f32⟩
  | .local _ .vmem, ⟨11, _⟩ => ⟨S1536x128, .f32⟩
  | .local _ .vmem, ⟨12, _⟩ => ⟨S1536x128, .f32⟩
  | .local _ .vmem, ⟨13, _⟩ => ⟨S1536x128, .f32⟩
  | .local _ .vmem, ⟨14, _⟩ => ⟨S1536x128, .f32⟩
  | .local _ .vmem, ⟨15, _⟩ => ⟨S128x64, .f32⟩
  | .local _ .vmem, ⟨16, _⟩ => ⟨S1536x64, .f32⟩
  | .local _ .vmem, ⟨17, _⟩ => ⟨S1536x64, .f32⟩
  | .local _ .vmem, ⟨18, _⟩ => ⟨S1536x1536, .bf16⟩
  | .local _ .vmem, ⟨19, _⟩ => ⟨S1536x1536, .bf16⟩
  | .local _ .vmem, ⟨20, _⟩ => ⟨S1536x64, .f32⟩
  | .local _ .vmem, ⟨21, _⟩ => ⟨S1536x64, .f32⟩
  | .local _ .vmem, ⟨22, _⟩ => ⟨S1x64, .f32⟩
  | .local _ .vmem, ⟨23, _⟩ => ⟨S1536x64, .f32⟩
  | .local _ .vmem, ⟨24, _⟩ => ⟨S1536x64, .f32⟩
  | .local _ .vmem, ⟨25, _⟩ => ⟨S1536x64, .f32⟩
  | .local _ .vmem, ⟨26, _⟩ => ⟨S2048x64, .bf16⟩
  | .local _ .vmem, ⟨27, _⟩ => ⟨S2048x64, .bf16⟩
  | .local _ .vmem, ⟨28, _⟩ => ⟨S2048x64, .bf16⟩
  | .local _ .vmem, ⟨29, _⟩ => ⟨S2048x64, .bf16⟩
  | .local _ .vmem, ⟨30, _⟩ => ⟨S2048x2048, .f32⟩
  | .local _ .vmem, ⟨31, _⟩ => ⟨S2048x2048, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1536x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1536x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1536x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1536x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1536x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1536x1536 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1536x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1536x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![6, 6], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  slices_S2x393216_S1x393216_0_0 : S2x393216.Slices ![0, 0] S1x393216
  shapeCasts_S1x393216_S393216 : S1x393216.ShapeCasts S393216
  slices_S2x393216_S1x393216_1_0 : S2x393216.Slices ![1, 0] S1x393216
  concatenates_S393216_S12288_S405504_d0 : Shape.Concatenates [S393216, S12288] S405504 0
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S_S12288x12288 : S_.BroadcastsInDim S12288x12288 (![] : Fin 0 → Fin S12288x12288.rank)
  concatenates_S405504x1_S405504x1_S405504x2_d1 : Shape.Concatenates [S405504x1, S405504x1] S405504x2 1
  bitsLt_bf16_f32 : FTy.bits .bf16 < FTy.bits .f32
  inb_S1536x128_S1536x128_0_0 : ∀ a, (![0, 0] : Fin 2 → Nat) a + S1536x128.size a ≤ S1536x128.size a
  h_S1536x128 : 0 < S1536x128.numel
  inb_S128x128_S128x128_0_0 : ∀ a, (![0, 0] : Fin 2 → Nat) a + S128x128.size a ≤ S128x128.size a
  h_S128x128 : 0 < S128x128.numel
  shapeCasts_S128_S1x128 : S128.ShapeCasts S1x128
  shapeCasts_S1536x128_S1536x128 : S1536x128.ShapeCasts S1536x128
  inb_S1536x1536_S1536x1536_0_0 : ∀ a, (![0, 0] : Fin 2 → Nat) a + S1536x1536.size a ≤ S1536x1536.size a
  h_S1536x1536 : 0 < S1536x1536.numel
  shapeCasts_S1536x1536_S1536x1536 : S1536x1536.ShapeCasts S1536x1536
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1536x128 : S1x128.Broadcasts S1536x128
  inb_S128x64_S128x64_0_0 : ∀ a, (![0, 0] : Fin 2 → Nat) a + S128x64.size a ≤ S128x64.size a
  h_S128x64 : 0 < S128x64.numel
  inb_S1536x64_S1536x64_0_0 : ∀ a, (![0, 0] : Fin 2 → Nat) a + S1536x64.size a ≤ S1536x64.size a
  h_S1536x64 : 0 < S1536x64.numel
  shapeCasts_S64_S1x64 : S64.ShapeCasts S1x64
  shapeCasts_S1536x64_S1536x64 : S1536x64.ShapeCasts S1536x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1536x64 : S1x64.Broadcasts S1536x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  scatter_S12288x12288_S405504x2_S405504_n_01_01_1_wf : ScatterDims.WF S12288x12288 S405504x2 S405504 [] [0, 1] [0, 1] 1
  dot_S1536x128_S128x128_S1536x128_1_0_0_1_n_n_wf : DotDims.WF S1536x128 S128x128 S1536x128 [1] [0] [0] [1] [] []
  dot_S1536x1536_S1536x128_S1536x128_1_0_0_1_n_n_wf : DotDims.WF S1536x1536 S1536x128 S1536x128 [1] [0] [0] [1] [] []
  dot_S1536x128_S128x64_S1536x64_1_0_0_1_n_n_wf : DotDims.WF S1536x128 S128x64 S1536x64 [1] [0] [0] [1] [] []
  dot_S1536x1536_S1536x64_S1536x64_1_0_0_1_n_n_wf : DotDims.WF S1536x1536 S1536x64 S1536x64 [1] [0] [0] [1] [] []
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x128.size a ≤ S12288x128.size a
  hwx0_0 : ∀ i : grid0.Coords, EltTy.bits .f32 = 32 ∨ (Rect.block (s := S12288x128) S1536x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1536x128.size a ≤ S12288x128.size a
  hwx0_2 : ∀ i : grid0.Coords, EltTy.bits .f32 = 32 ∨ (Rect.block (s := S12288x128) S1536x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1536x1536.size a ≤ S12288x12288.size a
  hwx1_0 : ∀ i : grid1.Coords, EltTy.bits .bf16 = 32 ∨ (Rect.block (s := S12288x12288) S1536x1536.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1536x128.size a ≤ S12288x128.size a
  hwx1_1 : ∀ i : grid1.Coords, EltTy.bits .f32 = 32 ∨ (Rect.block (s := S12288x128) S1536x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1536x128.size a ≤ S12288x128.size a
  hwx1_3 : ∀ i : grid1.Coords, EltTy.bits .f32 = 32 ∨ (Rect.block (s := S12288x128) S1536x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1536x128.size a ≤ S12288x128.size a
  hwx2_0 : ∀ i : grid2.Coords, EltTy.bits .f32 = 32 ∨ (Rect.block (s := S12288x128) S1536x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1536x64.size a ≤ S12288x64.size a
  hwx2_2 : ∀ i : grid2.Coords, EltTy.bits .f32 = 32 ∨ (Rect.block (s := S12288x64) S1536x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1536x1536.size a ≤ S12288x12288.size a
  hwx3_0 : ∀ i : grid3.Coords, EltTy.bits .bf16 = 32 ∨ (Rect.block (s := S12288x12288) S1536x1536.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1536x64.size a ≤ S12288x64.size a
  hwx3_1 : ∀ i : grid3.Coords, EltTy.bits .f32 = 32 ∨ (Rect.block (s := S12288x64) S1536x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1536x64.size a ≤ S12288x64.size a
  hwx3_3 : ∀ i : grid3.Coords, EltTy.bits .f32 = 32 ∨ (Rect.block (s := S12288x64) S1536x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x64.size a ≤ S12288x64.size a
  hwx4_0 : ∀ i : grid4.Coords, EltTy.bits .bf16 = 32 ∨ (Rect.block (s := S12288x64) S2048x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x64.size a ≤ S12288x64.size a
  hwx4_1 : ∀ i : grid4.Coords, EltTy.bits .bf16 = 32 ∨ (Rect.block (s := S12288x64) S2048x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x2048.size a ≤ S12288x12288.size a
  hwx4_2 : ∀ i : grid4.Coords, EltTy.bits .f32 = 32 ∨ (Rect.block (s := S12288x12288) S2048x2048.size (cc4_transform_2 i) (hinb4_2 i)).WholeWords (EltTy.packing .f32)

variable [Facts₀]

def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def scatter_S12288x12288_S405504x2_S405504_n_01_01_1 : ScatterDims S12288x12288 S405504x2 S405504 where
  updateWindowDims := []
  insertedWindowDims := [0, 1]
  scatterDimsToOperandDims := [0, 1]
  indexVectorDim := 1
  wf := scatter_S12288x12288_S405504x2_S405504_n_01_01_1_wf
def dot_S1536x128_S128x128_S1536x128_1_0_0_1_n_n : DotDims S1536x128 S128x128 S1536x128 where
  lhsContracting := [1]
  rhsContracting := [0]
  lhsNonContracting := [0]
  rhsNonContracting := [1]
  lhsBatch := []
  rhsBatch := []
  wf := dot_S1536x128_S128x128_S1536x128_1_0_0_1_n_n_wf
def dot_S1536x1536_S1536x128_S1536x128_1_0_0_1_n_n : DotDims S1536x1536 S1536x128 S1536x128 where
  lhsContracting := [1]
  rhsContracting := [0]
  lhsNonContracting := [0]
  rhsNonContracting := [1]
  lhsBatch := []
  rhsBatch := []
  wf := dot_S1536x1536_S1536x128_S1536x128_1_0_0_1_n_n_wf
def dot_S1536x128_S128x64_S1536x64_1_0_0_1_n_n : DotDims S1536x128 S128x64 S1536x64 where
  lhsContracting := [1]
  rhsContracting := [0]
  lhsNonContracting := [0]
  rhsNonContracting := [1]
  lhsBatch := []
  rhsBatch := []
  wf := dot_S1536x128_S128x64_S1536x64_1_0_0_1_n_n_wf
def dot_S1536x1536_S1536x64_S1536x64_1_0_0_1_n_n : DotDims S1536x1536 S1536x64 S1536x64 where
  lhsContracting := [1]
  rhsContracting := [0]
  lhsNonContracting := [0]
  rhsNonContracting := [1]
  lhsBatch := []
  rhsBatch := []
  wf := dot_S1536x1536_S1536x64_S1536x64_1_0_0_1_n_n_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_arg0) S1536x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1536x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S1536x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1536x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1536x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v47) S1536x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1536x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S1536x1536.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S1536x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1536x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v51) S2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S2048x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S2048x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S12288x128 : Shape := ⟨2, ![12288, 128]⟩
abbrev S2x393216 : Shape := ⟨2, ![2, 393216]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x393216 : Shape := ⟨2, ![1, 393216]⟩
abbrev S393216 : Shape := ⟨1, ![393216]⟩
abbrev S12288 : Shape := ⟨1, ![12288]⟩
abbrev S405504 : Shape := ⟨1, ![405504]⟩
abbrev S_ : Shape := ⟨0, ![]⟩
abbrev S405504x1 : Shape := ⟨2, ![405504, 1]⟩
abbrev S405504x128 : Shape := ⟨2, ![405504, 128]⟩
abbrev S1x128 : Shape := ⟨2, ![1, 128]⟩
abbrev S12288x64 : Shape := ⟨2, ![12288, 64]⟩
abbrev S405504x64 : Shape := ⟨2, ![405504, 64]⟩
abbrev S1x64 : Shape := ⟨2, ![1, 64]⟩
abbrev S64x12288 : Shape := ⟨2, ![64, 12288]⟩
abbrev S12288x12288 : Shape := ⟨2, ![12288, 12288]⟩

abbrev nBuf : Space → Nat
  | .hbm => 123
  | .vmem => 0
  | .smem => 0
  | _ => 0

abbrev bufTy : (tb : Table) → Fin (tcTables nBuf tb) → BufTy
  | .hbm, ⟨0, _⟩ => ⟨S12288x128, .f32⟩
  | .hbm, ⟨1, _⟩ => ⟨S2x393216, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S12288x128, .f32⟩
  | .hbm, ⟨7, _⟩ => ⟨S1x393216, .i32⟩
  | .hbm, ⟨8, _⟩ => ⟨S393216, .i32⟩
  | .hbm, ⟨9, _⟩ => ⟨S1x393216, .i32⟩
  | .hbm, ⟨10, _⟩ => ⟨S393216, .i32⟩
  | .hbm, ⟨11, _⟩ => ⟨S12288, .i32⟩
  | .hbm, ⟨12, _⟩ => ⟨S405504, .i32⟩
  | .hbm, ⟨13, _⟩ => ⟨S405504, .i32⟩
  | .hbm, ⟨14, _⟩ => ⟨S_, .f32⟩
  | .hbm, ⟨15, _⟩ => ⟨S405504, .f32⟩
  | .hbm, ⟨16, _⟩ => ⟨S_, .f32⟩
  | .hbm, ⟨17, _⟩ => ⟨S12288, .f32⟩
  | .hbm, ⟨18, _⟩ => ⟨S405504x1, .i32⟩
  | .hbm, ⟨19, _⟩ => ⟨S12288, .f32⟩
  | .hbm, ⟨20, _⟩ => ⟨S_, .f32⟩
  | .hbm, ⟨21, _⟩ => ⟨S12288, .f32⟩
  | .hbm, ⟨22, _⟩ => ⟨S12288, .f32⟩
  | .hbm, ⟨23, _⟩ => ⟨S12288, .f32⟩
  | .hbm, ⟨24, _⟩ => ⟨S_, .i32⟩
  | .hbm, ⟨25, _⟩ => ⟨S405504, .i32⟩
  | .hbm, ⟨26, _⟩ => ⟨S405504, .i1⟩
  | .hbm, ⟨27, _⟩ => ⟨S_, .i32⟩
  | .hbm, ⟨28, _⟩ => ⟨S405504, .i32⟩
  | .hbm, ⟨29, _⟩ => ⟨S405504, .i32⟩
  | .hbm, ⟨30, _⟩ => ⟨S405504, .i32⟩
  | .hbm, ⟨31, _⟩ => ⟨S405504x1, .i32⟩
  | .hbm, ⟨32, _⟩ => ⟨S405504, .f32⟩
  | .hbm, ⟨33, _⟩ => ⟨S_, .i32⟩
  | .hbm, ⟨34, _⟩ => ⟨S405504, .i32⟩
  | .hbm, ⟨35, _⟩ => ⟨S405504, .i1⟩
  | .hbm, ⟨36, _⟩ => ⟨S_, .i32⟩
  | .hbm, ⟨37, _⟩ => ⟨S405504, .i32⟩
  | .hbm, ⟨38, _⟩ => ⟨S405504, .i32⟩
  | .hbm, ⟨39, _⟩ => ⟨S405504, .i32⟩
  | .hbm, ⟨40, _⟩ => ⟨S405504x1, .i32⟩
  | .hbm, ⟨41, _⟩ => ⟨S405504, .f32⟩
  | .hbm, ⟨42, _⟩ => ⟨S405504, .f32⟩
  | .hbm, ⟨43, _⟩ => ⟨S_, .i32⟩
  | .hbm, ⟨44, _⟩ => ⟨S405504, .i32⟩
  | .hbm, ⟨45, _⟩ => ⟨S405504, .i1⟩
  | .hbm, ⟨46, _⟩ => ⟨S_, .i32⟩
  | .hbm, ⟨47, _⟩ => ⟨S405504, .i32⟩
  | .hbm, ⟨48, _⟩ => ⟨S405504, .i32⟩
  | .hbm, ⟨49, _⟩ => ⟨S405504, .i32⟩
  | .hbm, ⟨50, _⟩ => ⟨S405504x1, .i32⟩
  | .hbm, ⟨51, _⟩ => ⟨S405504x128, .f32⟩
  | .hbm, ⟨52, _⟩ => ⟨S405504x1, .f32⟩
  | .hbm, ⟨53, _⟩ => ⟨S405504x128, .f32⟩
  | .hbm, ⟨54, _⟩ => ⟨S405504x128, .f32⟩
  | .hbm, ⟨55, _⟩ => ⟨S_, .f32⟩
  | .hbm, ⟨56, _⟩ => ⟨S12288x128, .f32⟩
  | .hbm, ⟨57, _⟩ => ⟨S405504x1, .i32⟩
  | .hbm, ⟨58, _⟩ => ⟨S12288x128, .f32⟩
  | .hbm, ⟨59, _⟩ => ⟨S1x128, .f32⟩
  | .hbm, ⟨60, _⟩ => ⟨S12288x128, .f32⟩
  | .hbm, ⟨61, _⟩ => ⟨S12288x128, .f32⟩
  | .hbm, ⟨62, _⟩ => ⟨S_, .f32⟩
  | .hbm, ⟨63, _⟩ => ⟨S12288x128, .f32⟩
  | .hbm, ⟨64, _⟩ => ⟨S12288x128, .f32⟩
  | .hbm, ⟨65, _⟩ => ⟨S12288x64, .f32⟩
  | .hbm, ⟨66, _⟩ => ⟨S1x393216, .i32⟩
  | .hbm, ⟨67, _⟩ => ⟨S393216, .i32⟩
  | .hbm, ⟨68, _⟩ => ⟨S1x393216, .i32⟩
  | .hbm, ⟨69, _⟩ => ⟨S393216, .i32⟩
  | .hbm, ⟨70, _⟩ => ⟨S12288, .i32⟩
  | .hbm, ⟨71, _⟩ => ⟨S405504, .i32⟩
  | .hbm, ⟨72, _⟩ => ⟨S405504, .i32⟩
  | .hbm, ⟨73, _⟩ => ⟨S_, .f32⟩
  | .hbm, ⟨74, _⟩ => ⟨S405504, .f32⟩
  | .hbm, ⟨75, _⟩ => ⟨S_, .f32⟩
  | .hbm, ⟨76, _⟩ => ⟨S12288, .f32⟩
  | .hbm, ⟨77, _⟩ => ⟨S405504x1, .i32⟩
  | .hbm, ⟨78, _⟩ => ⟨S12288, .f32⟩
  | .hbm, ⟨79, _⟩ => ⟨S_, .f32⟩
  | .hbm, ⟨80, _⟩ => ⟨S12288, .f32⟩
  | .hbm, ⟨81, _⟩ => ⟨S12288, .f32⟩
  | .hbm, ⟨82, _⟩ => ⟨S12288, .f32⟩
  | .hbm, ⟨83, _⟩ => ⟨S_, .i32⟩
  | .hbm, ⟨84, _⟩ => ⟨S405504, .i32⟩
  | .hbm, ⟨85, _⟩ => ⟨S405504, .i1⟩
  | .hbm, ⟨86, _⟩ => ⟨S_, .i32⟩
  | .hbm, ⟨87, _⟩ => ⟨S405504, .i32⟩
  | .hbm, ⟨88, _⟩ => ⟨S405504, .i32⟩
  | .hbm, ⟨89, _⟩ => ⟨S405504, .i32⟩
  | .hbm, ⟨90, _⟩ => ⟨S405504x1, .i32⟩
  | .hbm, ⟨91, _⟩ => ⟨S405504, .f32⟩
  | .hbm, ⟨92, _⟩ => ⟨S_, .i32⟩
  | .hbm, ⟨93, _⟩ => ⟨S405504, .i32⟩
  | .hbm, ⟨94, _⟩ => ⟨S405504, .i1⟩
  | .hbm, ⟨95, _⟩ => ⟨S_, .i32⟩
  | .hbm, ⟨96, _⟩ => ⟨S405504, .i32⟩
  | .hbm, ⟨97, _⟩ => ⟨S405504, .i32⟩
  | .hbm, ⟨98, _⟩ => ⟨S405504, .i32⟩
  | .hbm, ⟨99, _⟩ => ⟨S405504x1, .i32⟩
  | .hbm, ⟨100, _⟩ => ⟨S405504, .f32⟩
  | .hbm, ⟨101, _⟩ => ⟨S405504, .f32⟩
  | .hbm, ⟨102, _⟩ => ⟨S_, .i32⟩
  | .hbm, ⟨103, _⟩ => ⟨S405504, .i32⟩
  | .hbm, ⟨104, _⟩ => ⟨S405504, .i1⟩
  | .hbm, ⟨105, _⟩ => ⟨S_, .i32⟩
  | .hbm, ⟨106, _⟩ => ⟨S405504, .i32⟩
  | .hbm, ⟨107, _⟩ => ⟨S405504, .i32⟩
  | .hbm, ⟨108, _⟩ => ⟨S405504, .i32⟩
  | .hbm, ⟨109, _⟩ => ⟨S405504x1, .i32⟩
  | .hbm, ⟨110, _⟩ => ⟨S405504x64, .f32⟩
  | .hbm, ⟨111, _⟩ => ⟨S405504x1, .f32⟩
  | .hbm, ⟨112, _⟩ => ⟨S405504x64, .f32⟩
  | .hbm, ⟨113, _⟩ => ⟨S405504x64, .f32⟩
  | .hbm, ⟨114, _⟩ => ⟨S_, .f32⟩
  | .hbm, ⟨115, _⟩ => ⟨S12288x64, .f32⟩
  | .hbm, ⟨116, _⟩ => ⟨S405504x1, .i32⟩
  | .hbm, ⟨117, _⟩ => ⟨S12288x64, .f32⟩
  | .hbm, ⟨118, _⟩ => ⟨S1x64, .f32⟩
  | .hbm, ⟨119, _⟩ => ⟨S12288x64, .f32⟩
  | .hbm, ⟨120, _⟩ => ⟨S12288x64, .f32⟩
  | .hbm, ⟨121, _⟩ => ⟨S64x12288, .f32⟩
  | .hbm, ⟨122, _⟩ => ⟨S12288x12288, .f32⟩
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_c_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_15 : Ref sig .tc := ⟨.hbm, 102, rfl⟩
abbrev main_v77 : Ref sig .tc := ⟨.hbm, 103, rfl⟩
abbrev main_v78 : Ref sig .tc := ⟨.hbm, 104, rfl⟩
abbrev main_c_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_17 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩

abbrev nD : Nat := 1
abbrev τ : Topo := Topo.v7x

variable {F : FTy → Type} [FloatOps F]

class Facts₀ : Prop where
  slices_S2x393216_S1x393216_0_0 : S2x393216.Slices ![0, 0] S1x393216
  shapeCasts_S1x393216_S393216 : S1x393216.ShapeCasts S393216
  slices_S2x393216_S1x393216_1_0 : S2x393216.Slices ![1, 0] S1x393216
  concatenates_S393216_S12288_S405504_d0 : Shape.Concatenates [S393216, S12288] S405504 0
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S405504x1_S405504x128_0_1 : S405504x1.BroadcastsInDim S405504x128 (![0, 1] : Fin 2 → Fin S405504x128.rank)
  bcast_S_S12288x128 : S_.BroadcastsInDim S12288x128 (![] : Fin 0 → Fin S12288x128.rank)
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  bcast_S405504x1_S405504x64_0_1 : S405504x1.BroadcastsInDim S405504x64 (![0, 1] : Fin 2 → Fin S405504x64.rank)
  bcast_S_S12288x64 : S_.BroadcastsInDim S12288x64 (![] : Fin 0 → Fin S12288x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  transposes_S12288x64_S64x12288_1_0 : S12288x64.Transposes [1, 0] S64x12288
  dot_S12288x128_S128x128_S12288x128_1_0_0_1_n_n_wf : DotDims.WF S12288x128 S128x128 S12288x128 [1] [0] [0] [1] [] []
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  gather_S12288x128_S405504x1_S405504x128_1_0_n_n_0_1_1128_wf : GatherDims.WF S12288x128 S405504x1 S405504x128 [1] [0] [] [0] [] 1 ![1, 128]
  scatter_S12288x128_S405504x1_S405504x128_1_0_0_1_wf : ScatterDims.WF S12288x128 S405504x1 S405504x128 [1] [0] [0] 1
  dot_S12288x128_S128x64_S12288x64_1_0_0_1_n_n_wf : DotDims.WF S12288x128 S128x64 S12288x64 [1] [0] [0] [1] [] []
  gather_S12288x64_S405504x1_S405504x64_1_0_n_n_0_1_164_wf : GatherDims.WF S12288x64 S405504x1 S405504x64 [1] [0] [] [0] [] 1 ![1, 64]
  scatter_S12288x64_S405504x1_S405504x64_1_0_0_1_wf : ScatterDims.WF S12288x64 S405504x1 S405504x64 [1] [0] [0] 1
  dot_S12288x64_S64x12288_S12288x12288_1_0_0_1_n_n_wf : DotDims.WF S12288x64 S64x12288 S12288x12288 [1] [0] [0] [1] [] []

variable [Facts₀]

def dot_S12288x128_S128x128_S12288x128_1_0_0_1_n_n : DotDims S12288x128 S128x128 S12288x128 where
  lhsContracting := [1]
  rhsContracting := [0]
  lhsNonContracting := [0]
  rhsNonContracting := [1]
  lhsBatch := []
  rhsBatch := []
  wf := dot_S12288x128_S128x128_S12288x128_1_0_0_1_n_n_wf
def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def gather_S12288x128_S405504x1_S405504x128_1_0_n_n_0_1_1128 : GatherDims S12288x128 S405504x1 S405504x128 where
  offsetDims := [1]
  collapsedSliceDims := [0]
  operandBatchingDims := []
  startIndicesBatchingDims := []
  startIndexMap := [0]
  indexVectorDim := 1
  sliceSizes := ![1, 128]
  wf := gather_S12288x128_S405504x1_S405504x128_1_0_n_n_0_1_1128_wf
def scatter_S12288x128_S405504x1_S405504x128_1_0_0_1 : ScatterDims S12288x128 S405504x1 S405504x128 where
  updateWindowDims := [1]
  insertedWindowDims := [0]
  scatterDimsToOperandDims := [0]
  indexVectorDim := 1
  wf := scatter_S12288x128_S405504x1_S405504x128_1_0_0_1_wf
def dot_S12288x128_S128x64_S12288x64_1_0_0_1_n_n : DotDims S12288x128 S128x64 S12288x64 where
  lhsContracting := [1]
  rhsContracting := [0]
  lhsNonContracting := [0]
  rhsNonContracting := [1]
  lhsBatch := []
  rhsBatch := []
  wf := dot_S12288x128_S128x64_S12288x64_1_0_0_1_n_n_wf
def gather_S12288x64_S405504x1_S405504x64_1_0_n_n_0_1_164 : GatherDims S12288x64 S405504x1 S405504x64 where
  offsetDims := [1]
  collapsedSliceDims := [0]
  operandBatchingDims := []
  startIndicesBatchingDims := []
  startIndexMap := [0]
  indexVectorDim := 1
  sliceSizes := ![1, 64]
  wf := gather_S12288x64_S405504x1_S405504x64_1_0_n_n_0_1_164_wf
def scatter_S12288x64_S405504x1_S405504x64_1_0_0_1 : ScatterDims S12288x64 S405504x1 S405504x64 where
  updateWindowDims := [1]
  insertedWindowDims := [0]
  scatterDimsToOperandDims := [0]
  indexVectorDim := 1
  wf := scatter_S12288x64_S405504x1_S405504x64_1_0_0_1_wf
def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf

class Facts : Prop extends Facts₀ where

variable [Facts]
-- ==== Proof.FrameK_R0.lean ====
/- The frame half of pallas_call 0 (`cc0__matmul_kernel`), written by hand at a parameter `V`, the TensorCore's buffer
   contents when the region is entered. The body loads its two input windows' staging buffers whole, computes one
   block and stores it whole into the output window's staging buffer: what it leaves there is a closed function of
   the two input blocks at the point (`out0_2`), and what it finds in an input buffer is that window's block of the
   array as the region found it (`iblk0`), fetched at the point or not. From these: the proof data `dat0` and
   the body obligation at every point. Generic in the float instance. -/
import proofs.«180263_j1236950581835_2_alg».proof.Proof.LaunchK
import proofs.«180263_j1236950581835_2_alg».proof.Proof.Gen.Kernel.Skeleton
import proofs.«180263_j1236950581835_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural recursion goes once per coordinate of the long axes
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents at the region's entry
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is the entry contents and whose body leaves the block in place: where the pipeline does not
    fetch, the block index has not moved, and the buffer still holds the previous point's block, which is this
    point's. Both input windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_a : Rect S1536x128 := Rect.unit (s := S1536x128) ![0, 0] S1536x128.size inb_S1536x128_S1536x128_0_0
abbrev r0_b : Rect S128x128 := Rect.unit (s := S128x128) ![0, 0] S128x128.size inb_S128x128_S128x128_0_0
abbrev r0_o : Rect S1536x128 := Rect.unit (s := S1536x128) ![0, 0] S1536x128.size inb_S1536x128_S1536x128_0_0

/-! ## What the body leaves in the output window's buffer -/

/-- The output window's staging buffer after the body, from the two input blocks: its one store, of the whole
    buffer, whose payload is the product of the two loaded blocks as the skeleton names it. -/
def out0_2 (x0 : Vec F S1536x128 .f32) (x1 : Vec F S128x128 .f32) : Vec F S1536x128 .f32 :=
  View.canon [⟨r0_o, k0_pay1 (View.ld x0 r0_a) (View.ld x1 r0_b)⟩]

/-- The one store is of the whole buffer, so it covers it. -/
theorem cover0_2 (p0 : Vec F S1536x128 .f32) (y : S1536x128.Idx) :
    ∃ pc ∈ ([⟨r0_o, p0⟩] : List (View.Piece (Elt F) S1536x128 .f32)), y ∈ pc.1.set :=
  View.cover_of_tiled [⟨r0_o, p0⟩] S1536x128.size (by rfl) y

/-! ## The body's triple -/

set_option maxHeartbeats 1000000 in
/-- The kernel body on whole staging memrefs, the inputs' at read contents `x0`, `x1` and the output's at anything
    (the body loads it before storing, and drops what it loaded), runs to the continuation holding the inputs' as
    they were and the output's at `out0_2 x0 x1`. -/
theorem sound_kernel0 (c : Dev nD) (E : Set ℕ) (i : grid0.Coords)
    (arg0 : Memref sig .tc .vmem S1536x128 .f32) (harg0 : arg0.IsWhole)
    (arg1 : Memref sig .tc .vmem S128x128 .f32) (harg1 : arg1.IsWhole)
    (arg2 : Memref sig .tc .vmem S1536x128 .f32) (harg2 : arg2.IsWhole)
    (x0 : Vec F S1536x128 .f32) (x1 : Vec F S128x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.FrameK_R1s.lean ====
import proofs.«180263_j1236950581835_2_alg».proof.Proof.LaunchK
import proofs.«180263_j1236950581835_2_alg».proof.Proof.Gen.Kernel.Skeleton
import proofs.«180263_j1236950581835_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# Region 1: a row block of A·h accumulated over eight column blocks — what its runs share

The grid is 8 × 8: point t works on row block t / 8 and column block t % 8. The body zeroes its accumulator at the
first column block, adds the product of the two staged blocks at every point, and at the last column block stores the
accumulator plus the bias row into the output block. Here: the staged blocks read off the entry contents, the two
conditions of the body decided over the grid, where the output window is idle, and the class invariant with the
accumulator split off.
-/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at point t, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or the block
    index did not move, for any proof data over the entry contents whose body leaves the block in place. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The body's two conditions over the grid -/

/-- "This is the first column block": the body's first condition, from the grid coordinates. -/
abbrev isFirst1 (i : grid1.Coords) : Prop := (Scalar.cmpi .ne (Scalar.extui (Scalar.cmpi .eq (BitVec.ofNat 32 (i 1).val) 0#32)) 0#32) = 1#1
theorem isFirst1_iff : ∀ t : Fin cfg1.N, isFirst1 (grid1.coords t) ↔ t.val % 8 = 0 :=
  (by decide +kernel : ∀ t : Fin grid1.N, isFirst1 (grid1.coords t) ↔ t.val % 8 = 0)

/-- "This is the last column block": the body's second condition. -/
abbrev isLast1 (i : grid1.Coords) : Prop := k1_cond2 i = 1#1
theorem isLast1_iff : ∀ t : Fin cfg1.N, isLast1 (grid1.coords t) ↔ t.val % 8 = 7 :=
  (by decide +kernel : ∀ t : Fin grid1.N, isLast1 (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last column block the body stores nothing into the output block, and the block is not written back. -/
theorem idle1_3 : ∀ t : Fin cfg1.N, ¬isLast1 (grid1.coords t) → cfg1.idle 3 (grid1.coords t) = true := by decide +kernel
theorem noFlush1_3 : ∀ t : Fin cfg1.N, ¬isLast1 (grid1.coords t) → (cfg1.win 3).flush t = false := by decide +kernel
theorem live1_3 : ∀ t : Fin cfg1.N, isLast1 (grid1.coords t) → cfg1.idle 3 (grid1.coords t) = false := by decide +kernel

/-! ## The memrefs the body is called with -/

/-- One staging buffer of the output window, through which its contents are stated. -/
abbrev outV1 : View sig .tc .vmem S1536x128 .f32 := (Memref.whole cc1_stg3_0 : Memref sig .tc .vmem S1536x128 .f32).view
abbrev mem1_0 (t : Fin cfg1.N) : Memref sig .tc .vmem S1536x1536 .bf16 := win1_0.stage (cfg1.slots t 0)
abbrev whole1_0 (t : Fin cfg1.N) : (mem1_0 t).IsWhole := hstage1_0 ((cfg1.slots t 0).cast nbuf1_0)
abbrev mem1_1 (t : Fin cfg1.N) : Memref sig .tc .vmem S1536x128 .f32 := win1_1.stage (cfg1.slots t 1)
abbrev whole1_1 (t : Fin cfg1.N) : (mem1_1 t).IsWhole := hstage1_1 ((cfg1.slots t 1).cast nbuf1_1)
abbrev mem1_2 (t : Fin cfg1.N) : Memref sig .tc .vmem S1x128 .f32 := win1_2.stage (cfg1.slots t 2)
abbrev whole1_2 (t : Fin cfg1.N) : (mem1_2 t).IsWhole := hstage1_2 ((cfg1.slots t 2).cast nbuf1_2)
abbrev mem1_3 (t : Fin cfg1.N) : Memref sig .tc .vmem S1536x128 .f32 := win1_3.stage (cfg1.slots t 3)
abbrev whole1_3 (t : Fin cfg1.N) : (mem1_3 t).IsWhole := hstage1_3 ((cfg1.slots t 3).cast nbuf1_3)
/-- The accumulator: a whole scoped buffer of the kernel's own. -/
abbrev accM1 : Memref sig .tc .vmem S1536x128 .f32 := Memref.whole cc1_scratch0
abbrev accV1 : View sig .tc .vmem S1536x128 .f32 := accM1.view

/-- The class invariant with the accumulator as a memref owned at some contents, beside the other scoped buffers
    and the generator register. -/
theorem PhiA1_eq (c : Dev nD) :
    (Pipeline.ΦA spec1 c : sProp 𝕄)
      = iprop(iprop(iprop((∃ d, owns (c : Thread nD τ) accM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [accM1, owns_whole]; try rfl

end Cert.Kernel.Hand

end
-- ==== Proof.FrameK_R1runFirst.lean ====
import proofs.«180263_j1236950581835_2_alg».proof.Proof.FrameK_R1s

/-! # Region 1: the body run at a first column block -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a FIRST column block (not the last): on whole memrefs, the inputs' at their contents, the output's at
    contents handed back untouched, the accumulator at anything, it runs to the continuation holding the inputs' and the
    output's as they were and the accumulator with its stores written (zero, then zero plus the block product). The
    stores are the witness the run finds. -/
noncomputable def runFirst1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : isFirst1 i) (hc1 : ¬isLast1 i)
    (x0 : Vec F S1536x1536 .bf16) (x1 : Vec F S1536x128 .f32) (x2 : Vec F S1x128 .f32) :
    Σ' (LO : List (View.Piece (Elt F) S1536x128 .f32)), { LS : List (View.Piece (Elt F) S1536x128 .f32) //
      ∀ (xo : Vec F S1536x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__spmm_kernel i arg2 harg2 arg3 harg3 arg4 harg4 arg5 harg5 arg6 harg6) K } := by
  refine ⟨[], ?_, fun xo E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.FrameK_R1runMid.lean ====
import proofs.«180263_j1236950581835_2_alg».proof.Proof.FrameK_R1s

/-! # Region 1: the body run at a mid column block -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a column block that is neither first nor last: the accumulator comes in at what the point before left
    and goes out with the block product added; the output's buffer is handed back untouched. -/
noncomputable def runMid1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : ¬isLast1 i)
    (x0 : Vec F S1536x1536 .bf16) (x1 : Vec F S1536x128 .f32) (x2 : Vec F S1x128 .f32) (xs : Vec F S1536x128 .f32) :
    Σ' (LO : List (View.Piece (Elt F) S1536x128 .f32)), { LS : List (View.Piece (Elt F) S1536x128 .f32) //
      ∀ (xo : Vec F S1536x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__spmm_kernel i arg2 harg2 arg3 harg3 arg4 harg4 arg5 harg5 arg6 harg6) K } := by
  refine ⟨[], ?_, fun xo E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.FrameK_R1runLast.lean ====
import proofs.«180263_j1236950581835_2_alg».proof.Proof.FrameK_R1s

/-! # Region 1: the body run at a last column block -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a LAST column block (not the first): the accumulator comes in at what the point before left, goes out
    with the block product added, and the output's buffer, at anything, goes out with the accumulator plus the bias row
    stored into it. -/
noncomputable def runLast1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : isLast1 i)
    (x0 : Vec F S1536x1536 .bf16) (x1 : Vec F S1536x128 .f32) (x2 : Vec F S1x128 .f32) (xs : Vec F S1536x128 .f32) :
    Σ' (LO : List (View.Piece (Elt F) S1536x128 .f32)), { LS : List (View.Piece (Elt F) S1536x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__spmm_kernel i arg2 harg2 arg3 harg3 arg4 harg4 arg5 harg5 arg6 harg6) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.FrameK_R1.lean ====
import proofs.«180263_j1236950581835_2_alg».proof.Proof.FrameK_R1runFirst
import proofs.«180263_j1236950581835_2_alg».proof.Proof.FrameK_R1runMid
import proofs.«180263_j1236950581835_2_alg».proof.Proof.FrameK_R1runLast

/-!
# Region 1: the proof data and the body obligation

What the accumulator and the output block hold after each grid point, by recursion on the point: at a first column
block the accumulator restarts; elsewhere it continues from what the point before left; the output block is stored
at a last column block only. The region invariant carries the accumulator at those contents between points.
-/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- A first column block's stores cover the accumulator. -/
theorem accCoverFirst1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : isFirst1 i) (hc1 : ¬isLast1 i)
    (x0 : Vec F S1536x1536 .bf16) (x1 : Vec F S1536x128 .f32) (x2 : Vec F S1x128 .f32) (y : S1536x128.Idx) :
    ∃ pc ∈ (runFirst1 c i arg2 harg2 arg3 harg3 arg4 harg4 arg5 harg5 arg6 harg6 hc0 hc1 x0 x1 x2).2.1, y ∈ pc.1.set :=
  View.cover_of_tiledL (runFirst1 c i arg2 harg2 arg3 harg3 arg4 harg4 arg5 harg5 arg6 harg6 hc0 hc1 x0 x1 x2).2.1 S1536x128.size (by sl_kernel_rfl) y
/-- What a first column block leaves in the accumulator. -/
def accFirst1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : isFirst1 i) (hc1 : ¬isLast1 i)
    (x0 : Vec F S1536x1536 .bf16) (x1 : Vec F S1536x128 .f32) (x2 : Vec F S1x128 .f32) : Vec F S1536x128 .f32 :=
  accV1.read (Elt F) (accV1.writes (Elt F) accV1.junk (runFirst1 c i arg2 harg2 arg3 harg3 arg4 harg4 arg5 harg5 arg6 harg6 hc0 hc1 x0 x1 x2).2.1)

theorem accCoverMid1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : ¬isLast1 i)
    (x0 : Vec F S1536x1536 .bf16) (x1 : Vec F S1536x128 .f32) (x2 : Vec F S1x128 .f32) (xs : Vec F S1536x128 .f32) (y : S1536x128.Idx) :
    ∃ pc ∈ (runMid1 c i arg2 harg2 arg3 harg3 arg4 harg4 arg5 harg5 arg6 harg6 hc0 hc1 x0 x1 x2 xs).2.1, y ∈ pc.1.set :=
  View.cover_of_tiledL (runMid1 c i arg2 harg2 arg3 harg3 arg4 harg4 arg5 harg5 arg6 harg6 hc0 hc1 x0 x1 x2 xs).2.1 S1536x128.size (by sl_kernel_rfl) y
/-- What a middle column block leaves in the accumulator. -/
def accMid1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : ¬isLast1 i)
    (x0 : Vec F S1536x1536 .bf16) (x1 : Vec F S1536x128 .f32) (x2 : Vec F S1x128 .f32) (xs : Vec F S1536x128 .f32) : Vec F S1536x128 .f32 :=
  accV1.read (Elt F) (accV1.writes (Elt F) accV1.junk (runMid1 c i arg2 harg2 arg3 harg3 arg4 harg4 arg5 harg5 arg6 harg6 hc0 hc1 x0 x1 x2 xs).2.1)

theorem accCoverLast1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : isLast1 i)
    (x0 : Vec F S1536x1536 .bf16) (x1 : Vec F S1536x128 .f32) (x2 : Vec F S1x128 .f32) (xs : Vec F S1536x128 .f32) (y : S1536x128.Idx) :
    ∃ pc ∈ (runLast1 c i arg2 harg2 arg3 harg3 arg4 harg4 arg5 harg5 arg6 harg6 hc0 hc1 x0 x1 x2 xs).2.1, y ∈ pc.1.set :=
  View.cover_of_tiledL (runLast1 c i arg2 harg2 arg3 harg3 arg4 harg4 arg5 harg5 arg6 harg6 hc0 hc1 x0 x1 x2 xs).2.1 S1536x128.size (by sl_kernel_rfl) y
/-- What a last column block leaves in the accumulator. -/
def accLast1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : isLast1 i)
    (x0 : Vec F S1536x1536 .bf16) (x1 : Vec F S1536x128 .f32) (x2 : Vec F S1x128 .f32) (xs : Vec F S1536x128 .f32) : Vec F S1536x128 .f32 :=
  accV1.read (Elt F) (accV1.writes (Elt F) accV1.junk (runLast1 c i arg2 harg2 arg3 harg3 arg4 harg4 arg5 harg5 arg6 harg6 hc0 hc1 x0 x1 x2 xs).2.1)
theorem outCoverLast1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : isLast1 i)
    (x0 : Vec F S1536x1536 .bf16) (x1 : Vec F S1536x128 .f32) (x2 : Vec F S1x128 .f32) (xs : Vec F S1536x128 .f32) (y : S1536x128.Idx) :
    ∃ pc ∈ (runLast1 c i arg2 harg2 arg3 harg3 arg4 harg4 arg5 harg5 arg6 harg6 hc0 hc1 x0 x1 x2 xs).1, y ∈ pc.1.set :=
  View.cover_of_tiledL (runLast1 c i arg2 harg2 arg3 harg3 arg4 harg4 arg5 harg5 arg6 harg6 hc0 hc1 x0 x1 x2 xs).1 S1536x128.size (by sl_kernel_rfl) y
/-- What a last column block leaves in the output block's buffer. -/
def outLast1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : isLast1 i)
    (x0 : Vec F S1536x1536 .bf16) (x1 : Vec F S1536x128 .f32) (x2 : Vec F S1x128 .f32) (xs : Vec F S1536x128 .f32) : Vec F S1536x128 .f32 :=
  outV1.read (Elt F) (outV1.writes (Elt F) outV1.junk (runLast1 c i arg2 harg2 arg3 harg3 arg4 harg4 arg5 harg5 arg6 harg6 hc0 hc1 x0 x1 x2 xs).1)
/-- Where nothing is stored into the output block its contents are a placeholder nothing consults: there the window is
    neither written back nor read at the next point. -/
def outIdle1 : Vec F S1536x128 .f32 := outV1.read (Elt F) (outV1.writes (Elt F) outV1.junk [])

/-! ## After each point -/

/-- What the output block's buffer and the accumulator hold after the body at position n. -/
def state1 (c : Dev nD) : (n : ℕ) → n < cfg1.N → Vec F S1536x128 .f32 × Vec F S1536x128 .f32
  | 0, hn => (outIdle1, accFirst1 c (grid1.coords ⟨0, hn⟩) (mem1_0 ⟨0, hn⟩) (whole1_0 ⟨0, hn⟩) (mem1_1 ⟨0, hn⟩) (whole1_1 ⟨0, hn⟩) (mem1_2 ⟨0, hn⟩) (whole1_2 ⟨0, hn⟩) (mem1_3 ⟨0, hn⟩) (whole1_3 ⟨0, hn⟩) accM1 (Memref.isWhole_whole _) ((isFirst1_iff ⟨0, hn⟩).mpr (Nat.zero_mod _)) (fun h => (fun h => by (try dsimp only at h); omega) ((isLast1_iff ⟨0, hn⟩).mp h)) (blk1 V c 0 ⟨0, hn⟩) (blk1 V c 1 ⟨0, hn⟩) (blk1 V c 2 ⟨0, hn⟩))
  | n + 1, hn =>
    if h0 : (n + 1) % 8 = 0 then
      if h1 : (n + 1) % 8 = 7 then
        False.elim (by omega)
      else
        (outIdle1, accFirst1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) accM1 (Memref.isWhole_whole _) ((isFirst1_iff ⟨n + 1, hn⟩).mpr h0) (fun h => h1 ((isLast1_iff ⟨n + 1, hn⟩).mp h)) (blk1 V c 0 ⟨n + 1, hn⟩) (blk1 V c 1 ⟨n + 1, hn⟩) (blk1 V c 2 ⟨n + 1, hn⟩))
    else
      if h1 : (n + 1) % 8 = 7 then
        (outLast1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) accM1 (Memref.isWhole_whole _) (fun h => h0 ((isFirst1_iff ⟨n + 1, hn⟩).mp h)) ((isLast1_iff ⟨n + 1, hn⟩).mpr h1) (blk1 V c 0 ⟨n + 1, hn⟩) (blk1 V c 1 ⟨n + 1, hn⟩) (blk1 V c 2 ⟨n + 1, hn⟩) (state1 c n (Nat.lt_of_succ_lt hn)).2,
         accLast1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) accM1 (Memref.isWhole_whole _) (fun h => h0 ((isFirst1_iff ⟨n + 1, hn⟩).mp h)) ((isLast1_iff ⟨n + 1, hn⟩).mpr h1) (blk1 V c 0 ⟨n + 1, hn⟩) (blk1 V c 1 ⟨n + 1, hn⟩) (blk1 V c 2 ⟨n + 1, hn⟩) (state1 c n (Nat.lt_of_succ_lt hn)).2)
      else
        (outIdle1, accMid1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) accM1 (Memref.isWhole_whole _) (fun h => h0 ((isFirst1_iff ⟨n + 1, hn⟩).mp h)) (fun h => h1 ((isLast1_iff ⟨n + 1, hn⟩).mp h)) (blk1 V c 0 ⟨n + 1, hn⟩) (blk1 V c 1 ⟨n + 1, hn⟩) (blk1 V c 2 ⟨n + 1, hn⟩) (state1 c n (Nat.lt_of_succ_lt hn)).2)

theorem state1_first (c : Dev nD) (t : Fin cfg1.N) (h0 : t.val % 8 = 0) (h1 : ¬t.val % 8 = 7) :
    state1 V c t.val t.isLt = (outIdle1, accFirst1 c (grid1.coords t) (mem1_0 t) (whole1_0 t) (mem1_1 t) (whole1_1 t) (mem1_2 t) (whole1_2 t) (mem1_3 t) (whole1_3 t) accM1 (Memref.isWhole_whole _) ((isFirst1_iff t).mpr h0) (fun h => h1 ((isLast1_iff t).mp h)) (blk1 V c 0 t) (blk1 V c 1 t) (blk1 V c 2 t)) := by
  obtain ⟨n, hn⟩ := t
  cases n with
  | zero => exact rfl
  | succ n => exact (dif_pos h0).trans ((dif_neg h1).trans rfl)

theorem state1_mid (c : Dev nD) (t : Fin cfg1.N) (h0 : ¬t.val % 8 = 0) (h1 : ¬t.val % 8 = 7) :
    state1 V c t.val t.isLt = (outIdle1, accMid1 c (grid1.coords t) (mem1_0 t) (whole1_0 t) (mem1_1 t) (whole1_1 t) (mem1_2 t) (whole1_2 t) (mem1_3 t) (whole1_3 t) accM1 (Memref.isWhole_whole _) (fun h => h0 ((isFirst1_iff t).mp h)) (fun h => h1 ((isLast1_iff t).mp h)) (blk1 V c 0 t) (blk1 V c 1 t) (blk1 V c 2 t) (state1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem state1_last (c : Dev nD) (t : Fin cfg1.N) (h0 : ¬t.val % 8 = 0) (h1 : t.val % 8 = 7) :
    state1 V c t.val t.isLt = (outLast1 c (grid1.coords t) (mem1_0 t) (whole1_0 t) (mem1_1 t) (whole1_1 t) (mem1_2 t) (whole1_2 t) (mem1_3 t) (whole1_3 t) accM1 (Memref.isWhole_whole _) (fun h => h0 ((isFirst1_iff t).mp h)) ((isLast1_iff t).mpr h1) (blk1 V c 0 t) (blk1 V c 1 t) (blk1 V c 2 t) (state1 V c (t.val - 1) (Nat.lt_of_le_of_lt (Nat.sub_le _ _) t.isLt)).2,
      accLast1 c (grid1.coords t) (mem1_0 t) (whole1_0 t) (mem1_1 t) (whole1_1 t) (mem1_2 t) (whole1_2 t) (mem1_3 t) (whole1_3 t) accM1 (Memref.isWhole_whole _) (fun h => h0 ((isFirst1_iff t).mp h)) ((isLast1_iff t).mpr h1) (blk1 V c 0 t) (blk1 V c 1 t) (blk1 V c 2 t) (state1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: the class invariant before the first point; afterwards the accumulator at what the point
    before left, beside the other scoped buffers and the generator register. -/
def Inv1 (c : Dev nD) : (n : ℕ) → n ≤ cfg1.N → sProp 𝕄
  | 0, _ => Pipeline.ΦA spec1 c
  | n + 1, hn => iprop(iprop(iprop(owns (c : Thread nD τ) accM1 fullShare ((state1 V c n hn).2))
      ∗ Pipeline.scopedRestBut (Ix := Unit) (Name := ℕ) (U := UR sig nD τ) (Lvl := ℕ) (Val := Elt F) spec1 c [cc1_scratch0]) ∗ (∃ r, prngReg c r))

theorem Inv1_zero (c : Dev nD) (n : ℕ) (h : n ≤ cfg1.N) (hz : n = 0) : Inv1 V c n h = Pipeline.ΦA spec1 c := by
  subst hz; rfl
theorem Inv1_succ (c : Dev nD) (n : ℕ) (hn : n < cfg1.N) :
    Inv1 V c (n + 1) hn = iprop(iprop(iprop(owns (c : Thread nD τ) accM1 fullShare ((state1 V c n hn).2))
      ∗ Pipeline.scopedRestBut (Ix := Unit) (Name := ℕ) (U := UR sig nD τ) (Lvl := ℕ) (Val := Elt F) spec1 c [cc1_scratch0]) ∗ (∃ r, prngReg c r)) := rfl
theorem Inv1_pos (c : Dev nD) (n : ℕ) (h : n ≤ cfg1.N) (hz : n ≠ 0) :
    Inv1 V c n h = iprop(iprop(iprop(owns (c : Thread nD τ) accM1 fullShare ((state1 V c (n - 1) (by omega)).2))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The proof data of pipeline 1 on core c, over the entry contents: each input's buffer at its block after the body,
    the output's at `state1`'s first component; the invariant `Inv1`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (state1 V c t.val t.isLt).1
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Inv1_castSucc (c : Dev nD) (t : Fin cfg1.N) :
    (dat1 V c).Φ t.castSucc = Inv1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = (state1 V c t.val t.isLt).1 := by dsimp only [dat1]
theorem before1_0 (c : Dev nD) (t : Fin cfg1.N) (d) : (dat1 V c).before 0 t d = blk1 V c 0 t :=
  held1_0_of V (dat1 V c) (A_eq1 V c 0) (after1_0 V c) t d
theorem before1_1 (c : Dev nD) (t : Fin cfg1.N) (d) : (dat1 V c).before 1 t d = blk1 V c 1 t :=
  held1_1_of V (dat1 V c) (A_eq1 V c 1) (after1_1 V c) t d
theorem before1_2 (c : Dev nD) (t : Fin cfg1.N) (d) : (dat1 V c).before 2 t d = blk1 V c 2 t :=
  held1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (mem1_0 t) fullShare ((dat1 V c).before 0 t d))
    ∗ (∃ d, owns (c : Thread nD τ) (mem1_1 t) fullShare ((dat1 V c).before 1 t d))
    ∗ (∃ d, owns (c : Thread nD τ) (mem1_2 t) fullShare ((dat1 V c).before 2 t d))
    ∗ (∃ d, owns (c : Thread nD τ) (mem1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (mem1_0 t) fullShare (blk1 V c 0 t) := by
  unfold Dat.leavesExact; rw [live1_0 t, after1_0]
theorem leaves1_1 (c : Dev nD) (t : Fin cfg1.N) : (dat1 V c).leavesExact 1 t = owns (c : Thread nD τ) (mem1_1 t) fullShare (blk1 V c 1 t) := by
  unfold Dat.leavesExact; rw [live1_1 t, after1_1]
theorem leaves1_2 (c : Dev nD) (t : Fin cfg1.N) : (dat1 V c).leavesExact 2 t = owns (c : Thread nD τ) (mem1_2 t) fullShare (blk1 V c 2 t) := by
  unfold Dat.leavesExact; rw [live1_2 t, after1_2]

set_option maxHeartbeats 4800000 in
/-- The body at any point: the inputs' memrefs hold their blocks; the closed forms say which kind of point it is; the
    invariant hands the body the accumulator at what the point before left (at anything before a first column block)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Inv1 V c (t.val + 1) t.isLt from rfl, Inv1_succ]
  rw [leaves1_0, leaves1_1, leaves1_2]
  have hN : t.val < 64 := lt_of_lt_of_eq t.isLt (show cfg1.N = 64 from N_1)
  by_cases h0 : t.val % 8 = 0
  · have h1 : ¬t.val % 8 = 7 := by omega
    rw [Dat.leavesExact_idle (dat1 V c) 3 t (idle1_3 t (fun h => h1 ((isLast1_iff t).mp h))) (noFlush1_3 t (fun h => h1 ((isLast1_iff t).mp h)))]
    rw [state1_first V c t h0 h1]
    unfold accFirst1; (try dsimp only)
    by_cases hz : t.val = 0
    · rw [Inv1_castSucc V c t, Inv1_zero V c _ _ hz, PhiA1_eq]
      iintro ⟨⟨⟨HS, HB⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (fun h => h1 ((isLast1_iff t).mp h)) (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HB Hg]
      · isplitl [HS HB]
        · isplitl [HS]
          · unfold owns; iexists _; isplitr
            swap; · iexact HS
            ipureintro; exact View.read_writes_of_cover _ _ _ _ _ (accCoverFirst1 c _ _ _ _ _ _ _ _ _ _ _ _ _ _ _ _)
          iexact HB
        iexact Hg
      isplitl [Ho]; · iexact Ho
      isplitl [H0]; · iexact H0
      isplitl [H1]; · iexact H1
      isplitl [H2]; · iexact H2
      iexists _; iexact H3
    · rw [Inv1_castSucc V c t, Inv1_pos V c _ _ hz]
      iintro ⟨⟨⟨HS, HB⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (fun h => h1 ((isLast1_iff t).mp h)) (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HB Hg]
      · isplitl [HS HB]
        · isplitl [HS]
          · unfold owns; iexists _; isplitr
            swap; · iexact HS
            ipureintro; exact View.read_writes_of_cover _ _ _ _ _ (accCoverFirst1 c _ _ _ _ _ _ _ _ _ _ _ _ _ _ _ _)
          iexact HB
        iexact Hg
      isplitl [Ho]; · iexact Ho
      isplitl [H0]; · iexact H0
      isplitl [H1]; · iexact H1
      isplitl [H2]; · iexact H2
      iexists _; iexact H3
  · have hz : t.val ≠ 0 := by intro h; rw [h] at h0; exact h0 (Nat.zero_mod _)
    by_cases h1 : t.val % 8 = 7
    · rw [show (dat1 V c).leavesExact 3 t = owns (c : Thread nD τ) (mem1_3 t) fullShare ((dat1 V c).after 3 t) from by
        unfold Dat.leavesExact; rw [live1_3 t ((isLast1_iff t).mpr h1)], after1_3]
      rw [state1_last V c t h0 h1]
      unfold outLast1 accLast1; (try dsimp only)
      rw [Inv1_castSucc V c t, Inv1_pos V c _ _ hz]
      iintro ⟨⟨⟨HS, HB⟩, Hg⟩, Ho, ⟨%d0, H0⟩, ⟨%d1, H1⟩, ⟨%d2, H2⟩, ⟨%d3, H3⟩⟩
      iapply ((runLast1 c (grid1.coords t) _ _ _ _ _ _ _ _ _ _ (fun h => h0 ((isFirst1_iff t).mp h)) ((isLast1_iff t).mpr h1) (blk1 V c 0 t) (blk1 V c 1 t) (blk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HB Hg]
      · isplitl [HS HB]
        · isplitl [HS]
          · unfold owns; iexists _; isplitr
            swap; · iexact HS
            ipureintro; exact View.read_writes_of_cover _ _ _ _ _ (accCoverLast1 c _ _ _ _ _ _ _ _ _ _ _ _ _ _ _ _ _)
          iexact HB
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast1 c _ _ _ _ _ _ _ _ _ _ _ _ _ _ _ _ _)
    · rw [Dat.leavesExact_idle (dat1 V c) 3 t (idle1_3 t (fun h => h1 ((isLast1_iff t).mp h))) (noFlush1_3 t (fun h => h1 ((isLast1_iff t).mp h)))]
      rw [state1_mid V c t h0 h1]
      unfold accMid1; (try dsimp only)
      rw [Inv1_castSucc V c t, Inv1_pos V c _ _ hz]
      iintro ⟨⟨⟨HS, HB⟩, Hg⟩, Ho, ⟨%d0, H0⟩, ⟨%d1, H1⟩, ⟨%d2, H2⟩, ⟨%d3, H3⟩⟩
      iapply ((runMid1 c (grid1.coords t) _ _ _ _ _ _ _ _ _ _ (fun h => h0 ((isFirst1_iff t).mp h)) (fun h => h1 ((isLast1_iff t).mp h)) (blk1 V c 0 t) (blk1 V c 1 t) (blk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HB Hg]
      · isplitl [HS HB]
        · isplitl [HS]
          · unfold owns; iexists _; isplitr
            swap; · iexact HS
            ipureintro; exact View.read_writes_of_cover _ _ _ _ _ (accCoverMid1 c _ _ _ _ _ _ _ _ _ _ _ _ _ _ _ _ _)
          iexact HB
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Inv1 V c 0 (Nat.zero_le _) from rfl, Inv1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = Inv1 V c (Fin.last cfg1.N).val (Nat.le_of_lt_succ (Fin.last cfg1.N).isLt) from rfl,
    Inv1_pos V c _ _ (by rw [Fin.val_last]; have : cfg1.N = 64 := N_1; omega), PhiA1_eq]
  iintro ⟨⟨HS, HB⟩, Hg⟩
  isplitl [HS HB]
  · isplitl [HS]
    · iexists _; iexact HS
    iexact HB
  iexact Hg

end Cert.Kernel.Hand

end
-- ==== Proof.FrameK_R2.lean ====
/- The frame half of pallas_call 2 (`cc2__matmul_kernel`), written by hand at a parameter `V`, the TensorCore's buffer
   contents when the region is entered. The body loads its two input windows' staging buffers whole, computes one
   block and stores it whole into the output window's staging buffer: what it leaves there is a closed function of
   the two input blocks at the point (`out2_2`), and what it finds in an input buffer is that window's block of the
   array as the region found it (`iblk2`), fetched at the point or not. From these: the proof data `dat2` and
   the body obligation at every point. Generic in the float instance. -/
import proofs.«180263_j1236950581835_2_alg».proof.Proof.LaunchK
import proofs.«180263_j1236950581835_2_alg».proof.Proof.Gen.Kernel.Skeleton
import proofs.«180263_j1236950581835_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural recursion goes once per coordinate of the long axes
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents at the region's entry
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is the entry contents and whose body leaves the block in place: where the pipeline does not
    fetch, the block index has not moved, and the buffer still holds the previous point's block, which is this
    point's. Both input windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_a : Rect S1536x128 := Rect.unit (s := S1536x128) ![0, 0] S1536x128.size inb_S1536x128_S1536x128_0_0
abbrev r2_b : Rect S128x64 := Rect.unit (s := S128x64) ![0, 0] S128x64.size inb_S128x64_S128x64_0_0
abbrev r2_o : Rect S1536x64 := Rect.unit (s := S1536x64) ![0, 0] S1536x64.size inb_S1536x64_S1536x64_0_0

/-! ## What the body leaves in the output window's buffer -/

/-- The output window's staging buffer after the body, from the two input blocks: its one store, of the whole
    buffer, whose payload is the product of the two loaded blocks as the skeleton names it. -/
def out2_2 (x0 : Vec F S1536x128 .f32) (x1 : Vec F S128x64 .f32) : Vec F S1536x64 .f32 :=
  View.canon [⟨r2_o, k2_pay1 (View.ld x0 r2_a) (View.ld x1 r2_b)⟩]

/-- The one store is of the whole buffer, so it covers it. -/
theorem cover2_2 (p0 : Vec F S1536x64 .f32) (y : S1536x64.Idx) :
    ∃ pc ∈ ([⟨r2_o, p0⟩] : List (View.Piece (Elt F) S1536x64 .f32)), y ∈ pc.1.set :=
  View.cover_of_tiled [⟨r2_o, p0⟩] S1536x64.size (by rfl) y

/-! ## The body's triple -/

set_option maxHeartbeats 1000000 in
/-- The kernel body on whole staging memrefs, the inputs' at read contents `x0`, `x1` and the output's at anything
    (the body loads it before storing, and drops what it loaded), runs to the continuation holding the inputs' as
    they were and the output's at `out2_2 x0 x1`. -/
theorem sound_kernel2 (c : Dev nD) (E : Set ℕ) (i : grid2.Coords)
    (arg0 : Memref sig .tc .vmem S1536x128 .f32) (harg0 : arg0.IsWhole)
    (arg1 : Memref sig .tc .vmem S128x64 .f32) (harg1 : arg1.IsWhole)
    (arg2 : Memref sig .tc .vmem S1536x64 .f32) (harg2 : arg2.IsWhole)
    (x0 : Vec F S1536x128 .f32) (x1 : Vec F S128x64 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t` each
    input's buffer at its block and the output's at `out2_2` of the two input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.FrameK_R3s.lean ====
import proofs.«180263_j1236950581835_2_alg».proof.Proof.LaunchK
import proofs.«180263_j1236950581835_2_alg».proof.Proof.Gen.Kernel.Skeleton
import proofs.«180263_j1236950581835_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# Region 3: a row block of A·h accumulated over eight column blocks — what its runs share

The grid is 8 × 8: point t works on row block t / 8 and column block t % 8. The body zeroes its accumulator at the
first column block, adds the product of the two staged blocks at every point, and at the last column block stores the
accumulator plus the bias row into the output block. Here: the staged blocks read off the entry contents, the two
conditions of the body decided over the grid, where the output window is idle, and the class invariant with the
accumulator split off.
-/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at point t, read off the window's array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the point fetched it or the block
    index did not move, for any proof data over the entry contents whose body leaves the block in place. -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem held3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-! ## The body's two conditions over the grid -/

/-- "This is the first column block": the body's first condition, from the grid coordinates. -/
abbrev isFirst3 (i : grid3.Coords) : Prop := (Scalar.cmpi .ne (Scalar.extui (Scalar.cmpi .eq (BitVec.ofNat 32 (i 1).val) 0#32)) 0#32) = 1#1
theorem isFirst3_iff : ∀ t : Fin cfg3.N, isFirst3 (grid3.coords t) ↔ t.val % 8 = 0 :=
  (by decide +kernel : ∀ t : Fin grid3.N, isFirst3 (grid3.coords t) ↔ t.val % 8 = 0)

/-- "This is the last column block": the body's second condition. -/
abbrev isLast3 (i : grid3.Coords) : Prop := k3_cond2 i = 1#1
theorem isLast3_iff : ∀ t : Fin cfg3.N, isLast3 (grid3.coords t) ↔ t.val % 8 = 7 :=
  (by decide +kernel : ∀ t : Fin grid3.N, isLast3 (grid3.coords t) ↔ t.val % 8 = 7)

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Away from the last column block the body stores nothing into the output block, and the block is not written back. -/
theorem idle3_3 : ∀ t : Fin cfg3.N, ¬isLast3 (grid3.coords t) → cfg3.idle 3 (grid3.coords t) = true := by decide +kernel
theorem noFlush3_3 : ∀ t : Fin cfg3.N, ¬isLast3 (grid3.coords t) → (cfg3.win 3).flush t = false := by decide +kernel
theorem live3_3 : ∀ t : Fin cfg3.N, isLast3 (grid3.coords t) → cfg3.idle 3 (grid3.coords t) = false := by decide +kernel

/-! ## The memrefs the body is called with -/

/-- One staging buffer of the output window, through which its contents are stated. -/
abbrev outV3 : View sig .tc .vmem S1536x64 .f32 := (Memref.whole cc3_stg3_0 : Memref sig .tc .vmem S1536x64 .f32).view
abbrev mem3_0 (t : Fin cfg3.N) : Memref sig .tc .vmem S1536x1536 .bf16 := win3_0.stage (cfg3.slots t 0)
abbrev whole3_0 (t : Fin cfg3.N) : (mem3_0 t).IsWhole := hstage3_0 ((cfg3.slots t 0).cast nbuf3_0)
abbrev mem3_1 (t : Fin cfg3.N) : Memref sig .tc .vmem S1536x64 .f32 := win3_1.stage (cfg3.slots t 1)
abbrev whole3_1 (t : Fin cfg3.N) : (mem3_1 t).IsWhole := hstage3_1 ((cfg3.slots t 1).cast nbuf3_1)
abbrev mem3_2 (t : Fin cfg3.N) : Memref sig .tc .vmem S1x64 .f32 := win3_2.stage (cfg3.slots t 2)
abbrev whole3_2 (t : Fin cfg3.N) : (mem3_2 t).IsWhole := hstage3_2 ((cfg3.slots t 2).cast nbuf3_2)
abbrev mem3_3 (t : Fin cfg3.N) : Memref sig .tc .vmem S1536x64 .f32 := win3_3.stage (cfg3.slots t 3)
abbrev whole3_3 (t : Fin cfg3.N) : (mem3_3 t).IsWhole := hstage3_3 ((cfg3.slots t 3).cast nbuf3_3)
/-- The accumulator: a whole scoped buffer of the kernel's own. -/
abbrev accM3 : Memref sig .tc .vmem S1536x64 .f32 := Memref.whole cc3_scratch0
abbrev accV3 : View sig .tc .vmem S1536x64 .f32 := accM3.view

/-- The class invariant with the accumulator as a memref owned at some contents, beside the other scoped buffers
    and the generator register. -/
theorem PhiA3_eq (c : Dev nD) :
    (Pipeline.ΦA spec3 c : sProp 𝕄)
      = iprop(iprop(iprop((∃ d, owns (c : Thread nD τ) accM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [accM3, owns_whole]; try rfl

end Cert.Kernel.Hand

end
-- ==== Proof.FrameK_R3runFirst.lean ====
import proofs.«180263_j1236950581835_2_alg».proof.Proof.FrameK_R3s

/-! # Region 3: the body run at a first column block -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a FIRST column block (not the last): on whole memrefs, the inputs' at their contents, the output's at
    contents handed back untouched, the accumulator at anything, it runs to the continuation holding the inputs' and the
    output's as they were and the accumulator with its stores written (zero, then zero plus the block product). The
    stores are the witness the run finds. -/
noncomputable def runFirst3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : isFirst3 i) (hc1 : ¬isLast3 i)
    (x0 : Vec F S1536x1536 .bf16) (x1 : Vec F S1536x64 .f32) (x2 : Vec F S1x64 .f32) :
    Σ' (LO : List (View.Piece (Elt F) S1536x64 .f32)), { LS : List (View.Piece (Elt F) S1536x64 .f32) //
      ∀ (xo : Vec F S1536x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc3__spmm_kernel i arg2 harg2 arg3 harg3 arg4 harg4 arg5 harg5 arg6 harg6) K } := by
  refine ⟨[], ?_, fun xo E K => ?run⟩
  case run =>
    simp only [cc3__spmm_kernel_eq_skeleton]; unfold cc3__spmm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.FrameK_R3runMid.lean ====
import proofs.«180263_j1236950581835_2_alg».proof.Proof.FrameK_R3s

/-! # Region 3: the body run at a mid column block -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a column block that is neither first nor last: the accumulator comes in at what the point before left
    and goes out with the block product added; the output's buffer is handed back untouched. -/
noncomputable def runMid3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : ¬isLast3 i)
    (x0 : Vec F S1536x1536 .bf16) (x1 : Vec F S1536x64 .f32) (x2 : Vec F S1x64 .f32) (xs : Vec F S1536x64 .f32) :
    Σ' (LO : List (View.Piece (Elt F) S1536x64 .f32)), { LS : List (View.Piece (Elt F) S1536x64 .f32) //
      ∀ (xo : Vec F S1536x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc3__spmm_kernel i arg2 harg2 arg3 harg3 arg4 harg4 arg5 harg5 arg6 harg6) K } := by
  refine ⟨[], ?_, fun xo E K => ?run⟩
  case run =>
    simp only [cc3__spmm_kernel_eq_skeleton]; unfold cc3__spmm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.FrameK_R3runLast.lean ====
import proofs.«180263_j1236950581835_2_alg».proof.Proof.FrameK_R3s

/-! # Region 3: the body run at a last column block -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a LAST column block (not the first): the accumulator comes in at what the point before left, goes out
    with the block product added, and the output's buffer, at anything, goes out with the accumulator plus the bias row
    stored into it. -/
noncomputable def runLast3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : isLast3 i)
    (x0 : Vec F S1536x1536 .bf16) (x1 : Vec F S1536x64 .f32) (x2 : Vec F S1x64 .f32) (xs : Vec F S1536x64 .f32) :
    Σ' (LO : List (View.Piece (Elt F) S1536x64 .f32)), { LS : List (View.Piece (Elt F) S1536x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc3__spmm_kernel i arg2 harg2 arg3 harg3 arg4 harg4 arg5 harg5 arg6 harg6) K } := by
  refine ⟨?_, ?_, fun E K => ?run⟩
  case run =>
    simp only [cc3__spmm_kernel_eq_skeleton]; unfold cc3__spmm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.FrameK_R3.lean ====
import proofs.«180263_j1236950581835_2_alg».proof.Proof.FrameK_R3runFirst
import proofs.«180263_j1236950581835_2_alg».proof.Proof.FrameK_R3runMid
import proofs.«180263_j1236950581835_2_alg».proof.Proof.FrameK_R3runLast

/-!
# Region 3: the proof data and the body obligation

What the accumulator and the output block hold after each grid point, by recursion on the point: at a first column
block the accumulator restarts; elsewhere it continues from what the point before left; the output block is stored
at a last column block only. The region invariant carries the accumulator at those contents between points.
-/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- A first column block's stores cover the accumulator. -/
theorem accCoverFirst3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : isFirst3 i) (hc1 : ¬isLast3 i)
    (x0 : Vec F S1536x1536 .bf16) (x1 : Vec F S1536x64 .f32) (x2 : Vec F S1x64 .f32) (y : S1536x64.Idx) :
    ∃ pc ∈ (runFirst3 c i arg2 harg2 arg3 harg3 arg4 harg4 arg5 harg5 arg6 harg6 hc0 hc1 x0 x1 x2).2.1, y ∈ pc.1.set :=
  View.cover_of_tiledL (runFirst3 c i arg2 harg2 arg3 harg3 arg4 harg4 arg5 harg5 arg6 harg6 hc0 hc1 x0 x1 x2).2.1 S1536x64.size (by sl_kernel_rfl) y
/-- What a first column block leaves in the accumulator. -/
def accFirst3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : isFirst3 i) (hc1 : ¬isLast3 i)
    (x0 : Vec F S1536x1536 .bf16) (x1 : Vec F S1536x64 .f32) (x2 : Vec F S1x64 .f32) : Vec F S1536x64 .f32 :=
  accV3.read (Elt F) (accV3.writes (Elt F) accV3.junk (runFirst3 c i arg2 harg2 arg3 harg3 arg4 harg4 arg5 harg5 arg6 harg6 hc0 hc1 x0 x1 x2).2.1)

theorem accCoverMid3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : ¬isLast3 i)
    (x0 : Vec F S1536x1536 .bf16) (x1 : Vec F S1536x64 .f32) (x2 : Vec F S1x64 .f32) (xs : Vec F S1536x64 .f32) (y : S1536x64.Idx) :
    ∃ pc ∈ (runMid3 c i arg2 harg2 arg3 harg3 arg4 harg4 arg5 harg5 arg6 harg6 hc0 hc1 x0 x1 x2 xs).2.1, y ∈ pc.1.set :=
  View.cover_of_tiledL (runMid3 c i arg2 harg2 arg3 harg3 arg4 harg4 arg5 harg5 arg6 harg6 hc0 hc1 x0 x1 x2 xs).2.1 S1536x64.size (by sl_kernel_rfl) y
/-- What a middle column block leaves in the accumulator. -/
def accMid3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : ¬isLast3 i)
    (x0 : Vec F S1536x1536 .bf16) (x1 : Vec F S1536x64 .f32) (x2 : Vec F S1x64 .f32) (xs : Vec F S1536x64 .f32) : Vec F S1536x64 .f32 :=
  accV3.read (Elt F) (accV3.writes (Elt F) accV3.junk (runMid3 c i arg2 harg2 arg3 harg3 arg4 harg4 arg5 harg5 arg6 harg6 hc0 hc1 x0 x1 x2 xs).2.1)

theorem accCoverLast3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : isLast3 i)
    (x0 : Vec F S1536x1536 .bf16) (x1 : Vec F S1536x64 .f32) (x2 : Vec F S1x64 .f32) (xs : Vec F S1536x64 .f32) (y : S1536x64.Idx) :
    ∃ pc ∈ (runLast3 c i arg2 harg2 arg3 harg3 arg4 harg4 arg5 harg5 arg6 harg6 hc0 hc1 x0 x1 x2 xs).2.1, y ∈ pc.1.set :=
  View.cover_of_tiledL (runLast3 c i arg2 harg2 arg3 harg3 arg4 harg4 arg5 harg5 arg6 harg6 hc0 hc1 x0 x1 x2 xs).2.1 S1536x64.size (by sl_kernel_rfl) y
/-- What a last column block leaves in the accumulator. -/
def accLast3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : isLast3 i)
    (x0 : Vec F S1536x1536 .bf16) (x1 : Vec F S1536x64 .f32) (x2 : Vec F S1x64 .f32) (xs : Vec F S1536x64 .f32) : Vec F S1536x64 .f32 :=
  accV3.read (Elt F) (accV3.writes (Elt F) accV3.junk (runLast3 c i arg2 harg2 arg3 harg3 arg4 harg4 arg5 harg5 arg6 harg6 hc0 hc1 x0 x1 x2 xs).2.1)
theorem outCoverLast3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : isLast3 i)
    (x0 : Vec F S1536x1536 .bf16) (x1 : Vec F S1536x64 .f32) (x2 : Vec F S1x64 .f32) (xs : Vec F S1536x64 .f32) (y : S1536x64.Idx) :
    ∃ pc ∈ (runLast3 c i arg2 harg2 arg3 harg3 arg4 harg4 arg5 harg5 arg6 harg6 hc0 hc1 x0 x1 x2 xs).1, y ∈ pc.1.set :=
  View.cover_of_tiledL (runLast3 c i arg2 harg2 arg3 harg3 arg4 harg4 arg5 harg5 arg6 harg6 hc0 hc1 x0 x1 x2 xs).1 S1536x64.size (by sl_kernel_rfl) y
/-- What a last column block leaves in the output block's buffer. -/
def outLast3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : isLast3 i)
    (x0 : Vec F S1536x1536 .bf16) (x1 : Vec F S1536x64 .f32) (x2 : Vec F S1x64 .f32) (xs : Vec F S1536x64 .f32) : Vec F S1536x64 .f32 :=
  outV3.read (Elt F) (outV3.writes (Elt F) outV3.junk (runLast3 c i arg2 harg2 arg3 harg3 arg4 harg4 arg5 harg5 arg6 harg6 hc0 hc1 x0 x1 x2 xs).1)
/-- Where nothing is stored into the output block its contents are a placeholder nothing consults: there the window is
    neither written back nor read at the next point. -/
def outIdle3 : Vec F S1536x64 .f32 := outV3.read (Elt F) (outV3.writes (Elt F) outV3.junk [])

/-! ## After each point -/

/-- What the output block's buffer and the accumulator hold after the body at position n. -/
def state3 (c : Dev nD) : (n : ℕ) → n < cfg3.N → Vec F S1536x64 .f32 × Vec F S1536x64 .f32
  | 0, hn => (outIdle3, accFirst3 c (grid3.coords ⟨0, hn⟩) (mem3_0 ⟨0, hn⟩) (whole3_0 ⟨0, hn⟩) (mem3_1 ⟨0, hn⟩) (whole3_1 ⟨0, hn⟩) (mem3_2 ⟨0, hn⟩) (whole3_2 ⟨0, hn⟩) (mem3_3 ⟨0, hn⟩) (whole3_3 ⟨0, hn⟩) accM3 (Memref.isWhole_whole _) ((isFirst3_iff ⟨0, hn⟩).mpr (Nat.zero_mod _)) (fun h => (fun h => by (try dsimp only at h); omega) ((isLast3_iff ⟨0, hn⟩).mp h)) (blk3 V c 0 ⟨0, hn⟩) (blk3 V c 1 ⟨0, hn⟩) (blk3 V c 2 ⟨0, hn⟩))
  | n + 1, hn =>
    if h0 : (n + 1) % 8 = 0 then
      if h1 : (n + 1) % 8 = 7 then
        False.elim (by omega)
      else
        (outIdle3, accFirst3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) accM3 (Memref.isWhole_whole _) ((isFirst3_iff ⟨n + 1, hn⟩).mpr h0) (fun h => h1 ((isLast3_iff ⟨n + 1, hn⟩).mp h)) (blk3 V c 0 ⟨n + 1, hn⟩) (blk3 V c 1 ⟨n + 1, hn⟩) (blk3 V c 2 ⟨n + 1, hn⟩))
    else
      if h1 : (n + 1) % 8 = 7 then
        (outLast3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) accM3 (Memref.isWhole_whole _) (fun h => h0 ((isFirst3_iff ⟨n + 1, hn⟩).mp h)) ((isLast3_iff ⟨n + 1, hn⟩).mpr h1) (blk3 V c 0 ⟨n + 1, hn⟩) (blk3 V c 1 ⟨n + 1, hn⟩) (blk3 V c 2 ⟨n + 1, hn⟩) (state3 c n (Nat.lt_of_succ_lt hn)).2,
         accLast3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) accM3 (Memref.isWhole_whole _) (fun h => h0 ((isFirst3_iff ⟨n + 1, hn⟩).mp h)) ((isLast3_iff ⟨n + 1, hn⟩).mpr h1) (blk3 V c 0 ⟨n + 1, hn⟩) (blk3 V c 1 ⟨n + 1, hn⟩) (blk3 V c 2 ⟨n + 1, hn⟩) (state3 c n (Nat.lt_of_succ_lt hn)).2)
      else
        (outIdle3, accMid3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) accM3 (Memref.isWhole_whole _) (fun h => h0 ((isFirst3_iff ⟨n + 1, hn⟩).mp h)) (fun h => h1 ((isLast3_iff ⟨n + 1, hn⟩).mp h)) (blk3 V c 0 ⟨n + 1, hn⟩) (blk3 V c 1 ⟨n + 1, hn⟩) (blk3 V c 2 ⟨n + 1, hn⟩) (state3 c n (Nat.lt_of_succ_lt hn)).2)

theorem state3_first (c : Dev nD) (t : Fin cfg3.N) (h0 : t.val % 8 = 0) (h1 : ¬t.val % 8 = 7) :
    state3 V c t.val t.isLt = (outIdle3, accFirst3 c (grid3.coords t) (mem3_0 t) (whole3_0 t) (mem3_1 t) (whole3_1 t) (mem3_2 t) (whole3_2 t) (mem3_3 t) (whole3_3 t) accM3 (Memref.isWhole_whole _) ((isFirst3_iff t).mpr h0) (fun h => h1 ((isLast3_iff t).mp h)) (blk3 V c 0 t) (blk3 V c 1 t) (blk3 V c 2 t)) := by
  obtain ⟨n, hn⟩ := t
  cases n with
  | zero => exact rfl
  | succ n => exact (dif_pos h0).trans ((dif_neg h1).trans rfl)

theorem state3_mid (c : Dev nD) (t : Fin cfg3.N) (h0 : ¬t.val % 8 = 0) (h1 : ¬t.val % 8 = 7) :
    state3 V c t.val t.isLt = (outIdle3, accMid3 c (grid3.coords t) (mem3_0 t) (whole3_0 t) (mem3_1 t) (whole3_1 t) (mem3_2 t) (whole3_2 t) (mem3_3 t) (whole3_3 t) accM3 (Memref.isWhole_whole _) (fun h => h0 ((isFirst3_iff t).mp h)) (fun h => h1 ((isLast3_iff t).mp h)) (blk3 V c 0 t) (blk3 V c 1 t) (blk3 V c 2 t) (state3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem state3_last (c : Dev nD) (t : Fin cfg3.N) (h0 : ¬t.val % 8 = 0) (h1 : t.val % 8 = 7) :
    state3 V c t.val t.isLt = (outLast3 c (grid3.coords t) (mem3_0 t) (whole3_0 t) (mem3_1 t) (whole3_1 t) (mem3_2 t) (whole3_2 t) (mem3_3 t) (whole3_3 t) accM3 (Memref.isWhole_whole _) (fun h => h0 ((isFirst3_iff t).mp h)) ((isLast3_iff t).mpr h1) (blk3 V c 0 t) (blk3 V c 1 t) (blk3 V c 2 t) (state3 V c (t.val - 1) (Nat.lt_of_le_of_lt (Nat.sub_le _ _) t.isLt)).2,
      accLast3 c (grid3.coords t) (mem3_0 t) (whole3_0 t) (mem3_1 t) (whole3_1 t) (mem3_2 t) (whole3_2 t) (mem3_3 t) (whole3_3 t) accM3 (Memref.isWhole_whole _) (fun h => h0 ((isFirst3_iff t).mp h)) ((isLast3_iff t).mpr h1) (blk3 V c 0 t) (blk3 V c 1 t) (blk3 V c 2 t) (state3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: the class invariant before the first point; afterwards the accumulator at what the point
    before left, beside the other scoped buffers and the generator register. -/
def Inv3 (c : Dev nD) : (n : ℕ) → n ≤ cfg3.N → sProp 𝕄
  | 0, _ => Pipeline.ΦA spec3 c
  | n + 1, hn => iprop(iprop(iprop(owns (c : Thread nD τ) accM3 fullShare ((state3 V c n hn).2))
      ∗ Pipeline.scopedRestBut (Ix := Unit) (Name := ℕ) (U := UR sig nD τ) (Lvl := ℕ) (Val := Elt F) spec3 c [cc3_scratch0]) ∗ (∃ r, prngReg c r))

theorem Inv3_zero (c : Dev nD) (n : ℕ) (h : n ≤ cfg3.N) (hz : n = 0) : Inv3 V c n h = Pipeline.ΦA spec3 c := by
  subst hz; rfl
theorem Inv3_succ (c : Dev nD) (n : ℕ) (hn : n < cfg3.N) :
    Inv3 V c (n + 1) hn = iprop(iprop(iprop(owns (c : Thread nD τ) accM3 fullShare ((state3 V c n hn).2))
      ∗ Pipeline.scopedRestBut (Ix := Unit) (Name := ℕ) (U := UR sig nD τ) (Lvl := ℕ) (Val := Elt F) spec3 c [cc3_scratch0]) ∗ (∃ r, prngReg c r)) := rfl
theorem Inv3_pos (c : Dev nD) (n : ℕ) (h : n ≤ cfg3.N) (hz : n ≠ 0) :
    Inv3 V c n h = iprop(iprop(iprop(owns (c : Thread nD τ) accM3 fullShare ((state3 V c (n - 1) (by omega)).2))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The proof data of pipeline 3 on core c, over the entry contents: each input's buffer at its block after the body,
    the output's at `state3`'s first component; the invariant `Inv3`; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => (state3 V c t.val t.isLt).1
  Φ t := Inv3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem Inv3_castSucc (c : Dev nD) (t : Fin cfg3.N) :
    (dat3 V c).Φ t.castSucc = Inv3 V c t.val (Nat.le_of_lt t.isLt) := by
  dsimp only [dat3]; simp only [Fin.coe_castSucc]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = (state3 V c t.val t.isLt).1 := by dsimp only [dat3]
theorem before3_0 (c : Dev nD) (t : Fin cfg3.N) (d) : (dat3 V c).before 0 t d = blk3 V c 0 t :=
  held3_0_of V (dat3 V c) (A_eq3 V c 0) (after3_0 V c) t d
theorem before3_1 (c : Dev nD) (t : Fin cfg3.N) (d) : (dat3 V c).before 1 t d = blk3 V c 1 t :=
  held3_1_of V (dat3 V c) (A_eq3 V c 1) (after3_1 V c) t d
theorem before3_2 (c : Dev nD) (t : Fin cfg3.N) (d) : (dat3 V c).before 2 t d = blk3 V c 2 t :=
  held3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (mem3_0 t) fullShare ((dat3 V c).before 0 t d))
    ∗ (∃ d, owns (c : Thread nD τ) (mem3_1 t) fullShare ((dat3 V c).before 1 t d))
    ∗ (∃ d, owns (c : Thread nD τ) (mem3_2 t) fullShare ((dat3 V c).before 2 t d))
    ∗ (∃ d, owns (c : Thread nD τ) (mem3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_0 (c : Dev nD) (t : Fin cfg3.N) : (dat3 V c).leavesExact 0 t = owns (c : Thread nD τ) (mem3_0 t) fullShare (blk3 V c 0 t) := by
  unfold Dat.leavesExact; rw [live3_0 t, after3_0]
theorem leaves3_1 (c : Dev nD) (t : Fin cfg3.N) : (dat3 V c).leavesExact 1 t = owns (c : Thread nD τ) (mem3_1 t) fullShare (blk3 V c 1 t) := by
  unfold Dat.leavesExact; rw [live3_1 t, after3_1]
theorem leaves3_2 (c : Dev nD) (t : Fin cfg3.N) : (dat3 V c).leavesExact 2 t = owns (c : Thread nD τ) (mem3_2 t) fullShare (blk3 V c 2 t) := by
  unfold Dat.leavesExact; rw [live3_2 t, after3_2]

set_option maxHeartbeats 4800000 in
/-- The body at any point: the inputs' memrefs hold their blocks; the closed forms say which kind of point it is; the
    invariant hands the body the accumulator at what the point before left (at anything before a first column block)
    and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Inv3 V c (t.val + 1) t.isLt from rfl, Inv3_succ]
  rw [leaves3_0, leaves3_1, leaves3_2]
  have hN : t.val < 64 := lt_of_lt_of_eq t.isLt (show cfg3.N = 64 from N_3)
  by_cases h0 : t.val % 8 = 0
  · have h1 : ¬t.val % 8 = 7 := by omega
    rw [Dat.leavesExact_idle (dat3 V c) 3 t (idle3_3 t (fun h => h1 ((isLast3_iff t).mp h))) (noFlush3_3 t (fun h => h1 ((isLast3_iff t).mp h)))]
    rw [state3_first V c t h0 h1]
    unfold accFirst3; (try dsimp only)
    by_cases hz : t.val = 0
    · rw [Inv3_castSucc V c t, Inv3_zero V c _ _ hz, PhiA3_eq]
      iintro ⟨⟨⟨HS, HB⟩, Hg⟩, Ho, ⟨%d0, H0⟩, ⟨%d1, H1⟩, ⟨%d2, H2⟩, ⟨%d3, H3⟩⟩
      iapply ((runFirst3 c (grid3.coords t) _ _ _ _ _ _ _ _ _ _ ((isFirst3_iff t).mpr h0) (fun h => h1 ((isLast3_iff t).mp h)) (blk3 V c 0 t) (blk3 V c 1 t) (blk3 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HB Hg]
      · isplitl [HS HB]
        · isplitl [HS]
          · unfold owns; iexists _; isplitr
            swap; · iexact HS
            ipureintro; exact View.read_writes_of_cover _ _ _ _ _ (accCoverFirst3 c _ _ _ _ _ _ _ _ _ _ _ _ _ _ _ _)
          iexact HB
        iexact Hg
      isplitl [Ho]; · iexact Ho
      isplitl [H0]; · iexact H0
      isplitl [H1]; · iexact H1
      isplitl [H2]; · iexact H2
      iexists _; iexact H3
    · rw [Inv3_castSucc V c t, Inv3_pos V c _ _ hz]
      iintro ⟨⟨⟨HS, HB⟩, Hg⟩, Ho, ⟨%d0, H0⟩, ⟨%d1, H1⟩, ⟨%d2, H2⟩, ⟨%d3, H3⟩⟩
      iapply ((runFirst3 c (grid3.coords t) _ _ _ _ _ _ _ _ _ _ ((isFirst3_iff t).mpr h0) (fun h => h1 ((isLast3_iff t).mp h)) (blk3 V c 0 t) (blk3 V c 1 t) (blk3 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HB Hg]
      · isplitl [HS HB]
        · isplitl [HS]
          · unfold owns; iexists _; isplitr
            swap; · iexact HS
            ipureintro; exact View.read_writes_of_cover _ _ _ _ _ (accCoverFirst3 c _ _ _ _ _ _ _ _ _ _ _ _ _ _ _ _)
          iexact HB
        iexact Hg
      isplitl [Ho]; · iexact Ho
      isplitl [H0]; · iexact H0
      isplitl [H1]; · iexact H1
      isplitl [H2]; · iexact H2
      iexists _; iexact H3
  · have hz : t.val ≠ 0 := by intro h; rw [h] at h0; exact h0 (Nat.zero_mod _)
    by_cases h1 : t.val % 8 = 7
    · rw [show (dat3 V c).leavesExact 3 t = owns (c : Thread nD τ) (mem3_3 t) fullShare ((dat3 V c).after 3 t) from by
        unfold Dat.leavesExact; rw [live3_3 t ((isLast3_iff t).mpr h1)], after3_3]
      rw [state3_last V c t h0 h1]
      unfold outLast3 accLast3; (try dsimp only)
      rw [Inv3_castSucc V c t, Inv3_pos V c _ _ hz]
      iintro ⟨⟨⟨HS, HB⟩, Hg⟩, Ho, ⟨%d0, H0⟩, ⟨%d1, H1⟩, ⟨%d2, H2⟩, ⟨%d3, H3⟩⟩
      iapply ((runLast3 c (grid3.coords t) _ _ _ _ _ _ _ _ _ _ (fun h => h0 ((isFirst3_iff t).mp h)) ((isLast3_iff t).mpr h1) (blk3 V c 0 t) (blk3 V c 1 t) (blk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HB Hg]
      · isplitl [HS HB]
        · isplitl [HS]
          · unfold owns; iexists _; isplitr
            swap; · iexact HS
            ipureintro; exact View.read_writes_of_cover _ _ _ _ _ (accCoverLast3 c _ _ _ _ _ _ _ _ _ _ _ _ _ _ _ _ _)
          iexact HB
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast3 c _ _ _ _ _ _ _ _ _ _ _ _ _ _ _ _ _)
    · rw [Dat.leavesExact_idle (dat3 V c) 3 t (idle3_3 t (fun h => h1 ((isLast3_iff t).mp h))) (noFlush3_3 t (fun h => h1 ((isLast3_iff t).mp h)))]
      rw [state3_mid V c t h0 h1]
      unfold accMid3; (try dsimp only)
      rw [Inv3_castSucc V c t, Inv3_pos V c _ _ hz]
      iintro ⟨⟨⟨HS, HB⟩, Hg⟩, Ho, ⟨%d0, H0⟩, ⟨%d1, H1⟩, ⟨%d2, H2⟩, ⟨%d3, H3⟩⟩
      iapply ((runMid3 c (grid3.coords t) _ _ _ _ _ _ _ _ _ _ (fun h => h0 ((isFirst3_iff t).mp h)) (fun h => h1 ((isLast3_iff t).mp h)) (blk3 V c 0 t) (blk3 V c 1 t) (blk3 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HB Hg]
      · isplitl [HS HB]
        · isplitl [HS]
          · unfold owns; iexists _; isplitr
            swap; · iexact HS
            ipureintro; exact View.read_writes_of_cover _ _ _ _ _ (accCoverMid3 c _ _ _ _ _ _ _ _ _ _ _ _ _ _ _ _ _)
          iexact HB
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Inv3 V c 0 (Nat.zero_le _) from rfl, Inv3_zero V c 0 _ rfl]
  try exact Idealize.SL.BI.Entails.refl _

/-- After the last point the invariant gives the class invariant back: the accumulator's contents are forgotten. -/
theorem hout3 (c : Dev nD) : (dat3 V c).Φ (Fin.last cfg3.N) ⊢ Pipeline.ΦA spec3 c := by
  rw [show (dat3 V c).Φ (Fin.last cfg3.N) = Inv3 V c (Fin.last cfg3.N).val (Nat.le_of_lt_succ (Fin.last cfg3.N).isLt) from rfl,
    Inv3_pos V c _ _ (by rw [Fin.val_last]; have : cfg3.N = 64 := N_3; omega), PhiA3_eq]
  iintro ⟨⟨HS, HB⟩, Hg⟩
  isplitl [HS HB]
  · isplitl [HS]
    · iexists _; iexact HS
    iexact HB
  iexact Hg

end Cert.Kernel.Hand

end
-- ==== Proof.FrameK_R4.lean ====
/- The frame half of pallas_call 4 (`cc4__gram_kernel`), written by hand at a parameter `V`, the TensorCore's buffer
   contents when the region is entered. The body loads its two input windows' staging buffers whole, computes one
   block and stores it whole into the output window's staging buffer: what it leaves there is a closed function of
   the two input blocks at the point (`out4_2`), and what it finds in an input buffer is that window's block of the
   array as the region found it (`iblk4`), fetched at the point or not. From these: the proof data `dat4` and
   the body obligation at every point. The two input windows read ONE array: the proof data hold it at the two halves
   of the full share, one per window, and the last section gives the entailments between the buffers behind the arrays,
   whole, and the proof data's arrays, at the region's entry and exit. Generic in the float instance. -/
import proofs.«180263_j1236950581835_2_alg».proof.Proof.LaunchK
import proofs.«180263_j1236950581835_2_alg».proof.Proof.Gen.Kernel.Skeleton
import proofs.«180263_j1236950581835_2_alg».proof.Proof.Gen.Kernel.Points
import Idealize.ShloMosaic.Lib.Pipeline.FrameBody
import Idealize.ShloMosaic.Lib.Pipeline.Cells
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural recursion goes once per coordinate of the long axes
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents at the region's entry
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is the entry contents and whose body leaves the block in place: where the pipeline does not
    fetch, the block index has not moved, and the buffer still holds the previous point's block, which is this
    point's. Both input windows are uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_a : Rect S2048x64 := Rect.unit (s := S2048x64) ![0, 0] S2048x64.size inb_S2048x64_S2048x64_0_0
abbrev r4_b : Rect S2048x64 := Rect.unit (s := S2048x64) ![0, 0] S2048x64.size inb_S2048x64_S2048x64_0_0
abbrev r4_o : Rect S2048x2048 := Rect.unit (s := S2048x2048) ![0, 0] S2048x2048.size inb_S2048x2048_S2048x2048_0_0

/-! ## What the body leaves in the output window's buffer -/

/-- The output window's staging buffer after the body, from the two input blocks: its one store, of the whole
    buffer, whose payload is the product of the two loaded blocks as the skeleton names it. -/
def out4_2 (x0 : Vec F S2048x64 .bf16) (x1 : Vec F S2048x64 .bf16) : Vec F S2048x2048 .f32 :=
  View.canon [⟨r4_o, k4_pay1 (View.ld x0 r4_a) (View.ld x1 r4_b)⟩]

/-- The one store is of the whole buffer, so it covers it. -/
theorem cover4_2 (p0 : Vec F S2048x2048 .f32) (y : S2048x2048.Idx) :
    ∃ pc ∈ ([⟨r4_o, p0⟩] : List (View.Piece (Elt F) S2048x2048 .f32)), y ∈ pc.1.set :=
  View.cover_of_tiled [⟨r4_o, p0⟩] S2048x2048.size (by rfl) y

/-! ## The body's triple -/

set_option maxHeartbeats 1000000 in
/-- The kernel body on whole staging memrefs, the inputs' at read contents `x0`, `x1` and the output's at anything
    (the body loads it before storing, and drops what it loaded), runs to the continuation holding the inputs' as
    they were and the output's at `out4_2 x0 x1`. -/
theorem sound_kernel4 (c : Dev nD) (E : Set ℕ) (i : grid4.Coords)
    (arg0 : Memref sig .tc .vmem S2048x64 .bf16) (harg0 : arg0.IsWhole)
    (arg1 : Memref sig .tc .vmem S2048x64 .bf16) (harg1 : arg1.IsWhole)
    (arg2 : Memref sig .tc .vmem S2048x2048 .f32) (harg2 : arg2.IsWhole)
    (x0 : Vec F S2048x64 .bf16) (x1 : Vec F S2048x64 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out4_2 x0 x1)) -∗ K ⟨⟩))
      ⊢ wp frame (wpE (defs₀ (F := F)) Variants.none c none) E (cc4__gram_kernel i arg0 harg0 arg1 harg1 arg2 harg2) K := by
  simp only [cc4__gram_kernel_eq_skeleton]; unfold cc4__gram_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them; after the body at point `t` each
    input's buffer at its block and the output's at `out4_2` of the two input blocks; the invariant is the scoped
    rest and the generator register, untouched; nothing owed; the two input windows, which read one array, hold the two halves of its full share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## The shared array: the entry and the exit of the region -/

/-- The buffers behind the three windows' arrays are two: the array both input windows read, and the output's. -/
theorem arrImage4 : Finset.univ.image (Pipeline.arrRef spec4) = {main_v51, main_v52} := by decide

/-- The shares the proof data hold the arrays at: the two halves of the full share for the two readers of the one
    input array, the full share for the output's. -/
theorem share4_0 (c : Dev nD) : (dat4 V c).share 0 = fullShare.left := by
  unfold Dat.share; rw [show (cfg4.win 0).isOut = false from rfl]; dsimp only [dat4]; rfl
theorem share4_1 (c : Dev nD) : (dat4 V c).share 1 = fullShare.right := by
  unfold Dat.share; rw [show (cfg4.win 1).isOut = false from rfl]; dsimp only [dat4]; rfl
theorem share4_2 (c : Dev nD) : (dat4 V c).share 2 = fullShare := by
  unfold Dat.share; rw [show (cfg4.win 2).isOut = true from rfl]; rfl

/-- An input array is never written: at every count of write-backs it is the entry contents. -/
theorem arrAt4_0 (c : Dev nD) (n : Nat) : (dat4 V c).arrAt 0 n = V c main_v51 :=
  ((dat4 V c).arrAt_in 0 rfl n).trans (A_eq4 V c 0)
theorem arrAt4_1 (c : Dev nD) (n : Nat) : (dat4 V c).arrAt 1 n = V c main_v51 :=
  ((dat4 V c).arrAt_in 1 rfl n).trans (A_eq4 V c 1)
theorem arrAt4_2_zero (c : Dev nD) : (dat4 V c).arrAt 2 0 = V c main_v52 := A_eq4 V c 2

/-- The proof data's arrays at contents `G`, the windows one by one, each array a whole buffer. -/
theorem arrays4_eq (c : Dev nD) (G : (w : Fin cfg4.W) → Buf (Elt F) ((cfg4.win w).arr.view.loc (c.tc : Thread nD τ))) :
    (dat4 V c).arrays G = (iprop((((c : Thread nD τ).loc main_v51) ↦{fullShare.left} G 0)
      ∗ (((c : Thread nD τ).loc main_v51) ↦{fullShare.right} G 1)
      ∗ (((c : Thread nD τ).loc main_v52) ↦{fullShare} G 2)) : sProp 𝕄) := by
  unfold Dat.arrays
  rw [bigSep_W4, share4_0, share4_1, share4_2]
  -- the two input windows' arrays are one memref: one rewriting serves both
  rw [(arr_whole4 0).set_eq_univ, (arr_whole4 2).set_eq_univ]

/-- The buffers behind the arrays at a valuation, one by one. -/
theorem arrBufs4_eq (c : Dev nD) (V' : (b : Ref sig .tc) → Buf (Elt F) ((c : Thread nD τ).loc b)) :
    (Pipeline.arrBufs spec4 c V' : sProp 𝕄) = iprop((((c : Thread nD τ).loc main_v51) ↦{fullShare} V' main_v51)
      ∗ (((c : Thread nD τ).loc main_v52) ↦{fullShare} V' main_v52)) := by
  unfold Pipeline.arrBufs
  rw [arrImage4, bigSep_insert (by decide), bigSep_singleton]
  rfl

/-- ENTRY: the two buffers whole at the full share at the entry contents give the proof data's arrays there — the input
    array's full share splits into its two halves, one for each window that reads it. -/
theorem split4 (c : Dev nD) : Pipeline.arrBufs spec4 c (V c) ⊢ (dat4 V c).arrays ((dat4 V c).arrAt · 0) := by
  rw [arrBufs4_eq, arrays4_eq, arrAt4_0, arrAt4_1, arrAt4_2_zero]
  iintro ⟨H51, H52⟩
  ihave H := (pointsTo_share (PosShare.mem_left_op_right fullShare)).1 $$ H51
  icases H with ⟨Hl, Hr⟩
  isplitl [Hl]; · iexact Hl
  isplitl [Hr]; · iexact Hr
  iexact H52

/-- EXIT: the proof data's arrays after every write-back give the two buffers back whole at the full share, at any
    valuation that has the input array as it was and the output array at what the write-backs leave — the two halves of
    the input array's share, both still at the entry contents, join. -/
theorem join4_of (c : Dev nD) (V' : (b : Ref sig .tc) → Buf (Elt F) ((c : Thread nD τ).loc b))
    (h51 : V' main_v51 = V c main_v51) (h52 : V' main_v52 = (dat4 V c).arrAt 2 cfg4.N) :
    (dat4 V c).arrays ((dat4 V c).arrAt · cfg4.N) ⊢ Pipeline.arrBufs spec4 c V' := by
  rw [arrBufs4_eq, arrays4_eq, arrAt4_0, arrAt4_1, h51, h52]
  iintro ⟨Hl, Hr, H52⟩
  isplitl [Hl Hr]
  · iapply (pointsTo_share (PosShare.mem_left_op_right fullShare)).2
    isplitl [Hl]; · iexact Hl
    iexact Hr
  iexact H52

/-- The exit at the entry valuation with the output array replaced by what the write-backs leave. -/
theorem join4 (c : Dev nD) :
    (dat4 V c).arrays ((dat4 V c).arrAt · cfg4.N)
      ⊢ Pipeline.arrBufs spec4 c (Function.update (V c) main_v52 ((dat4 V c).arrAt 2 cfg4.N)) :=
  join4_of V c _ (Function.update_of_ne (by decide) _ _) (Function.update_self _ _ _)

end Region4

end Cert.Kernel.Hand

end
-- ==== Proof.LibRegionRecord.lean ====
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit

/-!
# A kernel region's segment record over the thread state "every unscoped buffer at a valuation"

For a program whose @main is host stretches and kernel regions, the thread state between two segments is: every unscoped
TensorCore buffer of the core, whole, at a valuation; the core's generator register at some state; the core owing
nothing. This file builds, once and for any pipeline, the segment record of a kernel region over that thread state:
the region is entered at a valuation W and left at a valuation W' that holds the pipeline's arrays at what the
write-backs leave and agrees with W elsewhere. The pipeline may read prefetched tables: they are unscoped buffers, they
hold the admissible contents at W, they pass through the region's invariant whole and are put back at the exit.
-/

noncomputable section

namespace RegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {U : Type} [URA U]
variable {Λ₀ : Idealize.SL.Sem.Labels} {P : Type} [Fintype P]

local notation "𝕄" => MT nD τ sig Unit Val ℕ U ℕ

/-- A valuation of the device's references read at the TensorCore's references of core c. -/
abbrev tcVal (W : Dev nD → Valuation τ sig Val) (c : Dev nD) (b : Ref sig .tc) : Buf Val ((c : Thread nD τ).loc b) :=
  W c (Proc.devRef .tc b)

/-- What rides beside the buffers through every segment: the core's generator register at some state, and the core
    owing nothing. -/
abbrev rider (c : Dev nD) : sProp 𝕄 :=
  iprop((∃ r, prngReg c r) ∗ ∃ Wo, owes (c : Thread nD τ) (0 : CellTallies nD τ sig Unit) Wo)

/-- The thread state: every unscoped buffer of core c whole at the valuation, beside the rider. -/
abbrev threadState (W : Dev nD → Valuation τ sig Val) (c : Dev nD) : sProp 𝕄 :=
  iprop(StableHlo.held (c : Thread nD τ) (Pipeline.ucRefs τ sig) (W c) ∗ rider (U := U) (Val := Val) c)

section Record

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)

-- the library's lemmas are stated over the pinned pipeline `pin pcs a p`; matching it against the family's member takes
-- unfolding plain definitions inside a metavariable's type
set_option backward.isDefEq.respectTransparency.types false in
/-- The segment record of kernel region p between the valuations W and W'. The proof data lend whole shares and owe
    nothing; their entry arrays are read off W; the tables hold the admissible contents at W; W' has the arrays at what
    the write-backs leave and is W elsewhere; the class invariant and the whole tables yield the data's invariant
    before the first point and are yielded back after the last. -/
def regionSeg
    (hbody : ∀ c, BodyObligationLoose (pdats p c) defs₀ 𝒱₀ () Set.univ)
    (hshare : ∀ c w, (pdats p c).share w = fullShare) (howed : ∀ c t, (pdats p c).owed t = 0)
    (hrec : ∀ c, (pdats p c).recorded 0 = Set.univ)
    (hA : ∀ c w, (pdats p c).A w = tcVal W c (arrRef (pin pcs a p).spec w))
    (hpf : ∀ c k, tcVal W c ((pcs p).pre.ref k) = (a p).1 k)
    (hF : ∀ c w, (pdats p c).arrAt w (pin pcs a p).N = tcVal W' c (arrRef (pin pcs a p).spec w))
    (hrest : ∀ c b, b ∉ Finset.univ.image (arrRef (pin pcs a p).spec) → tcVal W' c b = tcVal W c b)
    (hin : ∀ c, iprop(ΦA (U := U) (pin pcs a p).spec c ∗ prefHeld (Ix := Unit) (Name := ℕ) (U := U) (Lvl := ℕ) (pcs p).pre c (fun _ => fullShare) (a p).1) ⊢ (pdats p c).Φ 0)
    (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1)) :
    RegionSeg pcs a pdats () defs₀ 𝒱₀ (fun _ => ∅) (fun _ _ => 0) p where
  win := kit.win.to₀
  block_pos := kit.block_pos
  stage_whole := kit.stage_whole
  K := PEmpty
  osem k := k.elim
  ho := OwnSemFacts.none _
  hbody := hbody
  hwaits := hwaits_of_owed_zero _ _ _ _ _ _ p howed
  pre c := threadState W c
  post c := threadState W' c
  X c := iprop(∃ r, prngReg c r)
  Y c := iprop((∃ r, prngReg c r) ∗ prefHeld (Ix := Unit) (Name := ℕ) (U := U) (Lvl := ℕ) (pcs p).pre c (fun _ => fullShare) (a p).1)
  Z c := unscopedRestP (Ix := Unit) (Name := ℕ) (U := U) (Lvl := ℕ) (pcs p).pre (pin pcs a p).spec c (tcVal W c)
  hentry c := by
    rw [ownSems0_none]
    have hsplit := arrays_of_unscopedBufs (p := p) pcs a pdats kit.win kit.arr_whole c (hshare c) (tcVal W c) (hA c)
    rw [unscopedBufs_held, unscopedRest_split kit.pre c (tcVal W c),
      show (fun k => tcVal W c ((pcs p).pre.ref k)) = (a p).1 from funext (hpf c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Dat.owesAt owesWithin
      rw [howed c 0]
      icases HO with ⟨%Wo, HO⟩; iexists Wo; isplitr
      · ipureintro; exact fun x _ => Or.inl (by rw [hrec c]; trivial)
      iexact HO
    isplitl [Hp]; · iexact Hp
    iexact Hrest
  hin c := by
    refine BIBase.Entails.trans ?_ (hin c)
    unfold ΦA
    iintro ⟨Hp, Ht, Hr⟩
    isplitr [Ht]
    · isplitl [Hr] <;> iassumption
    · iexact Ht
  hout c := by
    refine (hout c).trans ?_
    rw [ownSems0_none]; unfold ΦA
    iintro ⟨⟨Hr, Hp⟩, Ht⟩
    isplitl [Hp Ht]
    · isplitl [Hp] <;> iassumption
    isplitr; · iempintro
    iexact Hr
  hexit c := by
    have hjoin := unscopedBufs_of_arrays (p := p) pcs a (Ix := Unit) (Name := ℕ) (U := U) (Lvl := ℕ)
      kit.win kit.arr_whole c pdats (hshare c) (tcVal W c) (tcVal W' c) ((pdats p c).arrAt · (pin pcs a p).N) (hF c) (hrest c)
    rw [unscopedBufs_held, unscopedRest_split kit.pre c (tcVal W c),
      show (fun k => tcVal W c ((pcs p).pre.ref k)) = (a p).1 from funext (hpf c)] at hjoin
    iintro ⟨Ha, HO, ⟨HY, Ht⟩, Hrest⟩
    imodintro
    isplitl [Ha Ht Hrest]
    · iapply hjoin
      isplitl [Ha]; · iexact Ha
      isplitl [Ht] <;> iassumption
    isplitl [HY]; · iexact HY
    unfold Dat.owesAt owesWithin
    rw [howed c (Fin.last _)]
    icases HO with ⟨%Wo, -, HO⟩; iexists Wo; iexact HO

end Record

section Ends

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)
  (hbody : ∀ c, BodyObligationLoose (pdats p c) defs₀ 𝒱₀ () Set.univ)
  (hshare : ∀ c w, (pdats p c).share w = fullShare) (howed : ∀ c t, (pdats p c).owed t = 0)
  (hrec : ∀ c, (pdats p c).recorded 0 = Set.univ)
  (hA : ∀ c w, (pdats p c).A w = tcVal W c (arrRef (pin pcs a p).spec w))
  (hpf : ∀ c k, tcVal W c ((pcs p).pre.ref k) = (a p).1 k)
  (hF : ∀ c w, (pdats p c).arrAt w (pin pcs a p).N = tcVal W' c (arrRef (pin pcs a p).spec w))
  (hrest : ∀ c b, b ∉ Finset.univ.image (arrRef (pin pcs a p).spec) → tcVal W' c b = tcVal W c b)
  (hin : ∀ c, iprop(ΦA (U := U) (pin pcs a p).spec c ∗ prefHeld (Ix := Unit) (Name := ℕ) (U := U) (Lvl := ℕ) (pcs p).pre c (fun _ => fullShare) (a p).1) ⊢ (pdats p c).Φ 0)
  (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1))

/-- The record is entered from the thread state at W … -/
theorem regionSeg_pre (c : Dev nD) :
    (regionSeg pcs a pdats p kit defs₀ 𝒱₀ W W' hbody hshare howed hrec hA hpf hF hrest hin hout).pre c = threadState W c := rfl

/-- … and left at the thread state at W'. -/
theorem regionSeg_post (c : Dev nD) :
    (regionSeg pcs a pdats p kit defs₀ 𝒱₀ W W' hbody hshare howed hrec hA hpf hF hrest hin hout).post c = threadState W' c := rfl

end Ends

end RegionRecord

end
-- ==== Proof.RunK_W.lean ====
import proofs.«180263_j1236950581835_2_alg».proof.Proof.FrameK_R0
import proofs.«180263_j1236950581835_2_alg».proof.Proof.FrameK_R1
import proofs.«180263_j1236950581835_2_alg».proof.Proof.FrameK_R2
import proofs.«180263_j1236950581835_2_alg».proof.Proof.FrameK_R3
import proofs.«180263_j1236950581835_2_alg».proof.Proof.FrameK_R4
import proofs.«180263_j1236950581835_2_alg».proof.Proof.LibRegionRecord

/-!
# The run of @main: five kernel regions among four stretches of host operations

The buffer contents at every boundary between two items of @main, as a fold from the launch memory: a stretch of host
operations applies them; a region leaves its arrays at what its write-backs wrote and every other buffer as entered.
Every region is a segment between two such contents; the launch theorem for several regions then says that every
weakly fair execution ends with every unscoped buffer at the last contents.
-/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After region 2: its arrays at what the write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- After region 3: its arrays at what the write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b

/-- After region 4: the result array at what the write-backs leave; the array its two input windows share, and every
    other buffer, as entered. -/
def W9 (c : Dev nD) : Valuation τ sig (Elt F) :=
  Function.update (W8 m ρ c) (Proc.devRef .tc main_v52) ((dat4 (V8 m ρ) c).arrAt 2 cfg4.N)
abbrev V9 : (c : Dev nD) → (b : Ref sig .tc) → Buf (Elt F) ((c : Thread nD τ).loc b) := fun c b => W9 m ρ c b

/-! ## The proof data family and the thread state -/

abbrev adm : (p : Fin 5) → (pcfgs (F := F) p).Adm := fun p => (cfgs p).toPCfg_adm
/-- Every pipeline's proof data at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V8 m ρ) c
abbrev 𝒱₀ : Variants := Variants.none
abbrev L : GSem nD τ sig → Finset Unit := fun _ => ∅
abbrev lv : GSem nD τ sig → Unit → ℕ := fun _ _ => 0

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

/-- A stretch of host operations as a segment over the thread state. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (RegionRecord.rider (U := UR sig nD τ) (Val := Elt F))

end Cert.Kernel.Hand

end
-- ==== Proof.RunK_R.lean ====
import proofs.«180263_j1236950581835_2_alg».proof.Proof.RunK_W
import proofs.«180263_j1236950581835_2_alg».proof.Proof.LibRegionRecord

/-! # The run of @main: regions 0 to 3 as segments between the boundary contents -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

set_option backward.isDefEq.respectTransparency.types false in
/-- Region 0 between the contents W1 and W2: the class invariant in and out. -/
def reg0 : Pipeline.RegionSeg (pcfgs (F := F)) adm (pdats m ρ) () defs₀ 𝒱₀ L lv 0 :=
  RegionRecord.regionSeg (U := UR sig nD τ) (pcfgs (F := F)) adm (pdats m ρ) 0 launch0.toP defs₀ 𝒱₀ (W1 m ρ) (W2 m ρ)
    (fun c => (body_obligation0 (V1 m ρ) c).loose)
    (fun c => (pdats m ρ 0 c).share_full fun _ => rfl) (fun _ _ => rfl) (fun _ => rfl)
    (fun _ _ => rfl) (fun _ k => k.elim0) (hF0 m ρ) (hrest0 m ρ)
    (fun c => by
      rw [show (pdats m ρ 0 c).Φ 0 = Pipeline.ΦA spec0 c from rfl]
      iintro ⟨H, -⟩; iexact H)
    (fun c => by
      rw [show (pdats m ρ 0 c).Φ (Fin.last _) = Pipeline.ΦA spec0 c from rfl]
      iintro H; isplitl [H]; · iexact H
      unfold Pipeline.prefHeld; rw [show (Finset.univ : Finset (Fin 0)) = ∅ from rfl, BI.bigSep_empty]; iempintro)

set_option backward.isDefEq.respectTransparency.types false in
/-- Region 1 between the contents W3 and W4: entered from the class invariant, which the invariant after the
    last point gives back. -/
def reg1 : Pipeline.RegionSeg (pcfgs (F := F)) adm (pdats m ρ) () defs₀ 𝒱₀ L lv 1 :=
  RegionRecord.regionSeg (U := UR sig nD τ) (pcfgs (F := F)) adm (pdats m ρ) 1 launch1.toP defs₀ 𝒱₀ (W3 m ρ) (W4 m ρ)
    (fun c => (body_obligation1 (V3 m ρ) c).loose)
    (fun c => (pdats m ρ 1 c).share_full fun _ => rfl) (fun _ _ => rfl) (fun _ => rfl)
    (fun _ _ => rfl) (fun _ k => k.elim0) (hF1 m ρ) (hrest1 m ρ)
    (fun c => by
      refine BIBase.Entails.trans ?_ (hin1 (V3 m ρ) c)
      iintro ⟨H, -⟩; iexact H)
    (fun c => by
      refine (hout1 (V3 m ρ) c).trans ?_
      iintro H; isplitl [H]; · iexact H
      unfold Pipeline.prefHeld; rw [show (Finset.univ : Finset (Fin 0)) = ∅ from rfl, BI.bigSep_empty]; iempintro)

set_option backward.isDefEq.respectTransparency.types false in
/-- Region 2 between the contents W4 and W5: the class invariant in and out. -/
def reg2 : Pipeline.RegionSeg (pcfgs (F := F)) adm (pdats m ρ) () defs₀ 𝒱₀ L lv 2 :=
  RegionRecord.regionSeg (U := UR sig nD τ) (pcfgs (F := F)) adm (pdats m ρ) 2 launch2.toP defs₀ 𝒱₀ (W4 m ρ) (W5 m ρ)
    (fun c => (body_obligation2 (V4 m ρ) c).loose)
    (fun c => (pdats m ρ 2 c).share_full fun _ => rfl) (fun _ _ => rfl) (fun _ => rfl)
    (fun _ _ => rfl) (fun _ k => k.elim0) (hF2 m ρ) (hrest2 m ρ)
    (fun c => by
      rw [show (pdats m ρ 2 c).Φ 0 = Pipeline.ΦA spec2 c from rfl]
      iintro ⟨H, -⟩; iexact H)
    (fun c => by
      rw [show (pdats m ρ 2 c).Φ (Fin.last _) = Pipeline.ΦA spec2 c from rfl]
      iintro H; isplitl [H]; · iexact H
      unfold Pipeline.prefHeld; rw [show (Finset.univ : Finset (Fin 0)) = ∅ from rfl, BI.bigSep_empty]; iempintro)

set_option backward.isDefEq.respectTransparency.types false in
/-- Region 3 between the contents W6 and W7: entered from the class invariant, which the invariant after the
    last point gives back. -/
def reg3 : Pipeline.RegionSeg (pcfgs (F := F)) adm (pdats m ρ) () defs₀ 𝒱₀ L lv 3 :=
  RegionRecord.regionSeg (U := UR sig nD τ) (pcfgs (F := F)) adm (pdats m ρ) 3 launch3.toP defs₀ 𝒱₀ (W6 m ρ) (W7 m ρ)
    (fun c => (body_obligation3 (V6 m ρ) c).loose)
    (fun c => (pdats m ρ 3 c).share_full fun _ => rfl) (fun _ _ => rfl) (fun _ => rfl)
    (fun _ _ => rfl) (fun _ k => k.elim0) (hF3 m ρ) (hrest3 m ρ)
    (fun c => by
      refine BIBase.Entails.trans ?_ (hin3 (V6 m ρ) c)
      iintro ⟨H, -⟩; iexact H)
    (fun c => by
      refine (hout3 (V6 m ρ) c).trans ?_
      iintro H; isplitl [H]; · iexact H
      unfold Pipeline.prefHeld; rw [show (Finset.univ : Finset (Fin 0)) = ∅ from rfl, BI.bigSep_empty]; iempintro)

end Cert.Kernel.Hand

end
-- ==== Proof.RunK_R4.lean ====
import proofs.«180263_j1236950581835_2_alg».proof.Proof.RunK_W
import proofs.«180263_j1236950581835_2_alg».proof.Proof.LibRegionRecord

/-!
# The last kernel region as a segment of the run

The last pallas_call reads one array through both of its input windows, so its arrays are not distinct buffers and the
general record of a region over the thread state "every unscoped buffer at a valuation" does not apply: this file
writes the record by hand, in the same way. At the entry the unscoped buffers at the entry valuation split into the two
buffers behind the three windows' arrays and the rest; the shared input array's full share splits into the two halves
the two windows hold. At the exit the halves join, the result array is at what the write-backs leave, and the rest is
untouched: the unscoped buffers at the exit valuation, which differs from the entry's at the result array only.
-/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The exit valuation against the entry's -/

/-- The exit valuation has the result array at what the write-backs leave, -/
theorem V9_out (c : Dev nD) : V9 m ρ c main_v52 = (dat4 (V8 m ρ) c).arrAt 2 cfg4.N := by
  unfold V9 W9; exact Function.update_self _ _ _

/-- and every other buffer as the region was entered: -/
theorem V9_of_ne (c : Dev nD) (b : Ref sig .tc) (hb : b ≠ main_v52) : V9 m ρ c b = V8 m ρ c b := by
  unfold V9 W9; exact Function.update_of_ne (fun h => hb (Proc.devRef_injective _ h)) _ _

/-- the array the two input windows share, in particular. -/
theorem V9_in (c : Dev nD) : V9 m ρ c main_v51 = V8 m ρ c main_v51 := V9_of_ne m ρ c main_v51 (by decide)

/-- The unscoped buffers that are no array of the region's are held at the same contents by both valuations. -/
theorem rest4_eq (c : Dev nD) :
    (Pipeline.unscopedRest (Ix := Unit) (Name := ℕ) (U := UR sig nD τ) (Lvl := ℕ) spec4 c (V9 m ρ c) : sProp 𝕄)
      = Pipeline.unscopedRest spec4 c (V8 m ρ c) := by
  unfold Pipeline.unscopedRest
  refine bigSep_congr fun b hb => ?_
  rw [V9_of_ne m ρ c b fun e => (Finset.mem_sdiff.mp hb).2 (by rw [e, arrImage4]; decide)]

/-- The core's unscoped buffers at a valuation: the two buffers behind the region's arrays, and the rest. -/
theorem unscoped4_split (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs spec4 c V' ∗ Pipeline.unscopedRest spec4 c V') :=
  Pipeline.unscopedBufs_split₀ (cfgs) (4 : Fin 5) winFacts₀4.arr_unscoped c V'

/-! ## The record -/

-- the library's statements are over the pinned pipeline: matching it against the family's member takes unfolding
-- plain definitions inside a metavariable's type
set_option backward.isDefEq.respectTransparency.types false in
/-- The last region over the thread state: entered from every unscoped buffer at the entry valuation, left at the exit
    valuation. The generator register goes into the class invariant and comes out; nothing is owed; the kernel has no
    semaphore of its own. -/
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V8 m ρ) c).loose
  hwaits := Pipeline.hwaits_of_owed_zero _ _ _ _ L lv 4 fun _ _ => rfl
  pre c := RegionRecord.threadState (U := UR sig nD τ) (W8 m ρ) c
  post c := RegionRecord.threadState (U := UR sig nD τ) (W9 m ρ) c
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hub : (StableHlo.held (c : Thread nD τ) (Pipeline.ucRefs τ sig) (W8 m ρ c) : sProp 𝕄)
        = iprop(Pipeline.arrBufs spec4 c (V8 m ρ c) ∗ Pipeline.unscopedRest spec4 c (V8 m ρ c)) := by
      rw [← Pipeline.unscopedBufs_held]; exact unscoped4_split c (V8 m ρ c)
    unfold RegionRecord.threadState
    rw [hub]
    iintro ⟨⟨⟨Hb, Hrest⟩, Hp, HO⟩, -, -⟩
    ihave Ha := (split4 (V8 m ρ) c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hub : (StableHlo.held (c : Thread nD τ) (Pipeline.ucRefs τ sig) (W9 m ρ c) : sProp 𝕄)
        = iprop(Pipeline.arrBufs spec4 c (V9 m ρ c) ∗ Pipeline.unscopedRest spec4 c (V8 m ρ c)) := by
      rw [← Pipeline.unscopedBufs_held, ← rest4_eq m ρ c]; exact unscoped4_split c (V9 m ρ c)
    unfold RegionRecord.threadState
    rw [hub]
    iintro ⟨Ha, HO, HY, Hrest⟩
    imodintro
    isplitl [Ha Hrest]
    · isplitl [Ha]
      · iapply (join4_of (V8 m ρ) c (V9 m ρ c) (V9_in m ρ c) (V9_out m ρ c)); iexact Ha
      iexact Hrest
    isplitl [HY]; · iexact HY
    unfold Pipeline.Dat.owesAt Pipeline.owesWithin
    icases HO with ⟨%Wo, -, HO⟩; iexists Wo; iexact HO

/-- The record is entered from the thread state at the entry valuation -/
theorem reg4_pre (c : Dev nD) : (reg4 m ρ).pre c = RegionRecord.threadState (U := UR sig nD τ) (W8 m ρ) c := rfl

/-- and left at the thread state at the exit valuation. -/
theorem reg4_post (c : Dev nD) : (reg4 m ρ).post c = RegionRecord.threadState (U := UR sig nD τ) (W9 m ρ) c := rfl

end Cert.Kernel.Hand

end
-- ==== Proof.RunK.lean ====
import proofs.«180263_j1236950581835_2_alg».proof.Proof.RunK_R
import proofs.«180263_j1236950581835_2_alg».proof.Proof.RunK_R4

/-! # The run of @main: its nine items as segments, and the launch -/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's nine items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .host (hseg hostOps4 hostOps4_sub hostOps4_fresh (W7 m ρ)),
    .region (reg4 m ρ) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
set_option maxHeartbeats 1600000 in
/-- From any memory with zero counters, every weakly fair execution of @main on the TensorCores terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => RegionRecord.threadState (U := UR sig nD τ) (W0 m ρ) c)
    (Tₙ := fun c => iprop(StableHlo.held (c : Thread nD τ) (Pipeline.ucRefs τ sig) (W9 m ρ c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show RegionRecord.threadState (U := UR sig nD τ) (W9 m ρ) c
          ⊢ iprop((StableHlo.held (c : Thread nD τ) (Pipeline.ucRefs τ sig) (W9 m ρ c) ∗ ∃ r, prngReg c r) ∗ ∃ W, owes (c : Thread nD τ) (0 : CellTallies nD τ sig Unit) W)
        iintro ⟨Hh, Hr, HO⟩
        isplitl [Hh Hr]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Kernel.Hand

end
-- ==== Proof.RunK_Keep.lean ====
import proofs.«180263_j1236950581835_2_alg».proof.Proof.RunK_W
import proofs.«180263_j1236950581835_2_alg».proof.Proof.RegionsK

/-!
# What each item of @main leaves unchanged

A stretch of host operations changes only the buffers its operations write; a region changes only its result array.
So each argument array reaches the end as launched, and each region's operands are what earlier items left.
-/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem host0 (c : Dev nD) (b : Ref sig .tc) (h : b ∉ hostOps0_W) : W1 m ρ c (Proc.devRef .tc b) = W0 m ρ c (Proc.devRef .tc b) :=
  StableHlo.after_of_writes_sub hostOps0 _ hostOps0_writes h
theorem host1 (c : Dev nD) (b : Ref sig .tc) (h : b ∉ hostOps1_W) : W3 m ρ c (Proc.devRef .tc b) = W2 m ρ c (Proc.devRef .tc b) :=
  StableHlo.after_of_writes_sub hostOps1 _ hostOps1_writes h
theorem host3 (c : Dev nD) (b : Ref sig .tc) (h : b ∉ hostOps3_W) : W6 m ρ c (Proc.devRef .tc b) = W5 m ρ c (Proc.devRef .tc b) :=
  StableHlo.after_of_writes_sub hostOps3 _ hostOps3_writes h
theorem host4 (c : Dev nD) (b : Ref sig .tc) (h : b ∉ hostOps4_W) : W8 m ρ c (Proc.devRef .tc b) = W7 m ρ c (Proc.devRef .tc b) :=
  StableHlo.after_of_writes_sub hostOps4 _ hostOps4_writes h

/-- Region 0 leaves every buffer but its result array as it found it: an input window's array by the write-backs
    touching outputs only, any other buffer by not being one of the pipeline's arrays. -/
theorem keep0 (c : Dev nD) (b : Ref sig .tc) (hb : b ≠ main_v45) :
    W2 m ρ c (Proc.devRef .tc b) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_arg2
  · subst h1; exact (W2_arr m ρ c 1).trans (((dat0 (V1 m ρ) c).arrAt_in 1 rfl _).trans (A_eq0 (V1 m ρ) c 1))
  exact W2_of_ne m ρ c b (fun w e => by
    fin_cases w
    · exact h0 e.symm
    · exact h1 e.symm
    · exact hb e.symm)

/-- Region 1 leaves every buffer but its result array as it found it: an input window's array by the write-backs
    touching outputs only, any other buffer by not being one of the pipeline's arrays. -/
theorem keep1 (c : Dev nD) (b : Ref sig .tc) (hb : b ≠ main_v47) :
    W4 m ρ c (Proc.devRef .tc b) = W3 m ρ c (Proc.devRef .tc b) := by
  by_cases h0 : b = main_v44
  · subst h0; exact (W4_arr m ρ c 0).trans (((dat1 (V3 m ρ) c).arrAt_in 0 rfl _).trans (A_eq1 (V3 m ρ) c 0))
  by_cases h1 : b = main_v45
  · subst h1; exact (W4_arr m ρ c 1).trans (((dat1 (V3 m ρ) c).arrAt_in 1 rfl _).trans (A_eq1 (V3 m ρ) c 1))
  by_cases h2 : b = main_v46
  · subst h2; exact (W4_arr m ρ c 2).trans (((dat1 (V3 m ρ) c).arrAt_in 2 rfl _).trans (A_eq1 (V3 m ρ) c 2))
  exact W4_of_ne m ρ c b (fun w e => by
    fin_cases w
    · exact h0 e.symm
    · exact h1 e.symm
    · exact h2 e.symm
    · exact hb e.symm)

/-- Region 2 leaves every buffer but its result array as it found it: an input window's array by the write-backs
    touching outputs only, any other buffer by not being one of the pipeline's arrays. -/
theorem keep2 (c : Dev nD) (b : Ref sig .tc) (hb : b ≠ main_v48) :
    W5 m ρ c (Proc.devRef .tc b) = W4 m ρ c (Proc.devRef .tc b) := by
  by_cases h0 : b = main_v47
  · subst h0; exact (W5_arr m ρ c 0).trans (((dat2 (V4 m ρ) c).arrAt_in 0 rfl _).trans (A_eq2 (V4 m ρ) c 0))
  by_cases h1 : b = main_arg4
  · subst h1; exact (W5_arr m ρ c 1).trans (((dat2 (V4 m ρ) c).arrAt_in 1 rfl _).trans (A_eq2 (V4 m ρ) c 1))
  exact W5_of_ne m ρ c b (fun w e => by
    fin_cases w
    · exact h0 e.symm
    · exact h1 e.symm
    · exact hb e.symm)

/-- Region 3 leaves every buffer but its result array as it found it: an input window's array by the write-backs
    touching outputs only, any other buffer by not being one of the pipeline's arrays. -/
theorem keep3 (c : Dev nD) (b : Ref sig .tc) (hb : b ≠ main_v50) :
    W7 m ρ c (Proc.devRef .tc b) = W6 m ρ c (Proc.devRef .tc b) := by
  by_cases h0 : b = main_v44
  · subst h0; exact (W7_arr m ρ c 0).trans (((dat3 (V6 m ρ) c).arrAt_in 0 rfl _).trans (A_eq3 (V6 m ρ) c 0))
  by_cases h1 : b = main_v48
  · subst h1; exact (W7_arr m ρ c 1).trans (((dat3 (V6 m ρ) c).arrAt_in 1 rfl _).trans (A_eq3 (V6 m ρ) c 1))
  by_cases h2 : b = main_v49
  · subst h2; exact (W7_arr m ρ c 2).trans (((dat3 (V6 m ρ) c).arrAt_in 2 rfl _).trans (A_eq3 (V6 m ρ) c 2))
  exact W7_of_ne m ρ c b (fun w e => by
    fin_cases w
    · exact h0 e.symm
    · exact h1 e.symm
    · exact h2 e.symm
    · exact hb e.symm)

/-- Region 4 leaves every buffer but its result array as it found it. -/
theorem keep4 (c : Dev nD) (b : Ref sig .tc) (hb : b ≠ main_v52) :
    W9 m ρ c (Proc.devRef .tc b) = W8 m ρ c (Proc.devRef .tc b) := by
  unfold W9
  exact Function.update_of_ne (StableHlo.devRef_ne_of_ne hb) _ _

/-- The result array at the end: what region 4's write-backs leave. -/
theorem W9_result (c : Dev nD) : W9 m ρ c (Proc.devRef .tc main_v52) = (dat4 (V8 m ρ) c).arrAt 2 cfg4.N := by
  unfold W9; exact Function.update_self _ _ _

/-- A buffer no stretch of host operations writes and no region has as its result reaches the end as launched. -/
theorem W9_kept (c : Dev nD) (b : Ref sig .tc) (h0 : b ∉ hostOps0_W) (h1 : b ∉ hostOps1_W) (h3 : b ∉ hostOps3_W) (h4 : b ∉ hostOps4_W)
    (n45 : b ≠ main_v45) (n47 : b ≠ main_v47) (n48 : b ≠ main_v48) (n50 : b ≠ main_v50) (n52 : b ≠ main_v52) :
    W9 m ρ c (Proc.devRef .tc b) = m ((c : Thread nD τ).loc b) :=
  (keep4 m ρ c b n52).trans <| (host4 m ρ c b h4).trans <| (keep3 m ρ c b n50).trans <| (host3 m ρ c b h3).trans <|
    (keep2 m ρ c b n48).trans <| (keep1 m ρ c b n47).trans <| (host1 m ρ c b h1).trans <| (keep0 m ρ c b n45).trans <|
    (host0 m ρ c b h0).trans rfl

theorem W9_main_arg0 (c : Dev nD) : W9 m ρ c (Proc.devRef .tc main_arg0) = m ((c : Thread nD τ).loc main_arg0) :=
  W9_kept m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_kept m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_kept m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_kept m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_kept m ρ c main_arg4 (by decide) (by decide) (by decide) (by decide) (by decide) (by decide) (by decide) (by decide) (by decide)
theorem W9_main_arg5 (c : Dev nD) : W9 m ρ c (Proc.devRef .tc main_arg5) = m ((c : Thread nD τ).loc main_arg5) :=
  W9_kept m ρ c main_arg5 (by decide) (by decide) (by decide) (by decide) (by decide) (by decide) (by decide) (by decide) (by decide)

end Cert.Kernel.Hand

end
-- ==== Proof.FrameKI_R0.lean ====
/- The frame half of pallas_call 0 (`cc0__matmul_kernel`), written by hand at a parameter `V`, the TensorCore's buffer
   contents when the region is entered. The body loads its two input windows' staging buffers whole, computes one
   block and stores it whole into the output window's staging buffer: what it leaves there is a closed function of
   the two input blocks at the point (`out0_2`), and what it finds in an input buffer is that window's block of the
   array as the region found it (`iblk0`), fetched at the point or not. From these: the proof data `dat0` and
   the body obligation at every point. Generic in the float instance. -/
import proofs.«180263_j1236950581835_2_alg».proof.Proof.LaunchKI
import proofs.«180263_j1236950581835_2_alg».proof.Proof.Gen.KernelIdeal.Skeleton
import proofs.«180263_j1236950581835_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural recursion goes once per coordinate of the long axes
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents at the region's entry
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is the entry contents and whose body leaves the block in place: where the pipeline does not
    fetch, the block index has not moved, and the buffer still holds the previous point's block, which is this
    point's. Both input windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_a : Rect S1536x128 := Rect.unit (s := S1536x128) ![0, 0] S1536x128.size inb_S1536x128_S1536x128_0_0
abbrev r0_b : Rect S128x128 := Rect.unit (s := S128x128) ![0, 0] S128x128.size inb_S128x128_S128x128_0_0
abbrev r0_o : Rect S1536x128 := Rect.unit (s := S1536x128) ![0, 0] S1536x128.size inb_S1536x128_S1536x128_0_0

/-! ## What the body leaves in the output window's buffer -/

/-- The output window's staging buffer after the body, from the two input blocks: its one store, of the whole
    buffer, whose payload is the product of the two loaded blocks as the skeleton names it. -/
def out0_2 (x0 : Vec F S1536x128 .f32) (x1 : Vec F S128x128 .f32) : Vec F S1536x128 .f32 :=
  View.canon [⟨r0_o, k0_pay1 (View.ld x0 r0_a) (View.ld x1 r0_b)⟩]

/-- The one store is of the whole buffer, so it covers it. -/
theorem cover0_2 (p0 : Vec F S1536x128 .f32) (y : S1536x128.Idx) :
    ∃ pc ∈ ([⟨r0_o, p0⟩] : List (View.Piece (Elt F) S1536x128 .f32)), y ∈ pc.1.set :=
  View.cover_of_tiled [⟨r0_o, p0⟩] S1536x128.size (by rfl) y

/-! ## The body's triple -/

set_option maxHeartbeats 1000000 in
/-- The kernel body on whole staging memrefs, the inputs' at read contents `x0`, `x1` and the output's at anything
    (the body loads it before storing, and drops what it loaded), runs to the continuation holding the inputs' as
    they were and the output's at `out0_2 x0 x1`. -/
theorem sound_kernel0 (c : Dev nD) (E : Set ℕ) (i : grid0.Coords)
    (arg0 : Memref sig .tc .vmem S1536x128 .f32) (harg0 : arg0.IsWhole)
    (arg1 : Memref sig .tc .vmem S128x128 .f32) (harg1 : arg1.IsWhole)
    (arg2 : Memref sig .tc .vmem S1536x128 .f32) (harg2 : arg2.IsWhole)
    (x0 : Vec F S1536x128 .f32) (x1 : Vec F S128x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.FrameKI_R1s.lean ====
import proofs.«180263_j1236950581835_2_alg».proof.Proof.LaunchKI
import proofs.«180263_j1236950581835_2_alg».proof.Proof.Gen.KernelIdeal.Skeleton
import proofs.«180263_j1236950581835_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# Region 1: a row block of A·h accumulated over eight column blocks — what its runs share

The grid is 8 × 8: point t works on row block t / 8 and column block t % 8. The body zeroes its accumulator at the
first column block, adds the product of the two staged blocks at every point, and at the last column block stores the
accumulator plus the bias row into the output block. Here: the staged blocks read off the entry contents, the two
conditions of the body decided over the grid, where the output window is idle, and the class invariant with the
accumulator split off.
-/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at point t, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or the block
    index did not move, for any proof data over the entry contents whose body leaves the block in place. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The body's two conditions over the grid -/

/-- "This is the first column block": the body's first condition, from the grid coordinates. -/
abbrev isFirst1 (i : grid1.Coords) : Prop := (Scalar.cmpi .ne (Scalar.extui (Scalar.cmpi .eq (BitVec.ofNat 32 (i 1).val) 0#32)) 0#32) = 1#1
theorem isFirst1_iff : ∀ t : Fin cfg1.N, isFirst1 (grid1.coords t) ↔ t.val % 8 = 0 :=
  (by decide +kernel : ∀ t : Fin grid1.N, isFirst1 (grid1.coords t) ↔ t.val % 8 = 0)

/-- "This is the last column block": the body's second condition. -/
abbrev isLast1 (i : grid1.Coords) : Prop := k1_cond2 i = 1#1
theorem isLast1_iff : ∀ t : Fin cfg1.N, isLast1 (grid1.coords t) ↔ t.val % 8 = 7 :=
  (by decide +kernel : ∀ t : Fin grid1.N, isLast1 (grid1.coords t) ↔ t.val % 8 = 7)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last column block the body stores nothing into the output block, and the block is not written back. -/
theorem idle1_3 : ∀ t : Fin cfg1.N, ¬isLast1 (grid1.coords t) → cfg1.idle 3 (grid1.coords t) = true := by decide +kernel
theorem noFlush1_3 : ∀ t : Fin cfg1.N, ¬isLast1 (grid1.coords t) → (cfg1.win 3).flush t = false := by decide +kernel
theorem live1_3 : ∀ t : Fin cfg1.N, isLast1 (grid1.coords t) → cfg1.idle 3 (grid1.coords t) = false := by decide +kernel

/-! ## The memrefs the body is called with -/

/-- One staging buffer of the output window, through which its contents are stated. -/
abbrev outV1 : View sig .tc .vmem S1536x128 .f32 := (Memref.whole cc1_stg3_0 : Memref sig .tc .vmem S1536x128 .f32).view
abbrev mem1_0 (t : Fin cfg1.N) : Memref sig .tc .vmem S1536x1536 .bf16 := win1_0.stage (cfg1.slots t 0)
abbrev whole1_0 (t : Fin cfg1.N) : (mem1_0 t).IsWhole := hstage1_0 ((cfg1.slots t 0).cast nbuf1_0)
abbrev mem1_1 (t : Fin cfg1.N) : Memref sig .tc .vmem S1536x128 .f32 := win1_1.stage (cfg1.slots t 1)
abbrev whole1_1 (t : Fin cfg1.N) : (mem1_1 t).IsWhole := hstage1_1 ((cfg1.slots t 1).cast nbuf1_1)
abbrev mem1_2 (t : Fin cfg1.N) : Memref sig .tc .vmem S1x128 .f32 := win1_2.stage (cfg1.slots t 2)
abbrev whole1_2 (t : Fin cfg1.N) : (mem1_2 t).IsWhole := hstage1_2 ((cfg1.slots t 2).cast nbuf1_2)
abbrev mem1_3 (t : Fin cfg1.N) : Memref sig .tc .vmem S1536x128 .f32 := win1_3.stage (cfg1.slots t 3)
abbrev whole1_3 (t : Fin cfg1.N) : (mem1_3 t).IsWhole := hstage1_3 ((cfg1.slots t 3).cast nbuf1_3)
/-- The accumulator: a whole scoped buffer of the kernel's own. -/
abbrev accM1 : Memref sig .tc .vmem S1536x128 .f32 := Memref.whole cc1_scratch0
abbrev accV1 : View sig .tc .vmem S1536x128 .f32 := accM1.view

/-- The class invariant with the accumulator as a memref owned at some contents, beside the other scoped buffers
    and the generator register. -/
theorem PhiA1_eq (c : Dev nD) :
    (Pipeline.ΦA spec1 c : sProp 𝕄)
      = iprop(iprop(iprop((∃ d, owns (c : Thread nD τ) accM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [accM1, owns_whole]; try rfl

end Cert.KernelIdeal.Hand

end
-- ==== Proof.FrameKI_R1runFirst.lean ====
import proofs.«180263_j1236950581835_2_alg».proof.Proof.FrameKI_R1s

/-! # Region 1: the body run at a first column block -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a FIRST column block (not the last): on whole memrefs, the inputs' at their contents, the output's at
    contents handed back untouched, the accumulator at anything, it runs to the continuation holding the inputs' and the
    output's as they were and the accumulator with its stores written (zero, then zero plus the block product). The
    stores are the witness the run finds. -/
noncomputable def runFirst1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : isFirst1 i) (hc1 : ¬isLast1 i)
    (x0 : Vec F S1536x1536 .bf16) (x1 : Vec F S1536x128 .f32) (x2 : Vec F S1x128 .f32) :
    Σ' (LO : List (View.Piece (Elt F) S1536x128 .f32)), { LS : List (View.Piece (Elt F) S1536x128 .f32) //
      ∀ (xo : Vec F S1536x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__spmm_kernel i arg2 harg2 arg3 harg3 arg4 harg4 arg5 harg5 arg6 harg6) K } := by
  refine ⟨[], ?_, fun xo E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.FrameKI_R1runMid.lean ====
import proofs.«180263_j1236950581835_2_alg».proof.Proof.FrameKI_R1s

/-! # Region 1: the body run at a mid column block -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a column block that is neither first nor last: the accumulator comes in at what the point before left
    and goes out with the block product added; the output's buffer is handed back untouched. -/
noncomputable def runMid1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : ¬isLast1 i)
    (x0 : Vec F S1536x1536 .bf16) (x1 : Vec F S1536x128 .f32) (x2 : Vec F S1x128 .f32) (xs : Vec F S1536x128 .f32) :
    Σ' (LO : List (View.Piece (Elt F) S1536x128 .f32)), { LS : List (View.Piece (Elt F) S1536x128 .f32) //
      ∀ (xo : Vec F S1536x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__spmm_kernel i arg2 harg2 arg3 harg3 arg4 harg4 arg5 harg5 arg6 harg6) K } := by
  refine ⟨[], ?_, fun xo E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.FrameKI_R1runLast.lean ====
import proofs.«180263_j1236950581835_2_alg».proof.Proof.FrameKI_R1s

/-! # Region 1: the body run at a last column block -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a LAST column block (not the first): the accumulator comes in at what the point before left, goes out
    with the block product added, and the output's buffer, at anything, goes out with the accumulator plus the bias row
    stored into it. -/
noncomputable def runLast1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : isLast1 i)
    (x0 : Vec F S1536x1536 .bf16) (x1 : Vec F S1536x128 .f32) (x2 : Vec F S1x128 .f32) (xs : Vec F S1536x128 .f32) :
    Σ' (LO : List (View.Piece (Elt F) S1536x128 .f32)), { LS : List (View.Piece (Elt F) S1536x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__spmm_kernel i arg2 harg2 arg3 harg3 arg4 harg4 arg5 harg5 arg6 harg6) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.FrameKI_R1.lean ====
import proofs.«180263_j1236950581835_2_alg».proof.Proof.FrameKI_R1runFirst
import proofs.«180263_j1236950581835_2_alg».proof.Proof.FrameKI_R1runMid
import proofs.«180263_j1236950581835_2_alg».proof.Proof.FrameKI_R1runLast

/-!
# Region 1: the proof data and the body obligation

What the accumulator and the output block hold after each grid point, by recursion on the point: at a first column
block the accumulator restarts; elsewhere it continues from what the point before left; the output block is stored
at a last column block only. The region invariant carries the accumulator at those contents between points.
-/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- A first column block's stores cover the accumulator. -/
theorem accCoverFirst1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : isFirst1 i) (hc1 : ¬isLast1 i)
    (x0 : Vec F S1536x1536 .bf16) (x1 : Vec F S1536x128 .f32) (x2 : Vec F S1x128 .f32) (y : S1536x128.Idx) :
    ∃ pc ∈ (runFirst1 c i arg2 harg2 arg3 harg3 arg4 harg4 arg5 harg5 arg6 harg6 hc0 hc1 x0 x1 x2).2.1, y ∈ pc.1.set :=
  View.cover_of_tiledL (runFirst1 c i arg2 harg2 arg3 harg3 arg4 harg4 arg5 harg5 arg6 harg6 hc0 hc1 x0 x1 x2).2.1 S1536x128.size (by sl_kernel_rfl) y
/-- What a first column block leaves in the accumulator. -/
def accFirst1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : isFirst1 i) (hc1 : ¬isLast1 i)
    (x0 : Vec F S1536x1536 .bf16) (x1 : Vec F S1536x128 .f32) (x2 : Vec F S1x128 .f32) : Vec F S1536x128 .f32 :=
  accV1.read (Elt F) (accV1.writes (Elt F) accV1.junk (runFirst1 c i arg2 harg2 arg3 harg3 arg4 harg4 arg5 harg5 arg6 harg6 hc0 hc1 x0 x1 x2).2.1)

theorem accCoverMid1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : ¬isLast1 i)
    (x0 : Vec F S1536x1536 .bf16) (x1 : Vec F S1536x128 .f32) (x2 : Vec F S1x128 .f32) (xs : Vec F S1536x128 .f32) (y : S1536x128.Idx) :
    ∃ pc ∈ (runMid1 c i arg2 harg2 arg3 harg3 arg4 harg4 arg5 harg5 arg6 harg6 hc0 hc1 x0 x1 x2 xs).2.1, y ∈ pc.1.set :=
  View.cover_of_tiledL (runMid1 c i arg2 harg2 arg3 harg3 arg4 harg4 arg5 harg5 arg6 harg6 hc0 hc1 x0 x1 x2 xs).2.1 S1536x128.size (by sl_kernel_rfl) y
/-- What a middle column block leaves in the accumulator. -/
def accMid1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : ¬isLast1 i)
    (x0 : Vec F S1536x1536 .bf16) (x1 : Vec F S1536x128 .f32) (x2 : Vec F S1x128 .f32) (xs : Vec F S1536x128 .f32) : Vec F S1536x128 .f32 :=
  accV1.read (Elt F) (accV1.writes (Elt F) accV1.junk (runMid1 c i arg2 harg2 arg3 harg3 arg4 harg4 arg5 harg5 arg6 harg6 hc0 hc1 x0 x1 x2 xs).2.1)

theorem accCoverLast1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : isLast1 i)
    (x0 : Vec F S1536x1536 .bf16) (x1 : Vec F S1536x128 .f32) (x2 : Vec F S1x128 .f32) (xs : Vec F S1536x128 .f32) (y : S1536x128.Idx) :
    ∃ pc ∈ (runLast1 c i arg2 harg2 arg3 harg3 arg4 harg4 arg5 harg5 arg6 harg6 hc0 hc1 x0 x1 x2 xs).2.1, y ∈ pc.1.set :=
  View.cover_of_tiledL (runLast1 c i arg2 harg2 arg3 harg3 arg4 harg4 arg5 harg5 arg6 harg6 hc0 hc1 x0 x1 x2 xs).2.1 S1536x128.size (by sl_kernel_rfl) y
/-- What a last column block leaves in the accumulator. -/
def accLast1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : isLast1 i)
    (x0 : Vec F S1536x1536 .bf16) (x1 : Vec F S1536x128 .f32) (x2 : Vec F S1x128 .f32) (xs : Vec F S1536x128 .f32) : Vec F S1536x128 .f32 :=
  accV1.read (Elt F) (accV1.writes (Elt F) accV1.junk (runLast1 c i arg2 harg2 arg3 harg3 arg4 harg4 arg5 harg5 arg6 harg6 hc0 hc1 x0 x1 x2 xs).2.1)
theorem outCoverLast1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : isLast1 i)
    (x0 : Vec F S1536x1536 .bf16) (x1 : Vec F S1536x128 .f32) (x2 : Vec F S1x128 .f32) (xs : Vec F S1536x128 .f32) (y : S1536x128.Idx) :
    ∃ pc ∈ (runLast1 c i arg2 harg2 arg3 harg3 arg4 harg4 arg5 harg5 arg6 harg6 hc0 hc1 x0 x1 x2 xs).1, y ∈ pc.1.set :=
  View.cover_of_tiledL (runLast1 c i arg2 harg2 arg3 harg3 arg4 harg4 arg5 harg5 arg6 harg6 hc0 hc1 x0 x1 x2 xs).1 S1536x128.size (by sl_kernel_rfl) y
/-- What a last column block leaves in the output block's buffer. -/
def outLast1 (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : isLast1 i)
    (x0 : Vec F S1536x1536 .bf16) (x1 : Vec F S1536x128 .f32) (x2 : Vec F S1x128 .f32) (xs : Vec F S1536x128 .f32) : Vec F S1536x128 .f32 :=
  outV1.read (Elt F) (outV1.writes (Elt F) outV1.junk (runLast1 c i arg2 harg2 arg3 harg3 arg4 harg4 arg5 harg5 arg6 harg6 hc0 hc1 x0 x1 x2 xs).1)
/-- Where nothing is stored into the output block its contents are a placeholder nothing consults: there the window is
    neither written back nor read at the next point. -/
def outIdle1 : Vec F S1536x128 .f32 := outV1.read (Elt F) (outV1.writes (Elt F) outV1.junk [])

/-! ## After each point -/

/-- What the output block's buffer and the accumulator hold after the body at position n. -/
def state1 (c : Dev nD) : (n : ℕ) → n < cfg1.N → Vec F S1536x128 .f32 × Vec F S1536x128 .f32
  | 0, hn => (outIdle1, accFirst1 c (grid1.coords ⟨0, hn⟩) (mem1_0 ⟨0, hn⟩) (whole1_0 ⟨0, hn⟩) (mem1_1 ⟨0, hn⟩) (whole1_1 ⟨0, hn⟩) (mem1_2 ⟨0, hn⟩) (whole1_2 ⟨0, hn⟩) (mem1_3 ⟨0, hn⟩) (whole1_3 ⟨0, hn⟩) accM1 (Memref.isWhole_whole _) ((isFirst1_iff ⟨0, hn⟩).mpr (Nat.zero_mod _)) (fun h => (fun h => by (try dsimp only at h); omega) ((isLast1_iff ⟨0, hn⟩).mp h)) (blk1 V c 0 ⟨0, hn⟩) (blk1 V c 1 ⟨0, hn⟩) (blk1 V c 2 ⟨0, hn⟩))
  | n + 1, hn =>
    if h0 : (n + 1) % 8 = 0 then
      if h1 : (n + 1) % 8 = 7 then
        False.elim (by omega)
      else
        (outIdle1, accFirst1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) accM1 (Memref.isWhole_whole _) ((isFirst1_iff ⟨n + 1, hn⟩).mpr h0) (fun h => h1 ((isLast1_iff ⟨n + 1, hn⟩).mp h)) (blk1 V c 0 ⟨n + 1, hn⟩) (blk1 V c 1 ⟨n + 1, hn⟩) (blk1 V c 2 ⟨n + 1, hn⟩))
    else
      if h1 : (n + 1) % 8 = 7 then
        (outLast1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) accM1 (Memref.isWhole_whole _) (fun h => h0 ((isFirst1_iff ⟨n + 1, hn⟩).mp h)) ((isLast1_iff ⟨n + 1, hn⟩).mpr h1) (blk1 V c 0 ⟨n + 1, hn⟩) (blk1 V c 1 ⟨n + 1, hn⟩) (blk1 V c 2 ⟨n + 1, hn⟩) (state1 c n (Nat.lt_of_succ_lt hn)).2,
         accLast1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) accM1 (Memref.isWhole_whole _) (fun h => h0 ((isFirst1_iff ⟨n + 1, hn⟩).mp h)) ((isLast1_iff ⟨n + 1, hn⟩).mpr h1) (blk1 V c 0 ⟨n + 1, hn⟩) (blk1 V c 1 ⟨n + 1, hn⟩) (blk1 V c 2 ⟨n + 1, hn⟩) (state1 c n (Nat.lt_of_succ_lt hn)).2)
      else
        (outIdle1, accMid1 c (grid1.coords ⟨n + 1, hn⟩) (mem1_0 ⟨n + 1, hn⟩) (whole1_0 ⟨n + 1, hn⟩) (mem1_1 ⟨n + 1, hn⟩) (whole1_1 ⟨n + 1, hn⟩) (mem1_2 ⟨n + 1, hn⟩) (whole1_2 ⟨n + 1, hn⟩) (mem1_3 ⟨n + 1, hn⟩) (whole1_3 ⟨n + 1, hn⟩) accM1 (Memref.isWhole_whole _) (fun h => h0 ((isFirst1_iff ⟨n + 1, hn⟩).mp h)) (fun h => h1 ((isLast1_iff ⟨n + 1, hn⟩).mp h)) (blk1 V c 0 ⟨n + 1, hn⟩) (blk1 V c 1 ⟨n + 1, hn⟩) (blk1 V c 2 ⟨n + 1, hn⟩) (state1 c n (Nat.lt_of_succ_lt hn)).2)

theorem state1_first (c : Dev nD) (t : Fin cfg1.N) (h0 : t.val % 8 = 0) (h1 : ¬t.val % 8 = 7) :
    state1 V c t.val t.isLt = (outIdle1, accFirst1 c (grid1.coords t) (mem1_0 t) (whole1_0 t) (mem1_1 t) (whole1_1 t) (mem1_2 t) (whole1_2 t) (mem1_3 t) (whole1_3 t) accM1 (Memref.isWhole_whole _) ((isFirst1_iff t).mpr h0) (fun h => h1 ((isLast1_iff t).mp h)) (blk1 V c 0 t) (blk1 V c 1 t) (blk1 V c 2 t)) := by
  obtain ⟨n, hn⟩ := t
  cases n with
  | zero => exact rfl
  | succ n => exact (dif_pos h0).trans ((dif_neg h1).trans rfl)

theorem state1_mid (c : Dev nD) (t : Fin cfg1.N) (h0 : ¬t.val % 8 = 0) (h1 : ¬t.val % 8 = 7) :
    state1 V c t.val t.isLt = (outIdle1, accMid1 c (grid1.coords t) (mem1_0 t) (whole1_0 t) (mem1_1 t) (whole1_1 t) (mem1_2 t) (whole1_2 t) (mem1_3 t) (whole1_3 t) accM1 (Memref.isWhole_whole _) (fun h => h0 ((isFirst1_iff t).mp h)) (fun h => h1 ((isLast1_iff t).mp h)) (blk1 V c 0 t) (blk1 V c 1 t) (blk1 V c 2 t) (state1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem state1_last (c : Dev nD) (t : Fin cfg1.N) (h0 : ¬t.val % 8 = 0) (h1 : t.val % 8 = 7) :
    state1 V c t.val t.isLt = (outLast1 c (grid1.coords t) (mem1_0 t) (whole1_0 t) (mem1_1 t) (whole1_1 t) (mem1_2 t) (whole1_2 t) (mem1_3 t) (whole1_3 t) accM1 (Memref.isWhole_whole _) (fun h => h0 ((isFirst1_iff t).mp h)) ((isLast1_iff t).mpr h1) (blk1 V c 0 t) (blk1 V c 1 t) (blk1 V c 2 t) (state1 V c (t.val - 1) (Nat.lt_of_le_of_lt (Nat.sub_le _ _) t.isLt)).2,
      accLast1 c (grid1.coords t) (mem1_0 t) (whole1_0 t) (mem1_1 t) (whole1_1 t) (mem1_2 t) (whole1_2 t) (mem1_3 t) (whole1_3 t) accM1 (Memref.isWhole_whole _) (fun h => h0 ((isFirst1_iff t).mp h)) ((isLast1_iff t).mpr h1) (blk1 V c 0 t) (blk1 V c 1 t) (blk1 V c 2 t) (state1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: the class invariant before the first point; afterwards the accumulator at what the point
    before left, beside the other scoped buffers and the generator register. -/
def Inv1 (c : Dev nD) : (n : ℕ) → n ≤ cfg1.N → sProp 𝕄
  | 0, _ => Pipeline.ΦA spec1 c
  | n + 1, hn => iprop(iprop(iprop(owns (c : Thread nD τ) accM1 fullShare ((state1 V c n hn).2))
      ∗ Pipeline.scopedRestBut (Ix := Unit) (Name := ℕ) (U := UR sig nD τ) (Lvl := ℕ) (Val := Elt F) spec1 c [cc1_scratch0]) ∗ (∃ r, prngReg c r))

theorem Inv1_zero (c : Dev nD) (n : ℕ) (h : n ≤ cfg1.N) (hz : n = 0) : Inv1 V c n h = Pipeline.ΦA spec1 c := by
  subst hz; rfl
theorem Inv1_succ (c : Dev nD) (n : ℕ) (hn : n < cfg1.N) :
    Inv1 V c (n + 1) hn = iprop(iprop(iprop(owns (c : Thread nD τ) accM1 fullShare ((state1 V c n hn).2))
      ∗ Pipeline.scopedRestBut (Ix := Unit) (Name := ℕ) (U := UR sig nD τ) (Lvl := ℕ) (Val := Elt F) spec1 c [cc1_scratch0]) ∗ (∃ r, prngReg c r)) := rfl
theorem Inv1_pos (c : Dev nD) (n : ℕ) (h : n ≤ cfg1.N) (hz : n ≠ 0) :
    Inv1 V c n h = iprop(iprop(iprop(owns (c : Thread nD τ) accM1 fullShare ((state1 V c (n - 1) (by omega)).2))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The proof data of pipeline 1 on core c, over the entry contents: each input's buffer at its block after the body,
    the output's at `state1`'s first component; the invariant `Inv1`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (state1 V c t.val t.isLt).1
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Inv1_castSucc (c : Dev nD) (t : Fin cfg1.N) :
    (dat1 V c).Φ t.castSucc = Inv1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = (state1 V c t.val t.isLt).1 := by dsimp only [dat1]
theorem before1_0 (c : Dev nD) (t : Fin cfg1.N) (d) : (dat1 V c).before 0 t d = blk1 V c 0 t :=
  held1_0_of V (dat1 V c) (A_eq1 V c 0) (after1_0 V c) t d
theorem before1_1 (c : Dev nD) (t : Fin cfg1.N) (d) : (dat1 V c).before 1 t d = blk1 V c 1 t :=
  held1_1_of V (dat1 V c) (A_eq1 V c 1) (after1_1 V c) t d
theorem before1_2 (c : Dev nD) (t : Fin cfg1.N) (d) : (dat1 V c).before 2 t d = blk1 V c 2 t :=
  held1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (mem1_0 t) fullShare ((dat1 V c).before 0 t d))
    ∗ (∃ d, owns (c : Thread nD τ) (mem1_1 t) fullShare ((dat1 V c).before 1 t d))
    ∗ (∃ d, owns (c : Thread nD τ) (mem1_2 t) fullShare ((dat1 V c).before 2 t d))
    ∗ (∃ d, owns (c : Thread nD τ) (mem1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (mem1_0 t) fullShare (blk1 V c 0 t) := by
  unfold Dat.leavesExact; rw [live1_0 t, after1_0]
theorem leaves1_1 (c : Dev nD) (t : Fin cfg1.N) : (dat1 V c).leavesExact 1 t = owns (c : Thread nD τ) (mem1_1 t) fullShare (blk1 V c 1 t) := by
  unfold Dat.leavesExact; rw [live1_1 t, after1_1]
theorem leaves1_2 (c : Dev nD) (t : Fin cfg1.N) : (dat1 V c).leavesExact 2 t = owns (c : Thread nD τ) (mem1_2 t) fullShare (blk1 V c 2 t) := by
  unfold Dat.leavesExact; rw [live1_2 t, after1_2]

set_option maxHeartbeats 4800000 in
/-- The body at any point: the inputs' memrefs hold their blocks; the closed forms say which kind of point it is; the
    invariant hands the body the accumulator at what the point before left (at anything before a first column block)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Inv1 V c (t.val + 1) t.isLt from rfl, Inv1_succ]
  rw [leaves1_0, leaves1_1, leaves1_2]
  have hN : t.val < 64 := lt_of_lt_of_eq t.isLt (show cfg1.N = 64 from N_1)
  by_cases h0 : t.val % 8 = 0
  · have h1 : ¬t.val % 8 = 7 := by omega
    rw [Dat.leavesExact_idle (dat1 V c) 3 t (idle1_3 t (fun h => h1 ((isLast1_iff t).mp h))) (noFlush1_3 t (fun h => h1 ((isLast1_iff t).mp h)))]
    rw [state1_first V c t h0 h1]
    unfold accFirst1; (try dsimp only)
    by_cases hz : t.val = 0
    · rw [Inv1_castSucc V c t, Inv1_zero V c _ _ hz, PhiA1_eq]
      iintro ⟨⟨⟨HS, HB⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (fun h => h1 ((isLast1_iff t).mp h)) (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HB Hg]
      · isplitl [HS HB]
        · isplitl [HS]
          · unfold owns; iexists _; isplitr
            swap; · iexact HS
            ipureintro; exact View.read_writes_of_cover _ _ _ _ _ (accCoverFirst1 c _ _ _ _ _ _ _ _ _ _ _ _ _ _ _ _)
          iexact HB
        iexact Hg
      isplitl [Ho]; · iexact Ho
      isplitl [H0]; · iexact H0
      isplitl [H1]; · iexact H1
      isplitl [H2]; · iexact H2
      iexists _; iexact H3
    · rw [Inv1_castSucc V c t, Inv1_pos V c _ _ hz]
      iintro ⟨⟨⟨HS, HB⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (fun h => h1 ((isLast1_iff t).mp h)) (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HB Hg]
      · isplitl [HS HB]
        · isplitl [HS]
          · unfold owns; iexists _; isplitr
            swap; · iexact HS
            ipureintro; exact View.read_writes_of_cover _ _ _ _ _ (accCoverFirst1 c _ _ _ _ _ _ _ _ _ _ _ _ _ _ _ _)
          iexact HB
        iexact Hg
      isplitl [Ho]; · iexact Ho
      isplitl [H0]; · iexact H0
      isplitl [H1]; · iexact H1
      isplitl [H2]; · iexact H2
      iexists _; iexact H3
  · have hz : t.val ≠ 0 := by intro h; rw [h] at h0; exact h0 (Nat.zero_mod _)
    by_cases h1 : t.val % 8 = 7
    · rw [show (dat1 V c).leavesExact 3 t = owns (c : Thread nD τ) (mem1_3 t) fullShare ((dat1 V c).after 3 t) from by
        unfold Dat.leavesExact; rw [live1_3 t ((isLast1_iff t).mpr h1)], after1_3]
      rw [state1_last V c t h0 h1]
      unfold outLast1 accLast1; (try dsimp only)
      rw [Inv1_castSucc V c t, Inv1_pos V c _ _ hz]
      iintro ⟨⟨⟨HS, HB⟩, Hg⟩, Ho, ⟨%d0, H0⟩, ⟨%d1, H1⟩, ⟨%d2, H2⟩, ⟨%d3, H3⟩⟩
      iapply ((runLast1 c (grid1.coords t) _ _ _ _ _ _ _ _ _ _ (fun h => h0 ((isFirst1_iff t).mp h)) ((isLast1_iff t).mpr h1) (blk1 V c 0 t) (blk1 V c 1 t) (blk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HB Hg]
      · isplitl [HS HB]
        · isplitl [HS]
          · unfold owns; iexists _; isplitr
            swap; · iexact HS
            ipureintro; exact View.read_writes_of_cover _ _ _ _ _ (accCoverLast1 c _ _ _ _ _ _ _ _ _ _ _ _ _ _ _ _ _)
          iexact HB
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast1 c _ _ _ _ _ _ _ _ _ _ _ _ _ _ _ _ _)
    · rw [Dat.leavesExact_idle (dat1 V c) 3 t (idle1_3 t (fun h => h1 ((isLast1_iff t).mp h))) (noFlush1_3 t (fun h => h1 ((isLast1_iff t).mp h)))]
      rw [state1_mid V c t h0 h1]
      unfold accMid1; (try dsimp only)
      rw [Inv1_castSucc V c t, Inv1_pos V c _ _ hz]
      iintro ⟨⟨⟨HS, HB⟩, Hg⟩, Ho, ⟨%d0, H0⟩, ⟨%d1, H1⟩, ⟨%d2, H2⟩, ⟨%d3, H3⟩⟩
      iapply ((runMid1 c (grid1.coords t) _ _ _ _ _ _ _ _ _ _ (fun h => h0 ((isFirst1_iff t).mp h)) (fun h => h1 ((isLast1_iff t).mp h)) (blk1 V c 0 t) (blk1 V c 1 t) (blk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HB Hg]
      · isplitl [HS HB]
        · isplitl [HS]
          · unfold owns; iexists _; isplitr
            swap; · iexact HS
            ipureintro; exact View.read_writes_of_cover _ _ _ _ _ (accCoverMid1 c _ _ _ _ _ _ _ _ _ _ _ _ _ _ _ _ _)
          iexact HB
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Inv1 V c 0 (Nat.zero_le _) from rfl, Inv1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = Inv1 V c (Fin.last cfg1.N).val (Nat.le_of_lt_succ (Fin.last cfg1.N).isLt) from rfl,
    Inv1_pos V c _ _ (by rw [Fin.val_last]; have : cfg1.N = 64 := N_1; omega), PhiA1_eq]
  iintro ⟨⟨HS, HB⟩, Hg⟩
  isplitl [HS HB]
  · isplitl [HS]
    · iexists _; iexact HS
    iexact HB
  iexact Hg

end Cert.KernelIdeal.Hand

end
-- ==== Proof.FrameKI_R2.lean ====
/- The frame half of pallas_call 2 (`cc2__matmul_kernel`), written by hand at a parameter `V`, the TensorCore's buffer
   contents when the region is entered. The body loads its two input windows' staging buffers whole, computes one
   block and stores it whole into the output window's staging buffer: what it leaves there is a closed function of
   the two input blocks at the point (`out2_2`), and what it finds in an input buffer is that window's block of the
   array as the region found it (`iblk2`), fetched at the point or not. From these: the proof data `dat2` and
   the body obligation at every point. Generic in the float instance. -/
import proofs.«180263_j1236950581835_2_alg».proof.Proof.LaunchKI
import proofs.«180263_j1236950581835_2_alg».proof.Proof.Gen.KernelIdeal.Skeleton
import proofs.«180263_j1236950581835_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural recursion goes once per coordinate of the long axes
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents at the region's entry
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is the entry contents and whose body leaves the block in place: where the pipeline does not
    fetch, the block index has not moved, and the buffer still holds the previous point's block, which is this
    point's. Both input windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_a : Rect S1536x128 := Rect.unit (s := S1536x128) ![0, 0] S1536x128.size inb_S1536x128_S1536x128_0_0
abbrev r2_b : Rect S128x64 := Rect.unit (s := S128x64) ![0, 0] S128x64.size inb_S128x64_S128x64_0_0
abbrev r2_o : Rect S1536x64 := Rect.unit (s := S1536x64) ![0, 0] S1536x64.size inb_S1536x64_S1536x64_0_0

/-! ## What the body leaves in the output window's buffer -/

/-- The output window's staging buffer after the body, from the two input blocks: its one store, of the whole
    buffer, whose payload is the product of the two loaded blocks as the skeleton names it. -/
def out2_2 (x0 : Vec F S1536x128 .f32) (x1 : Vec F S128x64 .f32) : Vec F S1536x64 .f32 :=
  View.canon [⟨r2_o, k2_pay1 (View.ld x0 r2_a) (View.ld x1 r2_b)⟩]

/-- The one store is of the whole buffer, so it covers it. -/
theorem cover2_2 (p0 : Vec F S1536x64 .f32) (y : S1536x64.Idx) :
    ∃ pc ∈ ([⟨r2_o, p0⟩] : List (View.Piece (Elt F) S1536x64 .f32)), y ∈ pc.1.set :=
  View.cover_of_tiled [⟨r2_o, p0⟩] S1536x64.size (by rfl) y

/-! ## The body's triple -/

set_option maxHeartbeats 1000000 in
/-- The kernel body on whole staging memrefs, the inputs' at read contents `x0`, `x1` and the output's at anything
    (the body loads it before storing, and drops what it loaded), runs to the continuation holding the inputs' as
    they were and the output's at `out2_2 x0 x1`. -/
theorem sound_kernel2 (c : Dev nD) (E : Set ℕ) (i : grid2.Coords)
    (arg0 : Memref sig .tc .vmem S1536x128 .f32) (harg0 : arg0.IsWhole)
    (arg1 : Memref sig .tc .vmem S128x64 .f32) (harg1 : arg1.IsWhole)
    (arg2 : Memref sig .tc .vmem S1536x64 .f32) (harg2 : arg2.IsWhole)
    (x0 : Vec F S1536x128 .f32) (x1 : Vec F S128x64 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t` each
    input's buffer at its block and the output's at `out2_2` of the two input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.FrameKI_R3s.lean ====
import proofs.«180263_j1236950581835_2_alg».proof.Proof.LaunchKI
import proofs.«180263_j1236950581835_2_alg».proof.Proof.Gen.KernelIdeal.Skeleton
import proofs.«180263_j1236950581835_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# Region 3: a row block of A·h accumulated over eight column blocks — what its runs share

The grid is 8 × 8: point t works on row block t / 8 and column block t % 8. The body zeroes its accumulator at the
first column block, adds the product of the two staged blocks at every point, and at the last column block stores the
accumulator plus the bias row into the output block. Here: the staged blocks read off the entry contents, the two
conditions of the body decided over the grid, where the output window is idle, and the class invariant with the
accumulator split off.
-/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at point t, read off the window's array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the point fetched it or the block
    index did not move, for any proof data over the entry contents whose body leaves the block in place. -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem held3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-! ## The body's two conditions over the grid -/

/-- "This is the first column block": the body's first condition, from the grid coordinates. -/
abbrev isFirst3 (i : grid3.Coords) : Prop := (Scalar.cmpi .ne (Scalar.extui (Scalar.cmpi .eq (BitVec.ofNat 32 (i 1).val) 0#32)) 0#32) = 1#1
theorem isFirst3_iff : ∀ t : Fin cfg3.N, isFirst3 (grid3.coords t) ↔ t.val % 8 = 0 :=
  (by decide +kernel : ∀ t : Fin grid3.N, isFirst3 (grid3.coords t) ↔ t.val % 8 = 0)

/-- "This is the last column block": the body's second condition. -/
abbrev isLast3 (i : grid3.Coords) : Prop := k3_cond2 i = 1#1
theorem isLast3_iff : ∀ t : Fin cfg3.N, isLast3 (grid3.coords t) ↔ t.val % 8 = 7 :=
  (by decide +kernel : ∀ t : Fin grid3.N, isLast3 (grid3.coords t) ↔ t.val % 8 = 7)

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Away from the last column block the body stores nothing into the output block, and the block is not written back. -/
theorem idle3_3 : ∀ t : Fin cfg3.N, ¬isLast3 (grid3.coords t) → cfg3.idle 3 (grid3.coords t) = true := by decide +kernel
theorem noFlush3_3 : ∀ t : Fin cfg3.N, ¬isLast3 (grid3.coords t) → (cfg3.win 3).flush t = false := by decide +kernel
theorem live3_3 : ∀ t : Fin cfg3.N, isLast3 (grid3.coords t) → cfg3.idle 3 (grid3.coords t) = false := by decide +kernel

/-! ## The memrefs the body is called with -/

/-- One staging buffer of the output window, through which its contents are stated. -/
abbrev outV3 : View sig .tc .vmem S1536x64 .f32 := (Memref.whole cc3_stg3_0 : Memref sig .tc .vmem S1536x64 .f32).view
abbrev mem3_0 (t : Fin cfg3.N) : Memref sig .tc .vmem S1536x1536 .bf16 := win3_0.stage (cfg3.slots t 0)
abbrev whole3_0 (t : Fin cfg3.N) : (mem3_0 t).IsWhole := hstage3_0 ((cfg3.slots t 0).cast nbuf3_0)
abbrev mem3_1 (t : Fin cfg3.N) : Memref sig .tc .vmem S1536x64 .f32 := win3_1.stage (cfg3.slots t 1)
abbrev whole3_1 (t : Fin cfg3.N) : (mem3_1 t).IsWhole := hstage3_1 ((cfg3.slots t 1).cast nbuf3_1)
abbrev mem3_2 (t : Fin cfg3.N) : Memref sig .tc .vmem S1x64 .f32 := win3_2.stage (cfg3.slots t 2)
abbrev whole3_2 (t : Fin cfg3.N) : (mem3_2 t).IsWhole := hstage3_2 ((cfg3.slots t 2).cast nbuf3_2)
abbrev mem3_3 (t : Fin cfg3.N) : Memref sig .tc .vmem S1536x64 .f32 := win3_3.stage (cfg3.slots t 3)
abbrev whole3_3 (t : Fin cfg3.N) : (mem3_3 t).IsWhole := hstage3_3 ((cfg3.slots t 3).cast nbuf3_3)
/-- The accumulator: a whole scoped buffer of the kernel's own. -/
abbrev accM3 : Memref sig .tc .vmem S1536x64 .f32 := Memref.whole cc3_scratch0
abbrev accV3 : View sig .tc .vmem S1536x64 .f32 := accM3.view

/-- The class invariant with the accumulator as a memref owned at some contents, beside the other scoped buffers
    and the generator register. -/
theorem PhiA3_eq (c : Dev nD) :
    (Pipeline.ΦA spec3 c : sProp 𝕄)
      = iprop(iprop(iprop((∃ d, owns (c : Thread nD τ) accM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [accM3, owns_whole]; try rfl

end Cert.KernelIdeal.Hand

end
-- ==== Proof.FrameKI_R3runFirst.lean ====
import proofs.«180263_j1236950581835_2_alg».proof.Proof.FrameKI_R3s

/-! # Region 3: the body run at a first column block -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a FIRST column block (not the last): on whole memrefs, the inputs' at their contents, the output's at
    contents handed back untouched, the accumulator at anything, it runs to the continuation holding the inputs' and the
    output's as they were and the accumulator with its stores written (zero, then zero plus the block product). The
    stores are the witness the run finds. -/
noncomputable def runFirst3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : isFirst3 i) (hc1 : ¬isLast3 i)
    (x0 : Vec F S1536x1536 .bf16) (x1 : Vec F S1536x64 .f32) (x2 : Vec F S1x64 .f32) :
    Σ' (LO : List (View.Piece (Elt F) S1536x64 .f32)), { LS : List (View.Piece (Elt F) S1536x64 .f32) //
      ∀ (xo : Vec F S1536x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc3__spmm_kernel i arg2 harg2 arg3 harg3 arg4 harg4 arg5 harg5 arg6 harg6) K } := by
  refine ⟨[], ?_, fun xo E K => ?run⟩
  case run =>
    simp only [cc3__spmm_kernel_eq_skeleton]; unfold cc3__spmm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.FrameKI_R3runMid.lean ====
import proofs.«180263_j1236950581835_2_alg».proof.Proof.FrameKI_R3s

/-! # Region 3: the body run at a mid column block -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a column block that is neither first nor last: the accumulator comes in at what the point before left
    and goes out with the block product added; the output's buffer is handed back untouched. -/
noncomputable def runMid3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : ¬isLast3 i)
    (x0 : Vec F S1536x1536 .bf16) (x1 : Vec F S1536x64 .f32) (x2 : Vec F S1x64 .f32) (xs : Vec F S1536x64 .f32) :
    Σ' (LO : List (View.Piece (Elt F) S1536x64 .f32)), { LS : List (View.Piece (Elt F) S1536x64 .f32) //
      ∀ (xo : Vec F S1536x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc3__spmm_kernel i arg2 harg2 arg3 harg3 arg4 harg4 arg5 harg5 arg6 harg6) K } := by
  refine ⟨[], ?_, fun xo E K => ?run⟩
  case run =>
    simp only [cc3__spmm_kernel_eq_skeleton]; unfold cc3__spmm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.FrameKI_R3runLast.lean ====
import proofs.«180263_j1236950581835_2_alg».proof.Proof.FrameKI_R3s

/-! # Region 3: the body run at a last column block -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a LAST column block (not the first): the accumulator comes in at what the point before left, goes out
    with the block product added, and the output's buffer, at anything, goes out with the accumulator plus the bias row
    stored into it. -/
noncomputable def runLast3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : isLast3 i)
    (x0 : Vec F S1536x1536 .bf16) (x1 : Vec F S1536x64 .f32) (x2 : Vec F S1x64 .f32) (xs : Vec F S1536x64 .f32) :
    Σ' (LO : List (View.Piece (Elt F) S1536x64 .f32)), { LS : List (View.Piece (Elt F) S1536x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc3__spmm_kernel i arg2 harg2 arg3 harg3 arg4 harg4 arg5 harg5 arg6 harg6) K } := by
  refine ⟨?_, ?_, fun E K => ?run⟩
  case run =>
    simp only [cc3__spmm_kernel_eq_skeleton]; unfold cc3__spmm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.FrameKI_R3.lean ====
import proofs.«180263_j1236950581835_2_alg».proof.Proof.FrameKI_R3runFirst
import proofs.«180263_j1236950581835_2_alg».proof.Proof.FrameKI_R3runMid
import proofs.«180263_j1236950581835_2_alg».proof.Proof.FrameKI_R3runLast

/-!
# Region 3: the proof data and the body obligation

What the accumulator and the output block hold after each grid point, by recursion on the point: at a first column
block the accumulator restarts; elsewhere it continues from what the point before left; the output block is stored
at a last column block only. The region invariant carries the accumulator at those contents between points.
-/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- A first column block's stores cover the accumulator. -/
theorem accCoverFirst3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : isFirst3 i) (hc1 : ¬isLast3 i)
    (x0 : Vec F S1536x1536 .bf16) (x1 : Vec F S1536x64 .f32) (x2 : Vec F S1x64 .f32) (y : S1536x64.Idx) :
    ∃ pc ∈ (runFirst3 c i arg2 harg2 arg3 harg3 arg4 harg4 arg5 harg5 arg6 harg6 hc0 hc1 x0 x1 x2).2.1, y ∈ pc.1.set :=
  View.cover_of_tiledL (runFirst3 c i arg2 harg2 arg3 harg3 arg4 harg4 arg5 harg5 arg6 harg6 hc0 hc1 x0 x1 x2).2.1 S1536x64.size (by sl_kernel_rfl) y
/-- What a first column block leaves in the accumulator. -/
def accFirst3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : isFirst3 i) (hc1 : ¬isLast3 i)
    (x0 : Vec F S1536x1536 .bf16) (x1 : Vec F S1536x64 .f32) (x2 : Vec F S1x64 .f32) : Vec F S1536x64 .f32 :=
  accV3.read (Elt F) (accV3.writes (Elt F) accV3.junk (runFirst3 c i arg2 harg2 arg3 harg3 arg4 harg4 arg5 harg5 arg6 harg6 hc0 hc1 x0 x1 x2).2.1)

theorem accCoverMid3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : ¬isLast3 i)
    (x0 : Vec F S1536x1536 .bf16) (x1 : Vec F S1536x64 .f32) (x2 : Vec F S1x64 .f32) (xs : Vec F S1536x64 .f32) (y : S1536x64.Idx) :
    ∃ pc ∈ (runMid3 c i arg2 harg2 arg3 harg3 arg4 harg4 arg5 harg5 arg6 harg6 hc0 hc1 x0 x1 x2 xs).2.1, y ∈ pc.1.set :=
  View.cover_of_tiledL (runMid3 c i arg2 harg2 arg3 harg3 arg4 harg4 arg5 harg5 arg6 harg6 hc0 hc1 x0 x1 x2 xs).2.1 S1536x64.size (by sl_kernel_rfl) y
/-- What a middle column block leaves in the accumulator. -/
def accMid3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : ¬isLast3 i)
    (x0 : Vec F S1536x1536 .bf16) (x1 : Vec F S1536x64 .f32) (x2 : Vec F S1x64 .f32) (xs : Vec F S1536x64 .f32) : Vec F S1536x64 .f32 :=
  accV3.read (Elt F) (accV3.writes (Elt F) accV3.junk (runMid3 c i arg2 harg2 arg3 harg3 arg4 harg4 arg5 harg5 arg6 harg6 hc0 hc1 x0 x1 x2 xs).2.1)

theorem accCoverLast3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : isLast3 i)
    (x0 : Vec F S1536x1536 .bf16) (x1 : Vec F S1536x64 .f32) (x2 : Vec F S1x64 .f32) (xs : Vec F S1536x64 .f32) (y : S1536x64.Idx) :
    ∃ pc ∈ (runLast3 c i arg2 harg2 arg3 harg3 arg4 harg4 arg5 harg5 arg6 harg6 hc0 hc1 x0 x1 x2 xs).2.1, y ∈ pc.1.set :=
  View.cover_of_tiledL (runLast3 c i arg2 harg2 arg3 harg3 arg4 harg4 arg5 harg5 arg6 harg6 hc0 hc1 x0 x1 x2 xs).2.1 S1536x64.size (by sl_kernel_rfl) y
/-- What a last column block leaves in the accumulator. -/
def accLast3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : isLast3 i)
    (x0 : Vec F S1536x1536 .bf16) (x1 : Vec F S1536x64 .f32) (x2 : Vec F S1x64 .f32) (xs : Vec F S1536x64 .f32) : Vec F S1536x64 .f32 :=
  accV3.read (Elt F) (accV3.writes (Elt F) accV3.junk (runLast3 c i arg2 harg2 arg3 harg3 arg4 harg4 arg5 harg5 arg6 harg6 hc0 hc1 x0 x1 x2 xs).2.1)
theorem outCoverLast3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : isLast3 i)
    (x0 : Vec F S1536x1536 .bf16) (x1 : Vec F S1536x64 .f32) (x2 : Vec F S1x64 .f32) (xs : Vec F S1536x64 .f32) (y : S1536x64.Idx) :
    ∃ pc ∈ (runLast3 c i arg2 harg2 arg3 harg3 arg4 harg4 arg5 harg5 arg6 harg6 hc0 hc1 x0 x1 x2 xs).1, y ∈ pc.1.set :=
  View.cover_of_tiledL (runLast3 c i arg2 harg2 arg3 harg3 arg4 harg4 arg5 harg5 arg6 harg6 hc0 hc1 x0 x1 x2 xs).1 S1536x64.size (by sl_kernel_rfl) y
/-- What a last column block leaves in the output block's buffer. -/
def outLast3 (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : isLast3 i)
    (x0 : Vec F S1536x1536 .bf16) (x1 : Vec F S1536x64 .f32) (x2 : Vec F S1x64 .f32) (xs : Vec F S1536x64 .f32) : Vec F S1536x64 .f32 :=
  outV3.read (Elt F) (outV3.writes (Elt F) outV3.junk (runLast3 c i arg2 harg2 arg3 harg3 arg4 harg4 arg5 harg5 arg6 harg6 hc0 hc1 x0 x1 x2 xs).1)
/-- Where nothing is stored into the output block its contents are a placeholder nothing consults: there the window is
    neither written back nor read at the next point. -/
def outIdle3 : Vec F S1536x64 .f32 := outV3.read (Elt F) (outV3.writes (Elt F) outV3.junk [])

/-! ## After each point -/

/-- What the output block's buffer and the accumulator hold after the body at position n. -/
def state3 (c : Dev nD) : (n : ℕ) → n < cfg3.N → Vec F S1536x64 .f32 × Vec F S1536x64 .f32
  | 0, hn => (outIdle3, accFirst3 c (grid3.coords ⟨0, hn⟩) (mem3_0 ⟨0, hn⟩) (whole3_0 ⟨0, hn⟩) (mem3_1 ⟨0, hn⟩) (whole3_1 ⟨0, hn⟩) (mem3_2 ⟨0, hn⟩) (whole3_2 ⟨0, hn⟩) (mem3_3 ⟨0, hn⟩) (whole3_3 ⟨0, hn⟩) accM3 (Memref.isWhole_whole _) ((isFirst3_iff ⟨0, hn⟩).mpr (Nat.zero_mod _)) (fun h => (fun h => by (try dsimp only at h); omega) ((isLast3_iff ⟨0, hn⟩).mp h)) (blk3 V c 0 ⟨0, hn⟩) (blk3 V c 1 ⟨0, hn⟩) (blk3 V c 2 ⟨0, hn⟩))
  | n + 1, hn =>
    if h0 : (n + 1) % 8 = 0 then
      if h1 : (n + 1) % 8 = 7 then
        False.elim (by omega)
      else
        (outIdle3, accFirst3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) accM3 (Memref.isWhole_whole _) ((isFirst3_iff ⟨n + 1, hn⟩).mpr h0) (fun h => h1 ((isLast3_iff ⟨n + 1, hn⟩).mp h)) (blk3 V c 0 ⟨n + 1, hn⟩) (blk3 V c 1 ⟨n + 1, hn⟩) (blk3 V c 2 ⟨n + 1, hn⟩))
    else
      if h1 : (n + 1) % 8 = 7 then
        (outLast3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) accM3 (Memref.isWhole_whole _) (fun h => h0 ((isFirst3_iff ⟨n + 1, hn⟩).mp h)) ((isLast3_iff ⟨n + 1, hn⟩).mpr h1) (blk3 V c 0 ⟨n + 1, hn⟩) (blk3 V c 1 ⟨n + 1, hn⟩) (blk3 V c 2 ⟨n + 1, hn⟩) (state3 c n (Nat.lt_of_succ_lt hn)).2,
         accLast3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) accM3 (Memref.isWhole_whole _) (fun h => h0 ((isFirst3_iff ⟨n + 1, hn⟩).mp h)) ((isLast3_iff ⟨n + 1, hn⟩).mpr h1) (blk3 V c 0 ⟨n + 1, hn⟩) (blk3 V c 1 ⟨n + 1, hn⟩) (blk3 V c 2 ⟨n + 1, hn⟩) (state3 c n (Nat.lt_of_succ_lt hn)).2)
      else
        (outIdle3, accMid3 c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) accM3 (Memref.isWhole_whole _) (fun h => h0 ((isFirst3_iff ⟨n + 1, hn⟩).mp h)) (fun h => h1 ((isLast3_iff ⟨n + 1, hn⟩).mp h)) (blk3 V c 0 ⟨n + 1, hn⟩) (blk3 V c 1 ⟨n + 1, hn⟩) (blk3 V c 2 ⟨n + 1, hn⟩) (state3 c n (Nat.lt_of_succ_lt hn)).2)

theorem state3_first (c : Dev nD) (t : Fin cfg3.N) (h0 : t.val % 8 = 0) (h1 : ¬t.val % 8 = 7) :
    state3 V c t.val t.isLt = (outIdle3, accFirst3 c (grid3.coords t) (mem3_0 t) (whole3_0 t) (mem3_1 t) (whole3_1 t) (mem3_2 t) (whole3_2 t) (mem3_3 t) (whole3_3 t) accM3 (Memref.isWhole_whole _) ((isFirst3_iff t).mpr h0) (fun h => h1 ((isLast3_iff t).mp h)) (blk3 V c 0 t) (blk3 V c 1 t) (blk3 V c 2 t)) := by
  obtain ⟨n, hn⟩ := t
  cases n with
  | zero => exact rfl
  | succ n => exact (dif_pos h0).trans ((dif_neg h1).trans rfl)

theorem state3_mid (c : Dev nD) (t : Fin cfg3.N) (h0 : ¬t.val % 8 = 0) (h1 : ¬t.val % 8 = 7) :
    state3 V c t.val t.isLt = (outIdle3, accMid3 c (grid3.coords t) (mem3_0 t) (whole3_0 t) (mem3_1 t) (whole3_1 t) (mem3_2 t) (whole3_2 t) (mem3_3 t) (whole3_3 t) accM3 (Memref.isWhole_whole _) (fun h => h0 ((isFirst3_iff t).mp h)) (fun h => h1 ((isLast3_iff t).mp h)) (blk3 V c 0 t) (blk3 V c 1 t) (blk3 V c 2 t) (state3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem state3_last (c : Dev nD) (t : Fin cfg3.N) (h0 : ¬t.val % 8 = 0) (h1 : t.val % 8 = 7) :
    state3 V c t.val t.isLt = (outLast3 c (grid3.coords t) (mem3_0 t) (whole3_0 t) (mem3_1 t) (whole3_1 t) (mem3_2 t) (whole3_2 t) (mem3_3 t) (whole3_3 t) accM3 (Memref.isWhole_whole _) (fun h => h0 ((isFirst3_iff t).mp h)) ((isLast3_iff t).mpr h1) (blk3 V c 0 t) (blk3 V c 1 t) (blk3 V c 2 t) (state3 V c (t.val - 1) (Nat.lt_of_le_of_lt (Nat.sub_le _ _) t.isLt)).2,
      accLast3 c (grid3.coords t) (mem3_0 t) (whole3_0 t) (mem3_1 t) (whole3_1 t) (mem3_2 t) (whole3_2 t) (mem3_3 t) (whole3_3 t) accM3 (Memref.isWhole_whole _) (fun h => h0 ((isFirst3_iff t).mp h)) ((isLast3_iff t).mpr h1) (blk3 V c 0 t) (blk3 V c 1 t) (blk3 V c 2 t) (state3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: the class invariant before the first point; afterwards the accumulator at what the point
    before left, beside the other scoped buffers and the generator register. -/
def Inv3 (c : Dev nD) : (n : ℕ) → n ≤ cfg3.N → sProp 𝕄
  | 0, _ => Pipeline.ΦA spec3 c
  | n + 1, hn => iprop(iprop(iprop(owns (c : Thread nD τ) accM3 fullShare ((state3 V c n hn).2))
      ∗ Pipeline.scopedRestBut (Ix := Unit) (Name := ℕ) (U := UR sig nD τ) (Lvl := ℕ) (Val := Elt F) spec3 c [cc3_scratch0]) ∗ (∃ r, prngReg c r))

theorem Inv3_zero (c : Dev nD) (n : ℕ) (h : n ≤ cfg3.N) (hz : n = 0) : Inv3 V c n h = Pipeline.ΦA spec3 c := by
  subst hz; rfl
theorem Inv3_succ (c : Dev nD) (n : ℕ) (hn : n < cfg3.N) :
    Inv3 V c (n + 1) hn = iprop(iprop(iprop(owns (c : Thread nD τ) accM3 fullShare ((state3 V c n hn).2))
      ∗ Pipeline.scopedRestBut (Ix := Unit) (Name := ℕ) (U := UR sig nD τ) (Lvl := ℕ) (Val := Elt F) spec3 c [cc3_scratch0]) ∗ (∃ r, prngReg c r)) := rfl
theorem Inv3_pos (c : Dev nD) (n : ℕ) (h : n ≤ cfg3.N) (hz : n ≠ 0) :
    Inv3 V c n h = iprop(iprop(iprop(owns (c : Thread nD τ) accM3 fullShare ((state3 V c (n - 1) (by omega)).2))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The proof data of pipeline 3 on core c, over the entry contents: each input's buffer at its block after the body,
    the output's at `state3`'s first component; the invariant `Inv3`; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => (state3 V c t.val t.isLt).1
  Φ t := Inv3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem Inv3_castSucc (c : Dev nD) (t : Fin cfg3.N) :
    (dat3 V c).Φ t.castSucc = Inv3 V c t.val (Nat.le_of_lt t.isLt) := by
  dsimp only [dat3]; simp only [Fin.coe_castSucc]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = (state3 V c t.val t.isLt).1 := by dsimp only [dat3]
theorem before3_0 (c : Dev nD) (t : Fin cfg3.N) (d) : (dat3 V c).before 0 t d = blk3 V c 0 t :=
  held3_0_of V (dat3 V c) (A_eq3 V c 0) (after3_0 V c) t d
theorem before3_1 (c : Dev nD) (t : Fin cfg3.N) (d) : (dat3 V c).before 1 t d = blk3 V c 1 t :=
  held3_1_of V (dat3 V c) (A_eq3 V c 1) (after3_1 V c) t d
theorem before3_2 (c : Dev nD) (t : Fin cfg3.N) (d) : (dat3 V c).before 2 t d = blk3 V c 2 t :=
  held3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (mem3_0 t) fullShare ((dat3 V c).before 0 t d))
    ∗ (∃ d, owns (c : Thread nD τ) (mem3_1 t) fullShare ((dat3 V c).before 1 t d))
    ∗ (∃ d, owns (c : Thread nD τ) (mem3_2 t) fullShare ((dat3 V c).before 2 t d))
    ∗ (∃ d, owns (c : Thread nD τ) (mem3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_0 (c : Dev nD) (t : Fin cfg3.N) : (dat3 V c).leavesExact 0 t = owns (c : Thread nD τ) (mem3_0 t) fullShare (blk3 V c 0 t) := by
  unfold Dat.leavesExact; rw [live3_0 t, after3_0]
theorem leaves3_1 (c : Dev nD) (t : Fin cfg3.N) : (dat3 V c).leavesExact 1 t = owns (c : Thread nD τ) (mem3_1 t) fullShare (blk3 V c 1 t) := by
  unfold Dat.leavesExact; rw [live3_1 t, after3_1]
theorem leaves3_2 (c : Dev nD) (t : Fin cfg3.N) : (dat3 V c).leavesExact 2 t = owns (c : Thread nD τ) (mem3_2 t) fullShare (blk3 V c 2 t) := by
  unfold Dat.leavesExact; rw [live3_2 t, after3_2]

set_option maxHeartbeats 4800000 in
/-- The body at any point: the inputs' memrefs hold their blocks; the closed forms say which kind of point it is; the
    invariant hands the body the accumulator at what the point before left (at anything before a first column block)
    and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Inv3 V c (t.val + 1) t.isLt from rfl, Inv3_succ]
  rw [leaves3_0, leaves3_1, leaves3_2]
  have hN : t.val < 64 := lt_of_lt_of_eq t.isLt (show cfg3.N = 64 from N_3)
  by_cases h0 : t.val % 8 = 0
  · have h1 : ¬t.val % 8 = 7 := by omega
    rw [Dat.leavesExact_idle (dat3 V c) 3 t (idle3_3 t (fun h => h1 ((isLast3_iff t).mp h))) (noFlush3_3 t (fun h => h1 ((isLast3_iff t).mp h)))]
    rw [state3_first V c t h0 h1]
    unfold accFirst3; (try dsimp only)
    by_cases hz : t.val = 0
    · rw [Inv3_castSucc V c t, Inv3_zero V c _ _ hz, PhiA3_eq]
      iintro ⟨⟨⟨HS, HB⟩, Hg⟩, Ho, ⟨%d0, H0⟩, ⟨%d1, H1⟩, ⟨%d2, H2⟩, ⟨%d3, H3⟩⟩
      iapply ((runFirst3 c (grid3.coords t) _ _ _ _ _ _ _ _ _ _ ((isFirst3_iff t).mpr h0) (fun h => h1 ((isLast3_iff t).mp h)) (blk3 V c 0 t) (blk3 V c 1 t) (blk3 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HB Hg]
      · isplitl [HS HB]
        · isplitl [HS]
          · unfold owns; iexists _; isplitr
            swap; · iexact HS
            ipureintro; exact View.read_writes_of_cover _ _ _ _ _ (accCoverFirst3 c _ _ _ _ _ _ _ _ _ _ _ _ _ _ _ _)
          iexact HB
        iexact Hg
      isplitl [Ho]; · iexact Ho
      isplitl [H0]; · iexact H0
      isplitl [H1]; · iexact H1
      isplitl [H2]; · iexact H2
      iexists _; iexact H3
    · rw [Inv3_castSucc V c t, Inv3_pos V c _ _ hz]
      iintro ⟨⟨⟨HS, HB⟩, Hg⟩, Ho, ⟨%d0, H0⟩, ⟨%d1, H1⟩, ⟨%d2, H2⟩, ⟨%d3, H3⟩⟩
      iapply ((runFirst3 c (grid3.coords t) _ _ _ _ _ _ _ _ _ _ ((isFirst3_iff t).mpr h0) (fun h => h1 ((isLast3_iff t).mp h)) (blk3 V c 0 t) (blk3 V c 1 t) (blk3 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HB Hg]
      · isplitl [HS HB]
        · isplitl [HS]
          · unfold owns; iexists _; isplitr
            swap; · iexact HS
            ipureintro; exact View.read_writes_of_cover _ _ _ _ _ (accCoverFirst3 c _ _ _ _ _ _ _ _ _ _ _ _ _ _ _ _)
          iexact HB
        iexact Hg
      isplitl [Ho]; · iexact Ho
      isplitl [H0]; · iexact H0
      isplitl [H1]; · iexact H1
      isplitl [H2]; · iexact H2
      iexists _; iexact H3
  · have hz : t.val ≠ 0 := by intro h; rw [h] at h0; exact h0 (Nat.zero_mod _)
    by_cases h1 : t.val % 8 = 7
    · rw [show (dat3 V c).leavesExact 3 t = owns (c : Thread nD τ) (mem3_3 t) fullShare ((dat3 V c).after 3 t) from by
        unfold Dat.leavesExact; rw [live3_3 t ((isLast3_iff t).mpr h1)], after3_3]
      rw [state3_last V c t h0 h1]
      unfold outLast3 accLast3; (try dsimp only)
      rw [Inv3_castSucc V c t, Inv3_pos V c _ _ hz]
      iintro ⟨⟨⟨HS, HB⟩, Hg⟩, Ho, ⟨%d0, H0⟩, ⟨%d1, H1⟩, ⟨%d2, H2⟩, ⟨%d3, H3⟩⟩
      iapply ((runLast3 c (grid3.coords t) _ _ _ _ _ _ _ _ _ _ (fun h => h0 ((isFirst3_iff t).mp h)) ((isLast3_iff t).mpr h1) (blk3 V c 0 t) (blk3 V c 1 t) (blk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HB Hg]
      · isplitl [HS HB]
        · isplitl [HS]
          · unfold owns; iexists _; isplitr
            swap; · iexact HS
            ipureintro; exact View.read_writes_of_cover _ _ _ _ _ (accCoverLast3 c _ _ _ _ _ _ _ _ _ _ _ _ _ _ _ _ _)
          iexact HB
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast3 c _ _ _ _ _ _ _ _ _ _ _ _ _ _ _ _ _)
    · rw [Dat.leavesExact_idle (dat3 V c) 3 t (idle3_3 t (fun h => h1 ((isLast3_iff t).mp h))) (noFlush3_3 t (fun h => h1 ((isLast3_iff t).mp h)))]
      rw [state3_mid V c t h0 h1]
      unfold accMid3; (try dsimp only)
      rw [Inv3_castSucc V c t, Inv3_pos V c _ _ hz]
      iintro ⟨⟨⟨HS, HB⟩, Hg⟩, Ho, ⟨%d0, H0⟩, ⟨%d1, H1⟩, ⟨%d2, H2⟩, ⟨%d3, H3⟩⟩
      iapply ((runMid3 c (grid3.coords t) _ _ _ _ _ _ _ _ _ _ (fun h => h0 ((isFirst3_iff t).mp h)) (fun h => h1 ((isLast3_iff t).mp h)) (blk3 V c 0 t) (blk3 V c 1 t) (blk3 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HB Hg]
      · isplitl [HS HB]
        · isplitl [HS]
          · unfold owns; iexists _; isplitr
            swap; · iexact HS
            ipureintro; exact View.read_writes_of_cover _ _ _ _ _ (accCoverMid3 c _ _ _ _ _ _ _ _ _ _ _ _ _ _ _ _ _)
          iexact HB
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Inv3 V c 0 (Nat.zero_le _) from rfl, Inv3_zero V c 0 _ rfl]
  try exact Idealize.SL.BI.Entails.refl _

/-- After the last point the invariant gives the class invariant back: the accumulator's contents are forgotten. -/
theorem hout3 (c : Dev nD) : (dat3 V c).Φ (Fin.last cfg3.N) ⊢ Pipeline.ΦA spec3 c := by
  rw [show (dat3 V c).Φ (Fin.last cfg3.N) = Inv3 V c (Fin.last cfg3.N).val (Nat.le_of_lt_succ (Fin.last cfg3.N).isLt) from rfl,
    Inv3_pos V c _ _ (by rw [Fin.val_last]; have : cfg3.N = 64 := N_3; omega), PhiA3_eq]
  iintro ⟨⟨HS, HB⟩, Hg⟩
  isplitl [HS HB]
  · isplitl [HS]
    · iexists _; iexact HS
    iexact HB
  iexact Hg

end Cert.KernelIdeal.Hand

end
-- ==== Proof.FrameKI_R4.lean ====
/- The frame half of pallas_call 4 (`cc4__gram_kernel`), written by hand at a parameter `V`, the TensorCore's buffer
   contents when the region is entered. The body loads its two input windows' staging buffers whole, computes one
   block and stores it whole into the output window's staging buffer: what it leaves there is a closed function of
   the two input blocks at the point (`out4_2`), and what it finds in an input buffer is that window's block of the
   array as the region found it (`iblk4`), fetched at the point or not. From these: the proof data `dat4` and
   the body obligation at every point. The two input windows read ONE array: the proof data hold it at the two halves
   of the full share, one per window, and the last section gives the entailments between the buffers behind the arrays,
   whole, and the proof data's arrays, at the region's entry and exit. Generic in the float instance. -/
import proofs.«180263_j1236950581835_2_alg».proof.Proof.LaunchKI
import proofs.«180263_j1236950581835_2_alg».proof.Proof.Gen.KernelIdeal.Skeleton
import proofs.«180263_j1236950581835_2_alg».proof.Proof.Gen.KernelIdeal.Points
import Idealize.ShloMosaic.Lib.Pipeline.FrameBody
import Idealize.ShloMosaic.Lib.Pipeline.Cells
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural recursion goes once per coordinate of the long axes
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents at the region's entry
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is the entry contents and whose body leaves the block in place: where the pipeline does not
    fetch, the block index has not moved, and the buffer still holds the previous point's block, which is this
    point's. Both input windows are uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_a : Rect S2048x64 := Rect.unit (s := S2048x64) ![0, 0] S2048x64.size inb_S2048x64_S2048x64_0_0
abbrev r4_b : Rect S2048x64 := Rect.unit (s := S2048x64) ![0, 0] S2048x64.size inb_S2048x64_S2048x64_0_0
abbrev r4_o : Rect S2048x2048 := Rect.unit (s := S2048x2048) ![0, 0] S2048x2048.size inb_S2048x2048_S2048x2048_0_0

/-! ## What the body leaves in the output window's buffer -/

/-- The output window's staging buffer after the body, from the two input blocks: its one store, of the whole
    buffer, whose payload is the product of the two loaded blocks as the skeleton names it. -/
def out4_2 (x0 : Vec F S2048x64 .bf16) (x1 : Vec F S2048x64 .bf16) : Vec F S2048x2048 .f32 :=
  View.canon [⟨r4_o, k4_pay1 (View.ld x0 r4_a) (View.ld x1 r4_b)⟩]

/-- The one store is of the whole buffer, so it covers it. -/
theorem cover4_2 (p0 : Vec F S2048x2048 .f32) (y : S2048x2048.Idx) :
    ∃ pc ∈ ([⟨r4_o, p0⟩] : List (View.Piece (Elt F) S2048x2048 .f32)), y ∈ pc.1.set :=
  View.cover_of_tiled [⟨r4_o, p0⟩] S2048x2048.size (by rfl) y

/-! ## The body's triple -/

set_option maxHeartbeats 1000000 in
/-- The kernel body on whole staging memrefs, the inputs' at read contents `x0`, `x1` and the output's at anything
    (the body loads it before storing, and drops what it loaded), runs to the continuation holding the inputs' as
    they were and the output's at `out4_2 x0 x1`. -/
theorem sound_kernel4 (c : Dev nD) (E : Set ℕ) (i : grid4.Coords)
    (arg0 : Memref sig .tc .vmem S2048x64 .bf16) (harg0 : arg0.IsWhole)
    (arg1 : Memref sig .tc .vmem S2048x64 .bf16) (harg1 : arg1.IsWhole)
    (arg2 : Memref sig .tc .vmem S2048x2048 .f32) (harg2 : arg2.IsWhole)
    (x0 : Vec F S2048x64 .bf16) (x1 : Vec F S2048x64 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out4_2 x0 x1)) -∗ K ⟨⟩))
      ⊢ wp frame (wpE (defs₀ (F := F)) Variants.none c none) E (cc4__gram_kernel i arg0 harg0 arg1 harg1 arg2 harg2) K := by
  simp only [cc4__gram_kernel_eq_skeleton]; unfold cc4__gram_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them; after the body at point `t` each
    input's buffer at its block and the output's at `out4_2` of the two input blocks; the invariant is the scoped
    rest and the generator register, untouched; nothing owed; the two input windows, which read one array, hold the two halves of its full share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## The shared array: the entry and the exit of the region -/

/-- The buffers behind the three windows' arrays are two: the array both input windows read, and the output's. -/
theorem arrImage4 : Finset.univ.image (Pipeline.arrRef spec4) = {main_v51, main_v52} := by decide

/-- The shares the proof data hold the arrays at: the two halves of the full share for the two readers of the one
    input array, the full share for the output's. -/
theorem share4_0 (c : Dev nD) : (dat4 V c).share 0 = fullShare.left := by
  unfold Dat.share; rw [show (cfg4.win 0).isOut = false from rfl]; dsimp only [dat4]; rfl
theorem share4_1 (c : Dev nD) : (dat4 V c).share 1 = fullShare.right := by
  unfold Dat.share; rw [show (cfg4.win 1).isOut = false from rfl]; dsimp only [dat4]; rfl
theorem share4_2 (c : Dev nD) : (dat4 V c).share 2 = fullShare := by
  unfold Dat.share; rw [show (cfg4.win 2).isOut = true from rfl]; rfl

/-- An input array is never written: at every count of write-backs it is the entry contents. -/
theorem arrAt4_0 (c : Dev nD) (n : Nat) : (dat4 V c).arrAt 0 n = V c main_v51 :=
  ((dat4 V c).arrAt_in 0 rfl n).trans (A_eq4 V c 0)
theorem arrAt4_1 (c : Dev nD) (n : Nat) : (dat4 V c).arrAt 1 n = V c main_v51 :=
  ((dat4 V c).arrAt_in 1 rfl n).trans (A_eq4 V c 1)
theorem arrAt4_2_zero (c : Dev nD) : (dat4 V c).arrAt 2 0 = V c main_v52 := A_eq4 V c 2

/-- The proof data's arrays at contents `G`, the windows one by one, each array a whole buffer. -/
theorem arrays4_eq (c : Dev nD) (G : (w : Fin cfg4.W) → Buf (Elt F) ((cfg4.win w).arr.view.loc (c.tc : Thread nD τ))) :
    (dat4 V c).arrays G = (iprop((((c : Thread nD τ).loc main_v51) ↦{fullShare.left} G 0)
      ∗ (((c : Thread nD τ).loc main_v51) ↦{fullShare.right} G 1)
      ∗ (((c : Thread nD τ).loc main_v52) ↦{fullShare} G 2)) : sProp 𝕄) := by
  unfold Dat.arrays
  rw [bigSep_W4, share4_0, share4_1, share4_2]
  -- the two input windows' arrays are one memref: one rewriting serves both
  rw [(arr_whole4 0).set_eq_univ, (arr_whole4 2).set_eq_univ]

/-- The buffers behind the arrays at a valuation, one by one. -/
theorem arrBufs4_eq (c : Dev nD) (V' : (b : Ref sig .tc) → Buf (Elt F) ((c : Thread nD τ).loc b)) :
    (Pipeline.arrBufs spec4 c V' : sProp 𝕄) = iprop((((c : Thread nD τ).loc main_v51) ↦{fullShare} V' main_v51)
      ∗ (((c : Thread nD τ).loc main_v52) ↦{fullShare} V' main_v52)) := by
  unfold Pipeline.arrBufs
  rw [arrImage4, bigSep_insert (by decide), bigSep_singleton]
  rfl

/-- ENTRY: the two buffers whole at the full share at the entry contents give the proof data's arrays there — the input
    array's full share splits into its two halves, one for each window that reads it. -/
theorem split4 (c : Dev nD) : Pipeline.arrBufs spec4 c (V c) ⊢ (dat4 V c).arrays ((dat4 V c).arrAt · 0) := by
  rw [arrBufs4_eq, arrays4_eq, arrAt4_0, arrAt4_1, arrAt4_2_zero]
  iintro ⟨H51, H52⟩
  ihave H := (pointsTo_share (PosShare.mem_left_op_right fullShare)).1 $$ H51
  icases H with ⟨Hl, Hr⟩
  isplitl [Hl]; · iexact Hl
  isplitl [Hr]; · iexact Hr
  iexact H52

/-- EXIT: the proof data's arrays after every write-back give the two buffers back whole at the full share, at any
    valuation that has the input array as it was and the output array at what the write-backs leave — the two halves of
    the input array's share, both still at the entry contents, join. -/
theorem join4_of (c : Dev nD) (V' : (b : Ref sig .tc) → Buf (Elt F) ((c : Thread nD τ).loc b))
    (h51 : V' main_v51 = V c main_v51) (h52 : V' main_v52 = (dat4 V c).arrAt 2 cfg4.N) :
    (dat4 V c).arrays ((dat4 V c).arrAt · cfg4.N) ⊢ Pipeline.arrBufs spec4 c V' := by
  rw [arrBufs4_eq, arrays4_eq, arrAt4_0, arrAt4_1, h51, h52]
  iintro ⟨Hl, Hr, H52⟩
  isplitl [Hl Hr]
  · iapply (pointsTo_share (PosShare.mem_left_op_right fullShare)).2
    isplitl [Hl]; · iexact Hl
    iexact Hr
  iexact H52

/-- The exit at the entry valuation with the output array replaced by what the write-backs leave. -/
theorem join4 (c : Dev nD) :
    (dat4 V c).arrays ((dat4 V c).arrAt · cfg4.N)
      ⊢ Pipeline.arrBufs spec4 c (Function.update (V c) main_v52 ((dat4 V c).arrAt 2 cfg4.N)) :=
  join4_of V c _ (Function.update_of_ne (by decide) _ _) (Function.update_self _ _ _)

end Region4

end Cert.KernelIdeal.Hand

end
-- ==== Proof.RunKI_W.lean ====
import proofs.«180263_j1236950581835_2_alg».proof.Proof.FrameKI_R0
import proofs.«180263_j1236950581835_2_alg».proof.Proof.FrameKI_R1
import proofs.«180263_j1236950581835_2_alg».proof.Proof.FrameKI_R2
import proofs.«180263_j1236950581835_2_alg».proof.Proof.FrameKI_R3
import proofs.«180263_j1236950581835_2_alg».proof.Proof.FrameKI_R4
import proofs.«180263_j1236950581835_2_alg».proof.Proof.LibRegionRecord

/-!
# The run of @main: five kernel regions among four stretches of host operations

The buffer contents at every boundary between two items of @main, as a fold from the launch memory: a stretch of host
operations applies them; a region leaves its arrays at what its write-backs wrote and every other buffer as entered.
Every region is a segment between two such contents; the launch theorem for several regions then says that every
weakly fair execution ends with every unscoped buffer at the last contents.
-/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After region 2: its arrays at what the write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- After region 3: its arrays at what the write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b

/-- After region 4: the result array at what the write-backs leave; the array its two input windows share, and every
    other buffer, as entered. -/
def W9 (c : Dev nD) : Valuation τ sig (Elt F) :=
  Function.update (W8 m ρ c) (Proc.devRef .tc main_v52) ((dat4 (V8 m ρ) c).arrAt 2 cfg4.N)
abbrev V9 : (c : Dev nD) → (b : Ref sig .tc) → Buf (Elt F) ((c : Thread nD τ).loc b) := fun c b => W9 m ρ c b

/-! ## The proof data family and the thread state -/

abbrev adm : (p : Fin 5) → (pcfgs (F := F) p).Adm := fun p => (cfgs p).toPCfg_adm
/-- Every pipeline's proof data at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V8 m ρ) c
abbrev 𝒱₀ : Variants := Variants.none
abbrev L : GSem nD τ sig → Finset Unit := fun _ => ∅
abbrev lv : GSem nD τ sig → Unit → ℕ := fun _ _ => 0

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

/-- A stretch of host operations as a segment over the thread state. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (RegionRecord.rider (U := UR sig nD τ) (Val := Elt F))

end Cert.KernelIdeal.Hand

end
-- ==== Proof.RunKI_R.lean ====
import proofs.«180263_j1236950581835_2_alg».proof.Proof.RunKI_W
import proofs.«180263_j1236950581835_2_alg».proof.Proof.LibRegionRecord

/-! # The run of @main: regions 0 to 3 as segments between the boundary contents -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

set_option backward.isDefEq.respectTransparency.types false in
/-- Region 0 between the contents W1 and W2: the class invariant in and out. -/
def reg0 : Pipeline.RegionSeg (pcfgs (F := F)) adm (pdats m ρ) () defs₀ 𝒱₀ L lv 0 :=
  RegionRecord.regionSeg (U := UR sig nD τ) (pcfgs (F := F)) adm (pdats m ρ) 0 launch0.toP defs₀ 𝒱₀ (W1 m ρ) (W2 m ρ)
    (fun c => (body_obligation0 (V1 m ρ) c).loose)
    (fun c => (pdats m ρ 0 c).share_full fun _ => rfl) (fun _ _ => rfl) (fun _ => rfl)
    (fun _ _ => rfl) (fun _ k => k.elim0) (hF0 m ρ) (hrest0 m ρ)
    (fun c => by
      rw [show (pdats m ρ 0 c).Φ 0 = Pipeline.ΦA spec0 c from rfl]
      iintro ⟨H, -⟩; iexact H)
    (fun c => by
      rw [show (pdats m ρ 0 c).Φ (Fin.last _) = Pipeline.ΦA spec0 c from rfl]
      iintro H; isplitl [H]; · iexact H
      unfold Pipeline.prefHeld; rw [show (Finset.univ : Finset (Fin 0)) = ∅ from rfl, BI.bigSep_empty]; iempintro)

set_option backward.isDefEq.respectTransparency.types false in
/-- Region 1 between the contents W3 and W4: entered from the class invariant, which the invariant after the
    last point gives back. -/
def reg1 : Pipeline.RegionSeg (pcfgs (F := F)) adm (pdats m ρ) () defs₀ 𝒱₀ L lv 1 :=
  RegionRecord.regionSeg (U := UR sig nD τ) (pcfgs (F := F)) adm (pdats m ρ) 1 launch1.toP defs₀ 𝒱₀ (W3 m ρ) (W4 m ρ)
    (fun c => (body_obligation1 (V3 m ρ) c).loose)
    (fun c => (pdats m ρ 1 c).share_full fun _ => rfl) (fun _ _ => rfl) (fun _ => rfl)
    (fun _ _ => rfl) (fun _ k => k.elim0) (hF1 m ρ) (hrest1 m ρ)
    (fun c => by
      refine BIBase.Entails.trans ?_ (hin1 (V3 m ρ) c)
      iintro ⟨H, -⟩; iexact H)
    (fun c => by
      refine (hout1 (V3 m ρ) c).trans ?_
      iintro H; isplitl [H]; · iexact H
      unfold Pipeline.prefHeld; rw [show (Finset.univ : Finset (Fin 0)) = ∅ from rfl, BI.bigSep_empty]; iempintro)

set_option backward.isDefEq.respectTransparency.types false in
/-- Region 2 between the contents W4 and W5: the class invariant in and out. -/
def reg2 : Pipeline.RegionSeg (pcfgs (F := F)) adm (pdats m ρ) () defs₀ 𝒱₀ L lv 2 :=
  RegionRecord.regionSeg (U := UR sig nD τ) (pcfgs (F := F)) adm (pdats m ρ) 2 launch2.toP defs₀ 𝒱₀ (W4 m ρ) (W5 m ρ)
    (fun c => (body_obligation2 (V4 m ρ) c).loose)
    (fun c => (pdats m ρ 2 c).share_full fun _ => rfl) (fun _ _ => rfl) (fun _ => rfl)
    (fun _ _ => rfl) (fun _ k => k.elim0) (hF2 m ρ) (hrest2 m ρ)
    (fun c => by
      rw [show (pdats m ρ 2 c).Φ 0 = Pipeline.ΦA spec2 c from rfl]
      iintro ⟨H, -⟩; iexact H)
    (fun c => by
      rw [show (pdats m ρ 2 c).Φ (Fin.last _) = Pipeline.ΦA spec2 c from rfl]
      iintro H; isplitl [H]; · iexact H
      unfold Pipeline.prefHeld; rw [show (Finset.univ : Finset (Fin 0)) = ∅ from rfl, BI.bigSep_empty]; iempintro)

set_option backward.isDefEq.respectTransparency.types false in
/-- Region 3 between the contents W6 and W7: entered from the class invariant, which the invariant after the
    last point gives back. -/
def reg3 : Pipeline.RegionSeg (pcfgs (F := F)) adm (pdats m ρ) () defs₀ 𝒱₀ L lv 3 :=
  RegionRecord.regionSeg (U := UR sig nD τ) (pcfgs (F := F)) adm (pdats m ρ) 3 launch3.toP defs₀ 𝒱₀ (W6 m ρ) (W7 m ρ)
    (fun c => (body_obligation3 (V6 m ρ) c).loose)
    (fun c => (pdats m ρ 3 c).share_full fun _ => rfl) (fun _ _ => rfl) (fun _ => rfl)
    (fun _ _ => rfl) (fun _ k => k.elim0) (hF3 m ρ) (hrest3 m ρ)
    (fun c => by
      refine BIBase.Entails.trans ?_ (hin3 (V6 m ρ) c)
      iintro ⟨H, -⟩; iexact H)
    (fun c => by
      refine (hout3 (V6 m ρ) c).trans ?_
      iintro H; isplitl [H]; · iexact H
      unfold Pipeline.prefHeld; rw [show (Finset.univ : Finset (Fin 0)) = ∅ from rfl, BI.bigSep_empty]; iempintro)

end Cert.KernelIdeal.Hand

end
-- ==== Proof.RunKI_R4.lean ====
import proofs.«180263_j1236950581835_2_alg».proof.Proof.RunKI_W
import proofs.«180263_j1236950581835_2_alg».proof.Proof.LibRegionRecord

/-!
# The last kernel region as a segment of the run

The last pallas_call reads one array through both of its input windows, so its arrays are not distinct buffers and the
general record of a region over the thread state "every unscoped buffer at a valuation" does not apply: this file
writes the record by hand, in the same way. At the entry the unscoped buffers at the entry valuation split into the two
buffers behind the three windows' arrays and the rest; the shared input array's full share splits into the two halves
the two windows hold. At the exit the halves join, the result array is at what the write-backs leave, and the rest is
untouched: the unscoped buffers at the exit valuation, which differs from the entry's at the result array only.
-/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The exit valuation against the entry's -/

/-- The exit valuation has the result array at what the write-backs leave, -/
theorem V9_out (c : Dev nD) : V9 m ρ c main_v52 = (dat4 (V8 m ρ) c).arrAt 2 cfg4.N := by
  unfold V9 W9; exact Function.update_self _ _ _

/-- and every other buffer as the region was entered: -/
theorem V9_of_ne (c : Dev nD) (b : Ref sig .tc) (hb : b ≠ main_v52) : V9 m ρ c b = V8 m ρ c b := by
  unfold V9 W9; exact Function.update_of_ne (fun h => hb (Proc.devRef_injective _ h)) _ _

/-- the array the two input windows share, in particular. -/
theorem V9_in (c : Dev nD) : V9 m ρ c main_v51 = V8 m ρ c main_v51 := V9_of_ne m ρ c main_v51 (by decide)

/-- The unscoped buffers that are no array of the region's are held at the same contents by both valuations. -/
theorem rest4_eq (c : Dev nD) :
    (Pipeline.unscopedRest (Ix := Unit) (Name := ℕ) (U := UR sig nD τ) (Lvl := ℕ) spec4 c (V9 m ρ c) : sProp 𝕄)
      = Pipeline.unscopedRest spec4 c (V8 m ρ c) := by
  unfold Pipeline.unscopedRest
  refine bigSep_congr fun b hb => ?_
  rw [V9_of_ne m ρ c b fun e => (Finset.mem_sdiff.mp hb).2 (by rw [e, arrImage4]; decide)]

/-- The core's unscoped buffers at a valuation: the two buffers behind the region's arrays, and the rest. -/
theorem unscoped4_split (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs spec4 c V' ∗ Pipeline.unscopedRest spec4 c V') :=
  Pipeline.unscopedBufs_split₀ (cfgs) (4 : Fin 5) winFacts₀4.arr_unscoped c V'

/-! ## The record -/

-- the library's statements are over the pinned pipeline: matching it against the family's member takes unfolding
-- plain definitions inside a metavariable's type
set_option backward.isDefEq.respectTransparency.types false in
/-- The last region over the thread state: entered from every unscoped buffer at the entry valuation, left at the exit
    valuation. The generator register goes into the class invariant and comes out; nothing is owed; the kernel has no
    semaphore of its own. -/
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V8 m ρ) c).loose
  hwaits := Pipeline.hwaits_of_owed_zero _ _ _ _ L lv 4 fun _ _ => rfl
  pre c := RegionRecord.threadState (U := UR sig nD τ) (W8 m ρ) c
  post c := RegionRecord.threadState (U := UR sig nD τ) (W9 m ρ) c
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hub : (StableHlo.held (c : Thread nD τ) (Pipeline.ucRefs τ sig) (W8 m ρ c) : sProp 𝕄)
        = iprop(Pipeline.arrBufs spec4 c (V8 m ρ c) ∗ Pipeline.unscopedRest spec4 c (V8 m ρ c)) := by
      rw [← Pipeline.unscopedBufs_held]; exact unscoped4_split c (V8 m ρ c)
    unfold RegionRecord.threadState
    rw [hub]
    iintro ⟨⟨⟨Hb, Hrest⟩, Hp, HO⟩, -, -⟩
    ihave Ha := (split4 (V8 m ρ) c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hub : (StableHlo.held (c : Thread nD τ) (Pipeline.ucRefs τ sig) (W9 m ρ c) : sProp 𝕄)
        = iprop(Pipeline.arrBufs spec4 c (V9 m ρ c) ∗ Pipeline.unscopedRest spec4 c (V8 m ρ c)) := by
      rw [← Pipeline.unscopedBufs_held, ← rest4_eq m ρ c]; exact unscoped4_split c (V9 m ρ c)
    unfold RegionRecord.threadState
    rw [hub]
    iintro ⟨Ha, HO, HY, Hrest⟩
    imodintro
    isplitl [Ha Hrest]
    · isplitl [Ha]
      · iapply (join4_of (V8 m ρ) c (V9 m ρ c) (V9_in m ρ c) (V9_out m ρ c)); iexact Ha
      iexact Hrest
    isplitl [HY]; · iexact HY
    unfold Pipeline.Dat.owesAt Pipeline.owesWithin
    icases HO with ⟨%Wo, -, HO⟩; iexists Wo; iexact HO

/-- The record is entered from the thread state at the entry valuation -/
theorem reg4_pre (c : Dev nD) : (reg4 m ρ).pre c = RegionRecord.threadState (U := UR sig nD τ) (W8 m ρ) c := rfl

/-- and left at the thread state at the exit valuation. -/
theorem reg4_post (c : Dev nD) : (reg4 m ρ).post c = RegionRecord.threadState (U := UR sig nD τ) (W9 m ρ) c := rfl

end Cert.KernelIdeal.Hand

end
-- ==== Proof.RunKI.lean ====
import proofs.«180263_j1236950581835_2_alg».proof.Proof.RunKI_R
import proofs.«180263_j1236950581835_2_alg».proof.Proof.RunKI_R4

/-! # The run of @main: its nine items as segments, and the launch -/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's nine items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .host (hseg hostOps4 hostOps4_sub hostOps4_fresh (W7 m ρ)),
    .region (reg4 m ρ) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
set_option maxHeartbeats 1600000 in
/-- From any memory with zero counters, every weakly fair execution of @main on the TensorCores terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => RegionRecord.threadState (U := UR sig nD τ) (W0 m ρ) c)
    (Tₙ := fun c => iprop(StableHlo.held (c : Thread nD τ) (Pipeline.ucRefs τ sig) (W9 m ρ c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show RegionRecord.threadState (U := UR sig nD τ) (W9 m ρ) c
          ⊢ iprop((StableHlo.held (c : Thread nD τ) (Pipeline.ucRefs τ sig) (W9 m ρ c) ∗ ∃ r, prngReg c r) ∗ ∃ W, owes (c : Thread nD τ) (0 : CellTallies nD τ sig Unit) W)
        iintro ⟨Hh, Hr, HO⟩
        isplitl [Hh Hr]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.Hand

end
-- ==== Proof.RunKI_Keep.lean ====
import proofs.«180263_j1236950581835_2_alg».proof.Proof.RunKI_W
import proofs.«180263_j1236950581835_2_alg».proof.Proof.RegionsKI

/-!
# What each item of @main leaves unchanged

A stretch of host operations changes only the buffers its operations write; a region changes only its result array.
So each argument array reaches the end as launched, and each region's operands are what earlier items left.
-/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem host0 (c : Dev nD) (b : Ref sig .tc) (h : b ∉ hostOps0_W) : W1 m ρ c (Proc.devRef .tc b) = W0 m ρ c (Proc.devRef .tc b) :=
  StableHlo.after_of_writes_sub hostOps0 _ hostOps0_writes h
theorem host1 (c : Dev nD) (b : Ref sig .tc) (h : b ∉ hostOps1_W) : W3 m ρ c (Proc.devRef .tc b) = W2 m ρ c (Proc.devRef .tc b) :=
  StableHlo.after_of_writes_sub hostOps1 _ hostOps1_writes h
theorem host3 (c : Dev nD) (b : Ref sig .tc) (h : b ∉ hostOps3_W) : W6 m ρ c (Proc.devRef .tc b) = W5 m ρ c (Proc.devRef .tc b) :=
  StableHlo.after_of_writes_sub hostOps3 _ hostOps3_writes h
theorem host4 (c : Dev nD) (b : Ref sig .tc) (h : b ∉ hostOps4_W) : W8 m ρ c (Proc.devRef .tc b) = W7 m ρ c (Proc.devRef .tc b) :=
  StableHlo.after_of_writes_sub hostOps4 _ hostOps4_writes h

/-- Region 0 leaves every buffer but its result array as it found it: an input window's array by the write-backs
    touching outputs only, any other buffer by not being one of the pipeline's arrays. -/
theorem keep0 (c : Dev nD) (b : Ref sig .tc) (hb : b ≠ main_v45) :
    W2 m ρ c (Proc.devRef .tc b) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_arg2
  · subst h1; exact (W2_arr m ρ c 1).trans (((dat0 (V1 m ρ) c).arrAt_in 1 rfl _).trans (A_eq0 (V1 m ρ) c 1))
  exact W2_of_ne m ρ c b (fun w e => by
    fin_cases w
    · exact h0 e.symm
    · exact h1 e.symm
    · exact hb e.symm)

/-- Region 1 leaves every buffer but its result array as it found it: an input window's array by the write-backs
    touching outputs only, any other buffer by not being one of the pipeline's arrays. -/
theorem keep1 (c : Dev nD) (b : Ref sig .tc) (hb : b ≠ main_v47) :
    W4 m ρ c (Proc.devRef .tc b) = W3 m ρ c (Proc.devRef .tc b) := by
  by_cases h0 : b = main_v44
  · subst h0; exact (W4_arr m ρ c 0).trans (((dat1 (V3 m ρ) c).arrAt_in 0 rfl _).trans (A_eq1 (V3 m ρ) c 0))
  by_cases h1 : b = main_v45
  · subst h1; exact (W4_arr m ρ c 1).trans (((dat1 (V3 m ρ) c).arrAt_in 1 rfl _).trans (A_eq1 (V3 m ρ) c 1))
  by_cases h2 : b = main_v46
  · subst h2; exact (W4_arr m ρ c 2).trans (((dat1 (V3 m ρ) c).arrAt_in 2 rfl _).trans (A_eq1 (V3 m ρ) c 2))
  exact W4_of_ne m ρ c b (fun w e => by
    fin_cases w
    · exact h0 e.symm
    · exact h1 e.symm
    · exact h2 e.symm
    · exact hb e.symm)

/-- Region 2 leaves every buffer but its result array as it found it: an input window's array by the write-backs
    touching outputs only, any other buffer by not being one of the pipeline's arrays. -/
theorem keep2 (c : Dev nD) (b : Ref sig .tc) (hb : b ≠ main_v48) :
    W5 m ρ c (Proc.devRef .tc b) = W4 m ρ c (Proc.devRef .tc b) := by
  by_cases h0 : b = main_v47
  · subst h0; exact (W5_arr m ρ c 0).trans (((dat2 (V4 m ρ) c).arrAt_in 0 rfl _).trans (A_eq2 (V4 m ρ) c 0))
  by_cases h1 : b = main_arg4
  · subst h1; exact (W5_arr m ρ c 1).trans (((dat2 (V4 m ρ) c).arrAt_in 1 rfl _).trans (A_eq2 (V4 m ρ) c 1))
  exact W5_of_ne m ρ c b (fun w e => by
    fin_cases w
    · exact h0 e.symm
    · exact h1 e.symm
    · exact hb e.symm)

/-- Region 3 leaves every buffer but its result array as it found it: an input window's array by the write-backs
    touching outputs only, any other buffer by not being one of the pipeline's arrays. -/
theorem keep3 (c : Dev nD) (b : Ref sig .tc) (hb : b ≠ main_v50) :
    W7 m ρ c (Proc.devRef .tc b) = W6 m ρ c (Proc.devRef .tc b) := by
  by_cases h0 : b = main_v44
  · subst h0; exact (W7_arr m ρ c 0).trans (((dat3 (V6 m ρ) c).arrAt_in 0 rfl _).trans (A_eq3 (V6 m ρ) c 0))
  by_cases h1 : b = main_v48
  · subst h1; exact (W7_arr m ρ c 1).trans (((dat3 (V6 m ρ) c).arrAt_in 1 rfl _).trans (A_eq3 (V6 m ρ) c 1))
  by_cases h2 : b = main_v49
  · subst h2; exact (W7_arr m ρ c 2).trans (((dat3 (V6 m ρ) c).arrAt_in 2 rfl _).trans (A_eq3 (V6 m ρ) c 2))
  exact W7_of_ne m ρ c b (fun w e => by
    fin_cases w
    · exact h0 e.symm
    · exact h1 e.symm
    · exact h2 e.symm
    · exact hb e.symm)

/-- Region 4 leaves every buffer but its result array as it found it. -/
theorem keep4 (c : Dev nD) (b : Ref sig .tc) (hb : b ≠ main_v52) :
    W9 m ρ c (Proc.devRef .tc b) = W8 m ρ c (Proc.devRef .tc b) := by
  unfold W9
  exact Function.update_of_ne (StableHlo.devRef_ne_of_ne hb) _ _

/-- The result array at the end: what region 4's write-backs leave. -/
theorem W9_result (c : Dev nD) : W9 m ρ c (Proc.devRef .tc main_v52) = (dat4 (V8 m ρ) c).arrAt 2 cfg4.N := by
  unfold W9; exact Function.update_self _ _ _

/-- A buffer no stretch of host operations writes and no region has as its result reaches the end as launched. -/
theorem W9_kept (c : Dev nD) (b : Ref sig .tc) (h0 : b ∉ hostOps0_W) (h1 : b ∉ hostOps1_W) (h3 : b ∉ hostOps3_W) (h4 : b ∉ hostOps4_W)
    (n45 : b ≠ main_v45) (n47 : b ≠ main_v47) (n48 : b ≠ main_v48) (n50 : b ≠ main_v50) (n52 : b ≠ main_v52) :
    W9 m ρ c (Proc.devRef .tc b) = m ((c : Thread nD τ).loc b) :=
  (keep4 m ρ c b n52).trans <| (host4 m ρ c b h4).trans <| (keep3 m ρ c b n50).trans <| (host3 m ρ c b h3).trans <|
    (keep2 m ρ c b n48).trans <| (keep1 m ρ c b n47).trans <| (host1 m ρ c b h1).trans <| (keep0 m ρ c b n45).trans <|
    (host0 m ρ c b h0).trans rfl

theorem W9_main_arg0 (c : Dev nD) : W9 m ρ c (Proc.devRef .tc main_arg0) = m ((c : Thread nD τ).loc main_arg0) :=
  W9_kept m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_kept m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_kept m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_kept m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_kept m ρ c main_arg4 (by decide) (by decide) (by decide) (by decide) (by decide) (by decide) (by decide) (by decide) (by decide)
theorem W9_main_arg5 (c : Dev nD) : W9 m ρ c (Proc.devRef .tc main_arg5) = m ((c : Thread nD τ).loc main_arg5) :=
  W9_kept m ρ c main_arg5 (by decide) (by decide) (by decide) (by decide) (by decide) (by decide) (by decide) (by decide) (by decide)

end Cert.KernelIdeal.Hand

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.Spec.lean ====
import Idealize.ShloMosaic.PureOps.Ideal
import Idealize.ShloMosaic.Lib.ValueIdx
import Mathlib.Algebra.BigOperators.Fin

/-!
# Two graph-convolution layers and a Gram matrix, as functions of coordinates

A graph on 12288 nodes is given as 393216 directed edges (a source row and a target row of node numbers); one self loop
per node is appended, so the edge list has 405504 entries. The degree of a node counts the entries that point at it;
an entry's weight is rsqrt(max(deg, ε)) at its source times the same at its target. A layer sends each entry's source
row of features, scaled by the entry's weight, to its target, sums what arrives there and adds a bias. The result here
is the Gram matrix of the second layer's output. The same layer is also written through the dense 12288 × 12288
matrix of summed weights, contracted against the features in eight blocks of 1536 columns.
-/

noncomputable section

namespace Gcn

open Idealize.ShloMosaic Idealize.ShloMosaic.ValueIdx
open scoped BigOperators

/-- The node a 32-bit index word names: its signed value, kept inside 0 … 12287. -/
def node (w : BitVec 32) : Fin 12288 := ⟨min w.toInt.toNat (12288 - 1), by omega⟩

/-- The source node of entry `t` of the edge list: the edge's first endpoint, then node `t - 393216` for the self loops. -/
def src (ei : (⟨2, ![2, 393216]⟩ : Shape).Idx → BitVec 32) (t : Fin 405504) : Fin 12288 :=
  if h : t.val < 393216 then node (ei (ix2 (0 : Fin 2) (⟨t.val, h⟩ : Fin 393216))) else ⟨t.val - 393216, by omega⟩

/-- The target node of entry `t` of the edge list. -/
def dst (ei : (⟨2, ![2, 393216]⟩ : Shape).Idx → BitVec 32) (t : Fin 405504) : Fin 12288 :=
  if h : t.val < 393216 then node (ei (ix2 (1 : Fin 2) (⟨t.val, h⟩ : Fin 393216))) else ⟨t.val - 393216, by omega⟩

/-- The three float constants of both programs, as their f32 words denote them. -/
def zero : EReal := Ideal.ofBits .f32 0x00000000#32
def one : EReal := Ideal.ofBits .f32 0x3F800000#32
def eps : EReal := Ideal.ofBits .f32 0x2B8CBCCC#32

variable (ei : (⟨2, ![2, 393216]⟩ : Shape).Idx → BitVec 32)

/-- How many entries of the list point at node `n`. -/
def deg (n : Fin 12288) : EReal := zero + ∑ t : Fin 405504, if dst ei t = n then one else 0

/-- rsqrt(max(deg, ε)). -/
def dinv (n : Fin 12288) : EReal := Ideal.rsqrt (max (deg ei n) eps)

/-- The weight of entry `t`. -/
def norm (t : Fin 405504) : EReal := dinv ei (src ei t) * dinv ei (dst ei t)

/-- A product of two matrices. -/
def mmul {R K C : Nat} (x : Fin R → Fin K → EReal) (w : Fin K → Fin C → EReal) (r : Fin R) (c : Fin C) : EReal :=
  ∑ k : Fin K, x r k * w k c

/-- One layer, entry by entry of the edge list. -/
def layer {C : Nat} (h : Fin 12288 → Fin C → EReal) (b : Fin C → EReal) (p : Fin 12288) (f : Fin C) : EReal :=
  (zero + ∑ t : Fin 405504, if dst ei t = p then h (src ei t) f * norm ei t else 0) + b f

/-- The dense matrix of summed weights: row = target, column = source. -/
def adj (p q : Fin 12288) : EReal := zero + ∑ t : Fin 405504, if dst ei t = p ∧ src ei t = q then norm ei t else 0

/-- A sum over naturals taken in blocks of 1536, each block's sum added onto what the earlier blocks left, from zero. -/
def acc (g : Nat → EReal) : Nat → EReal
  | 0 => zero
  | n + 1 => acc g n + ∑ k : Fin 1536, g (n * 1536 + k.val)

/-- One layer through the dense matrix, its 12288 columns contracted in eight blocks. -/
def layerD {C : Nat} (h : Fin 12288 → Fin C → EReal) (b : Fin C → EReal) (p : Fin 12288) (f : Fin C) : EReal :=
  acc (fun q => if hq : q < 12288 then adj ei p ⟨q, hq⟩ * h ⟨q, hq⟩ f else 0) 8 + b f

variable (x : Fin 12288 → Fin 128 → EReal) (W1 : Fin 128 → Fin 128 → EReal) (b1 : Fin 128 → EReal)
  (W2 : Fin 128 → Fin 64 → EReal) (b2 : Fin 64 → EReal)

/-- The rectified first layer. -/
def hidden (p : Fin 12288) (f : Fin 128) : EReal := max (layer ei (mmul x W1) b1 p f) zero
/-- The second layer's output. -/
def latent : Fin 12288 → Fin 64 → EReal := layer ei (mmul (hidden ei x W1 b1) W2) b2
/-- The Gram matrix of the second layer's output. -/
def G (i j : Fin 12288) : EReal := ∑ f : Fin 64, latent ei x W1 b1 W2 b2 i f * latent ei x W1 b1 W2 b2 j f

/-- The same three through the dense matrix. -/
def hiddenD (p : Fin 12288) (f : Fin 128) : EReal := max (layerD ei (mmul x W1) b1 p f) zero
def latentD : Fin 12288 → Fin 64 → EReal := layerD ei (mmul (hiddenD ei x W1 b1) W2) b2
def GD (i j : Fin 12288) : EReal := ∑ f : Fin 64, latentD ei x W1 b1 W2 b2 i f * latentD ei x W1 b1 W2 b2 j f

/-- Every entry is a real number. -/
def Real2 {A B : Nat} (u : Fin A → Fin B → EReal) : Prop := ∀ a b, ∃ r : ℝ, u a b = (r : EReal)
def Real1 {A : Nat} (u : Fin A → EReal) : Prop := ∀ a, ∃ r : ℝ, u a = (r : EReal)

end Gcn

/-! ## The same over the programs' array types -/

namespace Gcn

open Idealize.ShloMosaic Idealize.ShloMosaic.ValueIdx

/-- The coordinates of a matrix given as a function of an index. -/
def mat {A B : Nat} (v : (⟨2, ![A, B]⟩ : Shape).Idx → EReal) (a : Fin A) (b : Fin B) : EReal := v (ix2 a b)
def vec {A : Nat} (v : (⟨1, ![A]⟩ : Shape).Idx → EReal) (a : Fin A) : EReal := v (ix1 a)

/-- The result array of both programs, as one function of the argument arrays. -/
def Garr (x : (⟨2, ![12288, 128]⟩ : Shape).Idx → EReal) (ei : (⟨2, ![2, 393216]⟩ : Shape).Idx → BitVec 32)
    (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal) :
    (⟨2, ![12288, 12288]⟩ : Shape).Idx → EReal :=
  fun i => G ei (mat x) (mat W1) (vec b1) (mat W2) (vec b2) ⟨(i 0).val, (i 0).isLt⟩ ⟨(i 1).val, (i 1).isLt⟩

def GDarr (x : (⟨2, ![12288, 128]⟩ : Shape).Idx → EReal) (ei : (⟨2, ![2, 393216]⟩ : Shape).Idx → BitVec 32)
    (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal) :
    (⟨2, ![12288, 12288]⟩ : Shape).Idx → EReal :=
  fun i => GD ei (mat x) (mat W1) (vec b1) (mat W2) (vec b2) ⟨(i 0).val, (i 0).isLt⟩ ⟨(i 1).val, (i 1).isLt⟩

end Gcn

end
-- ==== Proof.KV_R0.lean ====
import proofs.«180263_j1236950581835_2_alg».proof.Proof.FrameKI_R0
import proofs.«180263_j1236950581835_2_alg».proof.Proof.LibPlainDot
import proofs.«180263_j1236950581835_2_alg».proof.Proof.Spec
import Idealize.ShloMosaic.Lib.Pipeline.Value

/-!
# The first product, as an array

The first region multiplies the feature array, staged in eight row blocks of 1536, by the whole first weight
matrix, and writes each block of the product to its rows of the output array. At the ideal values the block's
payload is the plain product of the two staged blocks (narrowing the operands changes nothing there, and the
accumulator starts at zero), row r of block t is row 1536·t + r of the array, and the eight blocks cover the
array: so the output array ends as the product of the two arrays the region found.
-/

noncomputable section

namespace Cert.KernelIdeal.Val

open Cert.KernelIdeal Cert.KernelIdeal.Gen Cert.KernelIdeal.GenP Cert.KernelIdeal.Hand
open Idealize.ShloMosaic Idealize.ShloMosaic.TcCoe Idealize.SL.Sem Idealize.ShloMosaic.ValueIdx
open Idealize.ShloMosaic.Pipeline (Dat)
open scoped BigOperators

theorem hz0 : (![0, 0] : Fin 2 → Nat) = fun _ => 0 := funext fun a => by fin_cases a <;> rfl

/-- The block's payload at an index: the plain product of the two staged blocks. -/
theorem pay0_apply (x0 : Vec Ideal S1536x128 .f32) (x1 : Vec Ideal S128x128 .f32) (j : S1536x128.Idx) :
    k0_pay1 x0 x1 j = Cert.Lib.PlainDot.mm (R := 1536) (K := 128) (C := 128) x0 x1 j := by
  unfold k0_pay1
  exact Cert.Lib.PlainDot.matmul_zero_apply dot_S1536x128_S128x128_S1536x128_1_0_0_1_n_n rfl none _ _ j

section
variable (V : (c : Dev nD) → (b : Ref sig .tc) → Buf (Elt Ideal) ((c : Thread nD τ).loc b))

/-- The product of the two arrays the region finds, index by index. -/
def G0 (c : Dev nD) : S12288x128.Idx → EReal := fun i =>
  Gcn.mmul (Gcn.mat (A := 12288) (B := 128) (V c main_arg0)) (Gcn.mat (A := 128) (B := 128) (V c main_arg2))
    ⟨(i 0).val, (i 0).isLt⟩ ⟨(i 1).val, (i 1).isLt⟩

/-- The printed index maps, decided over the eight points. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S1536x128) hz0, View.ld_unit_zero (S := S128x128) hz0]
  obtain ⟨e0, e1, e2, e3, e4, e5⟩ := idx_facts0 t
  funext j
  show k0_pay1 (iblk0 V c 0 t) (iblk0 V c 1 t) j = G0 V c (((cfg0.win 2).blk t).view.emb j)
  rw [pay0_apply]
  unfold Cert.Lib.PlainDot.mm G0 Gcn.mmul Gcn.mat
  refine Finset.sum_congr rfl fun k _ => ?_
  have hj0 : (j 0).val < 1536 := (j 0).isLt
  have hj1 : (j 1).val < 128 := (j 1).isLt
  have h0 : ((cfg0.win 0).blk t).view.emb (Cert.Lib.PlainDot.rowIdx (R := 1536) (K := 128) (C := 128) j k)
      = ix2 (n0 := 12288) (n1 := 128) ⟨((((cfg0.win 2).blk t).view.emb j) 0).val, ((((cfg0.win 2).blk t).view.emb j) 0).isLt⟩ k := by
    funext a; apply Fin.ext
    match a with
    | ⟨0, _⟩ => show win0_0.index t (0 : Fin 2) * 1536 + 1 * (j 0).val = win0_2.index t (0 : Fin 2) * 1536 + 1 * (j 0).val; omega
    | ⟨1, _⟩ => show win0_0.index t (1 : Fin 2) * 128 + 1 * k.val = k.val; omega
  have h1 : ((cfg0.win 1).blk t).view.emb (Cert.Lib.PlainDot.colIdx (R := 1536) (K := 128) (C := 128) j k)
      = ix2 (n0 := 128) (n1 := 128) k ⟨((((cfg0.win 2).blk t).view.emb j) 1).val, ((((cfg0.win 2).blk t).view.emb j) 1).isLt⟩ := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  refine congrArg₂ (fun a b : EReal => a * b) ?_ ?_
  · show V c main_arg0 (((cfg0.win 0).blk t).view.emb (Cert.Lib.PlainDot.rowIdx j k)) = _
    rw [h0]
  · show V c main_arg2 (((cfg0.win 1).blk t).view.emb (Cert.Lib.PlainDot.colIdx j k)) = _
    rw [h1]

/-- An index of the output array is in point t's block iff each coordinate is in the block's range on its axis. -/
theorem mem_blk0 (t : Fin cfg0.N) (i : S12288x128.Idx) :
    i ∈ ((cfg0.win 2).blk t).view.set ↔ ∀ a : Fin 2, win0_2.index t a * S1536x128.size a ≤ (i a).val
      ∧ (i a).val < win0_2.index t a * S1536x128.size a + S1536x128.size a := by
  show i ∈ ((View.whole main_v45).slice (win0_2.rect t)).set ↔ _
  rw [View.set_slice_whole, Rect.mem_set_unit]
  exact Iff.rfl

/-- Row r of the array is in the block of point r / 1536. -/
theorem cover0 (i : S12288x128.Idx) :
    ∃ t : Fin cfg0.N, (cfg0.win 2).flush t = true ∧ i ∈ ((cfg0.win 2).blk t).view.set := by
  have hi0 : (i 0).val < 12288 := (i 0).isLt
  have hi1 : (i 1).val < 128 := (i 1).isLt
  have hN : cfg0.N = 8 := N_0
  have ht : (i 0).val / 1536 < cfg0.N := by rw [hN]; omega
  obtain ⟨e0, e1, e2, e3, e4, e5⟩ := idx_facts0 ⟨(i 0).val / 1536, ht⟩
  refine ⟨⟨(i 0).val / 1536, ht⟩, flush0_2 _, ?_⟩
  rw [mem_blk0]
  intro a
  match a with
  | ⟨0, _⟩ =>
    show win0_2.index ⟨(i 0).val / 1536, ht⟩ (0 : Fin 2) * 1536 ≤ (i 0).val
      ∧ (i 0).val < win0_2.index ⟨(i 0).val / 1536, ht⟩ (0 : Fin 2) * 1536 + 1536
    rw [e5]
    show (i 0).val / 1536 * 1536 ≤ (i 0).val ∧ (i 0).val < (i 0).val / 1536 * 1536 + 1536
    omega
  | ⟨1, _⟩ =>
    show win0_2.index ⟨(i 0).val / 1536, ht⟩ (1 : Fin 2) * 128 ≤ (i 1).val
      ∧ (i 1).val < win0_2.index ⟨(i 0).val / 1536, ht⟩ (1 : Fin 2) * 128 + 128
    rw [e4]
    omega

/-- THE OUTPUT ARRAY of the first region: the product of the two arrays the region found. -/
theorem final0 (c : Dev nD) : (dat0 (F := Ideal) V c).arrAt 2 cfg0.N = fun i : S12288x128.Idx =>
    Gcn.mmul (Gcn.mat (A := 12288) (B := 128) (V c main_arg0)) (Gcn.mat (A := 128) (B := 128) (V c main_arg2))
      ⟨(i 0).val, (i 0).isLt⟩ ⟨(i 1).val, (i 1).isLt⟩ :=
  (dat0 (F := Ideal) V c).arrAt_eq_of_cover 2 (G0 V c) (fun t _ => flushed0_eq V c t) cover0

end

end Cert.KernelIdeal.Val

end
-- ==== Proof.KV_R2.lean ====
import proofs.«180263_j1236950581835_2_alg».proof.Proof.FrameKI_R2
import proofs.«180263_j1236950581835_2_alg».proof.Proof.LibPlainDot
import proofs.«180263_j1236950581835_2_alg».proof.Proof.Spec
import Idealize.ShloMosaic.Lib.Pipeline.Value

/-!
# The second product, as an array

The third region multiplies the hidden array, staged in eight row blocks of 1536, by the whole second weight
matrix, and writes each block of the product to its rows of the output array. At the ideal values the block's
payload is the plain product of the two staged blocks (narrowing the operands changes nothing there, and the
accumulator starts at zero), row r of block t is row 1536·t + r of the array, and the eight blocks cover the
array: so the output array ends as the product of the two arrays the region found.
-/

noncomputable section

namespace Cert.KernelIdeal.Val

open Cert.KernelIdeal Cert.KernelIdeal.Gen Cert.KernelIdeal.GenP Cert.KernelIdeal.Hand
open Idealize.ShloMosaic Idealize.ShloMosaic.TcCoe Idealize.SL.Sem Idealize.ShloMosaic.ValueIdx
open Idealize.ShloMosaic.Pipeline (Dat)
open scoped BigOperators

theorem hz2 : (![0, 0] : Fin 2 → Nat) = fun _ => 0 := funext fun a => by fin_cases a <;> rfl

/-- The block's payload at an index: the plain product of the two staged blocks. -/
theorem pay2_apply (x0 : Vec Ideal S1536x128 .f32) (x1 : Vec Ideal S128x64 .f32) (j : S1536x64.Idx) :
    k2_pay1 x0 x1 j = Cert.Lib.PlainDot.mm (R := 1536) (K := 128) (C := 64) x0 x1 j := by
  unfold k2_pay1
  refine (Cert.Lib.PlainDot.matmul_zero_apply dot_S1536x128_S128x64_S1536x64_1_0_0_1_n_n rfl none _ _ j).trans ?_
  exact congrArg (fun v : (⟨2, ![1536, 128]⟩ : Shape).Idx → EReal =>
    Cert.Lib.PlainDot.mm (R := 1536) (K := 128) (C := 64) v x1 j) (shapeCast_self x0 _)

section
variable (V : (c : Dev nD) → (b : Ref sig .tc) → Buf (Elt Ideal) ((c : Thread nD τ).loc b))

/-- The product of the two arrays the region finds, index by index. -/
def G2 (c : Dev nD) : S12288x64.Idx → EReal := fun i =>
  Gcn.mmul (Gcn.mat (A := 12288) (B := 128) (V c main_v47)) (Gcn.mat (A := 128) (B := 64) (V c main_arg4))
    ⟨(i 0).val, (i 0).isLt⟩ ⟨(i 1).val, (i 1).isLt⟩

/-- The printed index maps, decided over the eight points. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

theorem flushed2_eq (c : Dev nD) (t : Fin cfg2.N) :
    (dat2 (F := Ideal) V c).flushed 2 t = ((cfg2.win 2).blk t).view.read (Elt Ideal) (G2 V c) := by
  show (cfg2.win 2).cut (grid2.coords t) ((dat2 V c).after 2 t) = _
  rw [after2_2]
  unfold out2_2
  rw [View.canon_unit_zero hz2]
  simp only [View.ld_unit_zero (S := S1536x128) hz2, View.ld_unit_zero (S := S128x64) hz2]
  obtain ⟨e0, e1, e2, e3, e4, e5⟩ := idx_facts2 t
  funext j
  show k2_pay1 (iblk2 V c 0 t) (iblk2 V c 1 t) j = G2 V c (((cfg2.win 2).blk t).view.emb j)
  rw [pay2_apply]
  unfold Cert.Lib.PlainDot.mm G2 Gcn.mmul Gcn.mat
  refine Finset.sum_congr rfl fun k _ => ?_
  have hj0 : (j 0).val < 1536 := (j 0).isLt
  have hj1 : (j 1).val < 64 := (j 1).isLt
  have h0 : ((cfg2.win 0).blk t).view.emb (Cert.Lib.PlainDot.rowIdx (R := 1536) (K := 128) (C := 64) j k)
      = ix2 (n0 := 12288) (n1 := 128) ⟨((((cfg2.win 2).blk t).view.emb j) 0).val, ((((cfg2.win 2).blk t).view.emb j) 0).isLt⟩ k := by
    funext a; apply Fin.ext
    match a with
    | ⟨0, _⟩ => show win2_0.index t (0 : Fin 2) * 1536 + 1 * (j 0).val = win2_2.index t (0 : Fin 2) * 1536 + 1 * (j 0).val; omega
    | ⟨1, _⟩ => show win2_0.index t (1 : Fin 2) * 128 + 1 * k.val = k.val; omega
  have h1 : ((cfg2.win 1).blk t).view.emb (Cert.Lib.PlainDot.colIdx (R := 1536) (K := 128) (C := 64) j k)
      = ix2 (n0 := 128) (n1 := 64) k ⟨((((cfg2.win 2).blk t).view.emb j) 1).val, ((((cfg2.win 2).blk t).view.emb j) 1).isLt⟩ := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  refine congrArg₂ (fun a b : EReal => a * b) ?_ ?_
  · show V c main_v47 (((cfg2.win 0).blk t).view.emb (Cert.Lib.PlainDot.rowIdx j k)) = _
    rw [h0]
  · show V c main_arg4 (((cfg2.win 1).blk t).view.emb (Cert.Lib.PlainDot.colIdx j k)) = _
    rw [h1]

/-- An index of the output array is in point t's block iff each coordinate is in the block's range on its axis. -/
theorem mem_blk2 (t : Fin cfg2.N) (i : S12288x64.Idx) :
    i ∈ ((cfg2.win 2).blk t).view.set ↔ ∀ a : Fin 2, win2_2.index t a * S1536x64.size a ≤ (i a).val
      ∧ (i a).val < win2_2.index t a * S1536x64.size a + S1536x64.size a := by
  show i ∈ ((View.whole main_v48).slice (win2_2.rect t)).set ↔ _
  rw [View.set_slice_whole, Rect.mem_set_unit]
  exact Iff.rfl

/-- Row r of the array is in the block of point r / 1536. -/
theorem cover2 (i : S12288x64.Idx) :
    ∃ t : Fin cfg2.N, (cfg2.win 2).flush t = true ∧ i ∈ ((cfg2.win 2).blk t).view.set := by
  have hi0 : (i 0).val < 12288 := (i 0).isLt
  have hi1 : (i 1).val < 64 := (i 1).isLt
  have hN : cfg2.N = 8 := N_2
  have ht : (i 0).val / 1536 < cfg2.N := by rw [hN]; omega
  obtain ⟨e0, e1, e2, e3, e4, e5⟩ := idx_facts2 ⟨(i 0).val / 1536, ht⟩
  refine ⟨⟨(i 0).val / 1536, ht⟩, flush2_2 _, ?_⟩
  rw [mem_blk2]
  intro a
  match a with
  | ⟨0, _⟩ =>
    show win2_2.index ⟨(i 0).val / 1536, ht⟩ (0 : Fin 2) * 1536 ≤ (i 0).val
      ∧ (i 0).val < win2_2.index ⟨(i 0).val / 1536, ht⟩ (0 : Fin 2) * 1536 + 1536
    rw [e5]
    show (i 0).val / 1536 * 1536 ≤ (i 0).val ∧ (i 0).val < (i 0).val / 1536 * 1536 + 1536
    omega
  | ⟨1, _⟩ =>
    show win2_2.index ⟨(i 0).val / 1536, ht⟩ (1 : Fin 2) * 64 ≤ (i 1).val
      ∧ (i 1).val < win2_2.index ⟨(i 0).val / 1536, ht⟩ (1 : Fin 2) * 64 + 64
    rw [e4]
    omega

/-- THE OUTPUT ARRAY of the third region: the product of the two arrays the region found. -/
theorem final2 (c : Dev nD) : (dat2 (F := Ideal) V c).arrAt 2 cfg2.N = fun i : S12288x64.Idx =>
    Gcn.mmul (Gcn.mat (A := 12288) (B := 128) (V c main_v47)) (Gcn.mat (A := 128) (B := 64) (V c main_arg4))
      ⟨(i 0).val, (i 0).isLt⟩ ⟨(i 1).val, (i 1).isLt⟩ :=
  (dat2 (F := Ideal) V c).arrAt_eq_of_cover 2 (G2 V c) (fun t _ => flushed2_eq V c t) cover2

end

end Cert.KernelIdeal.Val

end
-- ==== Proof.KV_R4.lean ====
import proofs.«180263_j1236950581835_2_alg».proof.Proof.FrameKI_R4
import proofs.«180263_j1236950581835_2_alg».proof.Proof.Spec
import Idealize.ShloMosaic.PureOps.Ideal.Laws
import Idealize.ShloMosaic.Lib.ValueIdx
import Idealize.ShloMosaic.Lib.Pipeline.Value

/-!
# The Gram matrix, as an array

The last region stages the same array twice, in six row blocks of 2048: once by the first grid coordinate and once
by the second, and writes the product of the first block with the transpose of the second to block (i, j) of the
output. At the ideal values the payload at (r, c) is the sum over the 64 features of the first block's row r times
the second block's row c; row r of block i is row 2048·i + r of the array, and the 36 blocks cover the output: so
the output array ends as the array times its own transpose.
-/

noncomputable section

namespace Cert.KernelIdeal.Val

open Cert.KernelIdeal Cert.KernelIdeal.Gen Cert.KernelIdeal.GenP Cert.KernelIdeal.Hand
open Idealize.ShloMosaic Idealize.ShloMosaic.TcCoe Idealize.SL.Sem Idealize.ShloMosaic.ValueIdx
open Idealize.ShloMosaic.Pipeline (Dat)
open scoped BigOperators

/-! ## A product with the right operand contracted on its last axis, read at an index -/

namespace DotT

variable {R K C : Nat}

/-- The left operand's index (r, k) for output index j = (r, c) and contraction position k. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (c, k) for output index j = (r, c) and contraction position k. -/
abbrev colIdx (j : (⟨2, ![R, C]⟩ : Shape).Idx) (k : Fin K) : (⟨2, ![C, K]⟩ : Shape).Idx := fun a => match a with
  | ⟨0, _⟩ => ⟨(j 1).val, (j 1).isLt⟩
  | ⟨1, _⟩ => ⟨k.val, k.isLt⟩

/-- An [R, K] array times the transpose of a [C, K] array, as a function of the output index. -/
def mm (x : (⟨2, ![R, K]⟩ : Shape).Idx → EReal) (w : (⟨2, ![C, K]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.transposedRhs R K C).contr.Idx) :
    ((DotDims.transposedRhs R K C).lhsIdx j q 0).val = (j 0).val := by
  unfold DotDims.lhsIdx
  rw [dif_neg (show ¬(0 : Fin 2) ∈ (DotDims.transposedRhs R K C).lhsBatch from List.not_mem_nil),
    dif_pos (show (0 : Fin 2) ∈ (DotDims.transposedRhs R K C).lhsNonContracting from List.mem_singleton.mpr rfl)]
  rfl
theorem lhs1 (j : (⟨2, ![R, C]⟩ : Shape).Idx) (q : (DotDims.transposedRhs R K C).contr.Idx) :
    ((DotDims.transposedRhs R K C).lhsIdx j q 1).val
      = (q ⟨0, (show 0 < (DotDims.transposedRhs R K C).contr.rank from Nat.one_pos)⟩).val :=
  (DotDims.transposedRhs R K C).lhsIdx_val_of_single rfl j q
theorem rhs1 (j : (⟨2, ![R, C]⟩ : Shape).Idx) (q : (DotDims.transposedRhs R K C).contr.Idx) :
    ((DotDims.transposedRhs R K C).rhsIdx j q 1).val
      = (q ⟨0, (show 0 < (DotDims.transposedRhs R K C).contr.rank from Nat.one_pos)⟩).val :=
  (DotDims.transposedRhs R K C).rhsIdx_val_of_single rfl j q
theorem rhs0 (j : (⟨2, ![R, C]⟩ : Shape).Idx) (q : (DotDims.transposedRhs R K C).contr.Idx) :
    ((DotDims.transposedRhs R K C).rhsIdx j q 0).val = (j 1).val := by
  unfold DotDims.rhsIdx
  rw [dif_neg (show ¬(0 : Fin 2) ∈ (DotDims.transposedRhs R K C).rhsBatch from List.not_mem_nil),
    dif_pos (show (0 : Fin 2) ∈ (DotDims.transposedRhs R K C).rhsNonContracting from List.mem_singleton.mpr rfl)]
  rfl

/-- The contraction's sum, re-indexed by the one contracted coordinate. -/
theorem sum_T (x : (⟨2, ![R, K]⟩ : Shape).Idx → EReal) (w : (⟨2, ![C, K]⟩ : Shape).Idx → EReal)
    (j : (⟨2, ![R, C]⟩ : Shape).Idx) :
    ∑ q : (DotDims.transposedRhs R K C).contr.Idx,
        x ((DotDims.transposedRhs R K C).lhsIdx j q) * w ((DotDims.transposedRhs R K C).rhsIdx j q)
      = mm x w j := by
  unfold mm
  rw [← Equiv.sum_comp (contrEquiv1 (DotDims.transposedRhs R K C) K rfl rfl).symm]
  refine Finset.sum_congr rfl fun k _ => ?_
  have hk := contrEquiv1_symm_val (DotDims.transposedRhs R K C) K rfl rfl k
  have el : (DotDims.transposedRhs R K C).lhsIdx j ((contrEquiv1 (DotDims.transposedRhs R K C) K rfl rfl).symm k)
      = rowIdx j k :=
    funext fun a => Fin.ext (by
      match a with
      | ⟨0, _⟩ => exact lhs0 _ _
      | ⟨1, _⟩ => exact (lhs1 _ _).trans hk)
  have er : (DotDims.transposedRhs R K C).rhsIdx j ((contrEquiv1 (DotDims.transposedRhs R K C) K rfl rfl).symm k)
      = colIdx j k :=
    funext fun a => Fin.ext (by
      match a with
      | ⟨0, _⟩ => exact rhs0 _ _
      | ⟨1, _⟩ => exact (rhs1 _ _).trans hk)
  rw [el, er]

/-- The kernel's product into the zero accumulator, at an index. -/
theorem matmul_zero_apply {φ₁ φ₂ : FTy} (d : DotDims ⟨2, ![R, K]⟩ ⟨2, ![C, K]⟩ ⟨2, ![R, C]⟩)
    (hd : d = DotDims.transposedRhs R K C) (prec : Option ContractPrecision)
    (x : FVec Ideal ⟨2, ![R, K]⟩ φ₁) (w : FVec Ideal ⟨2, ![C, K]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_T x w j

end DotT

/-! ## The region -/

theorem hz4 : (![0, 0] : Fin 2 → Nat) = fun _ => 0 := funext fun a => by fin_cases a <;> rfl

/-- The block's payload at an index: the first staged block times the transpose of the second. -/
theorem pay4_apply (x0 x1 : Vec Ideal S2048x64 .bf16) (j : S2048x2048.Idx) :
    k4_pay1 x0 x1 j = DotT.mm (R := 2048) (K := 64) (C := 2048) x0 x1 j := by
  unfold k4_pay1
  refine (DotT.matmul_zero_apply dot_S2048x64_S2048x64_S2048x2048_1_1_0_0_n_n rfl none _ _ j).trans ?_
  exact congrArg₂ (fun v w : (⟨2, ![2048, 64]⟩ : Shape).Idx → EReal =>
    DotT.mm (R := 2048) (K := 64) (C := 2048) v w j) (shapeCast_self x0 _) (shapeCast_self x1 _)

section
variable (V : (c : Dev nD) → (b : Ref sig .tc) → Buf (Elt Ideal) ((c : Thread nD τ).loc b))

/-- The array the region finds, times its own transpose, index by index. -/
def G4 (c : Dev nD) : S12288x12288.Idx → EReal := fun i =>
  ∑ f : Fin 64, Gcn.mat (A := 12288) (B := 64) (V c main_v51) ⟨(i 0).val, (i 0).isLt⟩ f
    * Gcn.mat (A := 12288) (B := 64) (V c main_v51) ⟨(i 1).val, (i 1).isLt⟩ f

/-- The printed index maps, decided over the 36 points. -/
theorem idx_facts4 : ∀ t : Fin cfg4.N, win4_0.index t (0 : Fin 2) = win4_2.index t (0 : Fin 2)
    ∧ win4_0.index t (1 : Fin 2) = 0 ∧ win4_1.index t (0 : Fin 2) = win4_2.index t (1 : Fin 2)
    ∧ win4_1.index t (1 : Fin 2) = 0
    ∧ win4_2.index t (0 : Fin 2) = t.val / 6 ∧ win4_2.index t (1 : Fin 2) = t.val % 6 :=
  (by decide +kernel : ∀ t : Fin grid4.N, _)

theorem flushed4_eq (c : Dev nD) (t : Fin cfg4.N) :
    (dat4 (F := Ideal) V c).flushed 2 t = ((cfg4.win 2).blk t).view.read (Elt Ideal) (G4 V c) := by
  show (cfg4.win 2).cut (grid4.coords t) ((dat4 V c).after 2 t) = _
  rw [after4_2]
  unfold out4_2
  rw [View.canon_unit_zero hz4]
  simp only [View.ld_unit_zero (S := S2048x64) hz4]
  obtain ⟨e0, e1, e2, e3, e4, e5⟩ := idx_facts4 t
  funext j
  show k4_pay1 (iblk4 V c 0 t) (iblk4 V c 1 t) j = G4 V c (((cfg4.win 2).blk t).view.emb j)
  rw [pay4_apply]
  unfold DotT.mm G4 Gcn.mat
  refine Finset.sum_congr rfl fun k _ => ?_
  have hj0 : (j 0).val < 2048 := (j 0).isLt
  have hj1 : (j 1).val < 2048 := (j 1).isLt
  have h0 : ((cfg4.win 0).blk t).view.emb (DotT.rowIdx (R := 2048) (K := 64) (C := 2048) j k)
      = ix2 (n0 := 12288) (n1 := 64) ⟨((((cfg4.win 2).blk t).view.emb j) 0).val, ((((cfg4.win 2).blk t).view.emb j) 0).isLt⟩ k := by
    funext a; apply Fin.ext
    match a with
    | ⟨0, _⟩ => show win4_0.index t (0 : Fin 2) * 2048 + 1 * (j 0).val = win4_2.index t (0 : Fin 2) * 2048 + 1 * (j 0).val; omega
    | ⟨1, _⟩ => show win4_0.index t (1 : Fin 2) * 64 + 1 * k.val = k.val; omega
  have h1 : ((cfg4.win 1).blk t).view.emb (DotT.colIdx (R := 2048) (K := 64) (C := 2048) j k)
      = ix2 (n0 := 12288) (n1 := 64) ⟨((((cfg4.win 2).blk t).view.emb j) 1).val, ((((cfg4.win 2).blk t).view.emb j) 1).isLt⟩ k := by
    funext a; apply Fin.ext
    match a with
    | ⟨0, _⟩ => show win4_1.index t (0 : Fin 2) * 2048 + 1 * (j 1).val = win4_2.index t (1 : Fin 2) * 2048 + 1 * (j 1).val; omega
    | ⟨1, _⟩ => show win4_1.index t (1 : Fin 2) * 64 + 1 * k.val = k.val; omega
  refine congrArg₂ (fun a b : EReal => a * b) ?_ ?_
  · show V c main_v51 (((cfg4.win 0).blk t).view.emb (DotT.rowIdx j k)) = _
    rw [h0]
  · show V c main_v51 (((cfg4.win 1).blk t).view.emb (DotT.colIdx j k)) = _
    rw [h1]

/-- An index of the output array is in point t's block iff each coordinate is in the block's range on its axis. -/
theorem mem_blk4 (t : Fin cfg4.N) (i : S12288x12288.Idx) :
    i ∈ ((cfg4.win 2).blk t).view.set ↔ ∀ a : Fin 2, win4_2.index t a * S2048x2048.size a ≤ (i a).val
      ∧ (i a).val < win4_2.index t a * S2048x2048.size a + S2048x2048.size a := by
  show i ∈ ((View.whole main_v52).slice (win4_2.rect t)).set ↔ _
  rw [View.set_slice_whole, Rect.mem_set_unit]
  exact Iff.rfl

/-- Entry (r, s) of the array is in the block of point 6 · (r / 2048) + s / 2048. -/
theorem cover4 (i : S12288x12288.Idx) :
    ∃ t : Fin cfg4.N, (cfg4.win 2).flush t = true ∧ i ∈ ((cfg4.win 2).blk t).view.set := by
  have hi0 : (i 0).val < 12288 := (i 0).isLt
  have hi1 : (i 1).val < 12288 := (i 1).isLt
  have hN : cfg4.N = 36 := N_4
  have ht : (i 0).val / 2048 * 6 + (i 1).val / 2048 < cfg4.N := by rw [hN]; omega
  obtain ⟨e0, e1, e2, e3, e4, e5⟩ := idx_facts4 ⟨(i 0).val / 2048 * 6 + (i 1).val / 2048, ht⟩
  refine ⟨⟨(i 0).val / 2048 * 6 + (i 1).val / 2048, ht⟩, flush4_2 _, ?_⟩
  rw [mem_blk4]
  intro a
  match a with
  | ⟨0, _⟩ =>
    show win4_2.index ⟨(i 0).val / 2048 * 6 + (i 1).val / 2048, ht⟩ (0 : Fin 2) * 2048 ≤ (i 0).val
      ∧ (i 0).val < win4_2.index ⟨(i 0).val / 2048 * 6 + (i 1).val / 2048, ht⟩ (0 : Fin 2) * 2048 + 2048
    rw [e4]
    show ((i 0).val / 2048 * 6 + (i 1).val / 2048) / 6 * 2048 ≤ (i 0).val
      ∧ (i 0).val < ((i 0).val / 2048 * 6 + (i 1).val / 2048) / 6 * 2048 + 2048
    omega
  | ⟨1, _⟩ =>
    show win4_2.index ⟨(i 0).val / 2048 * 6 + (i 1).val / 2048, ht⟩ (1 : Fin 2) * 2048 ≤ (i 1).val
      ∧ (i 1).val < win4_2.index ⟨(i 0).val / 2048 * 6 + (i 1).val / 2048, ht⟩ (1 : Fin 2) * 2048 + 2048
    rw [e5]
    show ((i 0).val / 2048 * 6 + (i 1).val / 2048) % 6 * 2048 ≤ (i 1).val
      ∧ (i 1).val < ((i 0).val / 2048 * 6 + (i 1).val / 2048) % 6 * 2048 + 2048
    omega

/-- THE OUTPUT ARRAY of the last region: the array the region found, times its own transpose. -/
theorem final4 (c : Dev nD) : (dat4 (F := Ideal) V c).arrAt 2 cfg4.N = fun i : S12288x12288.Idx =>
    ∑ f : Fin 64, Gcn.mat (A := 12288) (B := 64) (V c main_v51) ⟨(i 0).val, (i 0).isLt⟩ f
      * Gcn.mat (A := 12288) (B := 64) (V c main_v51) ⟨(i 1).val, (i 1).isLt⟩ f :=
  (dat4 (F := Ideal) V c).arrAt_eq_of_cover 2 (G4 V c) (fun t _ => flushed4_eq V c t) cover4

end

end Cert.KernelIdeal.Val

end
-- ==== Proof.InRange.lean ====
import proofs.«180263_j1236950581835_2_alg».proof.Proof.Spec

/-!
# The domain of the edge array

Every entry of the edge array names a node: its signed value lies in 0 … 12287.
-/

namespace Gcn

open Idealize.ShloMosaic Idealize.ShloMosaic.ValueIdx

/-- Every entry of the edge array, read as a signed integer, is a node number. -/
def InRange (ei : (⟨2, ![2, 393216]⟩ : Shape).Idx → BitVec 32) : Prop :=
  ∀ i, 0 ≤ (ei i).toInt ∧ (ei i).toInt < 12288

end Gcn
-- ==== Proof.KV_Chain.lean ====
import proofs.«180263_j1236950581835_2_alg».proof.Proof.RunKI_Keep
import proofs.«180263_j1236950581835_2_alg».proof.Proof.KV_R0
import proofs.«180263_j1236950581835_2_alg».proof.Proof.KV_R2
import proofs.«180263_j1236950581835_2_alg».proof.Proof.KV_R4
import proofs.«180263_j1236950581835_2_alg».proof.Proof.InRange
import Idealize.ShloMosaic.Lib.StableHlo.Run
import Idealize.ShloMosaic.Lib.Pipeline.Value

/-!
# The result array of the kernel side, as a function of the arguments

Walking back from the last boundary of the run: the result array is the last region's product of the second layer's
output with its own transpose; that output is the fourth region's dense layer of the third region's product, with the
second bias; the third region's left operand is the second region's rectified dense layer of the first region's
product, with the first bias; the dense matrix both layers use is what the host operations before the first region
built, and no later item changes it; the bias rows are the bias vectors recast. Each buffer at each boundary is
stated once, as a function of the argument arrays; composed, they are the specification's dense form.
-/

set_option maxRecDepth 16384

noncomputable section

namespace Cert.KernelIdeal.Val

open Cert.KernelIdeal Cert.KernelIdeal.Gen Cert.KernelIdeal.GenP Cert.KernelIdeal.Hand
open Idealize.ShloMosaic Idealize.ShloMosaic.TcCoe Idealize.SL.Sem Idealize.ShloMosaic.ValueIdx
open Idealize.ShloMosaic.StableHlo
open Idealize.ShloMosaic.Pipeline (Dat)
open scoped BigOperators

variable (m : (ℓ : Loc nD τ sig) → Buf (Elt Ideal) ℓ) (ρ : Dev nD → PrngReg)

/-! ## The argument arrays and the spec's intermediate arrays -/

/-- The feature matrix, the two weight matrices and the two bias vectors, by coordinates; the edge array. -/
abbrev aX (c : Dev nD) : Fin 12288 → Fin 128 → EReal := Gcn.mat (A := 12288) (B := 128) (m ((c : Thread nD τ).loc main_arg0))
abbrev aE (c : Dev nD) : (⟨2, ![2, 393216]⟩ : Shape).Idx → BitVec 32 := m ((c : Thread nD τ).loc main_arg1)
abbrev aW1 (c : Dev nD) : Fin 128 → Fin 128 → EReal := Gcn.mat (A := 128) (B := 128) (m ((c : Thread nD τ).loc main_arg2))
abbrev aB1 (c : Dev nD) : Fin 128 → EReal := Gcn.vec (A := 128) (m ((c : Thread nD τ).loc main_arg3))
abbrev aW2 (c : Dev nD) : Fin 128 → Fin 64 → EReal := Gcn.mat (A := 128) (B := 64) (m ((c : Thread nD τ).loc main_arg4))
abbrev aB2 (c : Dev nD) : Fin 64 → EReal := Gcn.vec (A := 64) (m ((c : Thread nD τ).loc main_arg5))

/-! ## The arguments reach every boundary as launched -/

theorem V1_arg0 (c : Dev nD) : V1 m ρ c main_arg0 = m ((c : Thread nD τ).loc main_arg0) :=
  (host0 m ρ c main_arg0 (by decide)).trans rfl
theorem V1_arg2 (c : Dev nD) : V1 m ρ c main_arg2 = m ((c : Thread nD τ).loc main_arg2) :=
  (host0 m ρ c main_arg2 (by decide)).trans rfl
theorem W2_arg3 (c : Dev nD) : W2 m ρ c (Proc.devRef .tc main_arg3) = m ((c : Thread nD τ).loc main_arg3) :=
  (keep0 m ρ c main_arg3 (by decide)).trans ((host0 m ρ c main_arg3 (by decide)).trans rfl)
theorem V4_arg4 (c : Dev nD) : V4 m ρ c main_arg4 = m ((c : Thread nD τ).loc main_arg4) :=
  (keep1 m ρ c main_arg4 (by decide)).trans <| (host1 m ρ c main_arg4 (by decide)).trans <|
    (keep0 m ρ c main_arg4 (by decide)).trans <| (host0 m ρ c main_arg4 (by decide)).trans rfl
theorem W5_arg5 (c : Dev nD) : W5 m ρ c (Proc.devRef .tc main_arg5) = m ((c : Thread nD τ).loc main_arg5) :=
  (keep2 m ρ c main_arg5 (by decide)).trans <| (keep1 m ρ c main_arg5 (by decide)).trans <|
    (host1 m ρ c main_arg5 (by decide)).trans <| (keep0 m ρ c main_arg5 (by decide)).trans <|
    (host0 m ρ c main_arg5 (by decide)).trans rfl

/-! ## The bias rows -/

/-- The first bias row is the first bias vector recast as a row. -/
theorem V3_v46 (c : Dev nD) :
    (V3 m ρ c main_v46 : S1x128.Idx → EReal)
      = shapeCast S1x128 (m ((c : Thread nD τ).loc main_arg3) : S128.Idx → EReal) shapeCasts_S128_S1x128 := by
  show StableHlo.after (hostOps1 (F := Ideal)) (W2 m ρ c) (Proc.devRef .tc main_v46) = _
  after_results
  rw [W2_arg3]
  rfl

theorem V3_v46_apply (c : Dev nD) (f : Fin 128) :
    Gcn.mat (A := 1) (B := 128) (V3 m ρ c main_v46) (0 : Fin 1) f = aB1 m c f := by
  unfold Gcn.mat
  rw [V3_v46]
  exact shapeCast_apply _ _ (ix2 (0 : Fin 1) f) (ix1 f) (by
    rw [Shape.rowMajor_val_one, Shape.rowMajor_val_two]
    show f.val = 0 * 128 + f.val
    omega)

/-- The second bias row is the second bias vector recast as a row. -/
theorem V6_v49 (c : Dev nD) :
    (V6 m ρ c main_v49 : S1x64.Idx → EReal)
      = shapeCast S1x64 (m ((c : Thread nD τ).loc main_arg5) : S64.Idx → EReal) shapeCasts_S64_S1x64 := by
  show StableHlo.after (hostOps3 (F := Ideal)) (W5 m ρ c) (Proc.devRef .tc main_v49) = _
  after_results
  rw [W5_arg5]
  rfl

theorem V6_v49_apply (c : Dev nD) (f : Fin 64) :
    Gcn.mat (A := 1) (B := 64) (V6 m ρ c main_v49) (0 : Fin 1) f = aB2 m c f := by
  unfold Gcn.mat
  rw [V6_v49]
  exact shapeCast_apply _ _ (ix2 (0 : Fin 1) f) (ix1 f) (by
    rw [Shape.rowMajor_val_one, Shape.rowMajor_val_two]
    show f.val = 0 * 64 + f.val
    omega)

/-! ## What the chain stands on: the dense matrix and the two dense layers, as statements -/

/-- The host operations before the first region leave the specification's dense matrix in its buffer. -/
abbrev AdjStage : Prop :=
  ∀ (W : Valuation τ sig (Elt Ideal)), Gcn.InRange (W (Proc.devRef .tc main_arg1)) →
    (StableHlo.after (hostOps0 (F := Ideal)) W (Proc.devRef .tc main_v44) : S12288x12288.Idx → EReal)
      = fun i => Gcn.adj (W (Proc.devRef .tc main_arg1)) ⟨(i 0).val, (i 0).isLt⟩ ⟨(i 1).val, (i 1).isLt⟩

/-- The second region's result array: the rectified dense layer of the arrays it found. -/
abbrev Final1 : Prop :=
  ∀ (V : (c : Dev nD) → (b : Ref sig .tc) → Buf (Elt Ideal) ((c : Thread nD τ).loc b)) (c : Dev nD),
    (dat1 (F := Ideal) V c).arrAt 3 cfg1.N = fun i : S12288x128.Idx =>
      max (Gcn.acc (fun q => if hq : q < 12288 then Gcn.mat (A := 12288) (B := 12288) (V c main_v44) ⟨(i 0).val, (i 0).isLt⟩ ⟨q, hq⟩
          * Gcn.mat (A := 12288) (B := 128) (V c main_v45) ⟨q, hq⟩ ⟨(i 1).val, (i 1).isLt⟩ else 0) 8
        + Gcn.mat (A := 1) (B := 128) (V c main_v46) (0 : Fin 1) ⟨(i 1).val, (i 1).isLt⟩) Gcn.zero

/-- The fourth region's result array: the dense layer of the arrays it found. -/
abbrev Final3 : Prop :=
  ∀ (V : (c : Dev nD) → (b : Ref sig .tc) → Buf (Elt Ideal) ((c : Thread nD τ).loc b)) (c : Dev nD),
    (dat3 (F := Ideal) V c).arrAt 3 cfg3.N = fun i : S12288x64.Idx =>
      Gcn.acc (fun q => if hq : q < 12288 then Gcn.mat (A := 12288) (B := 12288) (V c main_v44) ⟨(i 0).val, (i 0).isLt⟩ ⟨q, hq⟩
          * Gcn.mat (A := 12288) (B := 64) (V c main_v48) ⟨q, hq⟩ ⟨(i 1).val, (i 1).isLt⟩ else 0) 8
        + Gcn.mat (A := 1) (B := 64) (V c main_v49) (0 : Fin 1) ⟨(i 1).val, (i 1).isLt⟩

/-! ## The dense matrix at every boundary where it is read -/

theorem V1_v44 (hadj : AdjStage) (c : Dev nD) (h : Gcn.InRange (aE m c)) :
    (V1 m ρ c main_v44 : S12288x12288.Idx → EReal)
      = fun i => Gcn.adj (aE m c) ⟨(i 0).val, (i 0).isLt⟩ ⟨(i 1).val, (i 1).isLt⟩ :=
  hadj (W0 m ρ c) h

theorem V3_v44 (hadj : AdjStage) (c : Dev nD) (h : Gcn.InRange (aE m c)) :
    (V3 m ρ c main_v44 : S12288x12288.Idx → EReal)
      = fun i => Gcn.adj (aE m c) ⟨(i 0).val, (i 0).isLt⟩ ⟨(i 1).val, (i 1).isLt⟩ :=
  (host1 m ρ c main_v44 (by decide)).trans ((keep0 m ρ c main_v44 (by decide)).trans (V1_v44 m ρ hadj c h))

theorem V6_v44 (hadj : AdjStage) (c : Dev nD) (h : Gcn.InRange (aE m c)) :
    (V6 m ρ c main_v44 : S12288x12288.Idx → EReal)
      = fun i => Gcn.adj (aE m c) ⟨(i 0).val, (i 0).isLt⟩ ⟨(i 1).val, (i 1).isLt⟩ :=
  (host3 m ρ c main_v44 (by decide)).trans <| (keep2 m ρ c main_v44 (by decide)).trans <|
    (keep1 m ρ c main_v44 (by decide)).trans (V3_v44 m ρ hadj c h)

/-! ## The first product and the first layer -/

theorem V2_v45 (c : Dev nD) :
    (V2 m ρ c main_v45 : S12288x128.Idx → EReal)
      = fun i => Gcn.mmul (aX m c) (aW1 m c) ⟨(i 0).val, (i 0).isLt⟩ ⟨(i 1).val, (i 1).isLt⟩ := by
  refine (W2_arr m ρ c 2).trans ((final0 (V1 m ρ) c).trans ?_)
  rw [V1_arg0, V1_arg2]
  rfl

theorem V3_v45 (c : Dev nD) :
    (V3 m ρ c main_v45 : S12288x128.Idx → EReal)
      = fun i => Gcn.mmul (aX m c) (aW1 m c) ⟨(i 0).val, (i 0).isLt⟩ ⟨(i 1).val, (i 1).isLt⟩ :=
  (host1 m ρ c main_v45 (by decide)).trans (V2_v45 m ρ c)

theorem V4_v47 (hadj : AdjStage) (hfinal1 : Final1) (c : Dev nD) (h : Gcn.InRange (aE m c)) :
    (V4 m ρ c main_v47 : S12288x128.Idx → EReal)
      = fun i => Gcn.hiddenD (aE m c) (aX m c) (aW1 m c) (aB1 m c) ⟨(i 0).val, (i 0).isLt⟩ ⟨(i 1).val, (i 1).isLt⟩ := by
  refine (W4_arr m ρ c 3).trans ((hfinal1 (V3 m ρ) c).trans ?_)
  funext i
  rw [V3_v44 m ρ hadj c h, V3_v45 m ρ c, V3_v46_apply m ρ c]
  rfl

/-! ## The second product and the second layer -/

theorem V5_v48 (hadj : AdjStage) (hfinal1 : Final1) (c : Dev nD) (h : Gcn.InRange (aE m c)) :
    (V5 m ρ c main_v48 : S12288x64.Idx → EReal)
      = fun i => Gcn.mmul (Gcn.hiddenD (aE m c) (aX m c) (aW1 m c) (aB1 m c)) (aW2 m c)
          ⟨(i 0).val, (i 0).isLt⟩ ⟨(i 1).val, (i 1).isLt⟩ := by
  refine (W5_arr m ρ c 2).trans ((final2 (V4 m ρ) c).trans ?_)
  rw [V4_v47 m ρ hadj hfinal1 c h, V4_arg4]
  rfl

theorem V6_v48 (hadj : AdjStage) (hfinal1 : Final1) (c : Dev nD) (h : Gcn.InRange (aE m c)) :
    (V6 m ρ c main_v48 : S12288x64.Idx → EReal)
      = fun i => Gcn.mmul (Gcn.hiddenD (aE m c) (aX m c) (aW1 m c) (aB1 m c)) (aW2 m c)
          ⟨(i 0).val, (i 0).isLt⟩ ⟨(i 1).val, (i 1).isLt⟩ :=
  (host3 m ρ c main_v48 (by decide)).trans (V5_v48 m ρ hadj hfinal1 c h)

theorem V7_v50 (hadj : AdjStage) (hfinal1 : Final1) (hfinal3 : Final3) (c : Dev nD) (h : Gcn.InRange (aE m c)) :
    (V7 m ρ c main_v50 : S12288x64.Idx → EReal)
      = fun i => Gcn.latentD (aE m c) (aX m c) (aW1 m c) (aB1 m c) (aW2 m c) (aB2 m c)
          ⟨(i 0).val, (i 0).isLt⟩ ⟨(i 1).val, (i 1).isLt⟩ := by
  refine (W7_arr m ρ c 3).trans ((hfinal3 (V6 m ρ) c).trans ?_)
  funext i
  rw [V6_v44 m ρ hadj c h, V6_v48 m ρ hadj hfinal1 c h, V6_v49_apply m ρ c]
  rfl

/-- The last region's operand is the second layer's output narrowed, which changes nothing at the ideal values. -/
theorem V8_v51 (hadj : AdjStage) (hfinal1 : Final1) (hfinal3 : Final3) (c : Dev nD) (h : Gcn.InRange (aE m c)) :
    (V8 m ρ c main_v51 : S12288x64.Idx → EReal)
      = fun i => Gcn.latentD (aE m c) (aX m c) (aW1 m c) (aB1 m c) (aW2 m c) (aB2 m c)
          ⟨(i 0).val, (i 0).isLt⟩ ⟨(i 1).val, (i 1).isLt⟩ := by
  have e : (V8 m ρ c main_v51 : S12288x64.Idx → EReal) = (V7 m ρ c main_v50 : S12288x64.Idx → EReal) := by
    show StableHlo.after (hostOps4 (F := Ideal)) (W7 m ρ c) (Proc.devRef .tc main_v51) = _
    after_results
    rfl
  rw [e]
  exact V7_v50 m ρ hadj hfinal1 hfinal3 c h

/-! ## The result -/

/-- THE KERNEL SIDE'S RESULT ARRAY at the last boundary is the specification's dense form of the argument arrays,
    given the dense matrix and the two dense layers as stated above. -/
theorem kernel_value_of (hadj : AdjStage) (hfinal1 : Final1) (hfinal3 : Final3) (c : Dev nD)
    (h : Gcn.InRange (m ((c : Thread nD τ).loc main_arg1))) :
    (W9 (F := Ideal) m ρ c (Proc.devRef .tc main_v52) : S12288x12288.Idx → EReal)
      = Gcn.GDarr (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (W9_result m ρ c).trans ((final4 (V8 m ρ) c).trans ?_)
  rw [V8_v51 m ρ hadj hfinal1 hfinal3 c h]
  rfl

end Cert.KernelIdeal.Val

end
-- ==== Proof.LibScatterForms.lean ====
/-
  The host's scatter-add in two spellings of one sum.

  Updates `u e`, one per edge `e`, are added onto the entries `dst e` of a node array. Spelt over vectors, the
  operand is `[N]` and the updates `[E]`; spelt with a trailing unit axis, the operand is `[N, 1]` and the updates
  are rows `[E, 1]` that land whole. In both, the start index of update `e` is read signed off the same index
  column and is NOT clamped, so update `e` lands on node `n` exactly when `dst e = n`; the two scattered arrays
  therefore agree entry by entry when the updates and the operands do.
-/
import Idealize.ShloMosaic.PureOps.Ideal.Laws
import Idealize.ShloMosaic.Lib.ValueIdx

noncomputable section

namespace Cert.ScatterForms

open Idealize.ShloMosaic Idealize.ShloMosaic.ValueIdx

/-- An update lands on operand entry `i` exactly when, on every axis, its unclamped start plus its window
    coordinate is `i`'s coordinate (being a coordinate of `i`, that sum is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro he a
      have h1 := congrArg (fun f => (f a).val) (Option.some.inj he)
      have h2 := (h a).1
      simp only at h1
      omega
    · intro he
      refine congrArg some (funext fun a => Fin.ext ?_)
      have h1 := he a
      have h2 := (h a).1
      show (d.start j idx a + (d.window j a : Int)).toNat = (i a).val
      omega
  · rename_i h
    constructor
    · intro he
      exact absurd he (by simp)
    · intro he
      exfalso
      apply h
      intro a
      have h1 := he a
      have h2 := (i a).isLt
      constructor <;> omega

/-! ## Over vectors -/

/-- The dimension numbers of `x.at[idx].add(u)` for `x : [N]`, `idx : [E]` given as a column `[E, 1]`, `u : [E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_start {N E w : Nat} (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScatter_window {N E : Nat} (wf : ScatterDims.WF ⟨1, ![N]⟩ ⟨2, ![E, 1]⟩ ⟨1, ![E]⟩ [] [0] [0] 1) (e : Fin E) :
    (vecScatter N E wf).window (ix1 e) 0 = 0 := by
  unfold ScatterDims.window
  rw [dif_neg (show ¬ (0 : Fin 1) ∈ (vecScatter N E wf).sKept from
    fun h => (of_decide_eq_true (List.mem_filter.mp h).2) (List.mem_singleton.mpr rfl))]

/-- Update `e` lands on entry `n` exactly when its index, read signed, is `n`. -/
theorem vecScatter_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ (idx (ix2 e (0 : Fin 1))).toInt = (n.val : Int) := by
  rw [resultIdx?_eq_some_iff]
  constructor
  · intro h
    have h0 : (idx (ix2 e (0 : Fin 1))).toInt + ((0 : ℕ) : Int) = (n.val : Int) := by
      have := h 0
      rwa [vecScatter_start, vecScatter_window] at this
    simpa using h0
  · intro h a
    obtain rfl : a = 0 := Subsingleton.elim _ _
    show (vecScatter N E wf).start (ix1 e) idx 0 + ((vecScatter N E wf).window (ix1 e) 0 : Int) = (n.val : Int)
    rw [vecScatter_start, vecScatter_window]
    simpa using h

/-! ## With a trailing unit axis -/

/-- The dimension numbers of `x.at[idx].add(u)` for `x : [N, 1]`, `idx : [E]` given as a column `[E, 1]`, `u : [E, 1]`:
    update row `e` goes, whole, to operand row `idx[e]`. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

theorem colScatter_start0 {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) :
    (colScatter N E wf).start (ix2 e c) idx 0 = (idx (ix2 e (0 : Fin 1))).toInt := by
  unfold ScatterDims.start
  rw [dif_pos (show (0 : Fin 2) ∈ (colScatter N E wf).scatterDimsToOperandDims from List.mem_singleton.mpr rfl)]
  have hsi : (colScatter N E wf).siIdx (ix2 e c) ⟨List.idxOf (0 : Fin 2) (colScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem colScatter_window0 {N E : Nat} (wf : ScatterDims.WF ⟨2, ![N, 1]⟩ ⟨2, ![E, 1]⟩ ⟨2, ![E, 1]⟩ [1] [0] [0] 1)
    (e : Fin E) (c : Fin 1) : (colScatter N E wf).window (ix2 e c) 0 = 0 := by
  unfold ScatterDims.window
  rw [dif_neg (show ¬ (0 : Fin 2) ∈ (colScatter N E wf).sKept from
    fun h => (of_decide_eq_true (List.mem_filter.mp h).2) (List.mem_singleton.mpr rfl))]

/-- On the unit axis the window coordinate of update `(e, c)` is `c` itself. -/
theorem colScatter_window1 {N E : Nat} (wf : ScatterDims.WF ⟨2, ![N, 1]⟩ ⟨2, ![E, 1]⟩ ⟨2, ![E, 1]⟩ [1] [0] [0] 1)
    (e : Fin E) (c : Fin 1) : (colScatter N E wf).window (ix2 e c) 1 = c.val := by
  have hk : (1 : Fin 2) ∈ (colScatter N E wf).sKept := by
    simp [ScatterDims.sKept, Shape.kept, List.mem_filter, List.mem_finRange]
  have hoff : ∀ (k : Nat) (hk : k < (colScatter N E wf).updateWindowDims.length),
      (colScatter N E wf).updateWindowDims[k]'hk = (1 : Fin 2) := by
    intro k hk
    match k, hk with
    | 0, _ => rfl
  unfold ScatterDims.window
  rw [dif_pos hk]
  show ((ix2 e c) ((colScatter N E wf).updateWindowDims[List.idxOf (1 : Fin 2) (colScatter N E wf).sKept]'_)).val = c.val
  rw [hoff]

/-- The unit axis is not indexed: its start is 0. -/
theorem colScatter_start1 {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) : (colScatter N E wf).start (ix2 e c) idx 1 = 0 := by
  unfold ScatterDims.start
  rw [dif_neg (show ¬ (1 : Fin 2) ∈ (colScatter N E wf).scatterDimsToOperandDims from
    fun h => absurd (congrArg Fin.val (List.mem_singleton.mp h)) Nat.one_ne_zero)]

/-- Update row `e` lands on row `n` exactly when its index, read signed, is `n`. -/
theorem colScatter_lands {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) (n : Fin N) (z : Fin 1) :
    (colScatter N E wf).resultIdx? (ix2 e c) idx = some (ix2 n z) ↔ (idx (ix2 e (0 : Fin 1))).toInt = (n.val : Int) := by
  rw [resultIdx?_eq_some_iff]
  constructor
  · intro h
    have h0 : (idx (ix2 e (0 : Fin 1))).toInt + ((0 : ℕ) : Int) = (n.val : Int) := by
      have := h 0
      rwa [colScatter_start0, colScatter_window0] at this
    simpa using h0
  · intro h a
    match a with
    | ⟨0, _⟩ =>
      show (colScatter N E wf).start (ix2 e c) idx 0 + ((colScatter N E wf).window (ix2 e c) 0 : Int) = (n.val : Int)
      rw [colScatter_start0, colScatter_window0]
      simpa using h
    | ⟨1, _⟩ =>
      show (colScatter N E wf).start (ix2 e c) idx 1 + ((colScatter N E wf).window (ix2 e c) 1 : Int) = (z.val : Int)
      rw [colScatter_start1, colScatter_window1]
      have hc := c.isLt
      have hz := z.isLt
      omega

/-! ## The two spellings give one sum -/

/-- THE LAW that joins the two programs' scatters: with the same index column, operands that agree at node `n` and
    updates that agree edge by edge, the scattered vector at `n` is the scattered column at `(n, 0)` — the updates that
    land there are the same edges. -/
theorem scatterAdd_vec_eq_col {N E w : Nat}
    (wfK : ScatterDims.WF ⟨1, ![N]⟩ ⟨2, ![E, 1]⟩ ⟨1, ![E]⟩ [] [0] [0] 1)
    (wfR : ScatterDims.WF ⟨2, ![N, 1]⟩ ⟨2, ![E, 1]⟩ ⟨2, ![E, 1]⟩ [1] [0] [0] 1)
    (idx : IVec ⟨2, ![E, 1]⟩ w)
    (xK : (⟨1, ![N]⟩ : Shape).Idx → EReal) (xR : (⟨2, ![N, 1]⟩ : Shape).Idx → EReal)
    (uK : (⟨1, ![E]⟩ : Shape).Idx → EReal) (uR : (⟨2, ![E, 1]⟩ : Shape).Idx → EReal)
    (n : Fin N) (z : Fin 1) (hx : xK (ix1 n) = xR (ix2 n z))
    (hu : ∀ e : Fin E, uK (ix1 e) = uR (ix2 e (0 : Fin 1))) :
    Ideal.hostScatterAdd (vecScatter N E wfK) xK idx uK (ix1 n)
      = Ideal.hostScatterAdd (colScatter N E wfR) xR idx uR (ix2 n z) := by
  unfold Ideal.hostScatterAdd
  rw [hx]
  congr 1
  refine Finset.sum_bij' (fun j _ => ix2 (j 0) (0 : Fin 1)) (fun j _ => ix1 (j 0)) ?_ ?_ ?_ ?_ ?_
  · intro j hj
    obtain ⟨e, rfl⟩ : ∃ e, j = ix1 e := ⟨j 0, eq_ix1 j⟩
    rw [Finset.mem_filter] at hj ⊢
    exact ⟨Finset.mem_univ _, (colScatter_lands wfR idx e 0 n z).mpr ((vecScatter_lands wfK idx e n).mp hj.2)⟩
  · intro j hj
    obtain ⟨e, c, rfl⟩ : ∃ e c, j = ix2 e c := ⟨j 0, j 1, eq_ix2 j⟩
    rw [Finset.mem_filter] at hj ⊢
    exact ⟨Finset.mem_univ _, (vecScatter_lands wfK idx e n).mpr ((colScatter_lands wfR idx e c n z).mp hj.2)⟩
  · intro j _
    exact (eq_ix1 j).symm
  · intro j _
    funext a
    match a with
    | ⟨0, _⟩ => rfl
    | ⟨1, _⟩ =>
      refine Fin.ext ?_
      have := idx2_lt1 j
      show (0 : ℕ) = (j 1).val
      omega
  · intro j _
    obtain ⟨e, rfl⟩ : ∃ e, j = ix1 e := ⟨j 0, eq_ix1 j⟩
    exact hu e

end Cert.ScatterForms

end
-- ==== Proof.LibRows2.lean ====
/-
  Whole rows of a rank-2 array moved by an index column, read at an entry, and the host's accumulating scatter of
  rows written as a sum over the edges; a vector picked by an index column likewise.

  For an operand of shape [N, D], an index column [E, 1] and rows [E, D]:
  * jnp's x[idx] (a row gather) at entry (e, j) is the operand at row idx[e] — read signed and clamped into
    [0, N − 1] — and the same j;
  * update entry (e, j) of the row scatter lands on operand entry (n, j') exactly when idx[e], read signed and not
    clamped, is n and j = j';
  * hence the scattered sum at (n, j) is the operand entry plus the sum over the edges e with idx[e] = n of the
    update entry (e, j).
  For a vector [N] picked by a column [E, 1], entry e is the vector at idx[e] read signed and clamped.
  Nothing here mentions a program: the shapes are literal ranks with symbolic extents.
-/
import Idealize.ShloMosaic.PureOps.Ideal.Laws
import Idealize.ShloMosaic.Lib.ValueIdx
import proofs.«180263_j1236950581835_2_alg».proof.Proof.LibScatterForms

noncomputable section

namespace Cert.Rows2

open Idealize.ShloMosaic Idealize.ShloMosaic.ValueIdx

/-! ## The row gather of a rank-2 operand -/

/-- The dimension numbers of x[idx] for x : [N, D] and idx : [E] given as a column [E, 1]: whole rows. -/
abbrev pickRows2 (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry (e, j) of the gather is the operand at row idx[e, 0] — read signed and clamped into [0, N − 1] — and the
    same column j. -/
theorem gather_pickRows2_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (pickRows2 N D E wf) x idx (ix2 e j)
      = x (ix2 ⟨min (idx (ix2 e (0 : Fin 1))).toInt.toNat (N - 1), by omega⟩ j) := by
  unfold Host.gather
  congr 1
  funext c
  refine Fin.ext ?_
  have hnb : ∀ c : Fin 2, (pickRows2 N D E wf).batchCoord (ix2 e j) c = 0 := fun c =>
    GatherDims.batchCoord_eq_zero _ _ _ List.not_mem_nil
  have hs : ∀ c : Fin 2, c ≠ 0 → (pickRows2 N D E wf).start (ix2 e j) idx c = 0 := by
    intro c hc
    unfold GatherDims.start
    rw [dif_neg (show ¬ c ∈ (pickRows2 N D E wf).startIndexMap from fun h => hc (List.mem_singleton.mp h))]
  match c with
  | ⟨0, _⟩ =>
    show (pickRows2 N D E wf).start (ix2 e j) idx 0 + (pickRows2 N D E wf).batchCoord (ix2 e j) 0
      + (pickRows2 N D E wf).offCoord (ix2 e j) 0 = _
    rw [hnb, GatherDims.offCoord_eq_zero _ _ _ (fun h => ((GatherDims.mem_sKept _ _).mp h).1 (List.mem_singleton.mpr rfl))]
    simp only [Nat.add_zero]
    unfold GatherDims.start
    rw [dif_pos (show (0 : Fin 2) ∈ (pickRows2 N D E wf).startIndexMap from List.mem_singleton.mpr rfl)]
    have hsi : (pickRows2 N D E wf).siIdx (ix2 e j) ⟨List.idxOf (0 : Fin 2) (pickRows2 N D E wf).startIndexMap,
        List.idxOf_lt_length_iff.2 (List.mem_singleton.mpr rfl)⟩ = ix2 e (0 : Fin 1) := by
      funext q; refine Fin.ext ?_
      match q with
      | ⟨0, _⟩ => rfl
      | ⟨1, _⟩ => rfl
    rw [hsi]
    rfl
  | ⟨1, _⟩ =>
    show (pickRows2 N D E wf).start (ix2 e j) idx 1 + (pickRows2 N D E wf).batchCoord (ix2 e j) 1
      + (pickRows2 N D E wf).offCoord (ix2 e j) 1 = j.val
    rw [hs 1 (by decide), hnb]
    have hk : (1 : Fin 2) ∈ (pickRows2 N D E wf).sKept :=
      (GatherDims.mem_sKept _ _).mpr
        ⟨fun h => absurd (congrArg Fin.val (List.mem_singleton.mp h)) Nat.one_ne_zero, List.not_mem_nil⟩
    unfold GatherDims.offCoord
    rw [dif_pos hk, Nat.zero_add]
    rfl

/-! ## A vector picked by an index column -/

/-- The dimension numbers of x[idx] for x : [N] and idx : [E] given as a column [E, 1]: single entries. -/
abbrev pick1 (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gather is the vector at idx[e, 0], read signed and clamped into [0, N − 1]. -/
theorem gather_pick1_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (pick1 N E wf) x idx (ix1 e)
      = x (ix1 ⟨min (idx (ix2 e (0 : Fin 1))).toInt.toNat (N - 1), by omega⟩) := by
  unfold Host.gather
  congr 1
  funext c
  refine Fin.ext ?_
  have hnb : ∀ c : Fin 1, (pick1 N E wf).batchCoord (ix1 e) c = 0 := fun c =>
    GatherDims.batchCoord_eq_zero _ _ _ List.not_mem_nil
  match c with
  | ⟨0, _⟩ =>
    show (pick1 N E wf).start (ix1 e) idx 0 + (pick1 N E wf).batchCoord (ix1 e) 0
      + (pick1 N E wf).offCoord (ix1 e) 0 = _
    rw [hnb, GatherDims.offCoord_eq_zero _ _ _ (fun h => ((GatherDims.mem_sKept _ _).mp h).1 (List.mem_singleton.mpr rfl))]
    simp only [Nat.add_zero]
    unfold GatherDims.start
    rw [dif_pos (show (0 : Fin 1) ∈ (pick1 N E wf).startIndexMap from List.mem_singleton.mpr rfl)]
    have hsi : (pick1 N E wf).siIdx (ix1 e) ⟨List.idxOf (0 : Fin 1) (pick1 N E wf).startIndexMap,
        List.idxOf_lt_length_iff.2 (List.mem_singleton.mpr rfl)⟩ = ix2 e (0 : Fin 1) := by
      funext q; refine Fin.ext ?_
      match q with
      | ⟨0, _⟩ => rfl
      | ⟨1, _⟩ => rfl
    rw [hsi]
    rfl

/-! ## The row scatter of a rank-2 operand -/

/-- The dimension numbers of x.at[idx].add(u) for x : [N, D], idx : [E] as a column [E, 1] and u : [E, D]: update
    row e goes, whole, to operand row idx[e]. -/
abbrev rowScatter2 (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section
variable {N D E w : Nat} (wf : ScatterDims.WF ⟨2, ![N, D]⟩ ⟨2, ![E, 1]⟩ ⟨2, ![E, D]⟩ [1] [0] [0] 1)
  (idx : IVec ⟨2, ![E, 1]⟩ w) (e : Fin E) (j : Fin D)

theorem rowScatter2_start0 : (rowScatter2 N D E wf).start (ix2 e j) idx 0 = (idx (ix2 e (0 : Fin 1))).toInt := by
  unfold ScatterDims.start
  rw [dif_pos (show (0 : Fin 2) ∈ (rowScatter2 N D E wf).scatterDimsToOperandDims from List.mem_singleton.mpr rfl)]
  have hsi : (rowScatter2 N D E wf).siIdx (ix2 e j) ⟨List.idxOf (0 : Fin 2) (rowScatter2 N D E wf).scatterDimsToOperandDims,
      List.idxOf_lt_length_iff.2 (List.mem_singleton.mpr rfl)⟩ = ix2 e (0 : Fin 1) := by
    funext q; refine Fin.ext ?_
    match q with
    | ⟨0, _⟩ => rfl
    | ⟨1, _⟩ => rfl
  rw [hsi]

theorem rowScatter2_start1 : (rowScatter2 N D E wf).start (ix2 e j) idx 1 = 0 := by
  unfold ScatterDims.start
  rw [dif_neg (show ¬ (1 : Fin 2) ∈ (rowScatter2 N D E wf).scatterDimsToOperandDims from
    fun h => absurd (congrArg Fin.val (List.mem_singleton.mp h)) Nat.one_ne_zero)]

theorem rowScatter2_window0 : (rowScatter2 N D E wf).window (ix2 e j) 0 = 0 := by
  unfold ScatterDims.window
  rw [dif_neg (show ¬ (0 : Fin 2) ∈ (rowScatter2 N D E wf).sKept from
    fun h => (of_decide_eq_true (List.mem_filter.mp h).2) (List.mem_singleton.mpr rfl))]

theorem rowScatter2_window1 : (rowScatter2 N D E wf).window (ix2 e j) 1 = j.val := by
  have hk : (1 : Fin 2) ∈ (rowScatter2 N D E wf).sKept := by
    simp [ScatterDims.sKept, Shape.kept, List.mem_filter, List.mem_finRange]
  unfold ScatterDims.window
  rw [dif_pos hk]
  rfl

/-- Update entry (e, j) lands on operand entry (n, j') exactly when its row index, read signed, is n and the
    columns agree. -/
theorem rowScatter2_lands (n : Fin N) (j' : Fin D) :
    (rowScatter2 N D E wf).resultIdx? (ix2 e j) idx = some (ix2 n j')
      ↔ (idx (ix2 e (0 : Fin 1))).toInt = (n.val : Int) ∧ j = j' := by
  rw [Cert.ScatterForms.resultIdx?_eq_some_iff]
  constructor
  · intro h
    have h0 : (idx (ix2 e (0 : Fin 1))).toInt + ((0 : ℕ) : Int) = (n.val : Int) := by
      have := h 0
      rwa [rowScatter2_start0, rowScatter2_window0] at this
    have h1 : (0 : Int) + ((j.val : ℕ) : Int) = (j'.val : Int) := by
      have := h 1
      rwa [rowScatter2_start1, rowScatter2_window1] at this
    refine ⟨by simpa using h0, Fin.ext ?_⟩
    omega
  · rintro ⟨h0, rfl⟩ c
    match c with
    | ⟨0, _⟩ =>
      show (rowScatter2 N D E wf).start (ix2 e j) idx 0 + ((rowScatter2 N D E wf).window (ix2 e j) 0 : Int) = (n.val : Int)
      rw [rowScatter2_start0, rowScatter2_window0]
      simpa using h0
    | ⟨1, _⟩ =>
      show (rowScatter2 N D E wf).start (ix2 e j) idx 1 + ((rowScatter2 N D E wf).window (ix2 e j) 1 : Int) = (j.val : Int)
      rw [rowScatter2_start1, rowScatter2_window1]
      simp

end

/-- The scattered sum at entry (n, j): the operand entry plus, over the edges whose row index read signed is n, the
    update entry (e, j). -/
theorem hostScatterAdd_rows2_apply {N D E w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (u : (⟨2, ![E, D]⟩ : Shape).Idx → EReal)
    (n : Fin N) (j : Fin D) :
    Ideal.hostScatterAdd (rowScatter2 N D E wf) x idx u (ix2 n j)
      = x (ix2 n j) + ∑ e : Fin E, if (idx (ix2 e (0 : Fin 1))).toInt = (n.val : Int) then u (ix2 e j) else 0 := by
  unfold Ideal.hostScatterAdd
  congr 1
  rw [← Finset.sum_filter]
  refine Finset.sum_bij' (fun i _ => i 0) (fun e _ => ix2 e j) ?_ ?_ ?_ ?_ ?_
  · intro i hi
    obtain ⟨e, j1, rfl⟩ : ∃ e j1, i = ix2 e j1 := ⟨i 0, i 1, eq_ix2 i⟩
    exact Finset.mem_filter.mpr ⟨Finset.mem_univ _,
      ((rowScatter2_lands wf idx e j1 n j).mp (Finset.mem_filter.mp hi).2).1⟩
  · intro e he
    exact Finset.mem_filter.mpr ⟨Finset.mem_univ _,
      (rowScatter2_lands wf idx e j n j).mpr ⟨(Finset.mem_filter.mp he).2, rfl⟩⟩
  · intro i hi
    obtain ⟨e, j1, rfl⟩ : ∃ e j1, i = ix2 e j1 := ⟨i 0, i 1, eq_ix2 i⟩
    obtain ⟨_, rfl⟩ := (rowScatter2_lands wf idx e j1 n j).mp (Finset.mem_filter.mp hi).2
    rfl
  · intro e _
    rfl
  · intro i hi
    obtain ⟨e, j1, rfl⟩ : ∃ e j1, i = ix2 e j1 := ⟨i 0, i 1, eq_ix2 i⟩
    obtain ⟨_, rfl⟩ := (rowScatter2_lands wf idx e j1 n j).mp (Finset.mem_filter.mp hi).2
    rfl

end Cert.Rows2

end
-- ==== Proof.LibNormPush.lean ====
/-
  Pulling the target node's normalisation out of the neighbour sum.

  A graph convolution with symmetric normalisation sends node n to
      sum over the edges e that point at n of  xw[src e] * (dinv[src e] * dinv[n])   (+ bias).
  The factor dinv[n] is the same for every edge of the sum, so it may be applied once, after the sum, to rows that
  were scaled by dinv[src e] beforehand:
      dinv[n] * (sum over the edges e that point at n of  (xw * dinv)[src e])          (+ bias).
  On the extended reals a factor distributes over a sum when it is nonnegative and not +inf; nothing is asked of xw.
  An edge points at n when its target index, read signed and not clamped, is n; the per-edge factor dinv[dst e] is
  read through a second index column (the targets after negative indices were wrapped) that is clamped into range:
  all that is needed of it is that it reads node n for every edge that points at n.

  The arrays are [N, D] (rows per node), [N] / [N, 1] (one factor per node) and columns [E, 1] of edge indices;
  the extents are symbolic.
-/
import Idealize.ShloMosaic.PureOps.Ideal.Laws
import Idealize.ShloMosaic.PureOps.Contract
import Idealize.ShloMosaic.Lib.ValueIdx
import Idealize.ShloMosaic.Lib.Pipeline.Value
import proofs.«180263_j1236950581835_2_alg».proof.Proof.LibRows2

noncomputable section

namespace Cert.NormPush

open Idealize.ShloMosaic Idealize.ShloMosaic.ValueIdx Cert.Rows2
open scoped BigOperators

/-- A nonnegative factor that is not +inf distributes over a finite sum of extended reals. -/
theorem mul_sum_of_nonneg_ne_top {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- At the ideal values the host's accumulating scatter is the exact sum. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

theorem mulf_ideal_apply {s : Shape} {φ : FTy} (a b : FVec Ideal s φ) (i : s.Idx) : mulf a b i = a i * b i := rfl

theorem addf_ideal_apply {s : Shape} {φ : FTy} (a b : FVec Ideal s φ) (i : s.Idx) : addf a b i = a i + b i := rfl

variable {N D E : Nat}

/-- A column [N, 1] stretched across D columns reads, at (n, j), the column at (n, 0). -/
theorem stretchCol_apply {α : Type} (h : (⟨2, ![N, 1]⟩ : Shape).BroadcastsInDim ⟨2, ![N, D]⟩ ![0, 1])
    (M : (⟨2, ![N, 1]⟩ : Shape).Idx → α) (n : Fin N) (j : Fin D) :
    broadcastInDim ⟨2, ![N, D]⟩ ![0, 1] h M (ix2 n j) = M (ix2 n (0 : Fin 1)) :=
  broadcastInDim_apply ![0, 1] h M (ix2 n j) (ix2 n (0 : Fin 1)) (fun a => by
    match a with
    | ⟨0, _⟩ =>
      show n.val = if N = 1 then 0 else n.val
      have hn := n.isLt
      split_ifs with hN
      · omega
      · rfl
    | ⟨1, _⟩ => exact (if_pos rfl).symm)

/-- A vector [E] laid out as a column [E, 1] reads, at (e, 0), the vector at e. -/
theorem vecCol_apply {α : Type} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) :=
  broadcastInDim_apply ![0] h v (ix2 e z) (ix1 e) (fun a => by
    match a with
    | ⟨0, _⟩ =>
      show e.val = if E = 1 then 0 else e.val
      have he := e.isLt
      split_ifs with hE
      · omega
      · rfl)

/-- THE LAW. Rows scaled by their own node's factor, gathered along the edges, summed into the target nodes and
    scaled once more by the target's factor, are the rows gathered unscaled, each multiplied by the product of the
    two factors of its edge, and summed. -/
theorem scale_sum_scale (hN : 0 < N)
    (gR : GatherDims ⟨2, ![N, D]⟩ ⟨2, ![E, 1]⟩ ⟨2, ![E, D]⟩)
    (wfg : GatherDims.WF ⟨2, ![N, D]⟩ ⟨2, ![E, 1]⟩ ⟨2, ![E, D]⟩ [1] [0] [] [0] [] 1 ![1, D])
    (hgR : gR = pickRows2 N D E wfg)
    (g1 : GatherDims ⟨1, ![N]⟩ ⟨2, ![E, 1]⟩ ⟨1, ![E]⟩)
    (wf1 : GatherDims.WF ⟨1, ![N]⟩ ⟨2, ![E, 1]⟩ ⟨1, ![E]⟩ [] [0] [] [0] [] 1 ![1])
    (hg1 : g1 = pick1 N E wf1)
    (sc : ScatterDims ⟨2, ![N, D]⟩ ⟨2, ![E, 1]⟩ ⟨2, ![E, D]⟩)
    (wfs : ScatterDims.WF ⟨2, ![N, D]⟩ ⟨2, ![E, 1]⟩ ⟨2, ![E, D]⟩ [1] [0] [0] 1)
    (hsc : sc = rowScatter2 N D E wfs)
    (hbM : (⟨2, ![N, 1]⟩ : Shape).BroadcastsInDim ⟨2, ![N, D]⟩ ![0, 1])
    (hbE1 : (⟨1, ![E]⟩ : Shape).BroadcastsInDim ⟨2, ![E, 1]⟩ ![0])
    (hbED : (⟨2, ![E, 1]⟩ : Shape).BroadcastsInDim ⟨2, ![E, D]⟩ ![0, 1])
    (XW Z B : FVec Ideal ⟨2, ![N, D]⟩ .f32) (M : FVec Ideal ⟨2, ![N, 1]⟩ .f32) (dinv : FVec Ideal ⟨1, ![N]⟩ .f32)
    (srcI dstI dstN : IVec ⟨2, ![E, 1]⟩ 32)
    (hdinv : ∀ n : Fin N, 0 ≤ dinv (ix1 n) ∧ dinv (ix1 n) ≠ ⊤)
    (hM : ∀ n : Fin N, M (ix2 n (0 : Fin 1)) = dinv (ix1 n))
    (hZ : ∀ i, Z i = 0)
    (hdst : ∀ (e : Fin E) (n : Fin N), (dstI (ix2 e (0 : Fin 1))).toInt = (n.val : Int) →
      min (dstN (ix2 e (0 : Fin 1))).toInt.toNat (N - 1) = n.val) :
    addf (mulf (broadcastInDim ⟨2, ![N, D]⟩ ![0, 1] hbM M)
        (Host.scatterAdd sc Z dstI
          (Host.gather gR (mulf XW (broadcastInDim ⟨2, ![N, D]⟩ ![0, 1] hbM M)) srcI))) B
      = addf (Host.scatterAdd sc Z dstI
          (mulf (Host.gather gR XW srcI)
            (broadcastInDim ⟨2, ![E, D]⟩ ![0, 1] hbED (broadcastInDim ⟨2, ![E, 1]⟩ ![0] hbE1
              (mulf (Host.gather g1 dinv srcI) (Host.gather g1 dinv dstN)))))) B := by
  subst hgR hg1 hsc
  funext i
  obtain ⟨n, j, rfl⟩ : ∃ (n : Fin N) (j : Fin D), i = ix2 n j := ⟨i 0, i 1, eq_ix2 i⟩
  obtain ⟨h0, ht⟩ := hdinv n
  rw [addf_ideal_apply, addf_ideal_apply, mulf_ideal_apply, scatterAdd_ideal, scatterAdd_ideal,
    hostScatterAdd_rows2_apply, hostScatterAdd_rows2_apply, stretchCol_apply, hM, hZ, zero_add, zero_add,
    mul_sum_of_nonneg_ne_top _ _ h0 ht]
  congr 1
  refine Finset.sum_congr rfl (fun e _ => ?_)
  split_ifs with hl
  · have hn : (⟨min (dstN (ix2 e (0 : Fin 1))).toInt.toNat (N - 1), by omega⟩ : Fin N) = n := Fin.ext (hdst e n hl)
    rw [gather_pickRows2_apply hN, mulf_ideal_apply, mulf_ideal_apply, gather_pickRows2_apply hN, stretchCol_apply,
      stretchCol_apply, hM, vecCol_apply, mulf_ideal_apply, gather_pick1_apply hN, gather_pick1_apply hN, hn]
    ac_rfl
  · exact mul_zero _

end Cert.NormPush

end
-- ==== Proof.LibDegreeNorm.lean ====
/-
  Three small facts about the normalisation of a graph convolution, each read entry by entry.

  * The factor dinv = where(deg > 0, rsqrt(deg), 0) is a nonnegative real number at every node, whatever extended
    real deg is: for deg <= 0 (or -inf) it is 0, for deg = +inf it is 1/sqrt(+inf) = 0, and for a positive real
    it is the positive real 1/sqrt(deg).
  * Wrapping negative indices (i < 0 becomes i + N) changes no index that is already a node: an edge whose target
    word, read signed, is the node n still reads n after the wrap, and clamping n into [0, N - 1] keeps it.
  * A vector [N] recast as a column [N, 1] reads, at (n, 0), the vector at n.
-/
import Idealize.ShloMosaic.PureOps.Ideal.Laws
import Idealize.ShloMosaic.Lib.ValueIdx
import Idealize.ShloMosaic.Lib.Pipeline.Value
import proofs.«180263_j1236950581835_2_alg».proof.Proof.LibNormPush

noncomputable section

namespace Cert.NormPush

open Idealize.ShloMosaic Idealize.ShloMosaic.ValueIdx

/-- where(deg > 0, rsqrt(deg), 0) is nonnegative and not +inf, at every entry and for every extended real deg. -/
theorem invSqrt_nonneg_ne_top {s : Shape} (deg zs zs' : FVec Ideal s .f32) (hz : ∀ i, zs i = 0) (hz' : ∀ i, zs' i = 0)
    (i : s.Idx) :
    0 ≤ select (cmpf .ogt deg zs) (Host.rsqrt deg) zs' i ∧ select (cmpf .ogt deg zs) (Host.rsqrt deg) zs' i ≠ ⊤ := by
  have e : select (cmpf .ogt deg zs) (Host.rsqrt deg) zs' i
      = if (0 : EReal) < deg i then Ideal.rsqrt (deg i) else 0 := by
    show Scalar.select (Ideal.cmp .ogt (deg i) (zs i)) (Ideal.rsqrt (deg i)) (zs' i) = _
    rw [hz, hz']
    unfold Scalar.select Ideal.cmp
    by_cases h : (0 : EReal) < deg i
    · simp [h]
    · simp [h]
  rw [e]
  generalize deg i = d
  split_ifs with h
  · induction d using EReal.rec with
    | bot => exact absurd h (by simp)
    | top => exact ⟨le_of_eq Ideal.rsqrt_top.symm, by rw [Ideal.rsqrt_top]; exact EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · exact ⟨le_refl _, EReal.zero_ne_top⟩

variable {N E : Nat}

/-- An edge whose target word reads, signed, the node n reads n again after negative words were wrapped by + N
    and the result clamped into [0, N - 1]. -/
theorem wrapped_target (hb : (⟨1, ![E]⟩ : Shape).BroadcastsInDim ⟨2, ![E, 1]⟩ ![0])
    (T c0 cN : IVec ⟨1, ![E]⟩ 32) (h0 : ∀ i, c0 i = 0#32) (e : Fin E) (n : Fin N)
    (h : (broadcastInDim ⟨2, ![E, 1]⟩ ![0] hb T (ix2 e (0 : Fin 1))).toInt = (n.val : Int)) :
    min (broadcastInDim ⟨2, ![E, 1]⟩ ![0] hb (select (cmpi .slt T c0) (addi T cN) T) (ix2 e (0 : Fin 1))).toInt.toNat
      (N - 1) = n.val := by
  rw [vecCol_apply] at h ⊢
  have hslt : (T (ix1 e)).slt 0#32 = false := by
    simp [BitVec.slt, h]
  have hsel : select (cmpi .slt T c0) (addi T cN) T (ix1 e) = T (ix1 e) := by
    show Scalar.select (IntOp.cmpi .slt (T (ix1 e)) (c0 (ix1 e))) _ _ = _
    rw [h0]
    unfold Scalar.select IntOp.cmpi
    simp [hslt]
  rw [hsel, h]
  have hn := n.isLt
  omega

/-- A vector [N] recast as a column [N, 1] reads, at (n, 0), the vector at n. -/
theorem castCol_apply {α : Type} (hc : (⟨1, ![N]⟩ : Shape).ShapeCasts ⟨2, ![N, 1]⟩)
    (v : (⟨1, ![N]⟩ : Shape).Idx → α) (n : Fin N) :
    shapeCast ⟨2, ![N, 1]⟩ v hc (ix2 n (0 : Fin 1)) = v (ix1 n) :=
  shapeCast_apply v hc (ix2 n (0 : Fin 1)) (ix1 n) (by
    rw [Shape.rowMajor_val_one, Shape.rowMajor_val_two]
    show n.val = n.val * 1 + 0
    omega)

/-- The f32 pattern of 0.0, broadcast over any shape, is 0 everywhere. -/
theorem splat_zero (s : Shape) (h : (⟨0, ![]⟩ : Shape).BroadcastsInDim s ![]) (i : s.Idx) :
    broadcastInDim s ![] h (constant (F := Ideal) ⟨0, ![]⟩ .f32 0x00000000#32) i = 0 := by
  show Ideal.ofBits .f32 0x00000000#32 = 0
  exact Ideal.ofBits_zero_f32

end Cert.NormPush

end
-- ==== Proof.LibEdgeLoopList.lean ====
/-
  The long edge list read entry by entry.

  The long list is the E edges followed by one loop per node: an index vector v of length E joined with the vector
  0, 1, …, N − 1. Its entry at position e < E is v e, and at position E + k it is the word of k, which reads signed as
  k because N is below 2^31. Wrapping negative words (+ N) commutes with taking an entry and changes no word that already
  reads as a node; an index column is the vector read at its row.
-/
import Idealize.ShloMosaic.Lib.DynamicIndex
import Idealize.ShloMosaic.Lib.Pipeline.Value
import proofs.«180263_j1236950581835_2_alg».proof.Proof.LibDegreeNorm

noncomputable section

namespace Cert.Gcn

open Idealize.ShloMosaic Idealize.ShloMosaic.ValueIdx Cert.NormPush

variable {E N : Nat}

/-- The join of an E-vector and an N-vector at a position below E. -/
theorem cat_edge {α : Type} (hc : Shape.Concatenates [(⟨1, ![E]⟩ : Shape), ⟨1, ![N]⟩] ⟨1, ![E + N]⟩ 0)
    (v : (⟨1, ![E]⟩ : Shape).Idx → α) (w : (⟨1, ![N]⟩ : Shape).Idx → α) (e : Fin E) :
    concatenate ⟨1, ![E + N]⟩ 0 [⟨⟨1, ![E]⟩, v⟩, ⟨⟨1, ![N]⟩, w⟩] hc (ix1 (Fin.castAdd N e)) = v (ix1 e) :=
  concatenate_pair_apply_left 0 v w hc (ix1 (Fin.castAdd N e)) rfl (ix1 e) (fun b => by
    match b with
    | ⟨0, _⟩ => rfl)

/-- The join at position E + k. -/
theorem cat_loop {α : Type} (hc : Shape.Concatenates [(⟨1, ![E]⟩ : Shape), ⟨1, ![N]⟩] ⟨1, ![E + N]⟩ 0)
    (v : (⟨1, ![E]⟩ : Shape).Idx → α) (w : (⟨1, ![N]⟩ : Shape).Idx → α) (k : Fin N) :
    concatenate ⟨1, ![E + N]⟩ 0 [⟨⟨1, ![E]⟩, v⟩, ⟨⟨1, ![N]⟩, w⟩] hc (ix1 (Fin.natAdd E k)) = w (ix1 k) :=
  concatenate_pair_apply_right 0 v w hc (ix1 (Fin.natAdd E k)) rfl rfl (ix1 k)
    (fun b hb => absurd (Subsingleton.elim _ _) hb)
    (by show k.val + E = E + k.val; omega)

/-- Wrapping negative words, at an entry. -/
theorem wrap_at {s : Shape} (v c0 cN : IVec s 32) (i : s.Idx) :
    select (cmpi .slt v c0) (addi v cN) v i
      = Scalar.select (IntOp.cmpi .slt (v i) (c0 i)) (IntOp.addi (v i) (cN i)) (v i) := rfl

section Columns

variable (hc : Shape.Concatenates [(⟨1, ![E]⟩ : Shape), ⟨1, ![N]⟩] ⟨1, ![E + N]⟩ 0)
  (hbT : (⟨1, ![E + N]⟩ : Shape).BroadcastsInDim ⟨2, ![E + N, 1]⟩ ![0])
  (hbE : (⟨1, ![E]⟩ : Shape).BroadcastsInDim ⟨2, ![E, 1]⟩ ![0])
  (v : IVec ⟨1, ![E]⟩ 32)

/-- The long list's column at an edge is the edges' column there. -/
theorem col_edge (w : IVec ⟨1, ![N]⟩ 32) (e : Fin E) :
    broadcastInDim ⟨2, ![E + N, 1]⟩ ![0] hbT
        (concatenate ⟨1, ![E + N]⟩ 0 [⟨⟨1, ![E]⟩, v⟩, ⟨⟨1, ![N]⟩, w⟩] hc) (ix2 (Fin.castAdd N e) (0 : Fin 1))
      = broadcastInDim ⟨2, ![E, 1]⟩ ![0] hbE v (ix2 e (0 : Fin 1)) := by
  rw [vecCol_apply, vecCol_apply, cat_edge]

/-- The long list's wrapped column at an edge is the edges' wrapped column there. -/
theorem wrapped_col_edge (w : IVec ⟨1, ![N]⟩ 32) (c0T cNT : IVec ⟨1, ![E + N]⟩ 32) (c0E cNE : IVec ⟨1, ![E]⟩ 32) (z n : BitVec 32)
    (h0T : ∀ i, c0T i = z) (h0E : ∀ i, c0E i = z) (hNT : ∀ i, cNT i = n) (hNE : ∀ i, cNE i = n) (e : Fin E) :
    broadcastInDim ⟨2, ![E + N, 1]⟩ ![0] hbT
        (select (cmpi .slt (concatenate ⟨1, ![E + N]⟩ 0 [⟨⟨1, ![E]⟩, v⟩, ⟨⟨1, ![N]⟩, w⟩] hc) c0T)
          (addi (concatenate ⟨1, ![E + N]⟩ 0 [⟨⟨1, ![E]⟩, v⟩, ⟨⟨1, ![N]⟩, w⟩] hc) cNT)
          (concatenate ⟨1, ![E + N]⟩ 0 [⟨⟨1, ![E]⟩, v⟩, ⟨⟨1, ![N]⟩, w⟩] hc)) (ix2 (Fin.castAdd N e) (0 : Fin 1))
      = broadcastInDim ⟨2, ![E, 1]⟩ ![0] hbE (select (cmpi .slt v c0E) (addi v cNE) v) (ix2 e (0 : Fin 1)) := by
  rw [vecCol_apply, vecCol_apply, wrap_at, wrap_at, cat_edge, h0T, h0E, hNT, hNE]

/-- At an edge whose target reads as node n, the wrapped and clamped target of the long list reads n. -/
theorem wrapped_col_edge_target (w : IVec ⟨1, ![N]⟩ 32) (c0T cNT : IVec ⟨1, ![E + N]⟩ 32) (h0T : ∀ i, c0T i = 0#32)
    (e : Fin E) (n : Fin N)
    (h : (broadcastInDim ⟨2, ![E, 1]⟩ ![0] hbE v (ix2 e (0 : Fin 1))).toInt = (n.val : Int)) :
    min (broadcastInDim ⟨2, ![E + N, 1]⟩ ![0] hbT
        (select (cmpi .slt (concatenate ⟨1, ![E + N]⟩ 0 [⟨⟨1, ![E]⟩, v⟩, ⟨⟨1, ![N]⟩, w⟩] hc) c0T)
          (addi (concatenate ⟨1, ![E + N]⟩ 0 [⟨⟨1, ![E]⟩, v⟩, ⟨⟨1, ![N]⟩, w⟩] hc) cNT)
          (concatenate ⟨1, ![E + N]⟩ 0 [⟨⟨1, ![E]⟩, v⟩, ⟨⟨1, ![N]⟩, w⟩] hc)) (ix2 (Fin.castAdd N e) (0 : Fin 1))).toInt.toNat
      (N - 1) = n.val :=
  wrapped_target hbT _ c0T cNT h0T (Fin.castAdd N e) n (by rw [col_edge hc hbT hbE v w e]; exact h)

/-- The long list's column at the loop of node k reads signed as k. -/
theorem col_loop (hN31 : N ≤ 2 ^ 31) (k : Fin N) :
    (broadcastInDim ⟨2, ![E + N, 1]⟩ ![0] hbT
        (concatenate ⟨1, ![E + N]⟩ 0 [⟨⟨1, ![E]⟩, v⟩, ⟨⟨1, ![N]⟩, iotaInDim ⟨1, ![N]⟩ 32 0⟩] hc)
        (ix2 (Fin.natAdd E k) (0 : Fin 1))).toInt = (k.val : Int) := by
  rw [vecCol_apply, cat_loop]
  show (BitVec.ofNat 32 k.val).toInt = (k.val : Int)
  exact toInt_ofNat_of_lt (by have := k.isLt; omega)

/-- At the loop of node k the wrapped and clamped column of the long list reads k. -/
theorem wrapped_col_loop (hN31 : N ≤ 2 ^ 31) (c0T cNT : IVec ⟨1, ![E + N]⟩ 32) (h0T : ∀ i, c0T i = 0#32) (k : Fin N) :
    min (broadcastInDim ⟨2, ![E + N, 1]⟩ ![0] hbT
        (select (cmpi .slt (concatenate ⟨1, ![E + N]⟩ 0 [⟨⟨1, ![E]⟩, v⟩, ⟨⟨1, ![N]⟩, iotaInDim ⟨1, ![N]⟩ 32 0⟩] hc) c0T)
          (addi (concatenate ⟨1, ![E + N]⟩ 0 [⟨⟨1, ![E]⟩, v⟩, ⟨⟨1, ![N]⟩, iotaInDim ⟨1, ![N]⟩ 32 0⟩] hc) cNT)
          (concatenate ⟨1, ![E + N]⟩ 0 [⟨⟨1, ![E]⟩, v⟩, ⟨⟨1, ![N]⟩, iotaInDim ⟨1, ![N]⟩ 32 0⟩] hc))
        (ix2 (Fin.natAdd E k) (0 : Fin 1))).toInt.toNat (N - 1) = k.val :=
  wrapped_target hbT _ c0T cNT h0T (Fin.natAdd E k) k (col_loop hc hbT v hN31 k)

end Columns

end Cert.Gcn

end
-- ==== Proof.LibGcnSelfLoops.lean ====
/-
  One graph-convolution layer with symmetric normalisation and a self-loop at every node, computed two ways.

  The graph has N nodes and E edges; edge e goes from node src e to node dst e. With one loop added at every node the
  edge list has T = E + N entries: the E edges first, then the loop of node 0, of node 1, … The degree of node n counts
  the entries of the long list whose target is n, that is, its incoming edges and its own loop:
      deg n = #{e | dst e = n} + 1,        dinv n = 1 / sqrt (deg n).
  A layer sends rows H (one row per node) to
      out (n, j) = sum over the entries t of the long list with target n of  H (source t, j) * (dinv (source t) * dinv n)
                 = sum over the edges e with dst e = n of  H (src e, j) * (dinv (src e) * dinv n)   +   H (n, j) * (dinv n * dinv n).
  The factor dinv n is common to every term, so the same number is
      dinv n * ( (sum over the edges e with dst e = n of (H * dinv) (src e, j))  +  (H * dinv) (n, j) ),
  the rows scaled by their own node's factor once, summed along the edges, the node's own scaled row added, and the
  result scaled by the target's factor. On the extended reals a factor distributes over a sum when it is nonnegative
  and not +inf, which dinv n is whatever the data; nothing is asked of H.

  An entry of an edge list has target n when its index word, read signed and not clamped, is n; sources (and the
  targets where the factor dinv is looked up) are read through index columns that were wrapped (negative words + N)
  and are clamped into [0, N - 1]. All arrays have symbolic extents.
-/
import Mathlib.Algebra.BigOperators.Fin
import Idealize.ShloMosaic.PureOps.Ideal.Laws
import Idealize.ShloMosaic.Lib.ValueIdx
import Idealize.ShloMosaic.Lib.Pipeline.Value
import proofs.«180263_j1236950581835_2_alg».proof.Proof.LibDegreeNorm

noncomputable section

namespace Cert.Gcn

open Idealize.ShloMosaic Idealize.ShloMosaic.ValueIdx Cert.Rows2 Cert.NormPush Cert.ScatterForms
open scoped BigOperators

/-! ## A vector scattered by an index column, at an entry -/

/-- The scattered sum of a vector at entry n: the operand's entry plus the updates of the edges whose index word
    reads signed as n. -/
theorem hostScatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (u : (⟨1, ![E]⟩ : Shape).Idx → EReal) (n : Fin N) :
    Ideal.hostScatterAdd (vecScatter N E wf) x idx u (ix1 n)
      = x (ix1 n) + ∑ e : Fin E, if (idx (ix2 e (0 : Fin 1))).toInt = (n.val : Int) then u (ix1 e) else 0 := by
  unfold Ideal.hostScatterAdd
  congr 1
  rw [← Finset.sum_filter]
  refine Finset.sum_bij' (fun i _ => i 0) (fun e _ => ix1 e) ?_ ?_ ?_ ?_ ?_
  · intro i hi
    obtain ⟨e, rfl⟩ : ∃ e, i = ix1 e := ⟨i 0, eq_ix1 i⟩
    exact Finset.mem_filter.mpr ⟨Finset.mem_univ _, (vecScatter_lands wf idx e n).mp (Finset.mem_filter.mp hi).2⟩
  · intro e he
    exact Finset.mem_filter.mpr ⟨Finset.mem_univ _, (vecScatter_lands wf idx e n).mpr (Finset.mem_filter.mp he).2⟩
  · intro i _
    exact (eq_ix1 i).symm
  · intro e _
    rfl
  · intro i _
    obtain ⟨e, rfl⟩ : ∃ e, i = ix1 e := ⟨i 0, eq_ix1 i⟩
    rfl

/-! ## The algebra at one node -/

/-- The target's factor pulled out of the sum over the incoming edges and the node's own loop. -/
theorem pull_target_factor {E : ℕ} (p : Fin E → Prop) [DecidablePred p] (a ds : Fin E → EReal) (dn hn : EReal)
    (h0 : 0 ≤ dn) (ht : dn ≠ ⊤) :
    dn * ((0 + ∑ e, if p e then a e * ds e else 0) + hn * dn)
      = 0 + ((∑ e, if p e then a e * (ds e * dn) else 0) + hn * (dn * dn)) := by
  rw [zero_add, zero_add, EReal.left_distrib_of_nonneg_of_ne_top h0 ht, mul_sum_of_nonneg_ne_top _ _ h0 ht]
  congr 1
  · refine Finset.sum_congr rfl (fun e _ => ?_)
    split_ifs
    · ac_rfl
    · exact mul_zero _
  · ac_rfl

/-- A sum over the long edge list is the sum over the edges plus the sum over the loops. -/
theorem sum_edges_loops {E N : ℕ} (f : Fin (E + N) → EReal) :
    ∑ t : Fin (E + N), f t = ∑ e : Fin E, f (Fin.castAdd N e) + ∑ n : Fin N, f (Fin.natAdd E n) :=
  Fin.sum_univ_add f

/-- Among the loops only node n's own has target n. -/
theorem sum_own_loop {N : ℕ} (n : Fin N) (w : Fin N → BitVec 32) (hw : ∀ k : Fin N, (w k).toInt = (k.val : Int))
    (g : Fin N → EReal) :
    (∑ k : Fin N, if (w k).toInt = (n.val : Int) then g k else 0) = g n := by
  have : ∀ k : Fin N, ((w k).toInt = (n.val : Int)) ↔ k = n := fun k => by
    rw [hw k]
    constructor
    · intro h; exact Fin.ext (by exact_mod_cast h)
    · rintro rfl; rfl
  simp only [this]
  rw [Finset.sum_ite_eq' Finset.univ n g, if_pos (Finset.mem_univ _)]

/-! ## The degree normalisation, computed over the edges (+ 1) and over the long list -/

section Degree

variable {N E : Nat}

/-- The factor 1 / sqrt (deg) agrees in the two computations of the degree, and is a nonnegative real. The short
    computation adds the loop as the constant 1 after summing a 1 per incoming edge; the long one sums a 1 per entry
    of the long list and guards the reciprocal root by deg > 0, which always holds. -/
theorem dinv_agree
    (scK : ScatterDims ⟨1, ![N]⟩ ⟨2, ![E, 1]⟩ ⟨1, ![E]⟩)
    (wfK : ScatterDims.WF ⟨1, ![N]⟩ ⟨2, ![E, 1]⟩ ⟨1, ![E]⟩ [] [0] [0] 1) (hscK : scK = vecScatter N E wfK)
    (scR : ScatterDims ⟨1, ![N]⟩ ⟨2, ![E + N, 1]⟩ ⟨1, ![E + N]⟩)
    (wfR : ScatterDims.WF ⟨1, ![N]⟩ ⟨2, ![E + N, 1]⟩ ⟨1, ![E + N]⟩ [] [0] [0] 1) (hscR : scR = vecScatter N (E + N) wfR)
    (Z1 Za Zb onesN : FVec Ideal ⟨1, ![N]⟩ .f32) (onesE : FVec Ideal ⟨1, ![E]⟩ .f32) (onesT : FVec Ideal ⟨1, ![E + N]⟩ .f32)
    (dstC : IVec ⟨2, ![E, 1]⟩ 32) (dstT : IVec ⟨2, ![E + N, 1]⟩ 32)
    (hZ1 : ∀ i, Z1 i = 0) (hZa : ∀ i, Za i = 0) (hZb : ∀ i, Zb i = 0)
    (h1N : ∀ i, onesN i = 1) (h1E : ∀ i, onesE i = 1) (h1T : ∀ i, onesT i = 1)
    (hedge : ∀ e : Fin E, dstT (ix2 (Fin.castAdd N e) (0 : Fin 1)) = dstC (ix2 e (0 : Fin 1)))
    (hloop : ∀ k : Fin N, (dstT (ix2 (Fin.natAdd E k) (0 : Fin 1))).toInt = (k.val : Int))
    (n : Fin N) :
    select (cmpf .ogt (Host.scatterAdd scR Z1 dstT onesT) Za) (Host.rsqrt (Host.scatterAdd scR Z1 dstT onesT)) Zb (ix1 n)
        = Host.rsqrt (addf (Host.scatterAdd scK Z1 dstC onesE) onesN) (ix1 n)
      ∧ 0 ≤ Host.rsqrt (addf (Host.scatterAdd scK Z1 dstC onesE) onesN) (ix1 n)
      ∧ Host.rsqrt (addf (Host.scatterAdd scK Z1 dstC onesE) onesN) (ix1 n) ≠ ⊤ := by
  subst hscK hscR
  -- the number of incoming edges
  set cnt : EReal := ∑ e : Fin E, if (dstC (ix2 e (0 : Fin 1))).toInt = (n.val : Int) then (1 : EReal) else 0 with hcnt
  have hcnt0 : 0 ≤ cnt := Finset.sum_nonneg (fun e _ => by split_ifs <;> simp)
  have hK : addf (Host.scatterAdd (vecScatter N E wfK) Z1 dstC onesE) onesN (ix1 n) = (0 + cnt) + 1 := by
    rw [addf_ideal_apply, scatterAdd_ideal, hostScatterAdd_vec_apply, hZ1, h1N]
    simp only [h1E]
    rfl
  have hR : Host.scatterAdd (vecScatter N (E + N) wfR) Z1 dstT onesT (ix1 n) = 0 + (cnt + 1) := by
    rw [scatterAdd_ideal, hostScatterAdd_vec_apply, hZ1, sum_edges_loops]
    simp only [h1T, hedge]
    rw [sum_own_loop n (fun k => dstT (ix2 (Fin.natAdd E k) (0 : Fin 1))) hloop (fun _ => (1 : EReal))]
  have hdeg : Host.scatterAdd (vecScatter N (E + N) wfR) Z1 dstT onesT (ix1 n)
      = addf (Host.scatterAdd (vecScatter N E wfK) Z1 dstC onesE) onesN (ix1 n) := by
    rw [hK, hR, zero_add, zero_add]
  have hpos : (0 : EReal) < Host.scatterAdd (vecScatter N (E + N) wfR) Z1 dstT onesT (ix1 n) := by
    rw [hR, zero_add]
    exact lt_of_lt_of_le zero_lt_one (le_add_of_nonneg_left hcnt0)
  have hsel : select (cmpf .ogt (Host.scatterAdd (vecScatter N (E + N) wfR) Z1 dstT onesT) Za)
        (Host.rsqrt (Host.scatterAdd (vecScatter N (E + N) wfR) Z1 dstT onesT)) Zb (ix1 n)
      = Host.rsqrt (addf (Host.scatterAdd (vecScatter N E wfK) Z1 dstC onesE) onesN) (ix1 n) := by
    show Scalar.select (Ideal.cmp .ogt (Host.scatterAdd (vecScatter N (E + N) wfR) Z1 dstT onesT (ix1 n)) (Za (ix1 n)))
        (Ideal.rsqrt (Host.scatterAdd (vecScatter N (E + N) wfR) Z1 dstT onesT (ix1 n))) (Zb (ix1 n))
      = Ideal.rsqrt (addf (Host.scatterAdd (vecScatter N E wfK) Z1 dstC onesE) onesN (ix1 n))
    rw [hZa, hZb, ← hdeg]
    unfold Scalar.select Ideal.cmp
    simp [hpos]
  refine ⟨hsel, ?_⟩
  rw [← hsel]
  exact invSqrt_nonneg_ne_top _ Za Zb hZa hZb (ix1 n)

end Degree

/-! ## The layer -/

section Layer

variable {N D E : Nat}

/-- THE LAW. Rows scaled by their node's factor (P = H * dinv), gathered along the edges and summed into the target
    nodes, the node's own scaled row added, the sum scaled by the target's factor: these are the rows gathered unscaled
    along the LONG list (edges, then a loop per node), each multiplied by the product of the two factors of its entry,
    and summed. Same added array B on both sides. -/
theorem layer_eq (hN : 0 < N)
    (gK : GatherDims ⟨2, ![N, D]⟩ ⟨2, ![E, 1]⟩ ⟨2, ![E, D]⟩)
    (wfgK : GatherDims.WF ⟨2, ![N, D]⟩ ⟨2, ![E, 1]⟩ ⟨2, ![E, D]⟩ [1] [0] [] [0] [] 1 ![1, D]) (hgK : gK = pickRows2 N D E wfgK)
    (scK : ScatterDims ⟨2, ![N, D]⟩ ⟨2, ![E, 1]⟩ ⟨2, ![E, D]⟩)
    (wfsK : ScatterDims.WF ⟨2, ![N, D]⟩ ⟨2, ![E, 1]⟩ ⟨2, ![E, D]⟩ [1] [0] [0] 1) (hscK : scK = rowScatter2 N D E wfsK)
    (gR : GatherDims ⟨2, ![N, D]⟩ ⟨2, ![E + N, 1]⟩ ⟨2, ![E + N, D]⟩)
    (wfgR : GatherDims.WF ⟨2, ![N, D]⟩ ⟨2, ![E + N, 1]⟩ ⟨2, ![E + N, D]⟩ [1] [0] [] [0] [] 1 ![1, D])
    (hgR : gR = pickRows2 N D (E + N) wfgR)
    (g1 : GatherDims ⟨1, ![N]⟩ ⟨2, ![E + N, 1]⟩ ⟨1, ![E + N]⟩)
    (wf1 : GatherDims.WF ⟨1, ![N]⟩ ⟨2, ![E + N, 1]⟩ ⟨1, ![E + N]⟩ [] [0] [] [0] [] 1 ![1]) (hg1 : g1 = pick1 N (E + N) wf1)
    (scR : ScatterDims ⟨2, ![N, D]⟩ ⟨2, ![E + N, 1]⟩ ⟨2, ![E + N, D]⟩)
    (wfsR : ScatterDims.WF ⟨2, ![N, D]⟩ ⟨2, ![E + N, 1]⟩ ⟨2, ![E + N, D]⟩ [1] [0] [0] 1)
    (hscR : scR = rowScatter2 N D (E + N) wfsR)
    (hbM : (⟨2, ![N, 1]⟩ : Shape).BroadcastsInDim ⟨2, ![N, D]⟩ ![0, 1])
    (hbT1 : (⟨1, ![E + N]⟩ : Shape).BroadcastsInDim ⟨2, ![E + N, 1]⟩ ![0])
    (hbTD : (⟨2, ![E + N, 1]⟩ : Shape).BroadcastsInDim ⟨2, ![E + N, D]⟩ ![0, 1])
    (H ZK ZR B : FVec Ideal ⟨2, ![N, D]⟩ .f32) (M : FVec Ideal ⟨2, ![N, 1]⟩ .f32) (dinvK dinvR : FVec Ideal ⟨1, ![N]⟩ .f32)
    (srcC dstC : IVec ⟨2, ![E, 1]⟩ 32) (srcT dstT dstW : IVec ⟨2, ![E + N, 1]⟩ 32)
    (hdinv : ∀ n : Fin N, 0 ≤ dinvK (ix1 n) ∧ dinvK (ix1 n) ≠ ⊤)
    (hRK : ∀ n : Fin N, dinvR (ix1 n) = dinvK (ix1 n))
    (hM : ∀ n : Fin N, M (ix2 n (0 : Fin 1)) = dinvK (ix1 n))
    (hZK : ∀ i, ZK i = 0) (hZR : ∀ i, ZR i = 0)
    -- the long list's first E entries are the edges
    (hdst_e : ∀ e : Fin E, dstT (ix2 (Fin.castAdd N e) (0 : Fin 1)) = dstC (ix2 e (0 : Fin 1)))
    (hsrc_e : ∀ e : Fin E, srcT (ix2 (Fin.castAdd N e) (0 : Fin 1)) = srcC (ix2 e (0 : Fin 1)))
    (hdw_e : ∀ (e : Fin E) (n : Fin N), (dstC (ix2 e (0 : Fin 1))).toInt = (n.val : Int) →
      min (dstW (ix2 (Fin.castAdd N e) (0 : Fin 1))).toInt.toNat (N - 1) = n.val)
    -- its last N entries are the loops
    (hdst_l : ∀ k : Fin N, (dstT (ix2 (Fin.natAdd E k) (0 : Fin 1))).toInt = (k.val : Int))
    (hsrc_l : ∀ k : Fin N, min (srcT (ix2 (Fin.natAdd E k) (0 : Fin 1))).toInt.toNat (N - 1) = k.val)
    (hdw_l : ∀ k : Fin N, min (dstW (ix2 (Fin.natAdd E k) (0 : Fin 1))).toInt.toNat (N - 1) = k.val) :
    addf (mulf (broadcastInDim ⟨2, ![N, D]⟩ ![0, 1] hbM M)
        (addf (Host.scatterAdd scK ZK dstC (Host.gather gK (mulf H (broadcastInDim ⟨2, ![N, D]⟩ ![0, 1] hbM M)) srcC))
          (mulf H (broadcastInDim ⟨2, ![N, D]⟩ ![0, 1] hbM M)))) B
      = addf (Host.scatterAdd scR ZR dstT
          (mulf (Host.gather gR H srcT)
            (broadcastInDim ⟨2, ![E + N, D]⟩ ![0, 1] hbTD (broadcastInDim ⟨2, ![E + N, 1]⟩ ![0] hbT1
              (mulf (Host.gather g1 dinvR srcT) (Host.gather g1 dinvR dstW)))))) B := by
  subst hgK hscK hgR hg1 hscR
  funext i
  obtain ⟨n, j, rfl⟩ : ∃ (n : Fin N) (j : Fin D), i = ix2 n j := ⟨i 0, i 1, eq_ix2 i⟩
  obtain ⟨h0, ht⟩ := hdinv n
  -- the short side at (n, j)
  have hK : addf (mulf (broadcastInDim ⟨2, ![N, D]⟩ ![0, 1] hbM M)
        (addf (Host.scatterAdd (rowScatter2 N D E wfsK) ZK dstC
            (Host.gather (pickRows2 N D E wfgK) (mulf H (broadcastInDim ⟨2, ![N, D]⟩ ![0, 1] hbM M)) srcC))
          (mulf H (broadcastInDim ⟨2, ![N, D]⟩ ![0, 1] hbM M)))) B (ix2 n j)
      = dinvK (ix1 n) * ((0 + ∑ e : Fin E, if (dstC (ix2 e (0 : Fin 1))).toInt = (n.val : Int) then
            H (ix2 ⟨min (srcC (ix2 e (0 : Fin 1))).toInt.toNat (N - 1), by omega⟩ j)
              * dinvK (ix1 ⟨min (srcC (ix2 e (0 : Fin 1))).toInt.toNat (N - 1), by omega⟩) else 0)
          + H (ix2 n j) * dinvK (ix1 n)) + B (ix2 n j) := by
    rw [addf_ideal_apply, mulf_ideal_apply, stretchCol_apply, hM, addf_ideal_apply, scatterAdd_ideal,
      hostScatterAdd_rows2_apply, hZK, mulf_ideal_apply, stretchCol_apply, hM]
    refine congrArg (fun s : EReal => dinvK (ix1 n) * ((0 + s) + H (ix2 n j) * dinvK (ix1 n)) + B (ix2 n j)) ?_
    refine Finset.sum_congr rfl (fun e _ => ?_)
    rw [gather_pickRows2_apply hN, mulf_ideal_apply, stretchCol_apply, hM]
  -- the long side at (n, j)
  have hR : addf (Host.scatterAdd (rowScatter2 N D (E + N) wfsR) ZR dstT
          (mulf (Host.gather (pickRows2 N D (E + N) wfgR) H srcT)
            (broadcastInDim ⟨2, ![E + N, D]⟩ ![0, 1] hbTD (broadcastInDim ⟨2, ![E + N, 1]⟩ ![0] hbT1
              (mulf (Host.gather (pick1 N (E + N) wf1) dinvR srcT) (Host.gather (pick1 N (E + N) wf1) dinvR dstW)))))) B (ix2 n j)
      = (0 + ((∑ e : Fin E, if (dstC (ix2 e (0 : Fin 1))).toInt = (n.val : Int) then
            H (ix2 ⟨min (srcC (ix2 e (0 : Fin 1))).toInt.toNat (N - 1), by omega⟩ j)
              * (dinvK (ix1 ⟨min (srcC (ix2 e (0 : Fin 1))).toInt.toNat (N - 1), by omega⟩) * dinvK (ix1 n)) else 0)
          + H (ix2 n j) * (dinvK (ix1 n) * dinvK (ix1 n)))) + B (ix2 n j) := by
    rw [addf_ideal_apply, scatterAdd_ideal, hostScatterAdd_rows2_apply, hZR, sum_edges_loops]
    refine congrArg₂ (fun s t : EReal => (0 + (s + t)) + B (ix2 n j)) ?_ ?_
    · refine Finset.sum_congr rfl (fun e _ => ?_)
      beta_reduce
      rw [hdst_e]
      split_ifs with hl
      · have hn : (⟨min (dstW (ix2 (Fin.castAdd N e) (0 : Fin 1))).toInt.toNat (N - 1), by omega⟩ : Fin N) = n :=
          Fin.ext (hdw_e e n hl)
        have hs : (⟨min (srcT (ix2 (Fin.castAdd N e) (0 : Fin 1))).toInt.toNat (N - 1), by omega⟩ : Fin N)
            = ⟨min (srcC (ix2 e (0 : Fin 1))).toInt.toNat (N - 1), by omega⟩ :=
          Fin.ext (by
            show min (srcT (ix2 (Fin.castAdd N e) (0 : Fin 1))).toInt.toNat (N - 1)
              = min (srcC (ix2 e (0 : Fin 1))).toInt.toNat (N - 1)
            rw [hsrc_e])
        rw [mulf_ideal_apply, gather_pickRows2_apply hN, stretchCol_apply, vecCol_apply, mulf_ideal_apply,
          gather_pick1_apply hN, gather_pick1_apply hN, hn, hs, hRK, hRK]
      · rfl
    · beta_reduce
      rw [sum_own_loop n (fun k => dstT (ix2 (Fin.natAdd E k) (0 : Fin 1))) hdst_l
        (fun k => mulf (Host.gather (pickRows2 N D (E + N) wfgR) H srcT)
          (broadcastInDim ⟨2, ![E + N, D]⟩ ![0, 1] hbTD (broadcastInDim ⟨2, ![E + N, 1]⟩ ![0] hbT1
            (mulf (Host.gather (pick1 N (E + N) wf1) dinvR srcT) (Host.gather (pick1 N (E + N) wf1) dinvR dstW))))
          (ix2 (Fin.natAdd E k) j))]
      have hs : (⟨min (srcT (ix2 (Fin.natAdd E n) (0 : Fin 1))).toInt.toNat (N - 1), by omega⟩ : Fin N) = n :=
        Fin.ext (hsrc_l n)
      have hd : (⟨min (dstW (ix2 (Fin.natAdd E n) (0 : Fin 1))).toInt.toNat (N - 1), by omega⟩ : Fin N) = n :=
        Fin.ext (hdw_l n)
      rw [mulf_ideal_apply, gather_pickRows2_apply hN, stretchCol_apply, vecCol_apply, mulf_ideal_apply,
        gather_pick1_apply hN, gather_pick1_apply hN, hs, hd, hRK]
  rw [hK, hR, pull_target_factor _ _ _ _ _ h0 ht]

end Layer

end Cert.Gcn

end
-- ==== Proof.LibScatterRows.lean ====
/-
  The host's accumulating row scatter, for any dimension numbers that are the row scatter's.

  For an operand [N, D], an index column [E, 1] and update rows [E, D], whatever record of dimension numbers a program
  names, if that record is the row scatter's (update row e goes, whole, to operand row idx[e]) then the scattered sum
  at entry (n, j) is the operand entry plus the sum over the edges whose index word reads signed as n of the update
  entry (e, j). The extents are symbolic.
-/
import proofs.«180263_j1236950581835_2_alg».proof.Proof.LibRows2

noncomputable section

namespace Cert.ScatterRows

open Idealize.ShloMosaic Idealize.ShloMosaic.ValueIdx

/-- The scattered sum at entry (n, j), stated for the host operation as a program prints it. -/
theorem hostScatterAdd_apply {N D E w : Nat} {φ : FTy}
    (d : ScatterDims ⟨2, ![N, D]⟩ ⟨2, ![E, 1]⟩ ⟨2, ![E, D]⟩)
    (wf : ScatterDims.WF ⟨2, ![N, D]⟩ ⟨2, ![E, 1]⟩ ⟨2, ![E, D]⟩ [1] [0] [0] 1)
    (hd : d = Cert.Rows2.rowScatter2 N D E wf)
    (x : FVec Ideal ⟨2, ![N, D]⟩ φ) (idx : IVec ⟨2, ![E, 1]⟩ w) (u : FVec Ideal ⟨2, ![E, D]⟩ φ)
    (n : Fin N) (j : Fin D) :
    Host.scatterAdd (F := Ideal) d x idx u (ix2 n j)
      = x (ix2 n j) + ∑ e : Fin E, if (idx (ix2 e (0 : Fin 1))).toInt = (n.val : Int) then u (ix2 e j) else 0 := by
  subst hd
  exact Cert.Rows2.hostScatterAdd_rows2_apply wf x idx u n j

end Cert.ScatterRows

end
-- ==== Proof.RefSide.lean ====
import proofs.«180263_j1236950581835_2_alg».proof.Proof.Gen.ReferenceIdeal.Read
import proofs.«180263_j1236950581835_2_alg».proof.Proof.InRange
import proofs.«180263_j1236950581835_2_alg».proof.Proof.LibEdgeLoopList
import proofs.«180263_j1236950581835_2_alg».proof.Proof.LibGcnSelfLoops
import proofs.«180263_j1236950581835_2_alg».proof.Proof.LibScatterRows

/-!
# The reference computes the two layers and the Gram matrix of the specification

The reference builds the long edge list (the edges, then a loop per node), counts the entries that point at each
node, takes rsqrt(max(count, ε)), multiplies the factors of an entry's two ends, and then, twice, picks each entry's
source row, scales it, and sums the rows that arrive at each node. When every word of the edge array is a node
number, wrapping negative words and clamping change nothing, and each stage is the specification's function of the
same name, entry by entry.
-/

noncomputable section

namespace Cert.ReferenceIdeal.RefSide

open Cert.ReferenceIdeal Cert.ReferenceIdeal.Gen Idealize.ShloMosaic Idealize.ShloMosaic.TcCoe Idealize.SL.Sem Idealize.ShloMosaic.StableHlo
open Idealize.ShloMosaic.ValueIdx Cert.Rows2 Cert.NormPush Cert.ScatterForms Cert.Gcn
open scoped BigOperators

/-! ## The long edge list, entry by entry -/

section Lists

variable (x1 : (⟨2, ![2, 393216]⟩ : Shape).Idx → BitVec 32)

/-- The first row of the edge array, as a vector. -/
theorem row0_apply (e : Fin 393216) :
    Read.val_main_v2 (F := Ideal) x1 (ix1 e) = x1 (ix2 (0 : Fin 2) e) := by
  rw [Read.val_main_v2_apply, Read.val_main_v1_apply]
  refine congrArg x1 (funext fun a => Fin.ext ?_)
  match a with
  | ⟨0, _⟩ => rfl
  | ⟨1, _⟩ => exact Nat.mod_eq_of_lt e.isLt

/-- The second row of the edge array, as a vector. -/
theorem row1_apply (e : Fin 393216) :
    Read.val_main_v4 (F := Ideal) x1 (ix1 e) = x1 (ix2 (1 : Fin 2) e) := by
  rw [Read.val_main_v4_apply, Read.val_main_v3_apply]
  refine congrArg x1 (funext fun a => Fin.ext ?_)
  match a with
  | ⟨0, _⟩ => rfl
  | ⟨1, _⟩ => exact Nat.mod_eq_of_lt e.isLt

theorem srcList_edge (e : Fin 393216) :
    Read.val_main_v6 (F := Ideal) x1 (ix1 (Fin.castAdd 12288 e)) = x1 (ix2 (0 : Fin 2) e) :=
  (cat_edge (E := 393216) (N := 12288) concatenates_S393216_S12288_S405504_d0
    (Read.val_main_v2 (F := Ideal) x1) (Read.val_main_v5 (F := Ideal)) e).trans (row0_apply x1 e)

theorem dstList_edge (e : Fin 393216) :
    Read.val_main_v7 (F := Ideal) x1 (ix1 (Fin.castAdd 12288 e)) = x1 (ix2 (1 : Fin 2) e) :=
  (cat_edge (E := 393216) (N := 12288) concatenates_S393216_S12288_S405504_d0
    (Read.val_main_v4 (F := Ideal) x1) (Read.val_main_v5 (F := Ideal)) e).trans (row1_apply x1 e)

theorem srcList_loop (k : Fin 12288) :
    Read.val_main_v6 (F := Ideal) x1 (ix1 (Fin.natAdd 393216 k)) = BitVec.ofNat 32 k.val :=
  cat_loop (E := 393216) (N := 12288) concatenates_S393216_S12288_S405504_d0
    (Read.val_main_v2 (F := Ideal) x1) (Read.val_main_v5 (F := Ideal)) k

theorem dstList_loop (k : Fin 12288) :
    Read.val_main_v7 (F := Ideal) x1 (ix1 (Fin.natAdd 393216 k)) = BitVec.ofNat 32 k.val :=
  cat_loop (E := 393216) (N := 12288) concatenates_S393216_S12288_S405504_d0
    (Read.val_main_v4 (F := Ideal) x1) (Read.val_main_v5 (F := Ideal)) k

/-- A word that is a node number reads as the node it names. -/
theorem node_val (w : BitVec 32) (h : 0 ≤ w.toInt ∧ w.toInt < 12288) : ((Gcn.node w).val : Int) = w.toInt := by
  show ((min w.toInt.toNat (12288 - 1) : Nat) : Int) = w.toInt
  omega

theorem src_edge (e : Fin 393216) : Gcn.src x1 (Fin.castAdd 12288 e) = Gcn.node (x1 (ix2 (0 : Fin 2) e)) := by
  unfold Gcn.src
  rw [dif_pos (show (Fin.castAdd 12288 e).val < 393216 from e.isLt)]
  rfl

theorem dst_edge (e : Fin 393216) : Gcn.dst x1 (Fin.castAdd 12288 e) = Gcn.node (x1 (ix2 (1 : Fin 2) e)) := by
  unfold Gcn.dst
  rw [dif_pos (show (Fin.castAdd 12288 e).val < 393216 from e.isLt)]
  rfl

theorem src_loop (k : Fin 12288) : Gcn.src x1 (Fin.natAdd 393216 k) = k := by
  unfold Gcn.src
  rw [dif_neg (show ¬ (Fin.natAdd 393216 k).val < 393216 from by show ¬ 393216 + k.val < 393216; omega)]
  exact Fin.ext (by show 393216 + k.val - 393216 = k.val; omega)

theorem dst_loop (k : Fin 12288) : Gcn.dst x1 (Fin.natAdd 393216 k) = k := by
  unfold Gcn.dst
  rw [dif_neg (show ¬ (Fin.natAdd 393216 k).val < 393216 from by show ¬ 393216 + k.val < 393216; omega)]
  exact Fin.ext (by show 393216 + k.val - 393216 = k.val; omega)

/-- Every entry of the long list is an edge or a loop. -/
theorem entry_cases (t : Fin 405504) :
    (∃ e : Fin 393216, t = Fin.castAdd 12288 e) ∨ (∃ k : Fin 12288, t = Fin.natAdd 393216 k) := by
  have ht := t.isLt
  rcases lt_or_ge t.val 393216 with h | h
  · exact Or.inl ⟨⟨t.val, h⟩, Fin.ext rfl⟩
  · exact Or.inr ⟨⟨t.val - 393216, by omega⟩, Fin.ext (by show t.val = 393216 + (t.val - 393216); omega)⟩

/-- Entry `t` of the long source list reads, signed, as the source node of entry `t`. -/
theorem src_toInt (h : Gcn.InRange x1) (t : Fin 405504) :
    (Read.val_main_v6 (F := Ideal) x1 (ix1 t)).toInt = ((Gcn.src x1 t).val : Int) := by
  rcases entry_cases t with ⟨e, rfl⟩ | ⟨k, rfl⟩
  · rw [srcList_edge, src_edge, node_val _ (h _)]
  · rw [srcList_loop, src_loop]
    exact toInt_ofNat_of_lt (by have := k.isLt; omega)

/-- Entry `t` of the long target list reads, signed, as the target node of entry `t`. -/
theorem dst_toInt (h : Gcn.InRange x1) (t : Fin 405504) :
    (Read.val_main_v7 (F := Ideal) x1 (ix1 t)).toInt = ((Gcn.dst x1 t).val : Int) := by
  rcases entry_cases t with ⟨e, rfl⟩ | ⟨k, rfl⟩
  · rw [dstList_edge, dst_edge, node_val _ (h _)]
  · rw [dstList_loop, dst_loop]
    exact toInt_ofNat_of_lt (by have := k.isLt; omega)

end Lists

/-! ## The stages, over arbitrary operands -/

section Stages

variable (x1 : (⟨2, ![2, 393216]⟩ : Shape).Idx → BitVec 32)

/-- A list whose entry `t` reads as node `n`, wrapped (negative words + 12288) and made a column, reads `n` at row
    `t` after the clamp. -/
theorem wrapped_clamp (L c0 cN : IVec ⟨1, ![405504]⟩ 32) (h0 : ∀ i, c0 i = 0#32) (t : Fin 405504) (n : Fin 12288)
    (hL : (L (ix1 t)).toInt = (n.val : Int)) :
    min (broadcastInDim S405504x1 ![0] bcast_S405504_S405504x1_0 (select (cmpi .slt L c0) (addi L cN) L)
      (ix2 t (0 : Fin 1))).toInt.toNat (12288 - 1) = n.val :=
  wrapped_target (N := 12288) (E := 405504) bcast_S405504_S405504x1_0 L c0 cN h0 t n (by rw [vecCol_apply]; exact hL)

/-- A list made a column reads, at row `t`, the list's entry `t`. -/
theorem col_toInt (L : IVec ⟨1, ![405504]⟩ 32) (t : Fin 405504) (n : Fin 12288) (hL : (L (ix1 t)).toInt = (n.val : Int)) :
    (broadcastInDim S405504x1 ![0] bcast_S405504_S405504x1_0 L (ix2 t (0 : Fin 1))).toInt = (n.val : Int) := by
  rw [vecCol_apply]; exact hL

/-- The count of the entries that point at node `n`. -/
theorem deg_stage (Z : FVec Ideal ⟨1, ![12288]⟩ .f32) (O : FVec Ideal ⟨1, ![405504]⟩ .f32) (dstC : IVec ⟨2, ![405504, 1]⟩ 32)
    (hZ : ∀ i, Z i = Gcn.zero) (hO : ∀ i, O i = Gcn.one)
    (hd : ∀ t : Fin 405504, (dstC (ix2 t (0 : Fin 1))).toInt = ((Gcn.dst x1 t).val : Int)) (n : Fin 12288) :
    Host.scatterAdd scatter_S12288_S405504x1_S405504_n_0_0_1 Z dstC O (ix1 n) = Gcn.deg x1 n := by
  refine (hostScatterAdd_vec_apply (N := 12288) (E := 405504) scatter_S12288_S405504x1_S405504_n_0_0_1_wf Z dstC O n).trans ?_
  unfold Gcn.deg
  rw [hZ]
  refine congrArg (fun s : EReal => Gcn.zero + s) ?_
  refine Finset.sum_congr rfl fun t _ => ?_
  rw [hO, hd]
  exact if_congr ⟨fun h => Fin.ext (by exact_mod_cast h), fun h => by rw [h]⟩ rfl rfl

/-- rsqrt(max(count, ε)). -/
theorem dinv_stage (Dg Ep : FVec Ideal ⟨1, ![12288]⟩ .f32) (hD : ∀ n, Dg (ix1 n) = Gcn.deg x1 n) (hE : ∀ i, Ep i = Gcn.eps)
    (n : Fin 12288) : Host.rsqrt (maximumf Dg Ep) (ix1 n) = Gcn.dinv x1 n := by
  show Ideal.rsqrt (max (Dg (ix1 n)) (Ep (ix1 n))) = _
  rw [hD, hE]
  rfl

/-- The weight of entry `t`: the factors of its two ends, picked through the wrapped and clamped columns. -/
theorem norm_stage (DV : FVec Ideal ⟨1, ![12288]⟩ .f32) (srcW dstW : IVec ⟨2, ![405504, 1]⟩ 32)
    (hDV : ∀ n, DV (ix1 n) = Gcn.dinv x1 n)
    (hs : ∀ t : Fin 405504, min (srcW (ix2 t (0 : Fin 1))).toInt.toNat (12288 - 1) = (Gcn.src x1 t).val)
    (hd : ∀ t : Fin 405504, min (dstW (ix2 t (0 : Fin 1))).toInt.toNat (12288 - 1) = (Gcn.dst x1 t).val)
    (t : Fin 405504) :
    mulf (Host.gather gather_S12288_S405504x1_S405504_n_0_n_n_0_1_1 DV srcW)
        (Host.gather gather_S12288_S405504x1_S405504_n_0_n_n_0_1_1 DV dstW) (ix1 t) = Gcn.norm x1 t := by
  have e1 : Host.gather gather_S12288_S405504x1_S405504_n_0_n_n_0_1_1 DV srcW (ix1 t) = Gcn.dinv x1 (Gcn.src x1 t) := by
    refine (gather_pick1_apply (N := 12288) (E := 405504) (by norm_num)
      gather_S12288_S405504x1_S405504_n_0_n_n_0_1_1_wf DV srcW t).trans ?_
    rw [← hDV]
    exact congrArg DV (congrArg ix1 (Fin.ext (hs t)))
  have e2 : Host.gather gather_S12288_S405504x1_S405504_n_0_n_n_0_1_1 DV dstW (ix1 t) = Gcn.dinv x1 (Gcn.dst x1 t) := by
    refine (gather_pick1_apply (N := 12288) (E := 405504) (by norm_num)
      gather_S12288_S405504x1_S405504_n_0_n_n_0_1_1_wf DV dstW t).trans ?_
    rw [← hDV]
    exact congrArg DV (congrArg ix1 (Fin.ext (hd t)))
  rw [mulf_ideal_apply, e1, e2]
  rfl

/-- One layer's sum: each entry's source row, scaled by the entry's weight, summed into the entry's target. -/
theorem layer_stage {D : Nat}
    (gR : GatherDims ⟨2, ![12288, D]⟩ ⟨2, ![405504, 1]⟩ ⟨2, ![405504, D]⟩)
    (wfg : GatherDims.WF ⟨2, ![12288, D]⟩ ⟨2, ![405504, 1]⟩ ⟨2, ![405504, D]⟩ [1] [0] [] [0] [] 1 ![1, D])
    (hgR : gR = pickRows2 12288 D 405504 wfg)
    (scR : ScatterDims ⟨2, ![12288, D]⟩ ⟨2, ![405504, 1]⟩ ⟨2, ![405504, D]⟩)
    (wfs : ScatterDims.WF ⟨2, ![12288, D]⟩ ⟨2, ![405504, 1]⟩ ⟨2, ![405504, D]⟩ [1] [0] [0] 1)
    (hscR : scR = rowScatter2 12288 D 405504 wfs)
    (hbT1 : (⟨1, ![405504]⟩ : Shape).BroadcastsInDim ⟨2, ![405504, 1]⟩ ![0])
    (hbTD : (⟨2, ![405504, 1]⟩ : Shape).BroadcastsInDim ⟨2, ![405504, D]⟩ ![0, 1])
    (H Z : FVec Ideal ⟨2, ![12288, D]⟩ .f32) (nrm : FVec Ideal ⟨1, ![405504]⟩ .f32)
    (srcW dstC : IVec ⟨2, ![405504, 1]⟩ 32)
    (hZ : ∀ i, Z i = Gcn.zero)
    (hn : ∀ t, nrm (ix1 t) = Gcn.norm x1 t)
    (hs : ∀ t : Fin 405504, min (srcW (ix2 t (0 : Fin 1))).toInt.toNat (12288 - 1) = (Gcn.src x1 t).val)
    (hd : ∀ t : Fin 405504, (dstC (ix2 t (0 : Fin 1))).toInt = ((Gcn.dst x1 t).val : Int))
    (p : Fin 12288) (f : Fin D) :
    Host.scatterAdd scR Z dstC (mulf (Host.gather gR H srcW)
        (broadcastInDim ⟨2, ![405504, D]⟩ ![0, 1] hbTD (broadcastInDim ⟨2, ![405504, 1]⟩ ![0] hbT1 nrm))) (ix2 p f)
      = Gcn.zero + ∑ t : Fin 405504, if Gcn.dst x1 t = p then H (ix2 (Gcn.src x1 t) f) * Gcn.norm x1 t else 0 := by
  subst hgR hscR
  rw [scatterAdd_ideal, hostScatterAdd_rows2_apply, hZ]
  refine congrArg (fun s : EReal => Gcn.zero + s) ?_
  refine Finset.sum_congr rfl fun t _ => ?_
  rw [hd]
  refine if_congr ⟨fun h => Fin.ext (by exact_mod_cast h), fun h => by rw [h]⟩ ?_ rfl
  have e : (⟨min (srcW (ix2 t (0 : Fin 1))).toInt.toNat (12288 - 1), by omega⟩ : Fin 12288) = Gcn.src x1 t :=
    Fin.ext (hs t)
  rw [mulf_ideal_apply, gather_pickRows2_apply (by norm_num), stretchCol_apply, vecCol_apply, hn, e]

end Stages

/-! ## The program's own operands -/

section Program

variable (x0 : (⟨2, ![12288, 128]⟩ : Shape).Idx → EReal) (x1 : (⟨2, ![2, 393216]⟩ : Shape).Idx → BitVec 32)
  (x2 : (⟨2, ![128, 128]⟩ : Shape).Idx → EReal) (x3 : (⟨1, ![128]⟩ : Shape).Idx → EReal)
  (x4 : (⟨2, ![128, 64]⟩ : Shape).Idx → EReal) (x5 : (⟨1, ![64]⟩ : Shape).Idx → EReal)

/-- The target column of the long list. -/
theorem dstCol (h : Gcn.InRange x1) (t : Fin 405504) :
    (Read.val_main_v10 (F := Ideal) x1 (ix2 t (0 : Fin 1))).toInt = ((Gcn.dst x1 t).val : Int) :=
  col_toInt (Read.val_main_v7 (F := Ideal) x1) t _ (dst_toInt x1 h t)

/-- The degree stage. -/
theorem deg1 (h : Gcn.InRange x1) (n : Fin 12288) : Read.val_main_v11 (F := Ideal) x1 (ix1 n) = Gcn.deg x1 n :=
  deg_stage x1 (Read.val_main_v9 (F := Ideal)) (Read.val_main_v8 (F := Ideal)) (Read.val_main_v10 (F := Ideal) x1)
    (fun _ => rfl) (fun _ => rfl) (dstCol x1 h) n

/-- The factor stage. -/
theorem dinv1 (h : Gcn.InRange x1) (n : Fin 12288) : Read.val_main_v14 (F := Ideal) x1 (ix1 n) = Gcn.dinv x1 n :=
  dinv_stage x1 (Read.val_main_v11 (F := Ideal) x1) (Read.val_main_v12 (F := Ideal)) (deg1 x1 h) (fun _ => rfl) n

/-- The wrapped source column, clamped. -/
theorem srcW (h : Gcn.InRange x1) (t : Fin 405504) :
    min (Read.val_main_v20 (F := Ideal) x1 (ix2 t (0 : Fin 1))).toInt.toNat (12288 - 1) = (Gcn.src x1 t).val :=
  wrapped_clamp (Read.val_main_v6 (F := Ideal) x1) (Read.val_main_v15 (F := Ideal)) (Read.val_main_v17 (F := Ideal))
    (fun _ => rfl) t _ (src_toInt x1 h t)

/-- The wrapped target column, clamped. -/
theorem dstW (h : Gcn.InRange x1) (t : Fin 405504) :
    min (Read.val_main_v27 (F := Ideal) x1 (ix2 t (0 : Fin 1))).toInt.toNat (12288 - 1) = (Gcn.dst x1 t).val :=
  wrapped_clamp (Read.val_main_v7 (F := Ideal) x1) (Read.val_main_v22 (F := Ideal)) (Read.val_main_v24 (F := Ideal))
    (fun _ => rfl) t _ (dst_toInt x1 h t)

/-- The weight stage. -/
theorem norm1 (h : Gcn.InRange x1) (t : Fin 405504) : Read.val_main_v29 (F := Ideal) x1 (ix1 t) = Gcn.norm x1 t :=
  norm_stage x1 (Read.val_main_v14 (F := Ideal) x1) (Read.val_main_v20 (F := Ideal) x1) (Read.val_main_v27 (F := Ideal) x1)
    (dinv1 x1 h) (srcW x1 h) (dstW x1 h) t

/-- The second wrapped source column (the row gather's), clamped. -/
theorem srcW' (h : Gcn.InRange x1) (t : Fin 405504) :
    min (Read.val_main_v35 (F := Ideal) x1 (ix2 t (0 : Fin 1))).toInt.toNat (12288 - 1) = (Gcn.src x1 t).val :=
  wrapped_clamp (Read.val_main_v6 (F := Ideal) x1) (Read.val_main_v30 (F := Ideal)) (Read.val_main_v32 (F := Ideal))
    (fun _ => rfl) t _ (src_toInt x1 h t)

/-- The first product of matrices. -/
theorem h1_apply (n : Fin 12288) (f : Fin 128) :
    Read.val_main_v0 (F := Ideal) x0 x2 (ix2 n f) = Gcn.mmul (Gcn.mat x0) (Gcn.mat x2) n f := by
  rw [Read.val_main_v0_apply]
  unfold Gcn.mmul Gcn.mat
  refine Finset.sum_congr rfl fun k _ => ?_
  have el : Read.lidx_main_v0 (ix2 n f) k = ix2 n k :=
    funext fun a => by match a with | ⟨0, _⟩ => rfl | ⟨1, _⟩ => rfl
  have er : Read.ridx_main_v0 (ix2 n f) k = ix2 k f :=
    funext fun a => by match a with | ⟨0, _⟩ => rfl | ⟨1, _⟩ => rfl
  rw [el, er]

/-- The first layer's sum. -/
theorem sum1 (h : Gcn.InRange x1) (p : Fin 12288) (f : Fin 128) :
    Read.val_main_v42 (F := Ideal) x0 x1 x2 (ix2 p f)
      = Gcn.zero + ∑ t : Fin 405504, if Gcn.dst x1 t = p then
          Read.val_main_v0 (F := Ideal) x0 x2 (ix2 (Gcn.src x1 t) f) * Gcn.norm x1 t else 0 :=
  layer_stage x1 gather_S12288x128_S405504x1_S405504x128_1_0_n_n_0_1_1128
    gather_S12288x128_S405504x1_S405504x128_1_0_n_n_0_1_1128_wf rfl
    scatter_S12288x128_S405504x1_S405504x128_1_0_0_1 scatter_S12288x128_S405504x1_S405504x128_1_0_0_1_wf rfl
    bcast_S405504_S405504x1_0 bcast_S405504x1_S405504x128_0_1
    (Read.val_main_v0 (F := Ideal) x0 x2) (Read.val_main_v40 (F := Ideal)) (Read.val_main_v29 (F := Ideal) x1)
    (Read.val_main_v35 (F := Ideal) x1) (Read.val_main_v41 (F := Ideal) x1)
    (fun _ => rfl) (norm1 x1 h) (srcW' x1 h) (dstCol x1 h) p f

/-- The first layer. -/
theorem layer1 (h : Gcn.InRange x1) (p : Fin 12288) (f : Fin 128) :
    Read.val_main_v45 (F := Ideal) x0 x1 x2 x3 (ix2 p f)
      = Gcn.layer x1 (Gcn.mmul (Gcn.mat x0) (Gcn.mat x2)) (Gcn.vec x3) p f := by
  have e44 : Read.val_main_v44 (F := Ideal) x3 (ix2 p f) = Gcn.vec x3 f := by
    rw [Read.val_main_v44_apply, Read.val_main_v43_apply]
    exact congrArg x3 (funext fun a => by match a with | ⟨0, _⟩ => rfl)
  refine (Read.val_main_v45_apply (F := Ideal) x0 x1 x2 x3 (ix2 p f)).trans ?_
  show Read.val_main_v42 (F := Ideal) x0 x1 x2 (ix2 p f) + Read.val_main_v44 (F := Ideal) x3 (ix2 p f) = _
  rw [sum1 x0 x1 x2 h, e44]
  unfold Gcn.layer
  refine congrArg (fun s : EReal => (Gcn.zero + s) + Gcn.vec x3 f) ?_
  refine Finset.sum_congr rfl fun t _ => ?_
  rw [h1_apply]

/-- The rectified first layer. -/
theorem hidden_apply (h : Gcn.InRange x1) (p : Fin 12288) (f : Fin 128) :
    Read.val_main_v46 (F := Ideal) x0 x1 x2 x3 (ix2 p f)
      = Gcn.hidden x1 (Gcn.mat x0) (Gcn.mat x2) (Gcn.vec x3) p f := by
  refine (Read.val_main_v46_apply (F := Ideal) x0 x1 x2 x3 (ix2 p f)).trans ?_
  show max (Read.val_main_v45 (F := Ideal) x0 x1 x2 x3 (ix2 p f)) (Read.val_main_call0_v0 (F := Ideal) (ix2 p f)) = _
  rw [layer1 x0 x1 x2 x3 h]
  rfl

/-- The second product of matrices. -/
theorem h2_apply (h : Gcn.InRange x1) (n : Fin 12288) (f : Fin 64) :
    Read.val_main_v47 (F := Ideal) x0 x1 x2 x3 x4 (ix2 n f)
      = Gcn.mmul (Gcn.hidden x1 (Gcn.mat x0) (Gcn.mat x2) (Gcn.vec x3)) (Gcn.mat x4) n f := by
  rw [Read.val_main_v47_apply]
  unfold Gcn.mmul
  refine Finset.sum_congr rfl fun k _ => ?_
  have el : Read.lidx_main_v47 (ix2 n f) k = ix2 n k :=
    funext fun a => by match a with | ⟨0, _⟩ => rfl | ⟨1, _⟩ => rfl
  have er : Read.ridx_main_v47 (ix2 n f) k = ix2 k f :=
    funext fun a => by match a with | ⟨0, _⟩ => rfl | ⟨1, _⟩ => rfl
  rw [el, er, hidden_apply x0 x1 x2 x3 h]
  rfl

/-- The second layer's sum: the same chain of operations on the same edge array. -/
theorem sum2 (h : Gcn.InRange x1) (p : Fin 12288) (f : Fin 64) :
    Read.val_main_v89 (F := Ideal) x0 x1 x2 x3 x4 (ix2 p f)
      = Gcn.zero + ∑ t : Fin 405504, if Gcn.dst x1 t = p then
          Read.val_main_v47 (F := Ideal) x0 x1 x2 x3 x4 (ix2 (Gcn.src x1 t) f) * Gcn.norm x1 t else 0 :=
  layer_stage x1 gather_S12288x64_S405504x1_S405504x64_1_0_n_n_0_1_164
    gather_S12288x64_S405504x1_S405504x64_1_0_n_n_0_1_164_wf rfl
    scatter_S12288x64_S405504x1_S405504x64_1_0_0_1 scatter_S12288x64_S405504x1_S405504x64_1_0_0_1_wf rfl
    bcast_S405504_S405504x1_0 bcast_S405504x1_S405504x64_0_1
    (Read.val_main_v47 (F := Ideal) x0 x1 x2 x3 x4) (Read.val_main_v87 (F := Ideal)) (Read.val_main_v76 (F := Ideal) x1)
    (Read.val_main_v82 (F := Ideal) x1) (Read.val_main_v88 (F := Ideal) x1)
    (fun _ => rfl) (norm1 x1 h) (srcW' x1 h) (dstCol x1 h) p f

/-- The second layer. -/
theorem latent_apply (h : Gcn.InRange x1) (p : Fin 12288) (f : Fin 64) :
    Read.val_main_v92 (F := Ideal) x0 x1 x2 x3 x4 x5 (ix2 p f)
      = Gcn.latent x1 (Gcn.mat x0) (Gcn.mat x2) (Gcn.vec x3) (Gcn.mat x4) (Gcn.vec x5) p f := by
  have e91 : Read.val_main_v91 (F := Ideal) x5 (ix2 p f) = Gcn.vec x5 f := by
    rw [Read.val_main_v91_apply, Read.val_main_v90_apply]
    exact congrArg x5 (funext fun a => by match a with | ⟨0, _⟩ => rfl)
  refine (Read.val_main_v92_apply (F := Ideal) x0 x1 x2 x3 x4 x5 (ix2 p f)).trans ?_
  show Read.val_main_v89 (F := Ideal) x0 x1 x2 x3 x4 (ix2 p f) + Read.val_main_v91 (F := Ideal) x5 (ix2 p f) = _
  rw [sum2 x0 x1 x2 x3 x4 h, e91]
  unfold Gcn.latent Gcn.layer
  refine congrArg (fun s : EReal => (Gcn.zero + s) + Gcn.vec x5 f) ?_
  refine Finset.sum_congr rfl fun t _ => ?_
  rw [h2_apply x0 x1 x2 x3 x4 h]

/-- THE REFERENCE IS THE SPECIFICATION'S GRAM MATRIX. -/
theorem ref_eq (h : Gcn.InRange x1) :
    Read.val_main_v94 (F := Ideal) x0 x1 x2 x3 x4 x5 = Gcn.Garr x0 x1 x2 x3 x4 x5 := by
  funext i
  obtain ⟨a, b, rfl⟩ : ∃ (a b : Fin 12288), i = ix2 a b := ⟨i 0, i 1, eq_ix2 i⟩
  rw [Read.val_main_v94_apply]
  show _ = Gcn.G x1 (Gcn.mat x0) (Gcn.mat x2) (Gcn.vec x3) (Gcn.mat x4) (Gcn.vec x5) a b
  unfold Gcn.G
  refine Finset.sum_congr rfl fun k _ => ?_
  have el : Read.lidx_main_v94 (ix2 a b) k = ix2 a k :=
    funext fun c => by match c with | ⟨0, _⟩ => rfl | ⟨1, _⟩ => rfl
  have er : Read.idx_main_v93 (Read.ridx_main_v94 (ix2 a b) k) = ix2 b k :=
    funext fun c => by match c with | ⟨0, _⟩ => rfl | ⟨1, _⟩ => rfl
  rw [Read.val_main_v93_apply, el, er, latent_apply x0 x1 x2 x3 x4 x5 h, latent_apply x0 x1 x2 x3 x4 x5 h]

end Program

/-! ## The reference's run -/

section Run

/-- Every weakly fair execution of the reference, started from edge words that are node numbers, ends with its
    result at the specification's Gram matrix of the argument arrays, the arguments unchanged. -/
theorem ref_run (m' : (ℓ : Loc nD τ sig) → Buf (Elt Ideal) ℓ) (ρ' : Dev nD → PrngReg)
    (h : ∀ c : Dev nD, Gcn.InRange (m' ((c.tc : Thread nD τ).loc main_arg1))) :
    θ_run (defs (F := Ideal)) (onTc (τ := τ) (main (F := Ideal))) ⟨m', fun _ => 0, ρ'⟩ (fun r => ∀ c : Dev nD,
      r.2.mem ((c.tc : Thread nD τ).loc main_v94)
          = Gcn.Garr (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run defs _ _).mono (fun _ hr c =>
      ⟨(hr c).1.trans ((Read.val_main_v94_eq (F := Ideal) m' c).trans (ref_eq _ _ _ _ _ _ (h c))), (hr c).2⟩)
    (Cert.ReferenceIdeal.Value.run (F := Ideal) m' ρ')

end Run

end Cert.ReferenceIdeal.RefSide

end
-- ==== Proof.KV_Adj.lean ====
import proofs.«180263_j1236950581835_2_alg».proof.Proof.LaunchKI
import proofs.«180263_j1236950581835_2_alg».proof.Proof.RefSide
import Idealize.ShloMosaic.Lib.StableHlo.Run

/-!
# The dense matrix of summed weights the host operations build

Before the first region the host operations build the long edge list, the degree, the factors rsqrt(max(deg, ε)) and
each entry's weight — the same chain of operations as the reference's — and then add every entry's weight into a
12288 × 12288 array of zeros at the position (wrapped target, wrapped source). An update of a two-index scatter lands
on entry (p, q) exactly when its index pair reads, signed, as (p, q); so entry (p, q) of the result is the sum of the
weights of the entries of the list with target p and source q. When every word of the edge array is a node number the
wrap changes nothing, and this is the specification's dense matrix.
-/

noncomputable section

namespace Cert.KernelIdeal.Val

open Cert.KernelIdeal Cert.KernelIdeal.GenP Cert.KernelIdeal.Gen
open Idealize.ShloMosaic Idealize.ShloMosaic.TcCoe Idealize.SL.Sem Idealize.ShloMosaic.StableHlo
open Idealize.ShloMosaic.ValueIdx Cert.Rows2 Cert.NormPush Cert.ScatterForms Cert.Gcn
open scoped BigOperators

/-! ## A scatter by index pairs -/

section PairScatter

/-- The dimension numbers of x.at[r, c].add(u) for x : [N, N], the index pairs given as rows of [E, 2], u : [E]. -/
abbrev pairScatter (N E : Nat) (wf : ScatterDims.WF ⟨2, ![N, N]⟩ ⟨2, ![E, 2]⟩ ⟨1, ![E]⟩ [] [0, 1] [0, 1] 1) :
    ScatterDims ⟨2, ![N, N]⟩ ⟨2, ![E, 2]⟩ ⟨1, ![E]⟩ where
  updateWindowDims := []
  insertedWindowDims := [0, 1]
  scatterDimsToOperandDims := [0, 1]
  indexVectorDim := 1
  wf := wf

variable {N E w : Nat} (wf : ScatterDims.WF ⟨2, ![N, N]⟩ ⟨2, ![E, 2]⟩ ⟨1, ![E]⟩ [] [0, 1] [0, 1] 1)
  (idx : IVec ⟨2, ![E, 2]⟩ w) (e : Fin E)

theorem pairScatter_start0 : (pairScatter N E wf).start (ix1 e) idx 0 = (idx (ix2 e (0 : Fin 2))).toInt := by
  unfold ScatterDims.start
  rw [dif_pos (show (0 : Fin 2) ∈ (pairScatter N E wf).scatterDimsToOperandDims from List.mem_cons_self)]
  have hsi : (pairScatter N E wf).siIdx (ix1 e) ⟨List.idxOf (0 : Fin 2) (pairScatter N E wf).scatterDimsToOperandDims,
      List.idxOf_lt_length_iff.2 List.mem_cons_self⟩ = ix2 e (0 : Fin 2) := by
    funext b; refine Fin.ext ?_
    match b with
    | ⟨0, _⟩ => rfl
    | ⟨1, _⟩ => rfl
  rw [hsi]

theorem pairScatter_start1 : (pairScatter N E wf).start (ix1 e) idx 1 = (idx (ix2 e (1 : Fin 2))).toInt := by
  unfold ScatterDims.start
  rw [dif_pos (show (1 : Fin 2) ∈ (pairScatter N E wf).scatterDimsToOperandDims from
    List.mem_cons_of_mem _ (List.mem_singleton.mpr rfl))]
  have hsi : (pairScatter N E wf).siIdx (ix1 e) ⟨List.idxOf (1 : Fin 2) (pairScatter N E wf).scatterDimsToOperandDims,
      List.idxOf_lt_length_iff.2 (List.mem_cons_of_mem _ (List.mem_singleton.mpr rfl))⟩ = ix2 e (1 : Fin 2) := by
    funext b; refine Fin.ext ?_
    match b with
    | ⟨0, _⟩ => rfl
    | ⟨1, _⟩ => rfl
  rw [hsi]

theorem pairScatter_window (a : Fin 2) : (pairScatter N E wf).window (ix1 e) a = 0 := by
  unfold ScatterDims.window
  rw [dif_neg (show ¬ a ∈ (pairScatter N E wf).sKept from
    fun h => (of_decide_eq_true (List.mem_filter.mp h).2) ((by decide : ∀ a : Fin 2, a ∈ ([0, 1] : List (Fin 2))) a))]

/-- Update `e` lands on entry (p, q) exactly when its index pair, read signed, is (p, q). -/
theorem pairScatter_lands (p q : Fin N) :
    (pairScatter N E wf).resultIdx? (ix1 e) idx = some (ix2 p q)
      ↔ (idx (ix2 e (0 : Fin 2))).toInt = (p.val : Int) ∧ (idx (ix2 e (1 : Fin 2))).toInt = (q.val : Int) := by
  rw [resultIdx?_eq_some_iff]
  constructor
  · intro h
    have h0 : (idx (ix2 e (0 : Fin 2))).toInt + ((0 : ℕ) : Int) = (p.val : Int) := by
      have := h 0
      rwa [pairScatter_start0, pairScatter_window] at this
    have h1 : (idx (ix2 e (1 : Fin 2))).toInt + ((0 : ℕ) : Int) = (q.val : Int) := by
      have := h 1
      rwa [pairScatter_start1, pairScatter_window] at this
    exact ⟨by simpa using h0, by simpa using h1⟩
  · rintro ⟨h0, h1⟩ c
    match c with
    | ⟨0, _⟩ =>
      show (pairScatter N E wf).start (ix1 e) idx 0 + ((pairScatter N E wf).window (ix1 e) 0 : Int) = (p.val : Int)
      rw [pairScatter_start0, pairScatter_window]
      simpa using h0
    | ⟨1, _⟩ =>
      show (pairScatter N E wf).start (ix1 e) idx 1 + ((pairScatter N E wf).window (ix1 e) 1 : Int) = (q.val : Int)
      rw [pairScatter_start1, pairScatter_window]
      simpa using h1

/-- The scattered sum at entry (p, q): the operand entry plus the updates whose index pair reads signed as (p, q). -/
theorem hostScatterAdd_pair_apply (x : (⟨2, ![N, N]⟩ : Shape).Idx → EReal) (u : (⟨1, ![E]⟩ : Shape).Idx → EReal)
    (p q : Fin N) :
    Ideal.hostScatterAdd (pairScatter N E wf) x idx u (ix2 p q)
      = x (ix2 p q) + ∑ e : Fin E, if (idx (ix2 e (0 : Fin 2))).toInt = (p.val : Int)
          ∧ (idx (ix2 e (1 : Fin 2))).toInt = (q.val : Int) then u (ix1 e) else 0 := by
  unfold Ideal.hostScatterAdd
  congr 1
  rw [← Finset.sum_filter]
  refine Finset.sum_bij' (fun i _ => i 0) (fun e _ => ix1 e) ?_ ?_ ?_ ?_ ?_
  · intro i hi
    obtain ⟨e, rfl⟩ : ∃ e, i = ix1 e := ⟨i 0, eq_ix1 i⟩
    exact Finset.mem_filter.mpr ⟨Finset.mem_univ _, (pairScatter_lands wf idx e p q).mp (Finset.mem_filter.mp hi).2⟩
  · intro e he
    exact Finset.mem_filter.mpr ⟨Finset.mem_univ _, (pairScatter_lands wf idx e p q).mpr (Finset.mem_filter.mp he).2⟩
  · intro i _
    exact (eq_ix1 i).symm
  · intro e _
    rfl
  · intro i _
    obtain ⟨e, rfl⟩ : ∃ e, i = ix1 e := ⟨i 0, eq_ix1 i⟩
    rfl

end PairScatter

/-! ## Two columns joined side by side -/

section Columns

variable {α : Type} {E : Nat}
  (hc : Shape.Concatenates [(⟨2, ![E, 1]⟩ : Shape), ⟨2, ![E, 1]⟩] ⟨2, ![E, 2]⟩ 1)
  (a b : (⟨2, ![E, 1]⟩ : Shape).Idx → α) (e : Fin E)

theorem catCols_left :
    concatenate ⟨2, ![E, 2]⟩ 1 [⟨⟨2, ![E, 1]⟩, a⟩, ⟨⟨2, ![E, 1]⟩, b⟩] hc (ix2 e (0 : Fin 2)) = a (ix2 e (0 : Fin 1)) :=
  concatenate_pair_apply_left 1 a b hc (ix2 e (0 : Fin 2)) rfl (ix2 e (0 : Fin 1)) (fun c => by
    match c with
    | ⟨0, _⟩ => rfl
    | ⟨1, _⟩ => rfl)

theorem catCols_right :
    concatenate ⟨2, ![E, 2]⟩ 1 [⟨⟨2, ![E, 1]⟩, a⟩, ⟨⟨2, ![E, 1]⟩, b⟩] hc (ix2 e (1 : Fin 2)) = b (ix2 e (0 : Fin 1)) :=
  concatenate_pair_apply_right 1 a b hc (ix2 e (1 : Fin 2)) rfl rfl (ix2 e (0 : Fin 1))
    (fun c hne => by
      match c with
      | ⟨0, _⟩ => rfl
      | ⟨1, _⟩ => exact absurd rfl hne)
    rfl

end Columns

/-! ## The stage, over arbitrary operands -/

section Stage

variable (x1 : (⟨2, ![2, 393216]⟩ : Shape).Idx → BitVec 32)

/-- A list whose entry `t` reads as node `n`, wrapped (negative words + 12288) and made a column, still reads `n` at
    row `t`. -/
theorem wrapped_col_toInt (hb : (⟨1, ![405504]⟩ : Shape).BroadcastsInDim ⟨2, ![405504, 1]⟩ ![0])
    (L c0 cN : IVec ⟨1, ![405504]⟩ 32) (h0 : ∀ i, c0 i = 0#32) (t : Fin 405504) (n : Fin 12288)
    (hL : (L (ix1 t)).toInt = (n.val : Int)) :
    (broadcastInDim ⟨2, ![405504, 1]⟩ ![0] hb (select (cmpi .slt L c0) (addi L cN) L) (ix2 t (0 : Fin 1))).toInt
      = (n.val : Int) := by
  rw [vecCol_apply]
  have hslt : (L (ix1 t)).slt 0#32 = false := by
    simp [BitVec.slt, hL]
  have hsel : select (cmpi .slt L c0) (addi L cN) L (ix1 t) = L (ix1 t) := by
    show Scalar.select (IntOp.cmpi .slt (L (ix1 t)) (c0 (ix1 t))) _ _ = _
    rw [h0]
    unfold Scalar.select IntOp.cmpi
    simp [hslt]
  rw [hsel, hL]

/-- The weights added into zeros at (wrapped target, wrapped source): the dense matrix of summed weights. -/
theorem pair_stage
    (sc : ScatterDims ⟨2, ![12288, 12288]⟩ ⟨2, ![405504, 2]⟩ ⟨1, ![405504]⟩)
    (wf : ScatterDims.WF ⟨2, ![12288, 12288]⟩ ⟨2, ![405504, 2]⟩ ⟨1, ![405504]⟩ [] [0, 1] [0, 1] 1)
    (hsc : sc = pairScatter 12288 405504 wf)
    (hc : Shape.Concatenates [(⟨2, ![405504, 1]⟩ : Shape), ⟨2, ![405504, 1]⟩] ⟨2, ![405504, 2]⟩ 1)
    (Z : FVec Ideal ⟨2, ![12288, 12288]⟩ .f32) (dstW srcW : IVec ⟨2, ![405504, 1]⟩ 32)
    (nrm : FVec Ideal ⟨1, ![405504]⟩ .f32)
    (hZ : ∀ i, Z i = Gcn.zero)
    (hd : ∀ t : Fin 405504, (dstW (ix2 t (0 : Fin 1))).toInt = ((Gcn.dst x1 t).val : Int))
    (hs : ∀ t : Fin 405504, (srcW (ix2 t (0 : Fin 1))).toInt = ((Gcn.src x1 t).val : Int))
    (hn : ∀ t, nrm (ix1 t) = Gcn.norm x1 t) (p q : Fin 12288) :
    Host.scatterAdd sc Z
        (concatenate ⟨2, ![405504, 2]⟩ 1 [⟨⟨2, ![405504, 1]⟩, dstW⟩, ⟨⟨2, ![405504, 1]⟩, srcW⟩] hc) nrm (ix2 p q)
      = Gcn.adj x1 p q := by
  subst hsc
  rw [scatterAdd_ideal, hostScatterAdd_pair_apply, hZ]
  unfold Gcn.adj
  refine congrArg (fun s : EReal => Gcn.zero + s) ?_
  refine Finset.sum_congr rfl fun t _ => ?_
  rw [catCols_left, catCols_right, hd, hs, hn]
  exact if_congr ⟨fun h => ⟨Fin.ext (by exact_mod_cast h.1), Fin.ext (by exact_mod_cast h.2)⟩,
    fun h => by rw [h.1, h.2]; exact ⟨rfl, rfl⟩⟩ rfl rfl

end Stage

/-! ## The program's own operands -/

section Program

/-- The wrapped target column read signed. -/
theorem dstWcol (x1 : (⟨2, ![2, 393216]⟩ : Shape).Idx → BitVec 32) (h : Gcn.InRange x1) (t : Fin 405504) :
    (Cert.ReferenceIdeal.Read.val_main_v27 (F := Ideal) x1 (ix2 t (0 : Fin 1))).toInt = ((Gcn.dst x1 t).val : Int) :=
  wrapped_col_toInt Cert.ReferenceIdeal.Gen.bcast_S405504_S405504x1_0 (Cert.ReferenceIdeal.Read.val_main_v7 (F := Ideal) x1)
    (Cert.ReferenceIdeal.Read.val_main_v22 (F := Ideal)) (Cert.ReferenceIdeal.Read.val_main_v24 (F := Ideal))
    (fun _ => rfl) t _ (Cert.ReferenceIdeal.RefSide.dst_toInt x1 h t)

/-- The wrapped source column read signed. -/
theorem srcWcol (x1 : (⟨2, ![2, 393216]⟩ : Shape).Idx → BitVec 32) (h : Gcn.InRange x1) (t : Fin 405504) :
    (Cert.ReferenceIdeal.Read.val_main_v20 (F := Ideal) x1 (ix2 t (0 : Fin 1))).toInt = ((Gcn.src x1 t).val : Int) :=
  wrapped_col_toInt Cert.ReferenceIdeal.Gen.bcast_S405504_S405504x1_0 (Cert.ReferenceIdeal.Read.val_main_v6 (F := Ideal) x1)
    (Cert.ReferenceIdeal.Read.val_main_v15 (F := Ideal)) (Cert.ReferenceIdeal.Read.val_main_v17 (F := Ideal))
    (fun _ => rfl) t _ (Cert.ReferenceIdeal.RefSide.src_toInt x1 h t)

/-- The host operations' term for the dense matrix, as a function of the edge array. Its long lists, factors and
    weights are the same operations as the reference's, so they are written with the reference's names. -/
def adjTerm (x1 : (⟨2, ![2, 393216]⟩ : Shape).Idx → BitVec 32) : (⟨2, ![12288, 12288]⟩ : Shape).Idx → EReal :=
  truncf (F := Ideal) .bf16 (Host.scatterAdd (F := Ideal) scatter_S12288x12288_S405504x2_S405504_n_01_01_1
      (broadcastInDim S12288x12288 ![] bcast_S_S12288x12288 (constant (F := Ideal) S_ .f32 0x00000000#32))
      (concatenate S405504x2 1 [⟨S405504x1, Cert.ReferenceIdeal.Read.val_main_v27 (F := Ideal) x1⟩,
        ⟨S405504x1, Cert.ReferenceIdeal.Read.val_main_v20 (F := Ideal) x1⟩] concatenates_S405504x1_S405504x1_S405504x2_d1)
      (Cert.ReferenceIdeal.Read.val_main_v29 (F := Ideal) x1)) bitsLt_bf16_f32

/-- The term is the specification's dense matrix, entry by entry. -/
theorem adjTerm_apply (x1 : (⟨2, ![2, 393216]⟩ : Shape).Idx → BitVec 32) (h : Gcn.InRange x1) (p q : Fin 12288) :
    adjTerm x1 (ix2 p q) = Gcn.adj x1 p q :=
  pair_stage x1 scatter_S12288x12288_S405504x2_S405504_n_01_01_1 scatter_S12288x12288_S405504x2_S405504_n_01_01_1_wf rfl
    concatenates_S405504x1_S405504x1_S405504x2_d1
    (broadcastInDim S12288x12288 ![] bcast_S_S12288x12288 (constant (F := Ideal) S_ .f32 0x00000000#32))
    (Cert.ReferenceIdeal.Read.val_main_v27 (F := Ideal) x1) (Cert.ReferenceIdeal.Read.val_main_v20 (F := Ideal) x1)
    (Cert.ReferenceIdeal.Read.val_main_v29 (F := Ideal) x1)
    (fun _ => rfl) (dstWcol x1 h) (srcWcol x1 h) (Cert.ReferenceIdeal.RefSide.norm1 x1 h) p q

/-- The join of the edges' vector and the loops' vector, and the join of two columns side by side, under names of
    their own: the operations' results are read through them argument by argument. -/
def cat1 (a : S393216.Idx → BitVec 32) (b : S12288.Idx → BitVec 32) : S405504.Idx → BitVec 32 :=
  concatenate S405504 0 [⟨S393216, a⟩, ⟨S12288, b⟩] concatenates_S393216_S12288_S405504_d0
def cat2 (a b : S405504x1.Idx → BitVec 32) : S405504x2.Idx → BitVec 32 :=
  concatenate S405504x2 1 [⟨S405504x1, a⟩, ⟨S405504x1, b⟩] concatenates_S405504x1_S405504x1_S405504x2_d1
theorem cat1_def (a : S393216.Idx → BitVec 32) (b : S12288.Idx → BitVec 32) :
    concatenate S405504 0 [⟨S393216, a⟩, ⟨S12288, b⟩] concatenates_S393216_S12288_S405504_d0 = cat1 a b := rfl
theorem cat2_def (a b : S405504x1.Idx → BitVec 32) :
    concatenate S405504x2 1 [⟨S405504x1, a⟩, ⟨S405504x1, b⟩] concatenates_S405504x1_S405504x1_S405504x2_d1 = cat2 a b := rfl

/-- What the host operations before the first region leave in the dense matrix's buffer. -/
theorem after_eq (W : Valuation τ sig (Elt Ideal)) :
    (StableHlo.after (hostOps0 (F := Ideal)) W (Proc.devRef .tc main_v44) : S12288x12288.Idx → EReal)
      = adjTerm (W (Proc.devRef .tc main_arg1)) := by
  dsimp only [hostOps0]
  simp (disch := decide) only [after_cons, after_nil, cat1_def, cat2_def,
    nullary_result', unary_result', binary_result', ternary_result', reshape_result',
    nullary_result_ne', unary_result_ne', binary_result_ne', ternary_result_ne', reshape_result_ne']
  rfl

/-- THE DENSE MATRIX: after the host operations, the buffer holds the specification's matrix of summed weights. -/
theorem adj_stage (W : Valuation τ sig (Elt Ideal)) (h : Gcn.InRange (W (Proc.devRef .tc main_arg1))) :
    (StableHlo.after (hostOps0 (F := Ideal)) W (Proc.devRef .tc main_v44) : S12288x12288.Idx → EReal)
      = fun i => Gcn.adj (W (Proc.devRef .tc main_arg1)) ⟨(i 0).val, (i 0).isLt⟩ ⟨(i 1).val, (i 1).isLt⟩ := by
  rw [after_eq W]
  funext i
  obtain ⟨p, q, rfl⟩ : ∃ (p q : Fin 12288), i = ix2 p q := ⟨i 0, i 1, eq_ix2 i⟩
  exact adjTerm_apply _ h p q

end Program

end Cert.KernelIdeal.Val

end
-- ==== Proof.KV_R1a.lean ====
import proofs.«180263_j1236950581835_2_alg».proof.Proof.FrameKI_R1
import proofs.«180263_j1236950581835_2_alg».proof.Proof.LibPlainDot
import proofs.«180263_j1236950581835_2_alg».proof.Proof.Spec
import Idealize.ShloMosaic.Lib.Pipeline.Value
import Idealize.ShloMosaic.Lib.ValueLayout

/-!
# Region 1, the values: what one grid point computes

Each kind of point's stores, found by the run, are read back as the body's arithmetic of the blocks it staged; over
the extended reals that arithmetic is, entry by entry, a sum of 1536 products added onto the accumulator, and at a last
column block the accumulator plus the bias row's entry, rectified.
-/

set_option maxRecDepth 16384

noncomputable section

namespace Cert.KernelIdeal.Val

open Cert.KernelIdeal Cert.KernelIdeal.Gen Cert.KernelIdeal.GenP Cert.KernelIdeal.Hand
open Idealize.ShloMosaic Idealize.ShloMosaic.TcCoe Idealize.SL.Sem Idealize.ShloMosaic.ValueIdx Idealize.ShloMosaic.Tactic
open Idealize.ShloMosaic.Pipeline (Dat)
open scoped BigOperators

/-! ## What each kind of point stores, as the body's arithmetic of the staged blocks -/

section
variable {F : FTy → Type} [FloatOps F]

theorem hz1 : (![0, 0] : Fin 2 → Nat) = fun _ => 0 := funext fun a => by fin_cases a <;> rfl

/-- A middle column block leaves the accumulator it found plus the product of the two staged blocks. -/
theorem accMid1_eq (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : ¬isLast1 i)
    (x0 : Vec F S1536x1536 .bf16) (x1 : Vec F S1536x128 .f32) (x2 : Vec F S1x128 .f32) (xs : Vec F S1536x128 .f32) :
    accMid1 c i arg2 harg2 arg3 harg3 arg4 harg4 arg5 harg5 arg6 harg6 hc0 hc1 x0 x1 x2 xs = k1_pay2 x0 x1 xs := by
  unfold accMid1
  rw [View.read_writes_eq_canon _ _ _ (accCoverMid1 c i arg2 harg2 arg3 harg3 arg4 harg4 arg5 harg5 arg6 harg6 hc0 hc1 x0 x1 x2 xs)]
  unfold runMid1
  dsimp only
  rw [View.canon_unit_zero hz1]
  simp only [View.readAt_eq_ld, harg2.read_unread, harg3.read_unread, harg6.read_unread, View.ld_unit_zero (S := S1536x1536) hz1, View.ld_unit_zero (S := S1536x128) hz1]

/-- A last column block leaves the same in the accumulator, -/
theorem accLast1_eq (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : isLast1 i)
    (x0 : Vec F S1536x1536 .bf16) (x1 : Vec F S1536x128 .f32) (x2 : Vec F S1x128 .f32) (xs : Vec F S1536x128 .f32) :
    accLast1 c i arg2 harg2 arg3 harg3 arg4 harg4 arg5 harg5 arg6 harg6 hc0 hc1 x0 x1 x2 xs = k1_pay2 x0 x1 xs := by
  unfold accLast1
  rw [View.read_writes_eq_canon _ _ _ (accCoverLast1 c i arg2 harg2 arg3 harg3 arg4 harg4 arg5 harg5 arg6 harg6 hc0 hc1 x0 x1 x2 xs)]
  unfold runLast1
  dsimp only
  sl_unfold_words
  rw [View.canon_unit_zero hz1]
  simp only [View.readAt_eq_ld, harg2.read_unread, harg3.read_unread, harg6.read_unread, View.ld_unit_zero (S := S1536x1536) hz1, View.ld_unit_zero (S := S1536x128) hz1]

/-- and in the output block that accumulator, read back, plus the bias row, rectified. -/
theorem outLast1_eq (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : ¬isFirst1 i) (hc1 : isLast1 i)
    (x0 : Vec F S1536x1536 .bf16) (x1 : Vec F S1536x128 .f32) (x2 : Vec F S1x128 .f32) (xs : Vec F S1536x128 .f32) :
    outLast1 c i arg2 harg2 arg3 harg3 arg4 harg4 arg5 harg5 arg6 harg6 hc0 hc1 x0 x1 x2 xs = k1_pay3 (k1_pay2 x0 x1 xs) x2 := by
  unfold outLast1
  rw [View.read_writes_eq_canon _ _ _ (outCoverLast1 c i arg2 harg2 arg3 harg3 arg4 harg4 arg5 harg5 arg6 harg6 hc0 hc1 x0 x1 x2 xs)]
  unfold runLast1
  dsimp only
  sl_unfold_words
  rw [View.canon_unit_zero hz1, View.readCov_unit_zero (S := S1536x128) _ hz1]
  simp only [View.readAt_eq_ld, harg2.read_unread, harg3.read_unread, harg4.read_unread, harg6.read_unread, View.ld_unit_zero (S := S1536x1536) hz1, View.ld_unit_zero (S := S1536x128) hz1, View.ld_unit_zero (S := S1x128) hz1]

/-- A first column block stores the zero block, reads it back, and leaves it plus the product. -/
theorem accFirst1_eq (c : Dev nD) (i : grid1.Coords) (arg2 : Memref sig .tc .vmem S1536x1536 .bf16) (harg2 : arg2.IsWhole) (arg3 : Memref sig .tc .vmem S1536x128 .f32) (harg3 : arg3.IsWhole) (arg4 : Memref sig .tc .vmem S1x128 .f32) (harg4 : arg4.IsWhole) (arg5 : Memref sig .tc .vmem S1536x128 .f32) (harg5 : arg5.IsWhole) (arg6 : Memref sig .tc .vmem S1536x128 .f32) (harg6 : arg6.IsWhole) (hc0 : isFirst1 i) (hc1 : ¬isLast1 i)
    (x0 : Vec F S1536x1536 .bf16) (x1 : Vec F S1536x128 .f32) (x2 : Vec F S1x128 .f32) :
    accFirst1 c i arg2 harg2 arg3 harg3 arg4 harg4 arg5 harg5 arg6 harg6 hc0 hc1 x0 x1 x2 = k1_pay2 x0 x1 k1_pay1 := by
  unfold accFirst1
  rw [View.read_writes_eq_canon _ _ _ (accCoverFirst1 c i arg2 harg2 arg3 harg3 arg4 harg4 arg5 harg5 arg6 harg6 hc0 hc1 x0 x1 x2)]
  unfold runFirst1
  dsimp only
  sl_unfold_words
  rw [View.canon_cons_unit_zero (S := S1536x128) hz1, View.readCov_unit_zero (S := S1536x128) _ hz1]
  simp only [View.readAt_eq_ld, harg2.read_unread, harg3.read_unread, harg6.read_unread, View.ld_unit_zero (S := S1536x1536) hz1, View.ld_unit_zero (S := S1536x128) hz1]

end

/-! ## The body's arithmetic at an index, over the extended reals -/

/-- The zero block is zero everywhere. -/
theorem pay1_1_apply (j : S1536x128.Idx) : (k1_pay1 (F := Ideal)) j = Gcn.zero := rfl

theorem rowIdx1_ix2 {R K C : Nat} (r : Fin R) (f : Fin C) (k : Fin K) :
    Cert.Lib.PlainDot.rowIdx (R := R) (K := K) (C := C) (ix2 r f) k = ix2 r k := by
  funext a; match a with | ⟨0, _⟩ => rfl | ⟨1, _⟩ => rfl
theorem colIdx1_ix2 {R K C : Nat} (r : Fin R) (f : Fin C) (k : Fin K) :
    Cert.Lib.PlainDot.colIdx (R := R) (K := K) (C := C) (ix2 r f) k = ix2 k f := by
  funext a; match a with | ⟨0, _⟩ => rfl | ⟨1, _⟩ => rfl

/-- The accumulation step at (r, f): what was there plus the sum over the 1536 staged columns of the left block's row r
    times the right block's column f (narrowing the right operand changes nothing over the extended reals). -/
theorem pay1_2_apply (x0 : Vec Ideal S1536x1536 .bf16) (x1 : Vec Ideal S1536x128 .f32) (xs : Vec Ideal S1536x128 .f32) (r : Fin 1536) (f : Fin 128) :
    k1_pay2 x0 x1 xs (ix2 r f) = xs (ix2 r f) + ∑ k : Fin 1536, x0 (ix2 r k) * x1 (ix2 k f) := by
  unfold k1_pay2
  simp only [shapeCast_self]
  refine (congrArg (xs (ix2 r f) + ·) (Cert.Lib.PlainDot.matmul_zero_apply dot_S1536x1536_S1536x128_S1536x128_1_0_0_1_n_n rfl none x0 (truncf .bf16 x1 bitsLt_bf16_f32) (ix2 r f))).trans ?_
  unfold Cert.Lib.PlainDot.mm
  simp only [rowIdx1_ix2, colIdx1_ix2]
  rfl

/-- The output step at (r, f): the accumulator plus the bias row's entry f, and the larger of that and zero. -/
theorem pay1_3_apply (a : Vec Ideal S1536x128 .f32) (b : Vec Ideal S1x128 .f32) (r : Fin 1536) (f : Fin 128) :
    k1_pay3 a b (ix2 r f) = max (a (ix2 r f) + b (ix2 (0 : Fin 1) f)) Gcn.zero := by
  unfold k1_pay3
  simp only [shapeCast_self]
  refine (congrArg (fun z => max (a (ix2 r f) + z) Gcn.zero) (broadcastTo_1b_ab_apply b broadcasts_S1x128_S1536x128 r f)).trans ?_
  rfl

/-- One point's step on the running block sum: if the accumulator held the sum of the first m blocks of g at (r, f) and
    the staged blocks' products are g over block m, it now holds the sum of the first m + 1 blocks. -/
theorem step1 (x0 : Vec Ideal S1536x1536 .bf16) (x1 : Vec Ideal S1536x128 .f32) (xs : Vec Ideal S1536x128 .f32) (g : ℕ → EReal)
    (m : ℕ) (r : Fin 1536) (f : Fin 128) (hxs : xs (ix2 r f) = Gcn.acc g m)
    (hx : ∀ k : Fin 1536, x0 (ix2 r k) * x1 (ix2 k f) = g (m * 1536 + k.val)) :
    k1_pay2 x0 x1 xs (ix2 r f) = Gcn.acc g (m + 1) := by
  rw [pay1_2_apply, hxs]
  show _ = Gcn.acc g m + ∑ k : Fin 1536, g (m * 1536 + k.val)
  exact congrArg (Gcn.acc g m + ·) (Finset.sum_congr rfl fun k _ => hx k)

end Cert.KernelIdeal.Val

end
-- ==== Proof.KV_R1.lean ====
import proofs.«180263_j1236950581835_2_alg».proof.Proof.KV_R1a

/-!
# Region 1, the values: the accumulator over the grid and the output array

Point 8·i + k of the grid adds, onto the accumulator, the product of block (i, k) of the matrix and row block k of the
features; so after it the accumulator holds the contraction's first k + 1 column blocks for row block i, and at k = 7
the output block holds the whole contraction plus the bias, rectified. Those eight row blocks, written back, cover the
output array.
-/

set_option maxRecDepth 16384

noncomputable section

namespace Cert.KernelIdeal.Val

open Cert.KernelIdeal Cert.KernelIdeal.Gen Cert.KernelIdeal.GenP Cert.KernelIdeal.Hand
open Idealize.ShloMosaic Idealize.ShloMosaic.TcCoe Idealize.SL.Sem Idealize.ShloMosaic.ValueIdx Idealize.ShloMosaic.Tactic
open Idealize.ShloMosaic.Pipeline (Dat)
open scoped BigOperators

/-! ## The printed index maps and the write-back condition, decided over the 64 points -/

/-- Point t = 8·i + k stages block (i, k) of the matrix, row block k of the features, the whole bias row, and owns
    row block i of the output. -/
theorem idx_facts1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- The output block is written back at the last column block. -/
theorem flush1_3 : ∀ t : Fin cfg1.N, t.val % 8 = 7 → (cfg1.win 3).flush t = true :=
  (by decide +kernel : ∀ t : Fin grid1.N, t.val % 8 = 7 → (cfg1.win 3).flush t = true)

section
variable (V : (c : Dev nD) → (b : Ref sig .tc) → Buf (Elt Ideal) ((c : Thread nD τ).loc b))

/-- The summand of entry (p, f) of the product of the matrix and the features: column q of the matrix's row p times
    row q of the features' column f (zero past the last column). -/
def term1 (c : Dev nD) (p : Fin 12288) (f : Fin 128) (q : ℕ) : EReal :=
  if hq : q < 12288 then Gcn.mat (A := 12288) (B := 12288) (V c main_v44) p ⟨q, hq⟩ * Gcn.mat (A := 12288) (B := 128) (V c main_v45) ⟨q, hq⟩ f else 0

/-! ## The staged blocks, entry by entry -/

theorem blk1_0_apply (c : Dev nD) (t : Fin cfg1.N) (r k : Fin 1536) (p q : Fin 12288)
    (hp : p.val = t.val / 8 * 1536 + r.val) (hq : q.val = t.val % 8 * 1536 + k.val) :
    Gcn.mat (A := 1536) (B := 1536) (blk1 V c 0 t) r k = Gcn.mat (A := 12288) (B := 12288) (V c main_v44) p q := by
  obtain ⟨e0, e1, e2, e3, e4, e5, e6, e7⟩ := idx_facts1 t
  show (V c main_v44 : S12288x12288.Idx → EReal) (((cfg1.win 0).blk t).view.emb (ix2 r k)) = (V c main_v44 : S12288x12288.Idx → EReal) (ix2 p q)
  refine congrArg (V c main_v44) (funext fun a => Fin.ext ?_)
  match a with
  | ⟨0, _⟩ => show win1_0.index t (0 : Fin 2) * 1536 + 1 * r.val = p.val; omega
  | ⟨1, _⟩ => show win1_0.index t (1 : Fin 2) * 1536 + 1 * k.val = q.val; omega

theorem blk1_1_apply (c : Dev nD) (t : Fin cfg1.N) (k : Fin 1536) (f : Fin 128) (q : Fin 12288)
    (hq : q.val = t.val % 8 * 1536 + k.val) :
    Gcn.mat (A := 1536) (B := 128) (blk1 V c 1 t) k f = Gcn.mat (A := 12288) (B := 128) (V c main_v45) q f := by
  obtain ⟨e0, e1, e2, e3, e4, e5, e6, e7⟩ := idx_facts1 t
  show (V c main_v45 : S12288x128.Idx → EReal) (((cfg1.win 1).blk t).view.emb (ix2 k f)) = (V c main_v45 : S12288x128.Idx → EReal) (ix2 q f)
  refine congrArg (V c main_v45) (funext fun a => Fin.ext ?_)
  match a with
  | ⟨0, _⟩ => show win1_1.index t (0 : Fin 2) * 1536 + 1 * k.val = q.val; omega
  | ⟨1, _⟩ => show win1_1.index t (1 : Fin 2) * 128 + 1 * f.val = f.val; omega

theorem blk1_2_apply (c : Dev nD) (t : Fin cfg1.N) (f : Fin 128) :
    Gcn.mat (A := 1) (B := 128) (blk1 V c 2 t) (0 : Fin 1) f = Gcn.mat (A := 1) (B := 128) (V c main_v46) (0 : Fin 1) f := by
  obtain ⟨e0, e1, e2, e3, e4, e5, e6, e7⟩ := idx_facts1 t
  show (V c main_v46 : S1x128.Idx → EReal) (((cfg1.win 2).blk t).view.emb (ix2 (0 : Fin 1) f)) = (V c main_v46 : S1x128.Idx → EReal) (ix2 (0 : Fin 1) f)
  refine congrArg (V c main_v46) (funext fun a => Fin.ext ?_)
  match a with
  | ⟨0, _⟩ => show win1_2.index t (0 : Fin 2) * 1 + 1 * 0 = 0; omega
  | ⟨1, _⟩ => show win1_2.index t (1 : Fin 2) * 128 + 1 * f.val = f.val; omega

/-- The staged blocks' products at point t are the summands over column block t % 8. -/
theorem prod1 (c : Dev nD) (t : Fin cfg1.N) (r : Fin 1536) (f : Fin 128) (p : Fin 12288)
    (hp : p.val = t.val / 8 * 1536 + r.val) (m : ℕ) (hm : t.val % 8 = m) (k : Fin 1536) :
    Gcn.mat (A := 1536) (B := 1536) (blk1 V c 0 t) r k * Gcn.mat (A := 1536) (B := 128) (blk1 V c 1 t) k f = term1 V c p f (m * 1536 + k.val) := by
  subst hm
  have hk := k.isLt
  have ht : t.val < 64 := lt_of_lt_of_eq t.isLt N_1
  have hq : t.val % 8 * 1536 + k.val < 12288 := by omega
  unfold term1
  rw [dif_pos hq, blk1_0_apply V c t r k p ⟨_, hq⟩ hp rfl, blk1_1_apply V c t k f ⟨_, hq⟩ rfl]

/-! ## The accumulator and the output block after a point, as the body's arithmetic of the staged blocks -/

/-- After a first column block: the zero block plus the product of the staged blocks. -/
theorem st1_first (c : Dev nD) (t : Fin cfg1.N) (h0 : t.val % 8 = 0) :
    (state1 V c t.val t.isLt).2 = k1_pay2 (F := Ideal) (blk1 V c 0 t) (blk1 V c 1 t) (k1_pay1 (F := Ideal)) := by
  have h1 : ¬t.val % 8 = 7 := by omega
  have e := congrArg Prod.snd (state1_first V c t h0 h1)
  dsimp only at e
  exact e.trans (accFirst1_eq (F := Ideal) c (grid1.coords t) (mem1_0 t) (whole1_0 t) (mem1_1 t) (whole1_1 t) (mem1_2 t) (whole1_2 t) (mem1_3 t) (whole1_3 t) accM1 (Memref.isWhole_whole _) ((isFirst1_iff t).mpr h0) (fun h => h1 ((isLast1_iff t).mp h)) (blk1 V c 0 t) (blk1 V c 1 t) (blk1 V c 2 t))

/-- After any other point: what the point before left plus the product of the staged blocks. -/
theorem st1_next (c : Dev nD) (t : Fin cfg1.N) (h0 : ¬t.val % 8 = 0) :
    (state1 V c t.val t.isLt).2 = k1_pay2 (F := Ideal) (blk1 V c 0 t) (blk1 V c 1 t) (state1 V c (t.val - 1) (Nat.lt_of_le_of_lt (Nat.sub_le _ _) t.isLt)).2 := by
  by_cases h1 : t.val % 8 = 7
  · have e := congrArg Prod.snd (state1_last V c t h0 h1)
    dsimp only at e
    exact e.trans (accLast1_eq (F := Ideal) c (grid1.coords t) (mem1_0 t) (whole1_0 t) (mem1_1 t) (whole1_1 t) (mem1_2 t) (whole1_2 t) (mem1_3 t) (whole1_3 t) accM1 (Memref.isWhole_whole _) (fun h => h0 ((isFirst1_iff t).mp h)) ((isLast1_iff t).mpr h1) (blk1 V c 0 t) (blk1 V c 1 t) (blk1 V c 2 t) (state1 V c (t.val - 1) (Nat.lt_of_le_of_lt (Nat.sub_le _ _) t.isLt)).2)
  · have e := congrArg Prod.snd (state1_mid V c t h0 h1)
    dsimp only at e
    exact e.trans (accMid1_eq (F := Ideal) c (grid1.coords t) (mem1_0 t) (whole1_0 t) (mem1_1 t) (whole1_1 t) (mem1_2 t) (whole1_2 t) (mem1_3 t) (whole1_3 t) accM1 (Memref.isWhole_whole _) (fun h => h0 ((isFirst1_iff t).mp h)) (fun h => h1 ((isLast1_iff t).mp h)) (blk1 V c 0 t) (blk1 V c 1 t) (blk1 V c 2 t) (state1 V c (t.val - 1) (Nat.lt_of_le_of_lt (Nat.sub_le _ _) t.isLt)).2)

/-- The output block after a last column block: the accumulator it leaves, plus the bias row. -/
theorem st1_out (c : Dev nD) (t : Fin cfg1.N) (h7 : t.val % 8 = 7) :
    (state1 V c t.val t.isLt).1 = k1_pay3 (F := Ideal) (k1_pay2 (F := Ideal) (blk1 V c 0 t) (blk1 V c 1 t) (state1 V c (t.val - 1) (Nat.lt_of_le_of_lt (Nat.sub_le _ _) t.isLt)).2) (blk1 V c 2 t) := by
  have h0 : ¬t.val % 8 = 0 := by omega
  have e := congrArg Prod.fst (state1_last V c t h0 h7)
  dsimp only at e
  exact e.trans (outLast1_eq (F := Ideal) c (grid1.coords t) (mem1_0 t) (whole1_0 t) (mem1_1 t) (whole1_1 t) (mem1_2 t) (whole1_2 t) (mem1_3 t) (whole1_3 t) accM1 (Memref.isWhole_whole _) (fun h => h0 ((isFirst1_iff t).mp h)) ((isLast1_iff t).mpr h7) (blk1 V c 0 t) (blk1 V c 1 t) (blk1 V c 2 t) (state1 V c (t.val - 1) (Nat.lt_of_le_of_lt (Nat.sub_le _ _) t.isLt)).2)

/-! ## The accumulator after each point -/

/-- After point n = 8·i + k the accumulator holds, at (r, f), the sum over the first k + 1 column blocks of the
    summands of entry (1536·i + r, f): by induction on the point — a first column block restarts from the zero block,
    every other point adds its block onto what the point before left. -/
theorem acc_inv1 (c : Dev nD) : ∀ (n : ℕ) (hn : n < cfg1.N) (r : Fin 1536) (f : Fin 128) (p : Fin 12288),
    p.val = n / 8 * 1536 + r.val → (state1 V c n hn).2 (ix2 r f) = Gcn.acc (term1 V c p f) (n % 8 + 1) := by
  intro n
  induction n using Nat.strong_induction_on with
  | _ n ih =>
    intro hn r f p hp
    have hN : n < 64 := lt_of_lt_of_eq hn N_1
    by_cases h0 : n % 8 = 0
    · exact (congrFun (st1_first V c ⟨n, hn⟩ h0) (ix2 r f)).trans
        (step1 (blk1 V c 0 ⟨n, hn⟩) (blk1 V c 1 ⟨n, hn⟩) (k1_pay1 (F := Ideal)) (term1 V c p f) (n % 8) r f
          (by rw [h0]; rfl) (prod1 V c ⟨n, hn⟩ r f p hp (n % 8) rfl))
    · have hprev : (state1 V c (n - 1) (Nat.lt_of_le_of_lt (Nat.sub_le _ _) hn)).2 (ix2 r f) = Gcn.acc (term1 V c p f) (n % 8) :=
        (ih (n - 1) (by omega) (Nat.lt_of_le_of_lt (Nat.sub_le _ _) hn) r f p (by omega)).trans (congrArg (Gcn.acc (term1 V c p f)) (by omega))
      exact (congrFun (st1_next V c ⟨n, hn⟩ h0) (ix2 r f)).trans
        (step1 (blk1 V c 0 ⟨n, hn⟩) (blk1 V c 1 ⟨n, hn⟩) (state1 V c (n - 1) (Nat.lt_of_le_of_lt (Nat.sub_le _ _) hn)).2 (term1 V c p f) (n % 8) r f
          hprev (prod1 V c ⟨n, hn⟩ r f p hp (n % 8) rfl))

/-! ## The output block at a last column block -/

/-- At a last column block the output block holds, at (r, f), the sum over all eight column blocks plus the bias
    row's entry f, rectified. -/
theorem out_inv1 (c : Dev nD) (n : ℕ) (hn : n < cfg1.N) (h7 : n % 8 = 7) (r : Fin 1536) (f : Fin 128) (p : Fin 12288)
    (hp : p.val = n / 8 * 1536 + r.val) :
    (state1 V c n hn).1 (ix2 r f) = max (Gcn.acc (term1 V c p f) 8 + Gcn.mat (A := 1) (B := 128) (V c main_v46) (0 : Fin 1) f) Gcn.zero := by
  have hprev : (state1 V c (n - 1) (Nat.lt_of_le_of_lt (Nat.sub_le _ _) hn)).2 (ix2 r f) = Gcn.acc (term1 V c p f) 7 :=
    (acc_inv1 V c (n - 1) (Nat.lt_of_le_of_lt (Nat.sub_le _ _) hn) r f p (by omega)).trans (congrArg (Gcn.acc (term1 V c p f)) (by omega))
  refine ((congrFun (st1_out V c ⟨n, hn⟩ h7) (ix2 r f)).trans
    (pay1_3_apply (k1_pay2 (F := Ideal) (blk1 V c 0 ⟨n, hn⟩) (blk1 V c 1 ⟨n, hn⟩) (state1 V c (n - 1) (Nat.lt_of_le_of_lt (Nat.sub_le _ _) hn)).2) (blk1 V c 2 ⟨n, hn⟩) r f)).trans ?_
  exact congrArg₂ (fun a b => max (a + b) Gcn.zero)
    (step1 (blk1 V c 0 ⟨n, hn⟩) (blk1 V c 1 ⟨n, hn⟩) (state1 V c (n - 1) (Nat.lt_of_le_of_lt (Nat.sub_le _ _) hn)).2 (term1 V c p f) 7 r f hprev (prod1 V c ⟨n, hn⟩ r f p hp 7 h7))
    (blk1_2_apply V c ⟨n, hn⟩ f)

/-- The same at an index of the block given whole. -/
theorem out_inv1' (c : Dev nD) (n : ℕ) (hn : n < cfg1.N) (h7 : n % 8 = 7) (j : S1536x128.Idx) (p : Fin 12288) (f : Fin 128)
    (hp : p.val = n / 8 * 1536 + (j 0).val) (hf : f.val = (j 1).val) :
    (state1 V c n hn).1 j = max (Gcn.acc (term1 V c p f) 8 + Gcn.mat (A := 1) (B := 128) (V c main_v46) (0 : Fin 1) f) Gcn.zero := by
  obtain rfl : f = j 1 := Fin.ext hf
  exact (congrArg (state1 V c n hn).1 (eq_ix2 j)).trans (out_inv1 V c n hn h7 (j 0) (j 1) p hp)

/-! ## From blocks to the array -/

/-- The output array, index by index: the contraction over all 12288 columns in eight blocks, plus the bias, rectified. -/
def G1 (c : Dev nD) : S12288x128.Idx → EReal := fun i =>
  max (Gcn.acc (term1 V c ⟨(i 0).val, (i 0).isLt⟩ ⟨(i 1).val, (i 1).isLt⟩) 8 + Gcn.mat (A := 1) (B := 128) (V c main_v46) (0 : Fin 1) ⟨(i 1).val, (i 1).isLt⟩) Gcn.zero

/-- What a last column block writes back is its row block of that array. -/
theorem flushed1_eq (c : Dev nD) (t : Fin cfg1.N) (hf : (cfg1.win 3).flush t = true) :
    (dat1 (F := Ideal) V c).flushed 3 t = ((cfg1.win 3).blk t).view.read (Elt Ideal) (G1 V c) := by
  have h7 : t.val % 8 = 7 := by
    by_contra h
    have hno := noFlush1_3 t (fun hl => h ((isLast1_iff t).mp hl))
    rw [hno] at hf
    exact Bool.false_ne_true hf
  obtain ⟨e0, e1, e2, e3, e4, e5, e6, e7⟩ := idx_facts1 t
  show (cfg1.win 3).cut (grid1.coords t) ((dat1 V c).after 3 t) = _
  rw [after1_3]
  funext j
  show (state1 V c t.val t.isLt).1 j = G1 V c (((cfg1.win 3).blk t).view.emb j)
  refine (out_inv1' V c t.val t.isLt h7 j ⟨((((cfg1.win 3).blk t).view.emb j) 0).val, ((((cfg1.win 3).blk t).view.emb j) 0).isLt⟩
    ⟨((((cfg1.win 3).blk t).view.emb j) 1).val, ((((cfg1.win 3).blk t).view.emb j) 1).isLt⟩ ?_ ?_).trans rfl
  · show win1_3.index t (0 : Fin 2) * 1536 + 1 * (j 0).val = t.val / 8 * 1536 + (j 0).val; omega
  · show win1_3.index t (1 : Fin 2) * 128 + 1 * (j 1).val = (j 1).val; omega

/-- The eight written-back row blocks cover the array, so it ends as that function of the arrays the region found. -/
theorem final1_G (c : Dev nD) : (dat1 (F := Ideal) V c).arrAt 3 cfg1.N = G1 V c :=
  (dat1 V c).arrAt_eq_of_cover 3 (G1 V c) (flushed1_eq V c) fun i => by
    have hi0 : (i 0).val < 12288 := (i 0).isLt
    have hi1 : (i 1).val < 128 := (i 1).isLt
    have hN : cfg1.N = 64 := N_1
    obtain ⟨t, ht⟩ : ∃ t : Fin cfg1.N, t.val = 8 * ((i 0).val / 1536) + 7 := ⟨⟨8 * ((i 0).val / 1536) + 7, by rw [hN]; omega⟩, rfl⟩
    obtain ⟨e0, e1, e2, e3, e4, e5, e6, e7⟩ := idx_facts1 t
    refine ⟨t, flush1_3 t (by omega), ?_⟩
    show i ∈ ((View.whole main_v47).slice (win1_3.rect t)).set
    rw [View.set_slice_whole, Rect.mem_set_unit]
    intro a
    match a with
    | ⟨0, _⟩ => show win1_3.index t (0 : Fin 2) * 1536 ≤ (i 0).val ∧ (i 0).val < win1_3.index t (0 : Fin 2) * 1536 + 1536; omega
    | ⟨1, _⟩ => show win1_3.index t (1 : Fin 2) * 128 ≤ (i 1).val ∧ (i 1).val < win1_3.index t (1 : Fin 2) * 128 + 128; omega

/-- The same with the contraction written out. -/
theorem final1 (c : Dev nD) :
    (dat1 (F := Ideal) V c).arrAt 3 cfg1.N = fun i : S12288x128.Idx =>
      max (Gcn.acc (fun q => if hq : q < 12288 then Gcn.mat (A := 12288) (B := 12288) (V c main_v44) ⟨(i 0).val, (i 0).isLt⟩ ⟨q, hq⟩
          * Gcn.mat (A := 12288) (B := 128) (V c main_v45) ⟨q, hq⟩ ⟨(i 1).val, (i 1).isLt⟩ else 0) 8
        + Gcn.mat (A := 1) (B := 128) (V c main_v46) (0 : Fin 1) ⟨(i 1).val, (i 1).isLt⟩) Gcn.zero :=
  (final1_G V c).trans rfl

end

end Cert.KernelIdeal.Val

end
-- ==== Proof.KV_R3a.lean ====
import proofs.«180263_j1236950581835_2_alg».proof.Proof.FrameKI_R3
import proofs.«180263_j1236950581835_2_alg».proof.Proof.LibPlainDot
import proofs.«180263_j1236950581835_2_alg».proof.Proof.Spec
import Idealize.ShloMosaic.Lib.Pipeline.Value
import Idealize.ShloMosaic.Lib.ValueLayout

/-!
# Region 3, the values: what one grid point computes

Each kind of point's stores, found by the run, are read back as the body's arithmetic of the blocks it staged; over
the extended reals that arithmetic is, entry by entry, a sum of 1536 products added onto the accumulator, and at a last
column block the accumulator plus the bias row's entry.
-/

set_option maxRecDepth 16384

noncomputable section

namespace Cert.KernelIdeal.Val

open Cert.KernelIdeal Cert.KernelIdeal.Gen Cert.KernelIdeal.GenP Cert.KernelIdeal.Hand
open Idealize.ShloMosaic Idealize.ShloMosaic.TcCoe Idealize.SL.Sem Idealize.ShloMosaic.ValueIdx Idealize.ShloMosaic.Tactic
open Idealize.ShloMosaic.Pipeline (Dat)
open scoped BigOperators

/-! ## What each kind of point stores, as the body's arithmetic of the staged blocks -/

section
variable {F : FTy → Type} [FloatOps F]

theorem hz3 : (![0, 0] : Fin 2 → Nat) = fun _ => 0 := funext fun a => by fin_cases a <;> rfl

/-- A middle column block leaves the accumulator it found plus the product of the two staged blocks. -/
theorem accMid3_eq (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : ¬isLast3 i)
    (x0 : Vec F S1536x1536 .bf16) (x1 : Vec F S1536x64 .f32) (x2 : Vec F S1x64 .f32) (xs : Vec F S1536x64 .f32) :
    accMid3 c i arg2 harg2 arg3 harg3 arg4 harg4 arg5 harg5 arg6 harg6 hc0 hc1 x0 x1 x2 xs = k3_pay2 x0 x1 xs := by
  unfold accMid3
  rw [View.read_writes_eq_canon _ _ _ (accCoverMid3 c i arg2 harg2 arg3 harg3 arg4 harg4 arg5 harg5 arg6 harg6 hc0 hc1 x0 x1 x2 xs)]
  unfold runMid3
  dsimp only
  rw [View.canon_unit_zero hz3]
  simp only [View.readAt_eq_ld, harg2.read_unread, harg3.read_unread, harg6.read_unread, View.ld_unit_zero (S := S1536x1536) hz3, View.ld_unit_zero (S := S1536x64) hz3]

/-- A last column block leaves the same in the accumulator, -/
theorem accLast3_eq (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : isLast3 i)
    (x0 : Vec F S1536x1536 .bf16) (x1 : Vec F S1536x64 .f32) (x2 : Vec F S1x64 .f32) (xs : Vec F S1536x64 .f32) :
    accLast3 c i arg2 harg2 arg3 harg3 arg4 harg4 arg5 harg5 arg6 harg6 hc0 hc1 x0 x1 x2 xs = k3_pay2 x0 x1 xs := by
  unfold accLast3
  rw [View.read_writes_eq_canon _ _ _ (accCoverLast3 c i arg2 harg2 arg3 harg3 arg4 harg4 arg5 harg5 arg6 harg6 hc0 hc1 x0 x1 x2 xs)]
  unfold runLast3
  dsimp only
  sl_unfold_words
  rw [View.canon_unit_zero hz3]
  simp only [View.readAt_eq_ld, harg2.read_unread, harg3.read_unread, harg6.read_unread, View.ld_unit_zero (S := S1536x1536) hz3, View.ld_unit_zero (S := S1536x64) hz3]

/-- and in the output block that accumulator, read back, plus the bias row. -/
theorem outLast3_eq (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : ¬isFirst3 i) (hc1 : isLast3 i)
    (x0 : Vec F S1536x1536 .bf16) (x1 : Vec F S1536x64 .f32) (x2 : Vec F S1x64 .f32) (xs : Vec F S1536x64 .f32) :
    outLast3 c i arg2 harg2 arg3 harg3 arg4 harg4 arg5 harg5 arg6 harg6 hc0 hc1 x0 x1 x2 xs = k3_pay3 (k3_pay2 x0 x1 xs) x2 := by
  unfold outLast3
  rw [View.read_writes_eq_canon _ _ _ (outCoverLast3 c i arg2 harg2 arg3 harg3 arg4 harg4 arg5 harg5 arg6 harg6 hc0 hc1 x0 x1 x2 xs)]
  unfold runLast3
  dsimp only
  sl_unfold_words
  rw [View.canon_unit_zero hz3, View.readCov_unit_zero (S := S1536x64) _ hz3]
  simp only [View.readAt_eq_ld, harg2.read_unread, harg3.read_unread, harg4.read_unread, harg6.read_unread, View.ld_unit_zero (S := S1536x1536) hz3, View.ld_unit_zero (S := S1536x64) hz3, View.ld_unit_zero (S := S1x64) hz3]

/-- A first column block stores the zero block, reads it back, and leaves it plus the product. -/
theorem accFirst3_eq (c : Dev nD) (i : grid3.Coords) (arg2 : Memref sig .tc .vmem S1536x1536 .bf16) (harg2 : arg2.IsWhole) (arg3 : Memref sig .tc .vmem S1536x64 .f32) (harg3 : arg3.IsWhole) (arg4 : Memref sig .tc .vmem S1x64 .f32) (harg4 : arg4.IsWhole) (arg5 : Memref sig .tc .vmem S1536x64 .f32) (harg5 : arg5.IsWhole) (arg6 : Memref sig .tc .vmem S1536x64 .f32) (harg6 : arg6.IsWhole) (hc0 : isFirst3 i) (hc1 : ¬isLast3 i)
    (x0 : Vec F S1536x1536 .bf16) (x1 : Vec F S1536x64 .f32) (x2 : Vec F S1x64 .f32) :
    accFirst3 c i arg2 harg2 arg3 harg3 arg4 harg4 arg5 harg5 arg6 harg6 hc0 hc1 x0 x1 x2 = k3_pay2 x0 x1 k3_pay1 := by
  unfold accFirst3
  rw [View.read_writes_eq_canon _ _ _ (accCoverFirst3 c i arg2 harg2 arg3 harg3 arg4 harg4 arg5 harg5 arg6 harg6 hc0 hc1 x0 x1 x2)]
  unfold runFirst3
  dsimp only
  sl_unfold_words
  rw [View.canon_cons_unit_zero (S := S1536x64) hz3, View.readCov_unit_zero (S := S1536x64) _ hz3]
  simp only [View.readAt_eq_ld, harg2.read_unread, harg3.read_unread, harg6.read_unread, View.ld_unit_zero (S := S1536x1536) hz3, View.ld_unit_zero (S := S1536x64) hz3]

end

/-! ## The body's arithmetic at an index, over the extended reals -/

/-- The zero block is zero everywhere. -/
theorem pay3_1_apply (j : S1536x64.Idx) : (k3_pay1 (F := Ideal)) j = Gcn.zero := rfl

theorem rowIdx3_ix2 {R K C : Nat} (r : Fin R) (f : Fin C) (k : Fin K) :
    Cert.Lib.PlainDot.rowIdx (R := R) (K := K) (C := C) (ix2 r f) k = ix2 r k := by
  funext a; match a with | ⟨0, _⟩ => rfl | ⟨1, _⟩ => rfl
theorem colIdx3_ix2 {R K C : Nat} (r : Fin R) (f : Fin C) (k : Fin K) :
    Cert.Lib.PlainDot.colIdx (R := R) (K := K) (C := C) (ix2 r f) k = ix2 k f := by
  funext a; match a with | ⟨0, _⟩ => rfl | ⟨1, _⟩ => rfl

/-- The accumulation step at (r, f): what was there plus the sum over the 1536 staged columns of the left block's row r
    times the right block's column f (narrowing the right operand changes nothing over the extended reals). -/
theorem pay3_2_apply (x0 : Vec Ideal S1536x1536 .bf16) (x1 : Vec Ideal S1536x64 .f32) (xs : Vec Ideal S1536x64 .f32) (r : Fin 1536) (f : Fin 64) :
    k3_pay2 x0 x1 xs (ix2 r f) = xs (ix2 r f) + ∑ k : Fin 1536, x0 (ix2 r k) * x1 (ix2 k f) := by
  unfold k3_pay2
  simp only [shapeCast_self]
  refine (congrArg (xs (ix2 r f) + ·) (Cert.Lib.PlainDot.matmul_zero_apply dot_S1536x1536_S1536x64_S1536x64_1_0_0_1_n_n rfl none x0 (truncf .bf16 x1 bitsLt_bf16_f32) (ix2 r f))).trans ?_
  unfold Cert.Lib.PlainDot.mm
  simp only [rowIdx3_ix2, colIdx3_ix2]
  rfl

/-- The output step at (r, f): the accumulator plus the bias row's entry f. -/
theorem pay3_3_apply (a : Vec Ideal S1536x64 .f32) (b : Vec Ideal S1x64 .f32) (r : Fin 1536) (f : Fin 64) :
    k3_pay3 a b (ix2 r f) = a (ix2 r f) + b (ix2 (0 : Fin 1) f) := by
  unfold k3_pay3
  simp only [shapeCast_self]
  refine (congrArg (fun z => a (ix2 r f) + z) (broadcastTo_1b_ab_apply b broadcasts_S1x64_S1536x64 r f)).trans ?_
  rfl

/-- One point's step on the running block sum: if the accumulator held the sum of the first m blocks of g at (r, f) and
    the staged blocks' products are g over block m, it now holds the sum of the first m + 1 blocks. -/
theorem step3 (x0 : Vec Ideal S1536x1536 .bf16) (x1 : Vec Ideal S1536x64 .f32) (xs : Vec Ideal S1536x64 .f32) (g : ℕ → EReal)
    (m : ℕ) (r : Fin 1536) (f : Fin 64) (hxs : xs (ix2 r f) = Gcn.acc g m)
    (hx : ∀ k : Fin 1536, x0 (ix2 r k) * x1 (ix2 k f) = g (m * 1536 + k.val)) :
    k3_pay2 x0 x1 xs (ix2 r f) = Gcn.acc g (m + 1) := by
  rw [pay3_2_apply, hxs]
  show _ = Gcn.acc g m + ∑ k : Fin 1536, g (m * 1536 + k.val)
  exact congrArg (Gcn.acc g m + ·) (Finset.sum_congr rfl fun k _ => hx k)

end Cert.KernelIdeal.Val

end
-- ==== Proof.KV_R3.lean ====
import proofs.«180263_j1236950581835_2_alg».proof.Proof.KV_R3a

/-!
# Region 3, the values: the accumulator over the grid and the output array

Point 8·i + k of the grid adds, onto the accumulator, the product of block (i, k) of the matrix and row block k of the
features; so after it the accumulator holds the contraction's first k + 1 column blocks for row block i, and at k = 7
the output block holds the whole contraction plus the bias. Those eight row blocks, written back, cover the output
array.
-/

set_option maxRecDepth 16384

noncomputable section

namespace Cert.KernelIdeal.Val

open Cert.KernelIdeal Cert.KernelIdeal.Gen Cert.KernelIdeal.GenP Cert.KernelIdeal.Hand
open Idealize.ShloMosaic Idealize.ShloMosaic.TcCoe Idealize.SL.Sem Idealize.ShloMosaic.ValueIdx Idealize.ShloMosaic.Tactic
open Idealize.ShloMosaic.Pipeline (Dat)
open scoped BigOperators

/-! ## The printed index maps and the write-back condition, decided over the 64 points -/

/-- Point t = 8·i + k stages block (i, k) of the matrix, row block k of the features, the whole bias row, and owns
    row block i of the output. -/
theorem idx_facts3 : ∀ t : Fin cfg3.N, win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = 0 ∧ win3_2.index t (1 : Fin 2) = 0
    ∧ win3_3.index t (0 : Fin 2) = t.val / 8 ∧ win3_3.index t (1 : Fin 2) = 0 :=
  (by decide +kernel : ∀ t : Fin grid3.N, _)

/-- The output block is written back at the last column block. -/
theorem flush3_3 : ∀ t : Fin cfg3.N, t.val % 8 = 7 → (cfg3.win 3).flush t = true :=
  (by decide +kernel : ∀ t : Fin grid3.N, t.val % 8 = 7 → (cfg3.win 3).flush t = true)

section
variable (V : (c : Dev nD) → (b : Ref sig .tc) → Buf (Elt Ideal) ((c : Thread nD τ).loc b))

/-- The summand of entry (p, f) of the product of the matrix and the features: column q of the matrix's row p times
    row q of the features' column f (zero past the last column). -/
def term3 (c : Dev nD) (p : Fin 12288) (f : Fin 64) (q : ℕ) : EReal :=
  if hq : q < 12288 then Gcn.mat (A := 12288) (B := 12288) (V c main_v44) p ⟨q, hq⟩ * Gcn.mat (A := 12288) (B := 64) (V c main_v48) ⟨q, hq⟩ f else 0

/-! ## The staged blocks, entry by entry -/

theorem blk3_0_apply (c : Dev nD) (t : Fin cfg3.N) (r k : Fin 1536) (p q : Fin 12288)
    (hp : p.val = t.val / 8 * 1536 + r.val) (hq : q.val = t.val % 8 * 1536 + k.val) :
    Gcn.mat (A := 1536) (B := 1536) (blk3 V c 0 t) r k = Gcn.mat (A := 12288) (B := 12288) (V c main_v44) p q := by
  obtain ⟨e0, e1, e2, e3, e4, e5, e6, e7⟩ := idx_facts3 t
  show (V c main_v44 : S12288x12288.Idx → EReal) (((cfg3.win 0).blk t).view.emb (ix2 r k)) = (V c main_v44 : S12288x12288.Idx → EReal) (ix2 p q)
  refine congrArg (V c main_v44) (funext fun a => Fin.ext ?_)
  match a with
  | ⟨0, _⟩ => show win3_0.index t (0 : Fin 2) * 1536 + 1 * r.val = p.val; omega
  | ⟨1, _⟩ => show win3_0.index t (1 : Fin 2) * 1536 + 1 * k.val = q.val; omega

theorem blk3_1_apply (c : Dev nD) (t : Fin cfg3.N) (k : Fin 1536) (f : Fin 64) (q : Fin 12288)
    (hq : q.val = t.val % 8 * 1536 + k.val) :
    Gcn.mat (A := 1536) (B := 64) (blk3 V c 1 t) k f = Gcn.mat (A := 12288) (B := 64) (V c main_v48) q f := by
  obtain ⟨e0, e1, e2, e3, e4, e5, e6, e7⟩ := idx_facts3 t
  show (V c main_v48 : S12288x64.Idx → EReal) (((cfg3.win 1).blk t).view.emb (ix2 k f)) = (V c main_v48 : S12288x64.Idx → EReal) (ix2 q f)
  refine congrArg (V c main_v48) (funext fun a => Fin.ext ?_)
  match a with
  | ⟨0, _⟩ => show win3_1.index t (0 : Fin 2) * 1536 + 1 * k.val = q.val; omega
  | ⟨1, _⟩ => show win3_1.index t (1 : Fin 2) * 64 + 1 * f.val = f.val; omega

theorem blk3_2_apply (c : Dev nD) (t : Fin cfg3.N) (f : Fin 64) :
    Gcn.mat (A := 1) (B := 64) (blk3 V c 2 t) (0 : Fin 1) f = Gcn.mat (A := 1) (B := 64) (V c main_v49) (0 : Fin 1) f := by
  obtain ⟨e0, e1, e2, e3, e4, e5, e6, e7⟩ := idx_facts3 t
  show (V c main_v49 : S1x64.Idx → EReal) (((cfg3.win 2).blk t).view.emb (ix2 (0 : Fin 1) f)) = (V c main_v49 : S1x64.Idx → EReal) (ix2 (0 : Fin 1) f)
  refine congrArg (V c main_v49) (funext fun a => Fin.ext ?_)
  match a with
  | ⟨0, _⟩ => show win3_2.index t (0 : Fin 2) * 1 + 1 * 0 = 0; omega
  | ⟨1, _⟩ => show win3_2.index t (1 : Fin 2) * 64 + 1 * f.val = f.val; omega

/-- The staged blocks' products at point t are the summands over column block t % 8. -/
theorem prod3 (c : Dev nD) (t : Fin cfg3.N) (r : Fin 1536) (f : Fin 64) (p : Fin 12288)
    (hp : p.val = t.val / 8 * 1536 + r.val) (m : ℕ) (hm : t.val % 8 = m) (k : Fin 1536) :
    Gcn.mat (A := 1536) (B := 1536) (blk3 V c 0 t) r k * Gcn.mat (A := 1536) (B := 64) (blk3 V c 1 t) k f = term3 V c p f (m * 1536 + k.val) := by
  subst hm
  have hk := k.isLt
  have ht : t.val < 64 := lt_of_lt_of_eq t.isLt N_3
  have hq : t.val % 8 * 1536 + k.val < 12288 := by omega
  unfold term3
  rw [dif_pos hq, blk3_0_apply V c t r k p ⟨_, hq⟩ hp rfl, blk3_1_apply V c t k f ⟨_, hq⟩ rfl]

/-! ## The accumulator and the output block after a point, as the body's arithmetic of the staged blocks -/

/-- After a first column block: the zero block plus the product of the staged blocks. -/
theorem st3_first (c : Dev nD) (t : Fin cfg3.N) (h0 : t.val % 8 = 0) :
    (state3 V c t.val t.isLt).2 = k3_pay2 (F := Ideal) (blk3 V c 0 t) (blk3 V c 1 t) (k3_pay1 (F := Ideal)) := by
  have h1 : ¬t.val % 8 = 7 := by omega
  have e := congrArg Prod.snd (state3_first V c t h0 h1)
  dsimp only at e
  exact e.trans (accFirst3_eq (F := Ideal) c (grid3.coords t) (mem3_0 t) (whole3_0 t) (mem3_1 t) (whole3_1 t) (mem3_2 t) (whole3_2 t) (mem3_3 t) (whole3_3 t) accM3 (Memref.isWhole_whole _) ((isFirst3_iff t).mpr h0) (fun h => h1 ((isLast3_iff t).mp h)) (blk3 V c 0 t) (blk3 V c 1 t) (blk3 V c 2 t))

/-- After any other point: what the point before left plus the product of the staged blocks. -/
theorem st3_next (c : Dev nD) (t : Fin cfg3.N) (h0 : ¬t.val % 8 = 0) :
    (state3 V c t.val t.isLt).2 = k3_pay2 (F := Ideal) (blk3 V c 0 t) (blk3 V c 1 t) (state3 V c (t.val - 1) (Nat.lt_of_le_of_lt (Nat.sub_le _ _) t.isLt)).2 := by
  by_cases h1 : t.val % 8 = 7
  · have e := congrArg Prod.snd (state3_last V c t h0 h1)
    dsimp only at e
    exact e.trans (accLast3_eq (F := Ideal) c (grid3.coords t) (mem3_0 t) (whole3_0 t) (mem3_1 t) (whole3_1 t) (mem3_2 t) (whole3_2 t) (mem3_3 t) (whole3_3 t) accM3 (Memref.isWhole_whole _) (fun h => h0 ((isFirst3_iff t).mp h)) ((isLast3_iff t).mpr h1) (blk3 V c 0 t) (blk3 V c 1 t) (blk3 V c 2 t) (state3 V c (t.val - 1) (Nat.lt_of_le_of_lt (Nat.sub_le _ _) t.isLt)).2)
  · have e := congrArg Prod.snd (state3_mid V c t h0 h1)
    dsimp only at e
    exact e.trans (accMid3_eq (F := Ideal) c (grid3.coords t) (mem3_0 t) (whole3_0 t) (mem3_1 t) (whole3_1 t) (mem3_2 t) (whole3_2 t) (mem3_3 t) (whole3_3 t) accM3 (Memref.isWhole_whole _) (fun h => h0 ((isFirst3_iff t).mp h)) (fun h => h1 ((isLast3_iff t).mp h)) (blk3 V c 0 t) (blk3 V c 1 t) (blk3 V c 2 t) (state3 V c (t.val - 1) (Nat.lt_of_le_of_lt (Nat.sub_le _ _) t.isLt)).2)

/-- The output block after a last column block: the accumulator it leaves, plus the bias row. -/
theorem st3_out (c : Dev nD) (t : Fin cfg3.N) (h7 : t.val % 8 = 7) :
    (state3 V c t.val t.isLt).1 = k3_pay3 (F := Ideal) (k3_pay2 (F := Ideal) (blk3 V c 0 t) (blk3 V c 1 t) (state3 V c (t.val - 1) (Nat.lt_of_le_of_lt (Nat.sub_le _ _) t.isLt)).2) (blk3 V c 2 t) := by
  have h0 : ¬t.val % 8 = 0 := by omega
  have e := congrArg Prod.fst (state3_last V c t h0 h7)
  dsimp only at e
  exact e.trans (outLast3_eq (F := Ideal) c (grid3.coords t) (mem3_0 t) (whole3_0 t) (mem3_1 t) (whole3_1 t) (mem3_2 t) (whole3_2 t) (mem3_3 t) (whole3_3 t) accM3 (Memref.isWhole_whole _) (fun h => h0 ((isFirst3_iff t).mp h)) ((isLast3_iff t).mpr h7) (blk3 V c 0 t) (blk3 V c 1 t) (blk3 V c 2 t) (state3 V c (t.val - 1) (Nat.lt_of_le_of_lt (Nat.sub_le _ _) t.isLt)).2)

/-! ## The accumulator after each point -/

/-- After point n = 8·i + k the accumulator holds, at (r, f), the sum over the first k + 1 column blocks of the
    summands of entry (1536·i + r, f): by induction on the point — a first column block restarts from the zero block,
    every other point adds its block onto what the point before left. -/
theorem acc_inv3 (c : Dev nD) : ∀ (n : ℕ) (hn : n < cfg3.N) (r : Fin 1536) (f : Fin 64) (p : Fin 12288),
    p.val = n / 8 * 1536 + r.val → (state3 V c n hn).2 (ix2 r f) = Gcn.acc (term3 V c p f) (n % 8 + 1) := by
  intro n
  induction n using Nat.strong_induction_on with
  | _ n ih =>
    intro hn r f p hp
    have hN : n < 64 := lt_of_lt_of_eq hn N_3
    by_cases h0 : n % 8 = 0
    · exact (congrFun (st3_first V c ⟨n, hn⟩ h0) (ix2 r f)).trans
        (step3 (blk3 V c 0 ⟨n, hn⟩) (blk3 V c 1 ⟨n, hn⟩) (k3_pay1 (F := Ideal)) (term3 V c p f) (n % 8) r f
          (by rw [h0]; rfl) (prod3 V c ⟨n, hn⟩ r f p hp (n % 8) rfl))
    · have hprev : (state3 V c (n - 1) (Nat.lt_of_le_of_lt (Nat.sub_le _ _) hn)).2 (ix2 r f) = Gcn.acc (term3 V c p f) (n % 8) :=
        (ih (n - 1) (by omega) (Nat.lt_of_le_of_lt (Nat.sub_le _ _) hn) r f p (by omega)).trans (congrArg (Gcn.acc (term3 V c p f)) (by omega))
      exact (congrFun (st3_next V c ⟨n, hn⟩ h0) (ix2 r f)).trans
        (step3 (blk3 V c 0 ⟨n, hn⟩) (blk3 V c 1 ⟨n, hn⟩) (state3 V c (n - 1) (Nat.lt_of_le_of_lt (Nat.sub_le _ _) hn)).2 (term3 V c p f) (n % 8) r f
          hprev (prod3 V c ⟨n, hn⟩ r f p hp (n % 8) rfl))

/-! ## The output block at a last column block -/

/-- At a last column block the output block holds, at (r, f), the sum over all eight column blocks plus the bias
    row's entry f. -/
theorem out_inv3 (c : Dev nD) (n : ℕ) (hn : n < cfg3.N) (h7 : n % 8 = 7) (r : Fin 1536) (f : Fin 64) (p : Fin 12288)
    (hp : p.val = n / 8 * 1536 + r.val) :
    (state3 V c n hn).1 (ix2 r f) = Gcn.acc (term3 V c p f) 8 + Gcn.mat (A := 1) (B := 64) (V c main_v49) (0 : Fin 1) f := by
  have hprev : (state3 V c (n - 1) (Nat.lt_of_le_of_lt (Nat.sub_le _ _) hn)).2 (ix2 r f) = Gcn.acc (term3 V c p f) 7 :=
    (acc_inv3 V c (n - 1) (Nat.lt_of_le_of_lt (Nat.sub_le _ _) hn) r f p (by omega)).trans (congrArg (Gcn.acc (term3 V c p f)) (by omega))
  refine ((congrFun (st3_out V c ⟨n, hn⟩ h7) (ix2 r f)).trans
    (pay3_3_apply (k3_pay2 (F := Ideal) (blk3 V c 0 ⟨n, hn⟩) (blk3 V c 1 ⟨n, hn⟩) (state3 V c (n - 1) (Nat.lt_of_le_of_lt (Nat.sub_le _ _) hn)).2) (blk3 V c 2 ⟨n, hn⟩) r f)).trans ?_
  exact congrArg₂ (fun a b => a + b)
    (step3 (blk3 V c 0 ⟨n, hn⟩) (blk3 V c 1 ⟨n, hn⟩) (state3 V c (n - 1) (Nat.lt_of_le_of_lt (Nat.sub_le _ _) hn)).2 (term3 V c p f) 7 r f hprev (prod3 V c ⟨n, hn⟩ r f p hp 7 h7))
    (blk3_2_apply V c ⟨n, hn⟩ f)

/-- The same at an index of the block given whole. -/
theorem out_inv3' (c : Dev nD) (n : ℕ) (hn : n < cfg3.N) (h7 : n % 8 = 7) (j : S1536x64.Idx) (p : Fin 12288) (f : Fin 64)
    (hp : p.val = n / 8 * 1536 + (j 0).val) (hf : f.val = (j 1).val) :
    (state3 V c n hn).1 j = Gcn.acc (term3 V c p f) 8 + Gcn.mat (A := 1) (B := 64) (V c main_v49) (0 : Fin 1) f := by
  obtain rfl : f = j 1 := Fin.ext hf
  exact (congrArg (state3 V c n hn).1 (eq_ix2 j)).trans (out_inv3 V c n hn h7 (j 0) (j 1) p hp)

/-! ## From blocks to the array -/

/-- The output array, index by index: the contraction over all 12288 columns in eight blocks, plus the bias. -/
def G3 (c : Dev nD) : S12288x64.Idx → EReal := fun i =>
  Gcn.acc (term3 V c ⟨(i 0).val, (i 0).isLt⟩ ⟨(i 1).val, (i 1).isLt⟩) 8 + Gcn.mat (A := 1) (B := 64) (V c main_v49) (0 : Fin 1) ⟨(i 1).val, (i 1).isLt⟩

/-- What a last column block writes back is its row block of that array. -/
theorem flushed3_eq (c : Dev nD) (t : Fin cfg3.N) (hf : (cfg3.win 3).flush t = true) :
    (dat3 (F := Ideal) V c).flushed 3 t = ((cfg3.win 3).blk t).view.read (Elt Ideal) (G3 V c) := by
  have h7 : t.val % 8 = 7 := by
    by_contra h
    have hno := noFlush3_3 t (fun hl => h ((isLast3_iff t).mp hl))
    rw [hno] at hf
    exact Bool.false_ne_true hf
  obtain ⟨e0, e1, e2, e3, e4, e5, e6, e7⟩ := idx_facts3 t
  show (cfg3.win 3).cut (grid3.coords t) ((dat3 V c).after 3 t) = _
  rw [after3_3]
  funext j
  show (state3 V c t.val t.isLt).1 j = G3 V c (((cfg3.win 3).blk t).view.emb j)
  refine (out_inv3' V c t.val t.isLt h7 j ⟨((((cfg3.win 3).blk t).view.emb j) 0).val, ((((cfg3.win 3).blk t).view.emb j) 0).isLt⟩
    ⟨((((cfg3.win 3).blk t).view.emb j) 1).val, ((((cfg3.win 3).blk t).view.emb j) 1).isLt⟩ ?_ ?_).trans rfl
  · show win3_3.index t (0 : Fin 2) * 1536 + 1 * (j 0).val = t.val / 8 * 1536 + (j 0).val; omega
  · show win3_3.index t (1 : Fin 2) * 64 + 1 * (j 1).val = (j 1).val; omega

/-- The eight written-back row blocks cover the array, so it ends as that function of the arrays the region found. -/
theorem final3_G (c : Dev nD) : (dat3 (F := Ideal) V c).arrAt 3 cfg3.N = G3 V c :=
  (dat3 V c).arrAt_eq_of_cover 3 (G3 V c) (flushed3_eq V c) fun i => by
    have hi0 : (i 0).val < 12288 := (i 0).isLt
    have hi1 : (i 1).val < 64 := (i 1).isLt
    have hN : cfg3.N = 64 := N_3
    obtain ⟨t, ht⟩ : ∃ t : Fin cfg3.N, t.val = 8 * ((i 0).val / 1536) + 7 := ⟨⟨8 * ((i 0).val / 1536) + 7, by rw [hN]; omega⟩, rfl⟩
    obtain ⟨e0, e1, e2, e3, e4, e5, e6, e7⟩ := idx_facts3 t
    refine ⟨t, flush3_3 t (by omega), ?_⟩
    show i ∈ ((View.whole main_v50).slice (win3_3.rect t)).set
    rw [View.set_slice_whole, Rect.mem_set_unit]
    intro a
    match a with
    | ⟨0, _⟩ => show win3_3.index t (0 : Fin 2) * 1536 ≤ (i 0).val ∧ (i 0).val < win3_3.index t (0 : Fin 2) * 1536 + 1536; omega
    | ⟨1, _⟩ => show win3_3.index t (1 : Fin 2) * 64 ≤ (i 1).val ∧ (i 1).val < win3_3.index t (1 : Fin 2) * 64 + 64; omega

/-- The same with the contraction written out. -/
theorem final3 (c : Dev nD) :
    (dat3 (F := Ideal) V c).arrAt 3 cfg3.N = fun i : S12288x64.Idx =>
      Gcn.acc (fun q => if hq : q < 12288 then Gcn.mat (A := 12288) (B := 12288) (V c main_v44) ⟨(i 0).val, (i 0).isLt⟩ ⟨q, hq⟩
          * Gcn.mat (A := 12288) (B := 64) (V c main_v48) ⟨q, hq⟩ ⟨(i 1).val, (i 1).isLt⟩ else 0) 8
        + Gcn.mat (A := 1) (B := 64) (V c main_v49) (0 : Fin 1) ⟨(i 1).val, (i 1).isLt⟩ :=
  (final3_G V c).trans rfl

end

end Cert.KernelIdeal.Val

end
-- ==== Proof.PreDecode.lean ====
import proofs.«180263_j1236950581835_2_alg».proof.Proof.Gen.Pre_finite_inputs
import proofs.«180263_j1236950581835_2_alg».proof.Proof.InRange
import Idealize.ShloMosaic.Lib.ReduceAll
import Idealize.ShloMosaic.Lib.ValueIdx
import Idealize.ShloMosaic.PureOps.Ideal.Laws

/-!
# The precondition, decoded

The precondition is a conjunction of six tests, each an "all entries" of an array of truth values: for the five float
arguments, |a| < +∞ at every entry; for the edge array, 0 ≤ w < 12288 (signed) at every entry. If the conjunction is
true then every float entry is a real number (an extended real whose absolute value is below +∞ is neither infinity)
and every word of the edge array is a node number.
-/

noncomputable section

namespace Cert.PreDecode

open Idealize.ShloMosaic Idealize.ShloMosaic.ValueIdx Cert.Pre_finite_inputs

/-- The rank-0 shape has one index. -/
instance : Subsingleton S_.Idx := ⟨fun a b => funext fun d => d.elim0⟩

/-- The f32 word 0x7F800000 is +∞. -/
theorem inf_f32 : Ideal.ofBits .f32 0x7F800000#32 = ⊤ := by simp [Ideal.ofBits, Ideal.ieee]

theorem ofBool_eq_one (b : Bool) : BitVec.ofBool b = 1#1 ↔ b = true := by cases b <;> decide

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [inf_f32] at h
  unfold Ideal.cmp at h
  rw [ofBool_eq_one] at h
  simp only [decide_eq_true_eq] at h
  induction x using EReal.rec with
  | bot => simp at h
  | top => simp at h
  | coe r => exact ⟨r, rfl⟩

/-- A word that passes both signed comparisons is a node number. -/
theorem in_range_of (w : BitVec 32) (h0 : IntOp.cmpi .sge w (0#32) = 1#1) (h1 : IntOp.cmpi .slt w (12288#32) = 1#1) :
    0 ≤ w.toInt ∧ w.toInt < 12288 := by
  unfold IntOp.cmpi at h0 h1
  rw [ofBool_eq_one] at h0 h1
  simp only [BitVec.slt, BitVec.sle, decide_eq_true_eq] at h0 h1
  have e0 : (0#32 : BitVec 32).toInt = 0 := by decide
  have e1 : (12288#32 : BitVec 32).toInt = 12288 := by decide
  omega

/-- The "all |a| < +∞" test of one float argument gives a real number at every entry. -/
theorem all_real {s : Shape} (a : FVec Ideal s .f32) (inf : FVec Ideal s .f32) (hinf : ∀ i, inf i = Ideal.ofBits .f32 0x7F800000#32)
    (init : IVec S_ 1) {axes : List (Fin s.rank)} (hr : s.ReducesTo axes S_) (hu : 0 < S_.numel)
    (e : Host.reduce IntOp.andi (cmpf .olt (Host.absf a) inf) init hr hu ix0 = 1#1) (i : s.Idx) :
    ∃ r : ℝ, a i = (r : EReal) := by
  have h := Host.reduce_andi_all (cmpf .olt (Host.absf a) inf) init hr hu ix0 e i
  refine real_of_abs_lt (a i) ?_
  rw [← hinf i]
  exact h

variable [Cert.Pre_finite_inputs.Facts]

/-- THE PRECONDITION DECODED: the edge words are node numbers and every float entry is a real number. -/
theorem decode (a0 : FVec Ideal S12288x128 .f32) (a1 : IVec S2x393216 32) (a2 : FVec Ideal S128x128 .f32)
    (a3 : FVec Ideal S128 .f32) (a4 : FVec Ideal S128x64 .f32) (a5 : FVec Ideal S64 .f32)
    (h : Cert.Pre_finite_inputs.fn (F := Ideal) a0 a1 a2 a3 a4 a5 = fun _ => 1#1) :
    Gcn.InRange a1 ∧ Gcn.Real2 (Gcn.mat a0) ∧ Gcn.Real2 (Gcn.mat a2) ∧ Gcn.Real1 (Gcn.vec a3)
      ∧ Gcn.Real2 (Gcn.mat a4) ∧ Gcn.Real1 (Gcn.vec a5) := by
  have e := congrFun h ix0
  unfold Cert.Pre_finite_inputs.fn Cert.Pre_finite_inputs.fn_part1 at e
  dsimp only at e
  obtain ⟨e, h29⟩ := IntOp.andi_eq_one.1 e
  obtain ⟨e, h22⟩ := IntOp.andi_eq_one.1 e
  obtain ⟨e, h17⟩ := IntOp.andi_eq_one.1 e
  obtain ⟨e, h12⟩ := IntOp.andi_eq_one.1 e
  obtain ⟨h3, h7⟩ := IntOp.andi_eq_one.1 e
  refine ⟨fun i => ?_, fun a b => all_real a0 _ (fun _ => rfl) _ _ _ h3 _, fun a b => all_real a2 _ (fun _ => rfl) _ _ _ h7 _,
    fun a => all_real a3 _ (fun _ => rfl) _ _ _ h12 _, fun a b => all_real a4 _ (fun _ => rfl) _ _ _ h17 _,
    fun a => all_real a5 _ (fun _ => rfl) _ _ _ h22 _⟩
  have hi := Host.reduce_andi_all _ _ _ _ ix0 h29 i
  obtain ⟨h0, h1⟩ := IntOp.andi_eq_one.1 hi
  exact in_range_of (a1 i) h0 h1

end Cert.PreDecode

end
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.DenseSums.lean ====
import proofs.«180263_j1236950581835_2_alg».proof.Proof.LibRealSums
import Mathlib.Data.EReal.Operations
import Mathlib.Algebra.BigOperators.Fin

/-!
# A weighted scatter through its dense matrix, over abstract finite index types

Entries t of a list carry a weight n t, a source s t and a flag P t (the entry points at the row in hand). Summing the
weights of the flagged entries by source gives a row of a dense matrix; contracting that row against a vector h is
the same as summing h (s t) · n t over the flagged entries. On the extended reals this needs the weights and the
vector to be real numbers, because a product distributes over a sum only then.
-/

namespace Gcn.Sums

open Finset Cert.Lib.RealSums

/-- A finite sum of real numbers, taken on the extended reals, is a real number. -/
theorem sum_real {ι : Type*} (s : Finset ι) (f : ι → EReal) (hf : ∀ i, ∃ r : ℝ, f i = r) :
    ∃ r : ℝ, ∑ i ∈ s, f i = r := by
  choose f' hf' using hf
  exact ⟨∑ i ∈ s, f' i, by simp only [hf']; exact (coe_sum s f').symm⟩

/-- A product of two real numbers is a real number. -/
theorem mul_real {x y : EReal} (hx : ∃ r : ℝ, x = r) (hy : ∃ r : ℝ, y = r) : ∃ r : ℝ, x * y = r := by
  obtain ⟨r, rfl⟩ := hx; obtain ⟨q, rfl⟩ := hy; exact ⟨r * q, (EReal.coe_mul r q).symm⟩

/-- A choice between a real number and zero is a real number. -/
theorem ite_real {c : Prop} [Decidable c] {x : EReal} (hx : ∃ r : ℝ, x = r) :
    ∃ r : ℝ, (if c then x else 0) = r := by
  obtain ⟨r, rfl⟩ := hx
  by_cases h : c
  · exact ⟨r, by rw [if_pos h]⟩
  · exact ⟨0, by rw [if_neg h]; rfl⟩

/-- The image of a choice between a real and zero. -/
theorem coe_ite_zero (c : Prop) [Decidable c] (r : ℝ) :
    (if c then (r : EReal) else 0) = ((if c then r else 0 : ℝ) : EReal) := by
  by_cases h : c
  · rw [if_pos h, if_pos h]
  · rw [if_neg h, if_neg h]; rfl

/-- The law over the reals. -/
theorem dense_law_real {T Q : Type*} [Fintype T] [Fintype Q] [DecidableEq Q] (P : T → Prop) [DecidablePred P]
    (s : T → Q) (n : T → ℝ) (h : Q → ℝ) :
    ∑ q, (∑ t, if P t ∧ s t = q then n t else 0) * h q = ∑ t, if P t then h (s t) * n t else 0 := by
  simp_rw [Finset.sum_mul]
  rw [Finset.sum_comm]
  refine Finset.sum_congr rfl fun t _ => ?_
  by_cases hP : P t
  · simp [hP, ite_mul, Finset.sum_ite_eq, mul_comm]
  · simp [hP]

/-- The law on the extended reals, for real weights and a real vector. -/
theorem dense_law {T Q : Type*} [Fintype T] [Fintype Q] [DecidableEq Q] (P : T → Prop) [DecidablePred P]
    (s : T → Q) (n : T → EReal) (h : Q → EReal) (hn : ∀ t, ∃ r : ℝ, n t = r) (hh : ∀ q, ∃ r : ℝ, h q = r) :
    ∑ q, (0 + ∑ t, if P t ∧ s t = q then n t else 0) * h q = 0 + ∑ t, if P t then h (s t) * n t else 0 := by
  choose n' hn' using hn
  choose h' hh' using hh
  simp only [hn', hh', zero_add, coe_ite_zero, ← EReal.coe_mul, ← coe_sum]
  exact congrArg _ (dense_law_real P s n' h')

end Gcn.Sums
-- ==== Proof.DenseConst.lean ====
import proofs.«180263_j1236950581835_2_alg».proof.Proof.Spec
import Idealize.ShloMosaic.PureOps.Ideal.Laws
import Idealize.ShloMosaic.Lib.IdealHost
import Mathlib.Data.EReal.Operations
import proofs.«180263_j1236950581835_2_alg».proof.Proof.DenseSums

/-!
# The three float constants, the degree and the edge weights are real numbers

The zero word denotes 0, the one word denotes 1, and the third word denotes a positive real ε. A degree is a finite
sum of ones, so a nonnegative real; the larger of it and ε is a positive real, whose reciprocal square root is a
real; an edge weight is a product of two of these.
-/

noncomputable section

namespace Gcn

open Idealize.ShloMosaic Idealize.ShloMosaic.ValueIdx
open scoped BigOperators

theorem zero_eq : zero = 0 := Ideal.ofBits_zero_f32

theorem one_eq : one = ((1 : ℝ) : EReal) := by
  rw [one, Ideal.ofBits_one_f32]; norm_cast

theorem eps_pos : ∃ e : ℝ, 0 < e ∧ eps = (e : EReal) := by
  refine ⟨9223372 * (2 : ℝ) ^ (-63 : Int), by positivity, ?_⟩
  simp [eps, Ideal.ofBits, Ideal.ieee, -EReal.coe_mul]

variable (ei : (⟨2, ![2, 393216]⟩ : Shape).Idx → BitVec 32)

/-- A degree is a nonnegative real number: a finite sum of ones and zeros. -/
theorem deg_real (n : Fin 12288) : ∃ r : ℝ, 0 ≤ r ∧ deg ei n = (r : EReal) := by
  refine ⟨∑ t : Fin 405504, if dst ei t = n then (1 : ℝ) else 0,
    Finset.sum_nonneg fun t _ => by split_ifs <;> norm_num, ?_⟩
  rw [deg, zero_eq, one_eq, zero_add, Cert.Lib.RealSums.coe_sum]
  exact Finset.sum_congr rfl fun t _ => Gcn.Sums.coe_ite_zero _ _

/-- The reciprocal square root of the larger of a degree and ε is a real number. -/
theorem dinv_real (n : Fin 12288) : ∃ r : ℝ, dinv ei n = (r : EReal) := by
  obtain ⟨d, hd, hdeg⟩ := deg_real ei n
  obtain ⟨e, he, heps⟩ := eps_pos
  have hmax : max (d : EReal) (e : EReal) = ((max d e : ℝ) : EReal) :=
    (EReal.coe_strictMono.monotone.map_max).symm
  have hpos : 0 < max d e := lt_max_of_lt_right he
  refine ⟨(Real.sqrt (max d e))⁻¹, ?_⟩
  rw [dinv, hdeg, heps, hmax, Ideal.rsqrt_coe, if_neg (not_lt.mpr hpos.le), if_neg hpos.ne']

/-- An edge weight is a real number. -/
theorem norm_real (t : Fin 405504) : ∃ r : ℝ, norm ei t = (r : EReal) :=
  Gcn.Sums.mul_real (dinv_real ei _) (dinv_real ei _)

end Gcn

end
-- ==== Proof.DenseLaw.lean ====
import proofs.«180263_j1236950581835_2_alg».proof.Proof.Spec
import proofs.«180263_j1236950581835_2_alg».proof.Proof.DenseSums
import proofs.«180263_j1236950581835_2_alg».proof.Proof.DenseConst

/-!
# The layer through the dense matrix is the layer entry by entry

The block-by-block contraction over 8 · 1536 columns is the plain sum over the 12288 columns (addition on the
extended reals is commutative and associative, nothing else is used). Row p of the dense matrix holds, at column q,
the summed weights of the entries that go from q to p; contracting it against a column of REAL features gives the
sum, over the entries that point at p, of the feature at the entry's source times the entry's weight, because the
weights are real as well. Real features stay real through a matrix product, a layer and the larger-of-it-and-zero, so the law
applies to both layers, and the two Gram matrices agree.
-/

noncomputable section

namespace Gcn

open Idealize.ShloMosaic Idealize.ShloMosaic.ValueIdx
open scoped BigOperators

/-- The accumulator after n blocks holds the sum of the first n blocks. -/
theorem acc_eq_range (g : ℕ → EReal) (n : ℕ) :
    acc g n = ∑ j ∈ Finset.range n, ∑ i ∈ Finset.range 1536, g (j * 1536 + i) := by
  induction n with
  | zero => simp [acc, zero_eq]
  | succ n ih =>
    have e : ∑ k : Fin 1536, g (n * 1536 + k.val) = ∑ i ∈ Finset.range 1536, g (n * 1536 + i) :=
      Cert.Lib.RealSums.sum_fin_eq_range 1536 (fun i => g (n * 1536 + i))
    rw [acc, ih, Finset.sum_range_succ, e]

/-- Eight blocks of 1536 are the 12288 columns. -/
theorem acc_eight (g : ℕ → EReal) : acc g 8 = ∑ q : Fin 12288, g q.val := by
  have h : ∑ k ∈ Finset.range 12288, g k = ∑ j ∈ Finset.range 8, ∑ i ∈ Finset.range 1536, g (j * 1536 + i) :=
    Cert.Lib.RealSums.sum_range_mul 8 1536 g
  rw [acc_eq_range, Cert.Lib.RealSums.sum_fin_eq_range 12288 g, h]

variable (ei : (⟨2, ![2, 393216]⟩ : Shape).Idx → BitVec 32)

/-- The law: with real features, the dense layer is the layer. -/
theorem layerD_eq_layer {C : ℕ} (h : Fin 12288 → Fin C → EReal) (b : Fin C → EReal) (hh : Real2 h) :
    layerD ei h b = layer ei h b := by
  funext p f
  unfold layerD layer
  refine congrArg (fun u => u + b f) ?_
  refine (acc_eight _).trans ?_
  refine (Finset.sum_congr rfl fun q _ => dif_pos q.isLt).trans ?_
  unfold adj
  rw [zero_eq]
  exact Gcn.Sums.dense_law (fun t => dst ei t = p) (src ei) (norm ei) (fun q => h q f) (norm_real ei)
    (fun q => hh q f)

/-- A product of real matrices is real. -/
theorem mmul_real {R K C : ℕ} (x : Fin R → Fin K → EReal) (w : Fin K → Fin C → EReal) (hx : Real2 x)
    (hw : Real2 w) : Real2 (mmul x w) :=
  fun r c => Cert.Lib.RealSums.sum_mul_real Finset.univ (fun k => x r k) (fun k => w k c) (fun k => hx r k)
    (fun k => hw k c)

/-- A layer of real features with a real bias is real. -/
theorem layer_real {C : ℕ} (h : Fin 12288 → Fin C → EReal) (b : Fin C → EReal) (hh : Real2 h) (hb : Real1 b) :
    Real2 (layer ei h b) := by
  intro p f
  unfold layer
  rw [zero_eq, zero_add]
  exact Cert.Lib.RealSums.add_real
    (Gcn.Sums.sum_real _ _ fun t => Gcn.Sums.ite_real (Gcn.Sums.mul_real (hh _ f) (norm_real ei t))) (hb f)

variable (x : Fin 12288 → Fin 128 → EReal) (W1 : Fin 128 → Fin 128 → EReal) (b1 : Fin 128 → EReal)
  (W2 : Fin 128 → Fin 64 → EReal) (b2 : Fin 64 → EReal)

/-- The rectified first layer of real inputs is real. -/
theorem hidden_real (hx : Real2 x) (hW1 : Real2 W1) (hb1 : Real1 b1) : Real2 (hidden ei x W1 b1) := by
  intro p f
  unfold hidden
  rw [zero_eq]
  exact Cert.Lib.RealSums.max_zero_real (layer_real ei _ _ (mmul_real x W1 hx hW1) hb1 p f)

theorem hiddenD_eq_hidden (hx : Real2 x) (hW1 : Real2 W1) : hiddenD ei x W1 b1 = hidden ei x W1 b1 := by
  funext p f
  unfold hiddenD hidden
  rw [layerD_eq_layer ei _ b1 (mmul_real x W1 hx hW1)]

theorem latentD_eq_latent (hx : Real2 x) (hW1 : Real2 W1) (hb1 : Real1 b1) (hW2 : Real2 W2) :
    latentD ei x W1 b1 W2 b2 = latent ei x W1 b1 W2 b2 := by
  unfold latentD latent
  rw [hiddenD_eq_hidden ei x W1 b1 hx hW1,
    layerD_eq_layer ei _ b2 (mmul_real _ W2 (hidden_real ei x W1 b1 hx hW1 hb1) hW2)]

/-- The Gram matrix through the dense layers is the Gram matrix. -/
theorem GD_eq_G (hx : Real2 x) (hW1 : Real2 W1) (hb1 : Real1 b1) (hW2 : Real2 W2) (hb2 : Real1 b2) :
    GD ei x W1 b1 W2 b2 = G ei x W1 b1 W2 b2 := by
  funext i j
  unfold GD G
  rw [latentD_eq_latent ei x W1 b1 W2 b2 hx hW1 hb1 hW2]

end Gcn

namespace Gcn

open Idealize.ShloMosaic Idealize.ShloMosaic.ValueIdx

/-- The same for the result arrays. -/
theorem GDarr_eq_Garr (x : (⟨2, ![12288, 128]⟩ : Shape).Idx → EReal) (ei : (⟨2, ![2, 393216]⟩ : Shape).Idx → BitVec 32)
    (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (hx : Real2 (mat x)) (hW1 : Real2 (mat W1)) (hb1 : Real1 (vec b1)) (hW2 : Real2 (mat W2))
    (hb2 : Real1 (vec b2)) : GDarr x ei W1 b1 W2 b2 = Garr x ei W1 b1 W2 b2 := by
  funext i
  unfold GDarr Garr
  rw [GD_eq_G ei (mat x) (mat W1) (vec b1) (mat W2) (vec b2) hx hW1 hb1 hW2 hb2]

end Gcn

end
-- ==== Proof.Claims.lean ====
import proofs.«180263_j1236950581835_2_alg».proof.Defs
import proofs.«180263_j1236950581835_2_alg».proof.Proof.RunK
import proofs.«180263_j1236950581835_2_alg».proof.Proof.RunK_Keep
import proofs.«180263_j1236950581835_2_alg».proof.Proof.RunKI
import proofs.«180263_j1236950581835_2_alg».proof.Proof.RunKI_Keep
import proofs.«180263_j1236950581835_2_alg».proof.Proof.KV_Chain
import proofs.«180263_j1236950581835_2_alg».proof.Proof.KV_Adj
import proofs.«180263_j1236950581835_2_alg».proof.Proof.KV_R1
import proofs.«180263_j1236950581835_2_alg».proof.Proof.KV_R3
import proofs.«180263_j1236950581835_2_alg».proof.Proof.RefSide
import proofs.«180263_j1236950581835_2_alg».proof.Proof.PreDecode
import proofs.«180263_j1236950581835_2_alg».proof.Proof.DenseLaw

/-!
# The five claims

Both kernel programs run as nine items — four stretches of host operations and five kernel regions — and end with
every unscoped buffer at the last boundary's contents; no item writes an argument array, which gives the two frames.
The reference's frame is its run with the result dropped. At the ideal instance the kernel's result array is the
Gram matrix of two graph layers taken through the dense matrix of summed edge weights, the reference's the same taken
edge by edge; under the precondition (finite float inputs, every edge endpoint a node number) the two are one
function of the arguments: a product distributes over the finite sum of an entry's real weights.
-/

noncomputable section

namespace Cert.Proof.Claims

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  (θ_run (Cert.Kernel.defs (F := Bits)) _ _).mono (fun r h c =>
    ⟨(h c _ (Cert.Kernel.Hand.mem_uc Cert.Kernel.main_arg0 (by decide))).trans (Cert.Kernel.Hand.W9_main_arg0 m ρ c),
     (h c _ (Cert.Kernel.Hand.mem_uc Cert.Kernel.main_arg1 (by decide))).trans (Cert.Kernel.Hand.W9_main_arg1 m ρ c),
     (h c _ (Cert.Kernel.Hand.mem_uc Cert.Kernel.main_arg2 (by decide))).trans (Cert.Kernel.Hand.W9_main_arg2 m ρ c),
     (h c _ (Cert.Kernel.Hand.mem_uc Cert.Kernel.main_arg3 (by decide))).trans (Cert.Kernel.Hand.W9_main_arg3 m ρ c),
     (h c _ (Cert.Kernel.Hand.mem_uc Cert.Kernel.main_arg4 (by decide))).trans (Cert.Kernel.Hand.W9_main_arg4 m ρ c),
     (h c _ (Cert.Kernel.Hand.mem_uc Cert.Kernel.main_arg5 (by decide))).trans (Cert.Kernel.Hand.W9_main_arg5 m ρ c)⟩)
    (Cert.Kernel.Hand.run_all (F := Bits) m ρ)

theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W9_main_arg0 m ρ c),
     (h c _ (Cert.KernelIdeal.Hand.mem_uc Cert.KernelIdeal.main_arg1 (by decide))).trans (Cert.KernelIdeal.Hand.W9_main_arg1 m ρ c),
     (h c _ (Cert.KernelIdeal.Hand.mem_uc Cert.KernelIdeal.main_arg2 (by decide))).trans (Cert.KernelIdeal.Hand.W9_main_arg2 m ρ c),
     (h c _ (Cert.KernelIdeal.Hand.mem_uc Cert.KernelIdeal.main_arg3 (by decide))).trans (Cert.KernelIdeal.Hand.W9_main_arg3 m ρ c),
     (h c _ (Cert.KernelIdeal.Hand.mem_uc Cert.KernelIdeal.main_arg4 (by decide))).trans (Cert.KernelIdeal.Hand.W9_main_arg4 m ρ c),
     (h c _ (Cert.KernelIdeal.Hand.mem_uc Cert.KernelIdeal.main_arg5 (by decide))).trans (Cert.KernelIdeal.Hand.W9_main_arg5 m ρ c)⟩)
    (Cert.KernelIdeal.Hand.run_all (F := Ideal) m ρ)

theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hd := fun c : Dev Cert.KernelIdeal.nD => Cert.PreDecode.decode _ _ _ _ _ _ (hpre c)
  refine ⟨fun c => Gcn.Garr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run (Cert.KernelIdeal.defs (F := Ideal)) _ _).mono (fun r h c => ⟨?_,
      (h c _ (Cert.KernelIdeal.Hand.mem_uc Cert.KernelIdeal.main_arg0 (by decide))).trans (Cert.KernelIdeal.Hand.W9_main_arg0 m ρ c),
      (h c _ (Cert.KernelIdeal.Hand.mem_uc Cert.KernelIdeal.main_arg1 (by decide))).trans (Cert.KernelIdeal.Hand.W9_main_arg1 m ρ c),
      (h c _ (Cert.KernelIdeal.Hand.mem_uc Cert.KernelIdeal.main_arg2 (by decide))).trans (Cert.KernelIdeal.Hand.W9_main_arg2 m ρ c),
      (h c _ (Cert.KernelIdeal.Hand.mem_uc Cert.KernelIdeal.main_arg3 (by decide))).trans (Cert.KernelIdeal.Hand.W9_main_arg3 m ρ c),
      (h c _ (Cert.KernelIdeal.Hand.mem_uc Cert.KernelIdeal.main_arg4 (by decide))).trans (Cert.KernelIdeal.Hand.W9_main_arg4 m ρ c),
      (h c _ (Cert.KernelIdeal.Hand.mem_uc Cert.KernelIdeal.main_arg5 (by decide))).trans (Cert.KernelIdeal.Hand.W9_main_arg5 m ρ c)⟩)
      (Cert.KernelIdeal.Hand.run_all (F := Ideal) m ρ)
    refine (h c _ (Cert.KernelIdeal.Hand.mem_uc Cert.KernelIdeal.main_v52 (by decide))).trans ?_
    refine (Cert.KernelIdeal.Val.kernel_value_of m ρ Cert.KernelIdeal.Val.adj_stage Cert.KernelIdeal.Val.final1 Cert.KernelIdeal.Val.final3 c (hd c).1).trans ?_
    exact Gcn.GDarr_eq_Garr _ _ _ _ _ _ (hd c).2.1 (hd c).2.2.1 (hd c).2.2.2.1 (hd c).2.2.2.2.1 (hd c).2.2.2.2.2
  · have hr := Cert.ReferenceIdeal.RefSide.ref_run m' ρ' (fun c => by rw [(hagree c).2.1]; exact (hd c).1)
    refine (θ_run (Cert.ReferenceIdeal.defs (F := Ideal)) _ _).mono (fun r h c => ?_) hr
    obtain ⟨h0, h1, h2, h3, h4, h5⟩ := hagree c
    have hc := h c
    rw [h0, h1, h2, h3, h4, h5] at hc
    refine ⟨hc.1, ?_⟩
    rw [h0, h1, h2, h3, h4, h5]
    exact hc.2

end Cert.Proof.Claims

end
-- ==== Proof.lean ====
import proofs.«180263_j1236950581835_2_alg».proof.Proof.Claims

/-!
The certificate's claim: the two kernel frames and the reference's, the idealization's (empty) ledger, and the
equality of the two idealized programs' results on the extended reals.
-/

noncomputable section

namespace Cert.Proof

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, trivial, Cert.Proof.Claims.algebraic⟩

end Cert.Proof

end
